-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x8192 : Shape := ⟨2, ![4096, 8192]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  reducesTo_S4096x8192_S4096_d1 : S4096x8192.ReducesTo [1] S4096

variable [Facts]

def fn_part2 {F : FTy → Type} [FloatOps F] (main_v28 : IVec S_ 1) (main_v31 : FVec F S4096 .f32) (main_v32 : FVec F S4096 .f32) : IVec S_ 1 :=
  let main_v33 : IVec S4096 1 := cmpf .une main_v31 main_v32
  let main_c_13 : IVec S_ 1 := constantI S_ 1 1#1
  let main_v34 : IVec S_ 1 := (fun x v => Host.reduce IntOp.andi x v reducesTo_S4096_S_d0 h_S_) main_v33 main_c_13
  let main_v35 : IVec S_ 1 := andi main_v28 main_v34
  main_v35

def fn_part1 {F : FTy → Type} [FloatOps F] (main_arg1 : FVec F S4096x8192 .f32) (main_arg4 : FVec F S4096x8192 .f32) (main_arg5 : FVec F S4096x8192 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096x8192 .f32 := Host.absf main_arg4
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_cst_10 : FVec F S_ .f32 := constant S_ .f32 0x00000000#32
  let main_v29 : FVec F S4096 .f32 := (fun x v => Host.reduceAdd x v reducesTo_S4096x8192_S4096_d1 h_S_) main_arg1 main_cst_10
  let main_cst_11 : FVec F S_ .f32 := constant S_ .f32 0x322BCC77#32
  let main_v30 : FVec F S4096 .f32 := broadcastInDim S4096 ![] bcast_S_S4096 main_cst_11
  let main_v31 : FVec F S4096 .f32 := addf main_v29 main_v30
  let main_cst_12 : FVec F S_ .f32 := constant S_ .f32 0x00000000#32
  let main_v32 : FVec F S4096 .f32 := broadcastInDim S4096 ![] bcast_S_S4096 main_cst_12
  fn_part2 (F := F) main_v28 main_v31 main_v32

def fn {F : FTy → Type} [FloatOps F] (main_arg0 : FVec F S4096 .f32) (main_arg1 : FVec F S4096x8192 .f32) (main_arg2 : FVec F S4096x8192 .f32) (main_arg3 : FVec F S4096x8192 .f32) (main_arg4 : FVec F S4096x8192 .f32) (main_arg5 : FVec F S4096x8192 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg1 main_arg4 main_arg5 main_v13 main_v16
-- ==== Kernel.lean ====
abbrev S4096 : Shape := ⟨1, ![4096]⟩
abbrev S4096x8192 : Shape := ⟨2, ![4096, 8192]⟩
abbrev S4096x1 : Shape := ⟨2, ![4096, 1]⟩
abbrev S64x1x128 : Shape := ⟨3, ![64, 1, 128]⟩
abbrev S64x1x8192 : Shape := ⟨3, ![64, 1, 8192]⟩
abbrev S64x8192 : Shape := ⟨2, ![64, 8192]⟩
abbrev S64x1 : Shape := ⟨2, ![64, 1]⟩
abbrev S1x1x128 : Shape := ⟨3, ![1, 1, 128]⟩
abbrev S1x1x8192 : Shape := ⟨3, ![1, 1, 8192]⟩
abbrev S64 : Shape := ⟨1, ![64]⟩
abbrev S1 : Shape := ⟨1, ![1]⟩
abbrev S1x1 : Shape := ⟨2, ![1, 1]⟩
abbrev S8192 : Shape := ⟨1, ![8192]⟩
abbrev S1x8192 : Shape := ⟨2, ![1, 8192]⟩
abbrev S1x4 : Shape := ⟨2, ![1, 4]⟩
abbrev S1x124 : Shape := ⟨2, ![1, 124]⟩
abbrev S1x128 : Shape := ⟨2, ![1, 128]⟩
abbrev S_ : Shape := ⟨0, ![]⟩
abbrev S128 : Shape := ⟨1, ![128]⟩

abbrev nBuf : Space → Nat
  | .hbm => 106
  | .vmem => 16
  | .smem => 0
  | _ => 0

abbrev bufTy : (tb : Table) → Fin (tcTables nBuf tb) → BufTy
  | .hbm, ⟨0, _⟩ => ⟨S4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x1, .f32⟩
  | .hbm, ⟨7, _⟩ => ⟨S64x1x128, .f32⟩
  | .hbm, ⟨8, _⟩ => ⟨S64x1x8192, .f32⟩
  | .hbm, ⟨9, _⟩ => ⟨S_, .f32⟩
  | .hbm, ⟨10, _⟩ => ⟨S1x128, .f32⟩
  | .hbm, ⟨11, _⟩ => ⟨S128, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S1x8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S1, .f32⟩
  | .hbm, ⟨74, _⟩ => ⟨S1, .f32⟩
  | .hbm, ⟨75, _⟩ => ⟨S4096, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | .local _ .vmem, ⟨6, _⟩ => ⟨S64x8192, .f32⟩
  | .local _ .vmem, ⟨7, _⟩ => ⟨S64x8192, .f32⟩
  | .local _ .vmem, ⟨8, _⟩ => ⟨S64x8192, .f32⟩
  | .local _ .vmem, ⟨9, _⟩ => ⟨S64x8192, .f32⟩
  | .local _ .vmem, ⟨10, _⟩ => ⟨S64x1, .f32⟩
  | .local _ .vmem, ⟨11, _⟩ => ⟨S64x1, .f32⟩
  | .local _ .vmem, ⟨12, _⟩ => ⟨S1x1x128, .f32⟩
  | .local _ .vmem, ⟨13, _⟩ => ⟨S1x1x128, .f32⟩
  | .local _ .vmem, ⟨14, _⟩ => ⟨S1x1x8192, .f32⟩
  | .local _ .vmem, ⟨15, _⟩ => ⟨S1x1x8192, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_call0_v0 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_cst_12 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_v35 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_v38 : Ref sig .tc := ⟨.hbm, 62, rfl⟩
abbrev main_cst_15 : Ref sig .tc := ⟨.hbm, 63, rfl⟩
abbrev main_v39 : Ref sig .tc := ⟨.hbm, 64, rfl⟩
abbrev main_cst_16 : Ref sig .tc := ⟨.hbm, 65, rfl⟩
abbrev main_v40 : Ref sig .tc := ⟨.hbm, 66, rfl⟩
abbrev main_v41 : Ref sig .tc := ⟨.hbm, 67, rfl⟩
abbrev main_c : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_cst_0 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_cst_1 : Ref sig .tc := ⟨.hbm, 79, rfl⟩
abbrev main_call1_call0_v8 : Ref sig .tc := ⟨.hbm, 80, rfl⟩
abbrev main_call1_call0_cst_2 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_cst_3 : Ref sig .tc := ⟨.hbm, 84, rfl⟩
abbrev main_call1_call0_v11 : Ref sig .tc := ⟨.hbm, 85, rfl⟩
abbrev main_call1_call0_cst_4 : Ref sig .tc := ⟨.hbm, 86, rfl⟩
abbrev main_call1_call0_call0_v0 : Ref sig .tc := ⟨.hbm, 87, rfl⟩
abbrev main_call1_v0 : Ref sig .tc := ⟨.hbm, 88, rfl⟩
abbrev main_v42 : Ref sig .tc := ⟨.hbm, 89, rfl⟩
abbrev main_v43 : Ref sig .tc := ⟨.hbm, 90, rfl⟩
abbrev main_cst_17 : Ref sig .tc := ⟨.hbm, 91, rfl⟩
abbrev main_v44 : Ref sig .tc := ⟨.hbm, 92, rfl⟩
abbrev main_v45 : Ref sig .tc := ⟨.hbm, 93, rfl⟩
abbrev main_cst_18 : Ref sig .tc := ⟨.hbm, 94, rfl⟩
abbrev main_cst_19 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v46 : Ref sig .tc := ⟨.hbm, 99, rfl⟩
abbrev main_cst_20 : Ref sig .tc := ⟨.hbm, 100, rfl⟩
abbrev main_v47 : Ref sig .tc := ⟨.hbm, 101, rfl⟩
abbrev main_cst_21 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096_S4096x1 : S4096.ShapeCasts S4096x1
  inb_S64x8192_S64x8192_0_0 : ∀ a, (![0, 0] : Fin 2 → Nat) a + S64x8192.size a ≤ S64x8192.size a
  h_S64x8192 : 0 < S64x8192.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  reduces_S64x8192_S64 : S64x8192.Reduces [1] S64
  shapeCasts_S64_S64x1 : S64.ShapeCasts S64x1
  reduces_S64x1_S1 : S64x1.Reduces [0] S1
  shapeCasts_S1_S1x1 : S1.ShapeCasts S1x1
  broadcasts_S64x1_S64x8192 : S64x1.Broadcasts S64x8192
  reduces_S64x8192_S8192 : S64x8192.Reduces [0] S8192
  shapeCasts_S8192_S1x8192 : S8192.ShapeCasts S1x8192
  natLt_1_32 : 1 < 32
  concatenates_S1x1_S1x1_S1x1_S1x1_S1x4_d1 : Shape.Concatenates [S1x1, S1x1, S1x1, S1x1] S1x4 1
  concatenates_S1x4_S1x124_S1x128_d1 : Shape.Concatenates [S1x4, S1x124] S1x128 1
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S1x8192_S1x1x8192 : S1x8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  reducesTo_S64x1x128_S1x128_d0 : S64x1x128.ReducesTo [0] S1x128
  h_S_ : 0 < S_.numel
  shapeCasts_S1x128_S128 : S1x128.ShapeCasts S128
  slices_S128_S1_0 : S128.Slices ![0] S1
  shapeCasts_S1_S_ : S1.ShapeCasts S_
  slices_S128_S1_1 : S128.Slices ![1] S1
  slices_S128_S1_2 : S128.Slices ![2] S1
  slices_S128_S1_3 : S128.Slices ![3] S1
  reducesTo_S64x1x8192_S1x8192_d0 : S64x1x8192.ReducesTo [0] S1x8192
  shapeCasts_S1x8192_S8192 : S1x8192.ShapeCasts S8192
  bcast_S_S8192 : S_.BroadcastsInDim S8192 (![] : Fin 0 → Fin S8192.rank)
  reducesTo_S8192_S_d0 : S8192.ReducesTo [0] S_
  reducesTo_S4096_S_d0 : S4096.ReducesTo [0] S_
  bcast_S_S1 : S_.BroadcastsInDim S1 (![] : Fin 0 → Fin S1.rank)
  bcast_S1_S4096_0 : S1.BroadcastsInDim S4096 (![0] : Fin 1 → Fin S4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S4096x8192.size a
  hwx0_0 : ∀ i : grid0.Coords, EltTy.bits .f32 = 32 ∨ (Rect.block (s := S4096x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S4096x8192.size a
  hwx0_1 : ∀ i : grid0.Coords, EltTy.bits .f32 = 32 ∨ (Rect.block (s := S4096x8192) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S4096x8192.size a
  hwx0_2 : ∀ i : grid0.Coords, EltTy.bits .f32 = 32 ∨ (Rect.block (s := S4096x8192) S64x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8192.size a ≤ S4096x8192.size a
  hwx0_3 : ∀ i : grid0.Coords, EltTy.bits .f32 = 32 ∨ (Rect.block (s := S4096x8192) S64x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x8192.size a ≤ S4096x8192.size a
  hwx0_4 : ∀ i : grid0.Coords, EltTy.bits .f32 = 32 ∨ (Rect.block (s := S4096x8192) S64x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S4096x1.size a
  hwx0_5 : ∀ i : grid0.Coords, EltTy.bits .f32 = 32 ∨ (Rect.block (s := S4096x1) S64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S64x1x128.size a
  hwx0_6 : ∀ i : grid0.Coords, EltTy.bits .f32 = 32 ∨ (Rect.block (s := S64x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x8192.size a ≤ S64x1x8192.size a
  hwx0_7 : ∀ i : grid0.Coords, EltTy.bits .f32 = 32 ∨ (Rect.block (s := S64x1x8192) S1x1x8192.size (cc0_transform_7 i) (hinb0_7 i)).WholeWords (EltTy.packing .f32)

variable [Facts₀]

abbrev win0_0 : Pipeline.Window sig grid0 :=
  Pipeline.Window.ofSpec (Memref.whole main_arg1) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1x1x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096 : Shape := ⟨1, ![4096]⟩
abbrev S4096x8192 : Shape := ⟨2, ![4096, 8192]⟩
abbrev S_ : Shape := ⟨0, ![]⟩
abbrev S1 : Shape := ⟨1, ![1]⟩
abbrev S4096x1 : Shape := ⟨2, ![4096, 1]⟩
abbrev S8192 : Shape := ⟨1, ![8192]⟩

abbrev nBuf : Space → Nat
  | .hbm => 209
  | .vmem => 0
  | .smem => 0
  | _ => 0

abbrev hbmTy0_0 (i : Nat) : BufTy := match i % 128 with
  | 0 => ⟨S4096, .f32⟩
  | 1 => ⟨S4096x8192, .f32⟩
  | 2 => ⟨S4096x8192, .f32⟩
  | 3 => ⟨S4096x8192, .f32⟩
  | 4 => ⟨S4096x8192, .f32⟩
  | 5 => ⟨S4096x8192, .f32⟩
  | 6 => ⟨S_, .f32⟩
  | 7 => ⟨S_, .f32⟩
  | 8 => ⟨S_, .f32⟩
  | 9 => ⟨S_, .f32⟩
  | 10 => ⟨S_, .f32⟩
  | 11 => ⟨S_, .i32⟩
  | 12 => ⟨S_, .f32⟩
  | 13 => ⟨S_, .f32⟩
  | 14 => ⟨S1, .f32⟩
  | 15 => ⟨S_, .f32⟩
  | 16 => ⟨S1, .f32⟩
  | 17 => ⟨S1, .f32⟩
  | 18 => ⟨S4096, .f32⟩
  | 19 => ⟨S4096, .f32⟩
  | 20 => ⟨S4096, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S4096x8192, .f32⟩
  | 45 => ⟨S4096x8192, .f32⟩
  | 46 => ⟨S4096x8192, .f32⟩
  | 47 => ⟨S4096x8192, .f32⟩
  | 48 => ⟨S_, .f32⟩
  | 49 => ⟨S4096, .f32⟩
  | 50 => ⟨S_, .f32⟩
  | 51 => ⟨S_, .f32⟩
  | 52 => ⟨S_, .f32⟩
  | 53 => ⟨S_, .f32⟩
  | 54 => ⟨S_, .f32⟩
  | 55 => ⟨S4096x8192, .f32⟩
  | 56 => ⟨S4096x8192, .f32⟩
  | 57 => ⟨S_, .f32⟩
  | 58 => ⟨S4096, .f32⟩
  | 59 => ⟨S4096x8192, .f32⟩
  | 60 => ⟨S_, .f32⟩
  | 61 => ⟨S4096, .f32⟩
  | 62 => ⟨S_, .f32⟩
  | 63 => ⟨S4096, .f32⟩
  | 64 => ⟨S4096, .f32⟩
  | 65 => ⟨S4096, .f32⟩
  | 66 => ⟨S_, .f32⟩
  | 67 => ⟨S4096, .f32⟩
  | 68 => ⟨S4096, .f32⟩
  | 69 => ⟨S4096, .f32⟩
  | 70 => ⟨S4096, .f32⟩
  | 71 => ⟨S_, .f32⟩
  | 72 => ⟨S4096, .f32⟩
  | 73 => ⟨S4096, .f32⟩
  | 74 => ⟨S_, .f32⟩
  | 75 => ⟨S4096, .f32⟩
  | 76 => ⟨S4096, .f32⟩
  | 77 => ⟨S4096, .f32⟩
  | 78 => ⟨S4096, .f32⟩
  | 79 => ⟨S_, .f32⟩
  | 80 => ⟨S_, .f32⟩
  | 81 => ⟨S_, .f32⟩
  | 82 => ⟨S_, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S4096x8192, .f32⟩
  | 90 => ⟨S4096x8192, .f32⟩
  | 91 => ⟨S4096x8192, .f32⟩
  | 92 => ⟨S_, .f32⟩
  | 93 => ⟨S8192, .f32⟩
  | 94 => ⟨S_, .f32⟩
  | 95 => ⟨S8192, .f32⟩
  | 96 => ⟨S8192, .f32⟩
  | 97 => ⟨S_, .f32⟩
  | 98 => ⟨S_, .f32⟩
  | 99 => ⟨S_, .f32⟩
  | 100 => ⟨S_, .f32⟩
  | 101 => ⟨S8192, .f32⟩
  | 102 => ⟨S8192, .f32⟩
  | 103 => ⟨S_, .f32⟩
  | 104 => ⟨S8192, .f32⟩
  | 105 => ⟨S8192, .f32⟩
  | 106 => ⟨S8192, .f32⟩
  | 107 => ⟨S8192, .f32⟩
  | 108 => ⟨S_, .f32⟩
  | 109 => ⟨S_, .f32⟩
  | 110 => ⟨S_, .f32⟩
  | 111 => ⟨S_, .f32⟩
  | 112 => ⟨S_, .f32⟩
  | 113 => ⟨S4096x8192, .f32⟩
  | 114 => ⟨S4096x8192, .i1⟩
  | 115 => ⟨S4096x8192, .i32⟩
  | 116 => ⟨S_, .i32⟩
  | 117 => ⟨S4096, .i32⟩
  | 118 => ⟨S_, .f32⟩
  | 119 => ⟨S4096x8192, .f32⟩
  | 120 => ⟨S4096x8192, .f32⟩
  | 121 => ⟨S_, .f32⟩
  | 122 => ⟨S_, .f32⟩
  | 123 => ⟨S4096x8192, .f32⟩
  | 124 => ⟨S4096x8192, .f32⟩
  | 125 => ⟨S_, .f32⟩
  | 126 => ⟨S4096, .f32⟩
  | 127 => ⟨S_, .f32⟩
  | _ => ⟨S4096, .f32⟩

abbrev hbmTy0_1 (i : Nat) : BufTy := match i % 128 with
  | 0 => ⟨S4096, .f32⟩
  | 1 => ⟨S4096, .f32⟩
  | 2 => ⟨S4096x1, .f32⟩
  | 3 => ⟨S4096x8192, .f32⟩
  | 4 => ⟨S4096x8192, .f32⟩
  | 5 => ⟨S4096x8192, .f32⟩
  | 6 => ⟨S_, .f32⟩
  | 7 => ⟨S4096, .f32⟩
  | 8 => ⟨S4096x1, .f32⟩
  | 9 => ⟨S4096x8192, .f32⟩
  | 10 => ⟨S4096x8192, .f32⟩
  | 11 => ⟨S_, .f32⟩
  | 12 => ⟨S_, .f32⟩
  | 13 => ⟨S4096x8192, .f32⟩
  | 14 => ⟨S4096x8192, .f32⟩
  | 15 => ⟨S_, .f32⟩
  | 16 => ⟨S4096, .f32⟩
  | 17 => ⟨S_, .f32⟩
  | 18 => ⟨S4096, .f32⟩
  | 19 => ⟨S4096, .f32⟩
  | 20 => ⟨S4096x1, .f32⟩
  | 21 => ⟨S4096x8192, .f32⟩
  | 22 => ⟨S4096x8192, .f32⟩
  | 23 => ⟨S4096x8192, .f32⟩
  | 24 => ⟨S_, .f32⟩
  | 25 => ⟨S4096, .f32⟩
  | 26 => ⟨S4096x1, .f32⟩
  | 27 => ⟨S4096x1, .f32⟩
  | 28 => ⟨S4096x8192, .f32⟩
  | 29 => ⟨S4096x8192, .f32⟩
  | 30 => ⟨S_, .f32⟩
  | 31 => ⟨S_, .f32⟩
  | 32 => ⟨S4096x8192, .f32⟩
  | 33 => ⟨S4096x8192, .f32⟩
  | 34 => ⟨S4096x8192, .f32⟩
  | 35 => ⟨S_, .f32⟩
  | 36 => ⟨S4096, .f32⟩
  | 37 => ⟨S4096, .f32⟩
  | 38 => ⟨S_, .i32⟩
  | 39 => ⟨S4096, .i32⟩
  | 40 => ⟨S4096, .i32⟩
  | 41 => ⟨S4096, .f32⟩
  | 42 => ⟨S4096, .f32⟩
  | 43 => ⟨S_, .i32⟩
  | 44 => ⟨S4096, .i32⟩
  | 45 => ⟨S4096, .i1⟩
  | 46 => ⟨S4096, .i32⟩
  | 47 => ⟨S_, .i32⟩
  | 48 => ⟨S_, .i32⟩
  | 49 => ⟨S_, .f32⟩
  | 50 => ⟨S_, .f32⟩
  | 51 => ⟨S4096, .f32⟩
  | 52 => ⟨S4096, .f32⟩
  | 53 => ⟨S_, .f32⟩
  | 54 => ⟨S_, .f32⟩
  | 55 => ⟨S_, .i32⟩
  | 56 => ⟨S_, .i1⟩
  | 57 => ⟨S_, .i32⟩
  | 58 => ⟨S_, .i32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_cst_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_cst_1 : Ref sig .tc := ⟨.hbm, 22, rfl⟩
abbrev main_call0_call0_v8 : Ref sig .tc := ⟨.hbm, 23, rfl⟩
abbrev main_call0_call0_cst_2 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_cst_3 : Ref sig .tc := ⟨.hbm, 27, rfl⟩
abbrev main_call0_call0_v11 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_v0 : Ref sig .tc := ⟨.hbm, 31, rfl⟩
abbrev main_v3 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_v6 : Ref sig .tc := ⟨.hbm, 36, rfl⟩
abbrev main_cst_2 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v7 : Ref sig .tc := ⟨.hbm, 42, rfl⟩
abbrev main_cst_4 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_5 : Ref sig .tc := ⟨.hbm, 48, rfl⟩
abbrev main_v12 : Ref sig .tc := ⟨.hbm, 49, rfl⟩
abbrev main_cst_6 : Ref sig .tc := ⟨.hbm, 50, rfl⟩
abbrev main_v13 : Ref sig .tc := ⟨.hbm, 51, rfl⟩
abbrev main_cst_7 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst_8 : Ref sig .tc := ⟨.hbm, 57, rfl⟩
abbrev main_v18 : Ref sig .tc := ⟨.hbm, 58, rfl⟩
abbrev main_v19 : Ref sig .tc := ⟨.hbm, 59, rfl⟩
abbrev main_cst_9 : Ref sig .tc := ⟨.hbm, 60, rfl⟩
abbrev main_v20 : Ref sig .tc := ⟨.hbm, 61, rfl⟩
abbrev main_cst_10 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_11 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_12 : Ref sig .tc := ⟨.hbm, 71, rfl⟩
abbrev main_v28 : Ref sig .tc := ⟨.hbm, 72, rfl⟩
abbrev main_v29 : Ref sig .tc := ⟨.hbm, 73, rfl⟩
abbrev main_cst_13 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_14 : Ref sig .tc := ⟨.hbm, 79, rfl⟩
abbrev main_v34 : Ref sig .tc := ⟨.hbm, 80, rfl⟩
abbrev main_cst_15 : Ref sig .tc := ⟨.hbm, 81, rfl⟩
abbrev main_v35 : Ref sig .tc := ⟨.hbm, 82, rfl⟩
abbrev main_cst_16 : Ref sig .tc := ⟨.hbm, 83, rfl⟩
abbrev main_v36 : Ref sig .tc := ⟨.hbm, 84, rfl⟩
abbrev main_v37 : Ref sig .tc := ⟨.hbm, 85, rfl⟩
abbrev main_cst_17 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_18 : Ref sig .tc := ⟨.hbm, 92, rfl⟩
abbrev main_v43 : Ref sig .tc := ⟨.hbm, 93, rfl⟩
abbrev main_cst_19 : Ref sig .tc := ⟨.hbm, 94, rfl⟩
abbrev main_v44 : Ref sig .tc := ⟨.hbm, 95, rfl⟩
abbrev main_v45 : Ref sig .tc := ⟨.hbm, 96, rfl⟩
abbrev main_cst_20 : Ref sig .tc := ⟨.hbm, 97, rfl⟩
abbrev main_v46 : Ref sig .tc := ⟨.hbm, 98, rfl⟩
abbrev main_cst_21 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst_22 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_23 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_24 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_c_25 : Ref sig .tc := ⟨.hbm, 116, rfl⟩
abbrev main_v60 : Ref sig .tc := ⟨.hbm, 117, rfl⟩
abbrev main_cst_26 : Ref sig .tc := ⟨.hbm, 118, rfl⟩
abbrev main_v61 : Ref sig .tc := ⟨.hbm, 119, rfl⟩
abbrev main_v62 : Ref sig .tc := ⟨.hbm, 120, rfl⟩
abbrev main_cst_27 : Ref sig .tc := ⟨.hbm, 121, rfl⟩
abbrev main_call2_v0 : Ref sig .tc := ⟨.hbm, 122, rfl⟩
abbrev main_call2_v1 : Ref sig .tc := ⟨.hbm, 123, rfl⟩
abbrev main_v63 : Ref sig .tc := ⟨.hbm, 124, rfl⟩
abbrev main_cst_28 : Ref sig .tc := ⟨.hbm, 125, rfl⟩
abbrev main_v64 : Ref sig .tc := ⟨.hbm, 126, rfl⟩
abbrev main_cst_29 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_cst_30 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_31 : Ref sig .tc := ⟨.hbm, 139, rfl⟩
abbrev main_call3_v0 : Ref sig .tc := ⟨.hbm, 140, rfl⟩
abbrev main_call3_v1 : Ref sig .tc := ⟨.hbm, 141, rfl⟩
abbrev main_v75 : Ref sig .tc := ⟨.hbm, 142, rfl⟩
abbrev main_call4_cst : Ref sig .tc := ⟨.hbm, 143, rfl⟩
abbrev main_call4_v0 : Ref sig .tc := ⟨.hbm, 144, rfl⟩
abbrev main_call4_cst_0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_cst_1 : Ref sig .tc := ⟨.hbm, 152, rfl⟩
abbrev main_call4_v7 : Ref sig .tc := ⟨.hbm, 153, rfl⟩
abbrev main_call4_v8 : Ref sig .tc := ⟨.hbm, 154, rfl⟩
abbrev main_call4_v9 : Ref sig .tc := ⟨.hbm, 155, rfl⟩
abbrev main_call4_v10 : Ref sig .tc := ⟨.hbm, 156, rfl⟩
abbrev main_v76 : Ref sig .tc := ⟨.hbm, 157, rfl⟩
abbrev main_cst_32 : Ref sig .tc := ⟨.hbm, 158, rfl⟩
abbrev main_call5_v0 : Ref sig .tc := ⟨.hbm, 159, rfl⟩
abbrev main_call5_v1 : Ref sig .tc := ⟨.hbm, 160, rfl⟩
abbrev main_v77 : Ref sig .tc := ⟨.hbm, 161, rfl⟩
abbrev main_v78 : Ref sig .tc := ⟨.hbm, 162, rfl⟩
abbrev main_cst_33 : Ref sig .tc := ⟨.hbm, 163, rfl⟩
abbrev main_v79 : Ref sig .tc := ⟨.hbm, 164, rfl⟩
abbrev main_v80 : Ref sig .tc := ⟨.hbm, 165, rfl⟩
abbrev main_c_34 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_c_35 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_c_36 : Ref sig .tc := ⟨.hbm, 175, rfl⟩
abbrev main_v88 : Ref sig .tc := ⟨.hbm, 176, rfl⟩
abbrev main_cst_37 : Ref sig .tc := ⟨.hbm, 177, rfl⟩
abbrev main_call6_v0 : Ref sig .tc := ⟨.hbm, 178, rfl⟩
abbrev main_call6_v1 : Ref sig .tc := ⟨.hbm, 179, rfl⟩
abbrev main_v89 : Ref sig .tc := ⟨.hbm, 180, rfl⟩
abbrev main_cst_38 : Ref sig .tc := ⟨.hbm, 181, rfl⟩
abbrev main_v90 : Ref sig .tc := ⟨.hbm, 182, rfl⟩
abbrev main_c_39 : Ref sig .tc := ⟨.hbm, 183, rfl⟩
abbrev main_v91 : Ref sig .tc := ⟨.hbm, 184, rfl⟩
abbrev main_c_40 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_cst_41 : Ref sig .tc := ⟨.hbm, 189, rfl⟩
abbrev main_call7_v0 : Ref sig .tc := ⟨.hbm, 190, rfl⟩
abbrev main_v95 : Ref sig .tc := ⟨.hbm, 191, rfl⟩
abbrev main_cst_42 : Ref sig .tc := ⟨.hbm, 192, rfl⟩
abbrev main_v96 : Ref sig .tc := ⟨.hbm, 193, rfl⟩
abbrev main_cst_43 : Ref sig .tc := ⟨.hbm, 194, rfl⟩
abbrev main_v97 : Ref sig .tc := ⟨.hbm, 195, rfl⟩
abbrev main_v98 : Ref sig .tc := ⟨.hbm, 196, rfl⟩
abbrev main_cst_44 : Ref sig .tc := ⟨.hbm, 197, rfl⟩
abbrev main_v99 : Ref sig .tc := ⟨.hbm, 198, rfl⟩
abbrev main_v100 : Ref sig .tc := ⟨.hbm, 199, rfl⟩
abbrev main_cst_45 : Ref sig .tc := ⟨.hbm, 200, rfl⟩
abbrev main_v101 : Ref sig .tc := ⟨.hbm, 201, rfl⟩
abbrev main_v102 : Ref sig .tc := ⟨.hbm, 202, rfl⟩
abbrev main_cst_46 : Ref sig .tc := ⟨.hbm, 203, rfl⟩
abbrev main_v103 : Ref sig .tc := ⟨.hbm, 204, rfl⟩
abbrev main_v104 : Ref sig .tc := ⟨.hbm, 205, rfl⟩
abbrev main_cst_47 : Ref sig .tc := ⟨.hbm, 206, rfl⟩
abbrev main_v105 : Ref sig .tc := ⟨.hbm, 207, rfl⟩
abbrev main_v106 : Ref sig .tc := ⟨.hbm, 208, rfl⟩

abbrev nD : Nat := 1
abbrev τ : Topo := Topo.v7x

variable {F : FTy → Type} [FloatOps F]

class Facts₀ : Prop where
  reducesTo_S4096_S_d0 : S4096.ReducesTo [0] S_
  h_S_ : 0 < S_.numel
  bcast_S_S1 : S_.BroadcastsInDim S1 (![] : Fin 0 → Fin S1.rank)
  bcast_S1_S4096_0 : S1.BroadcastsInDim S4096 (![0] : Fin 1 → Fin S4096.rank)
  bcast_S_S4096x8192 : S_.BroadcastsInDim S4096x8192 (![] : Fin 0 → Fin S4096x8192.rank)
  reducesTo_S4096x8192_S4096_d1 : S4096x8192.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  reducesTo_S4096x8192_S8192_d0 : S4096x8192.ReducesTo [0] S8192
  bcast_S_S8192 : S_.BroadcastsInDim S8192 (![] : Fin 0 → Fin S8192.rank)
  reducesTo_S8192_S_d0 : S8192.ReducesTo [0] S_
  natLt_1_32 : 1 < 32

variable [Facts₀]

class Facts : Prop extends Facts₀ where

variable [Facts]
-- ==== Proof.KFrameKKernel.lean ====
/-
  The loss kernel's body at one grid point, as a triple over its eight staging buffers.

  The body reads its six input blocks whole (five 64×8192 blocks and one 64×1 block), computes, and then
  overwrites each of its two output blocks whole: the 1×1×128 block receives the four partial sums packed
  into lanes 0–3 (zeros after), a function of all six input blocks; the 1×1×8192 block receives the column
  sums of the normalised products, a function of the first and fourth input blocks only. Each output buffer
  after the body is therefore the canonical form of ONE store covering it, whatever it held before (the body
  also loads each output block before storing it and discards what it read).
-/
import proofs.«122764_j16621523435816_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each one a whole block -/

abbrev rA : Rect S64x8192 := Rect.unit (s := S64x8192) ![0, 0] S64x8192.size inb_S64x8192_S64x8192_0_0
abbrev rB : Rect S64x1 := Rect.unit (s := S64x1) ![0, 0] S64x1.size inb_S64x1_S64x1_0_0
abbrev rC : Rect S1x1x128 := Rect.unit (s := S1x1x128) ![0, 0, 0] S1x1x128.size inb_S1x1x128_S1x1x128_0_0_0
abbrev rD : Rect S1x1x8192 := Rect.unit (s := S1x1x8192) ![0, 0, 0] S1x1x8192.size inb_S1x1x8192_S1x1x8192_0_0_0

/-! ## What the body leaves in each output block -/

/-- The packed partial sums: lane 0 the entropy-like sum of the first block, lane 1 the squared error of the
    weighted mean against the logistic of the sixth block, lanes 2 and 3 the masked cross-entropy sum and the
    count of rows with at least two unmasked entries; the other lanes zero. -/
def out6 (x0 x1 x2 x3 x4 : Vec F S64x8192 .f32) (x5 : Vec F S64x1 .f32) : Vec F S1x1x128 .f32 :=
  View.canon [⟨rC, k0_pay1 (k0_pay4 (View.ld x0 rA)) (k0_pay5 (View.ld x0 rA) (View.ld x1 rA) (View.ld x3 rA) (View.ld x5 rB))
    (k0_pay9 (View.ld x3 rA)) (k0_pay10 (View.ld x2 rA) (View.ld x3 rA) (View.ld x4 rA)) (k0_pay11 (View.ld x3 rA))⟩]

/-- One store of the whole block covers it. -/
theorem cover6 (p0 : Vec F S1x1x128 .f32) (y : S1x1x128.Idx) :
    ∃ pc ∈ ([⟨rC, p0⟩] : List (View.Piece (Elt F) S1x1x128 .f32)), y ∈ pc.1.set :=
  View.cover_of_tiled [⟨rC, p0⟩] S1x1x128.size (by rfl) y

/-- The column sums over the block's 64 rows of (first block × fourth block) / (row sum of the first + ε). -/
def out7 (x0 x3 : Vec F S64x8192 .f32) : Vec F S1x1x8192 .f32 :=
  View.canon [⟨rD, k0_pay2 (k0_pay7 (k0_pay6 (View.ld x0 rA) (View.ld x3 rA)))⟩]

/-- One store of the whole block covers it. -/
theorem cover7 (p0 : Vec F S1x1x8192 .f32) (y : S1x1x8192.Idx) :
    ∃ pc ∈ ([⟨rD, p0⟩] : List (View.Piece (Elt F) S1x1x8192 .f32)), y ∈ pc.1.set :=
  View.cover_of_tiled [⟨rD, p0⟩] S1x1x8192.size (by rfl) y

/-! ## The body's triple -/

set_option maxHeartbeats 1000000 in
/-- On whole staging memrefs, the inputs' at contents `x0 … x5` and the outputs' at anything, the body runs to
    its return holding the inputs' as they were and the outputs' at `out6` and `out7` of the inputs'. -/
theorem sound_kernel (c : Dev nD) (E : Set ℕ) (i : grid0.Coords)
    (arg1 : Memref sig .tc .vmem S64x8192 .f32) (harg1 : arg1.IsWhole) (arg2 : Memref sig .tc .vmem S64x8192 .f32) (harg2 : arg2.IsWhole)
    (arg3 : Memref sig .tc .vmem S64x8192 .f32) (harg3 : arg3.IsWhole) (arg4 : Memref sig .tc .vmem S64x8192 .f32) (harg4 : arg4.IsWhole)
    (arg5 : Memref sig .tc .vmem S64x8192 .f32) (harg5 : arg5.IsWhole) (arg6 : Memref sig .tc .vmem S64x1 .f32) (harg6 : arg6.IsWhole)
    (arg7 : Memref sig .tc .vmem S1x1x128 .f32) (harg7 : arg7.IsWhole) (arg8 : Memref sig .tc .vmem S1x1x8192 .f32) (harg8 : arg8.IsWhole)
    (x0 x1 x2 x3 x4 : Vec F S64x8192 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5) ∗ owns (c : Thread nD τ) arg8 fullShare (out7 x0 x3)) -∗ K ⟨⟩))
      ⊢ wp frame (wpE (defs₀ (F := F)) Variants.none c none) E (cc0__loss_kernel i arg1 harg1 arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _)
  iexists _; isplitr
  swap; · iexact H7
  ipureintro
  exact View.read_writes_eq_canon _ _ _ (cover7 _)

end Cert.Kernel.KFrame

end
-- ==== Proof.KFrameKHost.lean ====
/-
  The host side of the program around its one kernel region: one reshape before it, ninety-seven scalar and
  vector operations after it (the partial sums added over the 64 tiles, normalised, combined with the
  statistics of the first argument into one scalar). What matters here is only bookkeeping: every operation
  writes its own fresh result buffer and nothing else, so none of them allocates, none writes an array the
  region stages, and none writes an argument.
-/
import proofs.«122764_j16621523435816_2_alg».proof.Proof.Gen.Kernel.Launch
import Idealize.ShloMosaic.Lib.Pipeline.FrameSuffix

set_option maxRecDepth 16384

noncomputable section

namespace Cert.Kernel.KFrame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each stretch of host operations writes -/

theorem hostOps0_fresh : (hostOps0 : List (HloOp τ sig (Elt F))).Forall fun op => op.fresh = ∅ := by
  simp only [List.Forall]; repeat' constructor
/-- The references `hostOps0`'s operations write: each its own result. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_fresh : (hostOps1 : List (HloOp τ sig (Elt F))).Forall fun op => op.fresh = ∅ := by
  simp only [List.Forall]; repeat' constructor
/-- The references `hostOps1`'s operations write: each its own result. -/
abbrev hostOps1_W : List (Ref sig .tc) := [main_cst, main_v2, main_v3, main_v4, main_v5, main_v6, main_v7, main_v8, main_v9, main_v10, main_v11, main_cst_0, main_v12, main_v13, main_v14, main_cst_1, main_v15, main_cst_2, main_v16, main_cst_3, main_v17, main_v18, main_cst_4, main_v19, main_cst_5, main_v20, main_v21, main_v22, main_cst_6, main_v23, main_v24, main_v25, main_v26, main_cst_7, main_v27, main_cst_8, main_v28, main_cst_9, main_v29, main_v30, main_cst_10]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_1_fresh : (hostOps1_1 : List (HloOp τ sig (Elt F))).Forall fun op => op.fresh = ∅ := by
  simp only [List.Forall]; repeat' constructor
/-- The references `hostOps1_1`'s operations write: each its own result. -/
abbrev hostOps1_1_W : List (Ref sig .tc) := [main_call0_v0, main_v31]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_2_fresh : (hostOps1_2 : List (HloOp τ sig (Elt F))).Forall fun op => op.fresh = ∅ := by
  simp only [List.Forall]; repeat' constructor
/-- The references `hostOps1_2`'s operations write: each its own result. -/
abbrev hostOps1_2_W : List (Ref sig .tc) := [main_cst_11, main_v32, main_cst_12, main_v33, main_v34, main_cst_13, main_v35, main_v36, main_cst_14, main_v37, main_v38, main_cst_15, main_v39, main_cst_16, main_v40, main_v41, main_c]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_3_fresh : (hostOps1_3 : List (HloOp τ sig (Elt F))).Forall fun op => op.fresh = ∅ := by
  simp only [List.Forall]; repeat' constructor
/-- The references `hostOps1_3`'s operations write: each its own result. -/
abbrev hostOps1_3_W : List (Ref sig .tc) := [main_call1_call0_cst, main_call1_call0_v0, main_call1_call0_v1, main_call1_call0_cst_0, main_call1_call0_v2, main_call1_call0_v3, main_call1_call0_v4, main_call1_call0_v5, main_call1_call0_v6, main_call1_call0_v7, main_call1_call0_cst_1, main_call1_call0_v8, main_call1_call0_cst_2, main_call1_call0_v9, main_call1_call0_v10, main_call1_call0_cst_3, main_call1_call0_v11, main_call1_call0_cst_4, main_call1_call0_call0_v0, main_call1_v0, main_v42]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_4_fresh : (hostOps1_4 : List (HloOp τ sig (Elt F))).Forall fun op => op.fresh = ∅ := by
  simp only [List.Forall]; repeat' constructor
/-- The references `hostOps1_4`'s operations write: each its own result. -/
abbrev hostOps1_4_W : List (Ref sig .tc) := [main_v43, main_cst_17, main_v44, main_v45, main_cst_18, main_cst_19]
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_5_fresh : (hostOps1_5 : List (HloOp τ sig (Elt F))).Forall fun op => op.fresh = ∅ := by
  simp only [List.Forall]; repeat' constructor
/-- The references `hostOps1_5`'s operations write: each its own result. -/
abbrev hostOps1_5_W : List (Ref sig .tc) := [main_call2_v0, main_call2_v1, main_call2_v2, main_v46]
theorem hostOps1_5_writes : (hostOps1_5 : List (HloOp τ sig (Elt F))).Forall fun op => op.writes ⊆ (hostOps1_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_6_fresh : (hostOps1_6 : List (HloOp τ sig (Elt F))).Forall fun op => op.fresh = ∅ := by
  simp only [List.Forall]; repeat' constructor
/-- The references `hostOps1_6`'s operations write: each its own result. -/
abbrev hostOps1_6_W : List (Ref sig .tc) := [main_cst_20, main_v47, main_cst_21, main_v48, main_v49, main_v50]
theorem hostOps1_6_writes : (hostOps1_6 : List (HloOp τ sig (Elt F))).Forall fun op => op.writes ⊆ (hostOps1_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The stretches after the region -/

/-- The host operations after the region, stretch by stretch, in order. -/
abbrev opsAfter : List (List (HloOp τ sig (Elt F))) := [hostOps1, hostOps1_1, hostOps1_2, hostOps1_3, hostOps1_4, hostOps1_5, hostOps1_6]

/-- Operations that write only references of a list holding no staged array write no staged array. -/
theorem keeps_of_writes {W : List (Ref sig .tc)} (ops : List (HloOp τ sig (Elt F)))
    (hW : ops.Forall fun op => op.writes ⊆ (W.map (Proc.devRef (τ := τ) .tc)).toFinset)
    (h : ∀ w, Pipeline.arrRef spec0 w ∉ W) :
    ∀ op ∈ ops, ∀ w, Proc.devRef (τ := τ) .tc (Pipeline.arrRef spec0 w) ∉ op.writes := by
  intro op hop w hb
  obtain ⟨y, hy, he⟩ := List.mem_map.mp (List.mem_toFinset.mp ((List.forall_iff_forall_mem.mp hW) op hop hb))
  exact h w (Proc.devRef_injective _ he ▸ hy)

/-- The operations after the region touch the staged arrays and the bypassing buffers only. -/
theorem sfx_sub : ∀ ops ∈ (opsAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (opsAfter : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- And write no array the region stages. -/
theorem sfx_keeps : ∀ ops ∈ (opsAfter : List (List (HloOp τ sig (Elt F)))), ∀ op ∈ ops,
    ∀ w, Proc.devRef (τ := τ) .tc (Pipeline.arrRef spec0 w) ∉ op.writes := by
  intro ops hops
  simp only [List.mem_cons, List.mem_nil_iff, or_false] at hops
  rcases hops with rfl | rfl | rfl | rfl | rfl | rfl | rfl
  · exact keeps_of_writes _ hostOps1_writes (by decide)
  · exact keeps_of_writes _ hostOps1_1_writes (by decide)
  · exact keeps_of_writes _ hostOps1_2_writes (by decide)
  · exact keeps_of_writes _ hostOps1_3_writes (by decide)
  · exact keeps_of_writes _ hostOps1_4_writes (by decide)
  · exact keeps_of_writes _ hostOps1_5_writes (by decide)
  · exact keeps_of_writes _ hostOps1_6_writes (by decide)

/-! ## The buffers' contents when the region is entered -/

variable (m : (ℓ : Loc nD τ sig) → Buf (Elt F) ℓ)

/-- Core `c`'s buffer contents when the region is entered: the launch contents after the one reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- A reference the reshape does not write is found by the region as launched. -/
theorem V_of (c : Dev nD) (r : Ref sig .tc) (h : r ∉ (hostOps0_W : List (Ref sig .tc))) : V m c r = m ((c : Thread nD τ).loc r) :=
  StableHlo.after_of_writes_sub (hostOps0 : List (HloOp τ sig (Elt F))) _ hostOps0_writes h

/-- @main reduces to the region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opsAfter : List (List (HloOp τ sig (Elt F)))).map StableHlo.seq)) :=
  Pipeline.hmain_around cfgs 0 defs₀ 𝒱₀ m main [hostOps0] opsAfter (by simp only [List.Forall]; exact hostOps0_sub)
    (by simp only [List.Forall]; exact hostOps0_fresh) main_chain

/-! ## What the later operations leave unchanged -/

/-- A reference none of the later operations writes keeps through them what it held at the region's exit. -/
theorem tail_of (X : Valuation τ sig (Elt F)) (r : Ref sig .tc)
    (h0 : r ∉ (hostOps1_W : List (Ref sig .tc)))
    (h1 : r ∉ (hostOps1_1_W : List (Ref sig .tc)))
    (h2 : r ∉ (hostOps1_2_W : List (Ref sig .tc)))
    (h3 : r ∉ (hostOps1_3_W : List (Ref sig .tc)))
    (h4 : r ∉ (hostOps1_4_W : List (Ref sig .tc)))
    (h5 : r ∉ (hostOps1_5_W : List (Ref sig .tc)))
    (h6 : r ∉ (hostOps1_6_W : List (Ref sig .tc))) :
    StableHlo.after (opsAfter : List (List (HloOp τ sig (Elt F)))).flatten X (Proc.devRef .tc r) = X (Proc.devRef .tc r) := by
  simp only [List.flatten_cons, List.flatten_nil, List.append_nil, StableHlo.after_append]
  rw [StableHlo.after_of_writes_sub hostOps1_6 _ hostOps1_6_writes h6,
    StableHlo.after_of_writes_sub hostOps1_5 _ hostOps1_5_writes h5,
    StableHlo.after_of_writes_sub hostOps1_4 _ hostOps1_4_writes h4,
    StableHlo.after_of_writes_sub hostOps1_3 _ hostOps1_3_writes h3,
    StableHlo.after_of_writes_sub hostOps1_2 _ hostOps1_2_writes h2,
    StableHlo.after_of_writes_sub hostOps1_1 _ hostOps1_1_writes h1,
    StableHlo.after_of_writes_sub hostOps1 _ hostOps1_writes h0]

end Cert.Kernel.KFrame

end
-- ==== Proof.KFrameKData.lean ====
/-
  The proof data of the kernel region and its body obligation.

  At grid point `t` every input window's staging buffer holds that window's block of its array (row tile `t`:
  rows 64·t … 64·t+63), fetched at every point; after the body the inputs' buffers hold the same blocks and the
  two outputs' buffers hold the packed partial sums and the column sums of THAT tile's blocks — nothing is
  carried from one point to the next. The invariant between points is the scoped rest and the generator
  register, untouched; nothing is owed to another core.
-/
import proofs.«122764_j16621523435816_2_alg».proof.Proof.KFrameKKernel
import proofs.«122764_j16621523435816_2_alg».proof.Proof.KFrameKHost
import proofs.«122764_j16621523435816_2_alg».proof.Proof.Gen.Kernel.Points

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is the
    region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is the
    region-entry one and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is the
    region-entry one and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data whose array is the
    region-entry one and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data whose array is the
    region-entry one and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, for any proof data whose array is the
    region-entry one and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and each
    output's at the body's result on the input blocks of that point; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t = out7 (iblk m c 0 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.KFrame

end
-- ==== Proof.KFrameKRun.lean ====
/-
  The run of the whole program: the reshape, the kernel region over its 64 grid points, the later host operations.
  Every weakly fair execution terminates without a fault; at the end each staged array holds what the pipeline
  writes back (an input: what it held; an output: tile by tile the body's result on that tile's input blocks), and
  every other buffer holds what the later operations compute from those arrays and the launch contents.
-/
import proofs.«122764_j16621523435816_2_alg».proof.Proof.KFrameKData

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (Pipeline.afterTail₀ cfgs (dats m) 0 (V0 m) opsAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opsAfter) (hsub := sfx_sub) (hfresh := sfx_fresh) (hkeep := sfx_keeps)
    (hmain := hmain m Variants.none) (hA := A_eq m) (hΦ := fun _ _ => rfl)

/-- info: 'Cert.Kernel.KFrame.run_main' depends on axioms: [propext, Classical.choice, Quot.sound] -/
#guard_msgs in #print axioms run_main

end Cert.Kernel.KFrame

end
-- ==== Proof.KFrameK.lean ====
/-
  The frame: the program runs to its end without a fault and leaves its six argument arrays as launched.
  The five 4096×8192 arguments are arrays the region stages as inputs (the pipeline only reads them, and no host
  operation writes them); the first argument is staged only through its reshaped copy and is written by nothing.
-/
import proofs.«122764_j16621523435816_2_alg».proof.Defs
import proofs.«122764_j16621523435816_2_alg».proof.Proof.Gen.Pre_finite_inputs
import proofs.«122764_j16621523435816_2_alg».proof.Proof.KFrameKRun

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A reference that is no staged array and that no host operation writes ends as launched. -/
theorem W_of (dats : (p : Fin 1) → (c : Dev nD) → Dat τ (Elt F) Unit ℕ (UR sig nD τ) ℕ (cfgs p) c) (c : Dev nD) (r : Ref sig .tc)
    (hr : ∀ w, Pipeline.arrRef spec0 w ≠ r) (h : r ∉ (hostOps0_W : List (Ref sig .tc)))
    (h0 : r ∉ (hostOps1_W : List (Ref sig .tc)))
    (h1 : r ∉ (hostOps1_1_W : List (Ref sig .tc)))
    (h2 : r ∉ (hostOps1_2_W : List (Ref sig .tc)))
    (h3 : r ∉ (hostOps1_3_W : List (Ref sig .tc)))
    (h4 : r ∉ (hostOps1_4_W : List (Ref sig .tc)))
    (h5 : r ∉ (hostOps1_5_W : List (Ref sig .tc)))
    (h6 : r ∉ (hostOps1_6_W : List (Ref sig .tc))) :
    Pipeline.afterTail₀ cfgs dats 0 (V0 m) opsAfter c r = m ((c : Thread nD τ).loc r) := by
  unfold Pipeline.afterTail₀
  rw [tail_of _ r h0 h1 h2 h3 h4 h5 h6, Pipeline.withArrays_of_ne _ c (V0 m c) _ r hr]
  exact V_of m c r h

/-- The frame claim's post from the run's: a staged input is read back as the array the region found, which the one
    earlier reshape did not write; the first argument bypasses the region and no later operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) opsAfter))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans
        (W_of m dats c main_arg0 (by decide) (by decide) (by decide) (by decide) (by decide) (by decide) (by decide) (by decide) (by decide)),
     ((h c).1 0).trans (((dats 0 c).arrAt_in 0 rfl _).trans ((hA c 0).trans (V_of m c main_arg1 (by decide)))),
     ((h c).1 1).trans (((dats 0 c).arrAt_in 1 rfl _).trans ((hA c 1).trans (V_of m c main_arg2 (by decide)))),
     ((h c).1 2).trans (((dats 0 c).arrAt_in 2 rfl _).trans ((hA c 2).trans (V_of m c main_arg3 (by decide)))),
     ((h c).1 3).trans (((dats 0 c).arrAt_in 3 rfl _).trans ((hA c 3).trans (V_of m c main_arg4 (by decide)))),
     ((h c).1 4).trans (((dats 0 c).arrAt_in 4 rfl _).trans ((hA c 4).trans (V_of m c main_arg5 (by decide))))⟩) h

/-- The program's frame at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim of the kernel program as printed, read at the word level. -/
theorem frame_k : Cert.frame_Kernel := fun m ρ _ => frame (F := Bits) m ρ

/-- info: 'Cert.Kernel.KFrame.frame_k' depends on axioms: [propext, Classical.choice, Quot.sound] -/
#guard_msgs in #print axioms frame_k

end Cert.Kernel.KFrame

end
-- ==== Proof.KFrameIKernel.lean ====
/-
  The loss kernel's body at one grid point, as a triple over its eight staging buffers.

  The body reads its six input blocks whole (five 64×8192 blocks and one 64×1 block), computes, and then
  overwrites each of its two output blocks whole: the 1×1×128 block receives the four partial sums packed
  into lanes 0–3 (zeros after), a function of all six input blocks; the 1×1×8192 block receives the column
  sums of the normalised products, a function of the first and fourth input blocks only. Each output buffer
  after the body is therefore the canonical form of ONE store covering it, whatever it held before (the body
  also loads each output block before storing it and discards what it read).
-/
import proofs.«122764_j16621523435816_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each one a whole block -/

abbrev rA : Rect S64x8192 := Rect.unit (s := S64x8192) ![0, 0] S64x8192.size inb_S64x8192_S64x8192_0_0
abbrev rB : Rect S64x1 := Rect.unit (s := S64x1) ![0, 0] S64x1.size inb_S64x1_S64x1_0_0
abbrev rC : Rect S1x1x128 := Rect.unit (s := S1x1x128) ![0, 0, 0] S1x1x128.size inb_S1x1x128_S1x1x128_0_0_0
abbrev rD : Rect S1x1x8192 := Rect.unit (s := S1x1x8192) ![0, 0, 0] S1x1x8192.size inb_S1x1x8192_S1x1x8192_0_0_0

/-! ## What the body leaves in each output block -/

/-- The packed partial sums: lane 0 the entropy-like sum of the first block, lane 1 the squared error of the
    weighted mean against the logistic of the sixth block, lanes 2 and 3 the masked cross-entropy sum and the
    count of rows with at least two unmasked entries; the other lanes zero. -/
def out6 (x0 x1 x2 x3 x4 : Vec F S64x8192 .f32) (x5 : Vec F S64x1 .f32) : Vec F S1x1x128 .f32 :=
  View.canon [⟨rC, k0_pay1 (k0_pay4 (View.ld x0 rA)) (k0_pay5 (View.ld x0 rA) (View.ld x1 rA) (View.ld x3 rA) (View.ld x5 rB))
    (k0_pay9 (View.ld x3 rA)) (k0_pay10 (View.ld x2 rA) (View.ld x3 rA) (View.ld x4 rA)) (k0_pay11 (View.ld x3 rA))⟩]

/-- One store of the whole block covers it. -/
theorem cover6 (p0 : Vec F S1x1x128 .f32) (y : S1x1x128.Idx) :
    ∃ pc ∈ ([⟨rC, p0⟩] : List (View.Piece (Elt F) S1x1x128 .f32)), y ∈ pc.1.set :=
  View.cover_of_tiled [⟨rC, p0⟩] S1x1x128.size (by rfl) y

/-- The column sums over the block's 64 rows of (first block × fourth block) / (row sum of the first + ε). -/
def out7 (x0 x3 : Vec F S64x8192 .f32) : Vec F S1x1x8192 .f32 :=
  View.canon [⟨rD, k0_pay2 (k0_pay7 (k0_pay6 (View.ld x0 rA) (View.ld x3 rA)))⟩]

/-- One store of the whole block covers it. -/
theorem cover7 (p0 : Vec F S1x1x8192 .f32) (y : S1x1x8192.Idx) :
    ∃ pc ∈ ([⟨rD, p0⟩] : List (View.Piece (Elt F) S1x1x8192 .f32)), y ∈ pc.1.set :=
  View.cover_of_tiled [⟨rD, p0⟩] S1x1x8192.size (by rfl) y

/-! ## The body's triple -/

set_option maxHeartbeats 1000000 in
/-- On whole staging memrefs, the inputs' at contents `x0 … x5` and the outputs' at anything, the body runs to
    its return holding the inputs' as they were and the outputs' at `out6` and `out7` of the inputs'. -/
theorem sound_kernel (c : Dev nD) (E : Set ℕ) (i : grid0.Coords)
    (arg1 : Memref sig .tc .vmem S64x8192 .f32) (harg1 : arg1.IsWhole) (arg2 : Memref sig .tc .vmem S64x8192 .f32) (harg2 : arg2.IsWhole)
    (arg3 : Memref sig .tc .vmem S64x8192 .f32) (harg3 : arg3.IsWhole) (arg4 : Memref sig .tc .vmem S64x8192 .f32) (harg4 : arg4.IsWhole)
    (arg5 : Memref sig .tc .vmem S64x8192 .f32) (harg5 : arg5.IsWhole) (arg6 : Memref sig .tc .vmem S64x1 .f32) (harg6 : arg6.IsWhole)
    (arg7 : Memref sig .tc .vmem S1x1x128 .f32) (harg7 : arg7.IsWhole) (arg8 : Memref sig .tc .vmem S1x1x8192 .f32) (harg8 : arg8.IsWhole)
    (x0 x1 x2 x3 x4 : Vec F S64x8192 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5) ∗ owns (c : Thread nD τ) arg8 fullShare (out7 x0 x3)) -∗ K ⟨⟩))
      ⊢ wp frame (wpE (defs₀ (F := F)) Variants.none c none) E (cc0__loss_kernel i arg1 harg1 arg2 harg2 arg3 harg3 arg4 harg4 arg5 harg5 arg6 harg6 arg7 harg7 arg8 harg8) K := by
  simp only [cc0__loss_kernel_eq_skeleton]; unfold cc0__loss_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _)
  iexists _; isplitr
  swap; · iexact H7
  ipureintro
  exact View.read_writes_eq_canon _ _ _ (cover7 _)

end Cert.KernelIdeal.KFrame

end
-- ==== Proof.KFrameIHost.lean ====
/-
  The host side of the program around its one kernel region: one reshape before it, ninety-seven scalar and
  vector operations after it (the partial sums added over the 64 tiles, normalised, combined with the
  statistics of the first argument into one scalar). What matters here is only bookkeeping: every operation
  writes its own fresh result buffer and nothing else, so none of them allocates, none writes an array the
  region stages, and none writes an argument.
-/
import proofs.«122764_j16621523435816_2_alg».proof.Proof.Gen.KernelIdeal.Launch
import Idealize.ShloMosaic.Lib.Pipeline.FrameSuffix

set_option maxRecDepth 16384

noncomputable section

namespace Cert.KernelIdeal.KFrame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each stretch of host operations writes -/

theorem hostOps0_fresh : (hostOps0 : List (HloOp τ sig (Elt F))).Forall fun op => op.fresh = ∅ := by
  simp only [List.Forall]; repeat' constructor
/-- The references `hostOps0`'s operations write: each its own result. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_fresh : (hostOps1 : List (HloOp τ sig (Elt F))).Forall fun op => op.fresh = ∅ := by
  simp only [List.Forall]; repeat' constructor
/-- The references `hostOps1`'s operations write: each its own result. -/
abbrev hostOps1_W : List (Ref sig .tc) := [main_cst, main_v2, main_v3, main_v4, main_v5, main_v6, main_v7, main_v8, main_v9, main_v10, main_v11, main_cst_0, main_v12, main_v13, main_v14, main_cst_1, main_v15, main_cst_2, main_v16, main_cst_3, main_v17, main_v18, main_cst_4, main_v19, main_cst_5, main_v20, main_v21, main_v22, main_cst_6, main_v23, main_v24, main_v25, main_v26, main_cst_7, main_v27, main_cst_8, main_v28, main_cst_9, main_v29, main_v30, main_cst_10]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_1_fresh : (hostOps1_1 : List (HloOp τ sig (Elt F))).Forall fun op => op.fresh = ∅ := by
  simp only [List.Forall]; repeat' constructor
/-- The references `hostOps1_1`'s operations write: each its own result. -/
abbrev hostOps1_1_W : List (Ref sig .tc) := [main_call0_v0, main_v31]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_2_fresh : (hostOps1_2 : List (HloOp τ sig (Elt F))).Forall fun op => op.fresh = ∅ := by
  simp only [List.Forall]; repeat' constructor
/-- The references `hostOps1_2`'s operations write: each its own result. -/
abbrev hostOps1_2_W : List (Ref sig .tc) := [main_cst_11, main_v32, main_cst_12, main_v33, main_v34, main_cst_13, main_v35, main_v36, main_cst_14, main_v37, main_v38, main_cst_15, main_v39, main_cst_16, main_v40, main_v41, main_c]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_3_fresh : (hostOps1_3 : List (HloOp τ sig (Elt F))).Forall fun op => op.fresh = ∅ := by
  simp only [List.Forall]; repeat' constructor
/-- The references `hostOps1_3`'s operations write: each its own result. -/
abbrev hostOps1_3_W : List (Ref sig .tc) := [main_call1_call0_cst, main_call1_call0_v0, main_call1_call0_v1, main_call1_call0_cst_0, main_call1_call0_v2, main_call1_call0_v3, main_call1_call0_v4, main_call1_call0_v5, main_call1_call0_v6, main_call1_call0_v7, main_call1_call0_cst_1, main_call1_call0_v8, main_call1_call0_cst_2, main_call1_call0_v9, main_call1_call0_v10, main_call1_call0_cst_3, main_call1_call0_v11, main_call1_call0_cst_4, main_call1_call0_call0_v0, main_call1_v0, main_v42]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_4_fresh : (hostOps1_4 : List (HloOp τ sig (Elt F))).Forall fun op => op.fresh = ∅ := by
  simp only [List.Forall]; repeat' constructor
/-- The references `hostOps1_4`'s operations write: each its own result. -/
abbrev hostOps1_4_W : List (Ref sig .tc) := [main_v43, main_cst_17, main_v44, main_v45, main_cst_18, main_cst_19]
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_5_fresh : (hostOps1_5 : List (HloOp τ sig (Elt F))).Forall fun op => op.fresh = ∅ := by
  simp only [List.Forall]; repeat' constructor
/-- The references `hostOps1_5`'s operations write: each its own result. -/
abbrev hostOps1_5_W : List (Ref sig .tc) := [main_call2_v0, main_call2_v1, main_call2_v2, main_v46]
theorem hostOps1_5_writes : (hostOps1_5 : List (HloOp τ sig (Elt F))).Forall fun op => op.writes ⊆ (hostOps1_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps1_6_fresh : (hostOps1_6 : List (HloOp τ sig (Elt F))).Forall fun op => op.fresh = ∅ := by
  simp only [List.Forall]; repeat' constructor
/-- The references `hostOps1_6`'s operations write: each its own result. -/
abbrev hostOps1_6_W : List (Ref sig .tc) := [main_cst_20, main_v47, main_cst_21, main_v48, main_v49, main_v50]
theorem hostOps1_6_writes : (hostOps1_6 : List (HloOp τ sig (Elt F))).Forall fun op => op.writes ⊆ (hostOps1_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The stretches after the region -/

/-- The host operations after the region, stretch by stretch, in order. -/
abbrev opsAfter : List (List (HloOp τ sig (Elt F))) := [hostOps1, hostOps1_1, hostOps1_2, hostOps1_3, hostOps1_4, hostOps1_5, hostOps1_6]

/-- Operations that write only references of a list holding no staged array write no staged array. -/
theorem keeps_of_writes {W : List (Ref sig .tc)} (ops : List (HloOp τ sig (Elt F)))
    (hW : ops.Forall fun op => op.writes ⊆ (W.map (Proc.devRef (τ := τ) .tc)).toFinset)
    (h : ∀ w, Pipeline.arrRef spec0 w ∉ W) :
    ∀ op ∈ ops, ∀ w, Proc.devRef (τ := τ) .tc (Pipeline.arrRef spec0 w) ∉ op.writes := by
  intro op hop w hb
  obtain ⟨y, hy, he⟩ := List.mem_map.mp (List.mem_toFinset.mp ((List.forall_iff_forall_mem.mp hW) op hop hb))
  exact h w (Proc.devRef_injective _ he ▸ hy)

/-- The operations after the region touch the staged arrays and the bypassing buffers only. -/
theorem sfx_sub : ∀ ops ∈ (opsAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (opsAfter : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- And write no array the region stages. -/
theorem sfx_keeps : ∀ ops ∈ (opsAfter : List (List (HloOp τ sig (Elt F)))), ∀ op ∈ ops,
    ∀ w, Proc.devRef (τ := τ) .tc (Pipeline.arrRef spec0 w) ∉ op.writes := by
  intro ops hops
  simp only [List.mem_cons, List.mem_nil_iff, or_false] at hops
  rcases hops with rfl | rfl | rfl | rfl | rfl | rfl | rfl
  · exact keeps_of_writes _ hostOps1_writes (by decide)
  · exact keeps_of_writes _ hostOps1_1_writes (by decide)
  · exact keeps_of_writes _ hostOps1_2_writes (by decide)
  · exact keeps_of_writes _ hostOps1_3_writes (by decide)
  · exact keeps_of_writes _ hostOps1_4_writes (by decide)
  · exact keeps_of_writes _ hostOps1_5_writes (by decide)
  · exact keeps_of_writes _ hostOps1_6_writes (by decide)

/-! ## The buffers' contents when the region is entered -/

variable (m : (ℓ : Loc nD τ sig) → Buf (Elt F) ℓ)

/-- Core `c`'s buffer contents when the region is entered: the launch contents after the one reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- A reference the reshape does not write is found by the region as launched. -/
theorem V_of (c : Dev nD) (r : Ref sig .tc) (h : r ∉ (hostOps0_W : List (Ref sig .tc))) : V m c r = m ((c : Thread nD τ).loc r) :=
  StableHlo.after_of_writes_sub (hostOps0 : List (HloOp τ sig (Elt F))) _ hostOps0_writes h

/-- @main reduces to the region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opsAfter : List (List (HloOp τ sig (Elt F)))).map StableHlo.seq)) :=
  Pipeline.hmain_around cfgs 0 defs₀ 𝒱₀ m main [hostOps0] opsAfter (by simp only [List.Forall]; exact hostOps0_sub)
    (by simp only [List.Forall]; exact hostOps0_fresh) main_chain

/-! ## What the later operations leave unchanged -/

/-- A reference none of the later operations writes keeps through them what it held at the region's exit. -/
theorem tail_of (X : Valuation τ sig (Elt F)) (r : Ref sig .tc)
    (h0 : r ∉ (hostOps1_W : List (Ref sig .tc)))
    (h1 : r ∉ (hostOps1_1_W : List (Ref sig .tc)))
    (h2 : r ∉ (hostOps1_2_W : List (Ref sig .tc)))
    (h3 : r ∉ (hostOps1_3_W : List (Ref sig .tc)))
    (h4 : r ∉ (hostOps1_4_W : List (Ref sig .tc)))
    (h5 : r ∉ (hostOps1_5_W : List (Ref sig .tc)))
    (h6 : r ∉ (hostOps1_6_W : List (Ref sig .tc))) :
    StableHlo.after (opsAfter : List (List (HloOp τ sig (Elt F)))).flatten X (Proc.devRef .tc r) = X (Proc.devRef .tc r) := by
  simp only [List.flatten_cons, List.flatten_nil, List.append_nil, StableHlo.after_append]
  rw [StableHlo.after_of_writes_sub hostOps1_6 _ hostOps1_6_writes h6,
    StableHlo.after_of_writes_sub hostOps1_5 _ hostOps1_5_writes h5,
    StableHlo.after_of_writes_sub hostOps1_4 _ hostOps1_4_writes h4,
    StableHlo.after_of_writes_sub hostOps1_3 _ hostOps1_3_writes h3,
    StableHlo.after_of_writes_sub hostOps1_2 _ hostOps1_2_writes h2,
    StableHlo.after_of_writes_sub hostOps1_1 _ hostOps1_1_writes h1,
    StableHlo.after_of_writes_sub hostOps1 _ hostOps1_writes h0]

end Cert.KernelIdeal.KFrame

end
-- ==== Proof.KFrameIData.lean ====
/-
  The proof data of the kernel region and its body obligation.

  At grid point `t` every input window's staging buffer holds that window's block of its array (row tile `t`:
  rows 64·t … 64·t+63), fetched at every point; after the body the inputs' buffers hold the same blocks and the
  two outputs' buffers hold the packed partial sums and the column sums of THAT tile's blocks — nothing is
  carried from one point to the next. The invariant between points is the scoped rest and the generator
  register, untouched; nothing is owed to another core.
-/
import proofs.«122764_j16621523435816_2_alg».proof.Proof.KFrameIKernel
import proofs.«122764_j16621523435816_2_alg».proof.Proof.KFrameIHost
import proofs.«122764_j16621523435816_2_alg».proof.Proof.Gen.KernelIdeal.Points

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is the
    region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is the
    region-entry one and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is the
    region-entry one and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data whose array is the
    region-entry one and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data whose array is the
    region-entry one and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, for any proof data whose array is the
    region-entry one and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and each
    output's at the body's result on the input blocks of that point; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t = out7 (iblk m c 0 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.KFrame

end
-- ==== Proof.KFrameIRun.lean ====
/-
  The run of the whole program: the reshape, the kernel region over its 64 grid points, the later host operations.
  Every weakly fair execution terminates without a fault; at the end each staged array holds what the pipeline
  writes back (an input: what it held; an output: tile by tile the body's result on that tile's input blocks), and
  every other buffer holds what the later operations compute from those arrays and the launch contents.
-/
import proofs.«122764_j16621523435816_2_alg».proof.Proof.KFrameIData

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (Pipeline.afterTail₀ cfgs (dats m) 0 (V0 m) opsAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opsAfter) (hsub := sfx_sub) (hfresh := sfx_fresh) (hkeep := sfx_keeps)
    (hmain := hmain m Variants.none) (hA := A_eq m) (hΦ := fun _ _ => rfl)

/-- info: 'Cert.KernelIdeal.KFrame.run_main' depends on axioms: [propext, Classical.choice, Quot.sound] -/
#guard_msgs in #print axioms run_main

end Cert.KernelIdeal.KFrame

end
-- ==== Proof.KFrameI.lean ====
/-
  The frame: the program runs to its end without a fault and leaves its six argument arrays as launched.
  The five 4096×8192 arguments are arrays the region stages as inputs (the pipeline only reads them, and no host
  operation writes them); the first argument is staged only through its reshaped copy and is written by nothing.
-/
import proofs.«122764_j16621523435816_2_alg».proof.Defs
import proofs.«122764_j16621523435816_2_alg».proof.Proof.Gen.Pre_finite_inputs
import proofs.«122764_j16621523435816_2_alg».proof.Proof.KFrameIRun

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A reference that is no staged array and that no host operation writes ends as launched. -/
theorem W_of (dats : (p : Fin 1) → (c : Dev nD) → Dat τ (Elt F) Unit ℕ (UR sig nD τ) ℕ (cfgs p) c) (c : Dev nD) (r : Ref sig .tc)
    (hr : ∀ w, Pipeline.arrRef spec0 w ≠ r) (h : r ∉ (hostOps0_W : List (Ref sig .tc)))
    (h0 : r ∉ (hostOps1_W : List (Ref sig .tc)))
    (h1 : r ∉ (hostOps1_1_W : List (Ref sig .tc)))
    (h2 : r ∉ (hostOps1_2_W : List (Ref sig .tc)))
    (h3 : r ∉ (hostOps1_3_W : List (Ref sig .tc)))
    (h4 : r ∉ (hostOps1_4_W : List (Ref sig .tc)))
    (h5 : r ∉ (hostOps1_5_W : List (Ref sig .tc)))
    (h6 : r ∉ (hostOps1_6_W : List (Ref sig .tc))) :
    Pipeline.afterTail₀ cfgs dats 0 (V0 m) opsAfter c r = m ((c : Thread nD τ).loc r) := by
  unfold Pipeline.afterTail₀
  rw [tail_of _ r h0 h1 h2 h3 h4 h5 h6, Pipeline.withArrays_of_ne _ c (V0 m c) _ r hr]
  exact V_of m c r h

/-- The frame claim's post from the run's: a staged input is read back as the array the region found, which the one
    earlier reshape did not write; the first argument bypasses the region and no later operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) opsAfter))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans
        (W_of m dats c main_arg0 (by decide) (by decide) (by decide) (by decide) (by decide) (by decide) (by decide) (by decide) (by decide)),
     ((h c).1 0).trans (((dats 0 c).arrAt_in 0 rfl _).trans ((hA c 0).trans (V_of m c main_arg1 (by decide)))),
     ((h c).1 1).trans (((dats 0 c).arrAt_in 1 rfl _).trans ((hA c 1).trans (V_of m c main_arg2 (by decide)))),
     ((h c).1 2).trans (((dats 0 c).arrAt_in 2 rfl _).trans ((hA c 2).trans (V_of m c main_arg3 (by decide)))),
     ((h c).1 3).trans (((dats 0 c).arrAt_in 3 rfl _).trans ((hA c 3).trans (V_of m c main_arg4 (by decide)))),
     ((h c).1 4).trans (((dats 0 c).arrAt_in 4 rfl _).trans ((hA c 4).trans (V_of m c main_arg5 (by decide))))⟩) h

/-- The program's frame at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim of the idealized kernel program. -/
theorem frame_ki : Cert.frame_KernelIdeal := fun m ρ _ => frame (F := Ideal) m ρ

/-- info: 'Cert.KernelIdeal.KFrame.frame_ki' depends on axioms: [propext, Classical.choice, Quot.sound] -/
#guard_msgs in #print axioms frame_ki

end Cert.KernelIdeal.KFrame

end
-- ==== Proof.RefRunOps0.lean ====
/- The reference's host operations 1 … 83 as a list: the statements of the program's part 0 in order, each
   called function's operations standing in its call's place over that call's own buffers. -/
import proofs.«122764_j16621523435816_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of part 0, in order. -/
abbrev ops0 : List (HloOp τ sig (Elt F)) :=
  [ nullary main_cst (constant S_ .f32 0x00000000#32),
    binary main_arg0 main_cst main_v0 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_0 (constant S_ .f32 0x45800000#32),
    binary main_v0 main_cst_0 main_v1 (Host.divf : (⟨S_, .f32⟩ : BufTy).Contents (Elt F) → (⟨S_, .f32⟩ : BufTy).Contents (Elt F) → (⟨S_, .f32⟩ : BufTy).Contents (Elt F)),
    unary main_v1 main_v2 (Host.negf : (⟨S_, .f32⟩ : BufTy).Contents (Elt F) → (⟨S_, .f32⟩ : BufTy).Contents (Elt F)),
    nullary main_c (constantI S_ 32 1#32),
    TRef.nullary (TRef.of (T := ⟨S_, .f32⟩) main_call0_call0_cst) (constant S_ .f32 0x00000000#32),
    TRef.binary (TRef.of (T := ⟨S4096, .f32⟩) main_arg0) (TRef.of (T := ⟨S_, .f32⟩) main_call0_call0_cst) (TRef.of (T := ⟨S_, .f32⟩) main_call0_call0_v0) (fun x v => Host.reduceAdd x v reducesTo_S4096_S_d0 h_S_),
    TRef.unary (TRef.of (T := ⟨S_, .f32⟩) main_call0_call0_v0) (TRef.of (T := ⟨S1, .f32⟩) main_call0_call0_v1) (broadcastInDim S1 ![] bcast_S_S1),
    TRef.nullary (TRef.of (T := ⟨S_, .f32⟩) main_call0_call0_cst_0) (constant S_ .f32 0x45800000#32),
    TRef.unary (TRef.of (T := ⟨S_, .f32⟩) main_call0_call0_cst_0) (TRef.of (T := ⟨S1, .f32⟩) main_call0_call0_v2) (broadcastInDim S1 ![] bcast_S_S1),
    TRef.binary (TRef.of (T := ⟨S1, .f32⟩) main_call0_call0_v1) (TRef.of (T := ⟨S1, .f32⟩) main_call0_call0_v2) (TRef.of (T := ⟨S1, .f32⟩) main_call0_call0_v3) Host.divf,
    TRef.unary (TRef.of (T := ⟨S1, .f32⟩) main_call0_call0_v3) (TRef.of (T := ⟨S4096, .f32⟩) main_call0_call0_v4) (broadcastInDim S4096 ![0] bcast_S1_S4096_0),
    TRef.binary (TRef.of (T := ⟨S4096, .f32⟩) main_arg0) (TRef.of (T := ⟨S4096, .f32⟩) main_call0_call0_v4) (TRef.of (T := ⟨S4096, .f32⟩) main_call0_call0_v5) subf,
    TRef.binary (TRef.of (T := ⟨S4096, .f32⟩) main_call0_call0_v5) (TRef.of (T := ⟨S4096, .f32⟩) main_call0_call0_v5) (TRef.of (T := ⟨S4096, .f32⟩) main_call0_call0_v6) mulf,
    TRef.unary (TRef.of (T := ⟨S_, .i32⟩) main_c) (TRef.of (T := ⟨S_, .f32⟩) main_call0_call0_v7) (sitofp .f32),
    TRef.nullary (TRef.of (T := ⟨S_, .f32⟩) main_call0_call0_cst_1) (constant S_ .f32 0x45800000#32),
    TRef.binary (TRef.of (T := ⟨S_, .f32⟩) main_call0_call0_cst_1) (TRef.of (T := ⟨S_, .f32⟩) main_call0_call0_v7) (TRef.of (T := ⟨S_, .f32⟩) main_call0_call0_v8) subf,
    TRef.nullary (TRef.of (T := ⟨S_, .f32⟩) main_call0_call0_cst_2) (constant S_ .f32 0x00000000#32),
    TRef.binary (TRef.of (T := ⟨S4096, .f32⟩) main_call0_call0_v6) (TRef.of (T := ⟨S_, .f32⟩) main_call0_call0_cst_2) (TRef.of (T := ⟨S_, .f32⟩) main_call0_call0_v9) (fun x v => Host.reduceAdd x v reducesTo_S4096_S_d0 h_S_),
    TRef.binary (TRef.of (T := ⟨S_, .f32⟩) main_call0_call0_v9) (TRef.of (T := ⟨S_, .f32⟩) main_call0_call0_v8) (TRef.of (T := ⟨S_, .f32⟩) main_call0_call0_v10) Host.divf,
    TRef.nullary (TRef.of (T := ⟨S_, .f32⟩) main_call0_call0_cst_3) (constant S_ .f32 0x00000000#32),
    TRef.binary (TRef.of (T := ⟨S_, .f32⟩) main_call0_call0_v8) (TRef.of (T := ⟨S_, .f32⟩) main_call0_call0_cst_3) (TRef.of (T := ⟨S_, .i1⟩) main_call0_call0_v11) (cmpf .ogt),
    TRef.nullary (TRef.of (T := ⟨S_, .f32⟩) main_call0_call0_cst_4) (constant S_ .f32 0x7FC00000#32),
    TRef.unary (TRef.of (T := ⟨S_, .f32⟩) main_call0_call0_cst_4) (TRef.of (T := ⟨S_, .f32⟩) main_call0_call0_call0_v0) id,
    TRef.ternary (TRef.of (T := ⟨S_, .i1⟩) main_call0_call0_v11) (TRef.of (T := ⟨S_, .f32⟩) main_call0_call0_v10) (TRef.of (T := ⟨S_, .f32⟩) main_call0_call0_call0_v0) (TRef.of (T := ⟨S_, .f32⟩) main_call0_v0) select,
    TRef.unary (TRef.of (T := ⟨S_, .f32⟩) main_call0_v0) (TRef.of (T := ⟨S_, .f32⟩) main_v3) Host.sqrt,
    unary main_v1 main_v4 (Host.negf : (⟨S_, .f32⟩ : BufTy).Contents (Elt F) → (⟨S_, .f32⟩ : BufTy).Contents (Elt F)),
    nullary main_cst_1 (constant S_ .f32 0x3C23D70A#32),
    binary main_v3 main_cst_1 main_v5 (addf : (⟨S_, .f32⟩ : BufTy).Contents (Elt F) → (⟨S_, .f32⟩ : BufTy).Contents (Elt F) → (⟨S_, .f32⟩ : BufTy).Contents (Elt F)),
    binary main_v4 main_v5 main_v6 (Host.divf : (⟨S_, .f32⟩ : BufTy).Contents (Elt F) → (⟨S_, .f32⟩ : BufTy).Contents (Elt F) → (⟨S_, .f32⟩ : BufTy).Contents (Elt F)),
    nullary main_cst_2 (constant S_ .f32 0xC1200000#32),
    nullary main_cst_3 (constant S_ .f32 0x41200000#32),
    TRef.unary (TRef.of (T := ⟨S_, .f32⟩) main_cst_2) (TRef.of (T := ⟨S_, .f32⟩) main_call1_v0) id,
    TRef.binary (TRef.of (T := ⟨S_, .f32⟩) main_call1_v0) (TRef.of (T := ⟨S_, .f32⟩) main_v6) (TRef.of (T := ⟨S_, .f32⟩) main_call1_v1) maximumf,
    TRef.unary (TRef.of (T := ⟨S_, .f32⟩) main_cst_3) (TRef.of (T := ⟨S_, .f32⟩) main_call1_v2) id,
    TRef.binary (TRef.of (T := ⟨S_, .f32⟩) main_call1_v2) (TRef.of (T := ⟨S_, .f32⟩) main_call1_v1) (TRef.of (T := ⟨S_, .f32⟩) main_v7) minimumf,
    nullary main_cst_4 (constant S_ .f32 0x322BCC77#32),
    unary main_cst_4 main_v8 (broadcastInDim S4096x8192 ![] bcast_S_S4096x8192 : (⟨S_, .f32⟩ : BufTy).Contents (Elt F) → (⟨S4096x8192, .f32⟩ : BufTy).Contents (Elt F)),
    binary main_arg1 main_v8 main_v9 (addf : (⟨S4096x8192, .f32⟩ : BufTy).Contents (Elt F) → (⟨S4096x8192, .f32⟩ : BufTy).Contents (Elt F) → (⟨S4096x8192, .f32⟩ : BufTy).Contents (Elt F)),
    unary main_v9 main_v10 (Host.log : (⟨S4096x8192, .f32⟩ : BufTy).Contents (Elt F) → (⟨S4096x8192, .f32⟩ : BufTy).Contents (Elt F)),
    binary main_arg1 main_v10 main_v11 (mulf : (⟨S4096x8192, .f32⟩ : BufTy).Contents (Elt F) → (⟨S4096x8192, .f32⟩ : BufTy).Contents (Elt F) → (⟨S4096x8192, .f32⟩ : BufTy).Contents (Elt F)),
    nullary main_cst_5 (constant S_ .f32 0x00000000#32),
    binary main_v11 main_cst_5 main_v12 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_6 (constant S_ .f32 0x00000000#32),
    binary main_v12 main_cst_6 main_v13 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_7 (constant S_ .f32 0x45800000#32),
    binary main_v13 main_cst_7 main_v14 (Host.divf : (⟨S_, .f32⟩ : BufTy).Contents (Elt F) → (⟨S_, .f32⟩ : BufTy).Contents (Elt F) → (⟨S_, .f32⟩ : BufTy).Contents (Elt F)),
    unary main_v14 main_v15 (Host.negf : (⟨S_, .f32⟩ : BufTy).Contents (Elt F) → (⟨S_, .f32⟩ : BufTy).Contents (Elt F)),
    binary main_arg1 main_arg2 main_v16 (mulf : (⟨S4096x8192, .f32⟩ : BufTy).Contents (Elt F) → (⟨S4096x8192, .f32⟩ : BufTy).Contents (Elt F) → (⟨S4096x8192, .f32⟩ : BufTy).Contents (Elt F)),
    binary main_v16 main_arg4 main_v17 (mulf : (⟨S4096x8192, .f32⟩ : BufTy).Contents (Elt F) → (⟨S4096x8192, .f32⟩ : BufTy).Contents (Elt F) → (⟨S4096x8192, .f32⟩ : BufTy).Contents (Elt F)),
    nullary main_cst_8 (constant S_ .f32 0x00000000#32),
    binary main_v17 main_cst_8 main_v18 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    binary main_arg1 main_arg4 main_v19 (mulf : (⟨S4096x8192, .f32⟩ : BufTy).Contents (Elt F) → (⟨S4096x8192, .f32⟩ : BufTy).Contents (Elt F) → (⟨S4096x8192, .f32⟩ : BufTy).Contents (Elt F)),
    nullary main_cst_9 (constant S_ .f32 0x00000000#32),
    binary main_v19 main_cst_9 main_v20 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_10 (constant S_ .f32 0x322BCC77#32),
    unary main_cst_10 main_v21 (broadcastInDim S4096 ![] bcast_S_S4096 : (⟨S_, .f32⟩ : BufTy).Contents (Elt F) → (⟨S4096, .f32⟩ : BufTy).Contents (Elt F)),
    binary main_v20 main_v21 main_v22 (addf : (⟨S4096, .f32⟩ : BufTy).Contents (Elt F) → (⟨S4096, .f32⟩ : BufTy).Contents (Elt F) → (⟨S4096, .f32⟩ : BufTy).Contents (Elt F)),
    binary main_v18 main_v22 main_v23 (Host.divf : (⟨S4096, .f32⟩ : BufTy).Contents (Elt F) → (⟨S4096, .f32⟩ : BufTy).Contents (Elt F) → (⟨S4096, .f32⟩ : BufTy).Contents (Elt F)),
    nullary main_cst_11 (constant S_ .f32 0x42480000#32),
    unary main_cst_11 main_v24 (broadcastInDim S4096 ![] bcast_S_S4096 : (⟨S_, .f32⟩ : BufTy).Contents (Elt F) → (⟨S4096, .f32⟩ : BufTy).Contents (Elt F)),
    binary main_arg0 main_v24 main_v25 (mulf : (⟨S4096, .f32⟩ : BufTy).Contents (Elt F) → (⟨S4096, .f32⟩ : BufTy).Contents (Elt F) → (⟨S4096, .f32⟩ : BufTy).Contents (Elt F)),
    unary main_v25 main_v26 (Host.negf : (⟨S4096, .f32⟩ : BufTy).Contents (Elt F) → (⟨S4096, .f32⟩ : BufTy).Contents (Elt F)),
    unary main_v26 main_v27 (Host.exp : (⟨S4096, .f32⟩ : BufTy).Contents (Elt F) → (⟨S4096, .f32⟩ : BufTy).Contents (Elt F)),
    nullary main_cst_12 (constant S_ .f32 0x3F800000#32),
    unary main_cst_12 main_v28 (broadcastInDim S4096 ![] bcast_S_S4096 : (⟨S_, .f32⟩ : BufTy).Contents (Elt F) → (⟨S4096, .f32⟩ : BufTy).Contents (Elt F)),
    binary main_v28 main_v27 main_v29 (addf : (⟨S4096, .f32⟩ : BufTy).Contents (Elt F) → (⟨S4096, .f32⟩ : BufTy).Contents (Elt F) → (⟨S4096, .f32⟩ : BufTy).Contents (Elt F)),
    nullary main_cst_13 (constant S_ .f32 0x3F800000#32),
    unary main_cst_13 main_v30 (broadcastInDim S4096 ![] bcast_S_S4096 : (⟨S_, .f32⟩ : BufTy).Contents (Elt F) → (⟨S4096, .f32⟩ : BufTy).Contents (Elt F)),
    binary main_v30 main_v29 main_v31 (Host.divf : (⟨S4096, .f32⟩ : BufTy).Contents (Elt F) → (⟨S4096, .f32⟩ : BufTy).Contents (Elt F) → (⟨S4096, .f32⟩ : BufTy).Contents (Elt F)),
    binary main_v23 main_v31 main_v32 (subf : (⟨S4096, .f32⟩ : BufTy).Contents (Elt F) → (⟨S4096, .f32⟩ : BufTy).Contents (Elt F) → (⟨S4096, .f32⟩ : BufTy).Contents (Elt F)),
    binary main_v32 main_v32 main_v33 (mulf : (⟨S4096, .f32⟩ : BufTy).Contents (Elt F) → (⟨S4096, .f32⟩ : BufTy).Contents (Elt F) → (⟨S4096, .f32⟩ : BufTy).Contents (Elt F)),
    nullary main_cst_14 (constant S_ .f32 0x00000000#32),
    binary main_v33 main_cst_14 main_v34 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_15 (constant S_ .f32 0x45800000#32),
    binary main_v34 main_cst_15 main_v35 (Host.divf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_arg1 main_cst_16 main_v36 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v36 main_v37 (broadcastInDim S4096x1 ![0] bcast_S4096_S4096x1_0 : (⟨S4096, .f32⟩ : BufTy).Contents (Elt F) → (⟨S4096x1, .f32⟩ : BufTy).Contents (Elt F)),
    nullary main_cst_17 (constant S_ .f32 0x322BCC77#32),
    unary main_cst_17 main_v38 (broadcastInDim S4096x1 ![] bcast_S_S4096x1 : (⟨S_, .f32⟩ : BufTy).Contents (Elt F) → (⟨S4096x1, .f32⟩ : BufTy).Contents (Elt F)),
    binary main_v37 main_v38 main_v39 (addf : (⟨S4096x1, .f32⟩ : BufTy).Contents (Elt F) → (⟨S4096x1, .f32⟩ : BufTy).Contents (Elt F) → (⟨S4096x1, .f32⟩ : BufTy).Contents (Elt F)) ]

/-- The buffers those operations write, in order. -/
abbrev W0 : List (Ref sig .tc) :=
  [main_cst, main_v0, main_cst_0, main_v1, main_v2, main_c, main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_cst_3, main_call0_call0_v11, main_call0_call0_cst_4, main_call0_call0_call0_v0, main_call0_v0, main_v3, main_v4, main_cst_1, main_v5, main_v6, main_cst_2, main_cst_3, main_call1_v0, main_call1_v1, main_call1_v2, main_v7, main_cst_4, main_v8, main_v9, main_v10, main_v11, main_cst_5, main_v12, main_cst_6, main_v13, main_cst_7, main_v14, main_v15, main_v16, main_v17, main_cst_8, main_v18, main_v19, main_cst_9, main_v20, main_cst_10, main_v21, main_v22, main_v23, main_cst_11, main_v24, main_v25, main_v26, main_v27, main_cst_12, main_v28, main_v29, main_cst_13, main_v30, main_v31, main_v32, main_v33, main_cst_14, main_v34, main_cst_15, main_v35, main_cst_16, main_v36, main_v37, main_cst_17, main_v38, main_v39]

set_option maxRecDepth 8192 in
set_option maxHeartbeats 4000000 in
/-- Part 0 of the program is the straight line of those operations. -/
theorem main_part0_eq (c : Dev nD) : main_part0 (F := F) c = seq ops0 := rfl

end Cert.ReferenceIdeal.RefRun

end
-- ==== Proof.RefRunOps1.lean ====
/- The reference's host operations of part 1 as a list: the statements of the program's part 1 in order, each
   called function's operations standing in its call's place over that call's own buffers. -/
import proofs.«122764_j16621523435816_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of part 1, in order. -/
abbrev ops1 : List (HloOp τ sig (Elt F)) :=
  [ unary main_v39 main_v40 (broadcastInDim S4096x8192 ![0, 1] bcast_S4096x1_S4096x8192_0_1 : (⟨S4096x1, .f32⟩ : BufTy).Contents (Elt F) → (⟨S4096x8192, .f32⟩ : BufTy).Contents (Elt F)),
    binary main_arg1 main_v40 main_v41 (Host.divf : (⟨S4096x8192, .f32⟩ : BufTy).Contents (Elt F) → (⟨S4096x8192, .f32⟩ : BufTy).Contents (Elt F) → (⟨S4096x8192, .f32⟩ : BufTy).Contents (Elt F)),
    binary main_v41 main_arg4 main_v42 (mulf : (⟨S4096x8192, .f32⟩ : BufTy).Contents (Elt F) → (⟨S4096x8192, .f32⟩ : BufTy).Contents (Elt F) → (⟨S4096x8192, .f32⟩ : BufTy).Contents (Elt F)),
    nullary main_cst_18 (constant S_ .f32 0x00000000#32),
    binary main_v42 main_cst_18 main_v43 ((fun x v => Host.reduceAdd x v reducesTo_S4096x8192_S8192_d0 h_S_) : (⟨S4096x8192, .f32⟩ : BufTy).Contents (Elt F) → (⟨S_, .f32⟩ : BufTy).Contents (Elt F) → (⟨S8192, .f32⟩ : BufTy).Contents (Elt F)),
    nullary main_cst_19 (constant S_ .f32 0x45800000#32),
    unary main_cst_19 main_v44 (broadcastInDim S8192 ![] bcast_S_S8192 : (⟨S_, .f32⟩ : BufTy).Contents (Elt F) → (⟨S8192, .f32⟩ : BufTy).Contents (Elt F)),
    binary main_v43 main_v44 main_v45 (Host.divf : (⟨S8192, .f32⟩ : BufTy).Contents (Elt F) → (⟨S8192, .f32⟩ : BufTy).Contents (Elt F) → (⟨S8192, .f32⟩ : BufTy).Contents (Elt F)),
    nullary main_cst_20 (constant S_ .f32 0x00000000#32),
    binary main_v45 main_cst_20 main_v46 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_21 (constant S_ .f32 0x322BCC77#32),
    binary main_v46 main_cst_21 main_v47 (addf : (⟨S_, .f32⟩ : BufTy).Contents (Elt F) → (⟨S_, .f32⟩ : BufTy).Contents (Elt F) → (⟨S_, .f32⟩ : BufTy).Contents (Elt F)),
    unary main_v47 main_v48 (broadcastInDim S8192 ![] bcast_S_S8192 : (⟨S_, .f32⟩ : BufTy).Contents (Elt F) → (⟨S8192, .f32⟩ : BufTy).Contents (Elt F)),
    binary main_v45 main_v48 main_v49 (Host.divf : (⟨S8192, .f32⟩ : BufTy).Contents (Elt F) → (⟨S8192, .f32⟩ : BufTy).Contents (Elt F) → (⟨S8192, .f32⟩ : BufTy).Contents (Elt F)),
    nullary main_cst_22 (constant S_ .f32 0x322BCC77#32),
    unary main_cst_22 main_v50 (broadcastInDim S8192 ![] bcast_S_S8192 : (⟨S_, .f32⟩ : BufTy).Contents (Elt F) → (⟨S8192, .f32⟩ : BufTy).Contents (Elt F)),
    binary main_v49 main_v50 main_v51 (addf : (⟨S8192, .f32⟩ : BufTy).Contents (Elt F) → (⟨S8192, .f32⟩ : BufTy).Contents (Elt F) → (⟨S8192, .f32⟩ : BufTy).Contents (Elt F)),
    unary main_v51 main_v52 (Host.log : (⟨S8192, .f32⟩ : BufTy).Contents (Elt F) → (⟨S8192, .f32⟩ : BufTy).Contents (Elt F)),
    binary main_v49 main_v52 main_v53 (mulf : (⟨S8192, .f32⟩ : BufTy).Contents (Elt F) → (⟨S8192, .f32⟩ : BufTy).Contents (Elt F) → (⟨S8192, .f32⟩ : BufTy).Contents (Elt F)),
    nullary main_cst_23 (constant S_ .f32 0x00000000#32),
    binary main_v53 main_cst_23 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v54 main_v55 (Host.negf : (⟨S_, .f32⟩ : BufTy).Contents (Elt F) → (⟨S_, .f32⟩ : BufTy).Contents (Elt F)),
    unary main_v55 main_v56 (Host.negf : (⟨S_, .f32⟩ : BufTy).Contents (Elt F) → (⟨S_, .f32⟩ : BufTy).Contents (Elt F)),
    nullary main_cst_24 (constant S_ .f32 0x00000000#32),
    unary main_cst_24 main_v57 (broadcastInDim S4096x8192 ![] bcast_S_S4096x8192 : (⟨S_, .f32⟩ : BufTy).Contents (Elt F) → (⟨S4096x8192, .f32⟩ : BufTy).Contents (Elt F)),
    binary main_arg4 main_v57 main_v58 (cmpf .ogt : (⟨S4096x8192, .f32⟩ : BufTy).Contents (Elt F) → (⟨S4096x8192, .f32⟩ : BufTy).Contents (Elt F) → (⟨S4096x8192, .i1⟩ : BufTy).Contents (Elt F)),
    unary main_v58 main_v59 ((extui 32 · natLt_1_32) : (⟨S4096x8192, .i1⟩ : BufTy).Contents (Elt F) → (⟨S4096x8192, .i32⟩ : BufTy).Contents (Elt F)),
    nullary main_c_25 (constantI S_ 32 0#32),
    binary main_v59 main_c_25 main_v60 ((fun x v => Host.reduce IntOp.addi x v reducesTo_S4096x8192_S4096_d1 h_S_) : (⟨S4096x8192, .i32⟩ : BufTy).Contents (Elt F) → (⟨S_, .i32⟩ : BufTy).Contents (Elt F) → (⟨S4096, .i32⟩ : BufTy).Contents (Elt F)),
    nullary main_cst_26 (constant S_ .f32 0x41A00000#32),
    unary main_cst_26 main_v61 (broadcastInDim S4096x8192 ![] bcast_S_S4096x8192 : (⟨S_, .f32⟩ : BufTy).Contents (Elt F) → (⟨S4096x8192, .f32⟩ : BufTy).Contents (Elt F)),
    binary main_arg3 main_v61 main_v62 (mulf : (⟨S4096x8192, .f32⟩ : BufTy).Contents (Elt F) → (⟨S4096x8192, .f32⟩ : BufTy).Contents (Elt F) → (⟨S4096x8192, .f32⟩ : BufTy).Contents (Elt F)),
    nullary main_cst_27 (constant S_ .f32 0xF149F2CA#32),
    TRef.unary (TRef.of (T := ⟨S_, .f32⟩) main_cst_27) (TRef.of (T := ⟨S_, .f32⟩) main_call2_v0) id,
    TRef.unary (TRef.of (T := ⟨S_, .f32⟩) main_call2_v0) (TRef.of (T := ⟨S4096x8192, .f32⟩) main_call2_v1) (broadcastInDim S4096x8192 ![] bcast_S_S4096x8192),
    TRef.ternary (TRef.of (T := ⟨S4096x8192, .i1⟩) main_v58) (TRef.of (T := ⟨S4096x8192, .f32⟩) main_v62) (TRef.of (T := ⟨S4096x8192, .f32⟩) main_call2_v1) (TRef.of (T := ⟨S4096x8192, .f32⟩) main_v63) select,
    nullary main_cst_28 (constant S_ .f32 0xFF800000#32),
    binary main_v63 main_cst_28 main_v64 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_29 (constant S_ .f32 0xFF800000#32),
    unary main_cst_29 main_v65 (broadcastInDim S4096 ![] bcast_S_S4096 : (⟨S_, .f32⟩ : BufTy).Contents (Elt F) → (⟨S4096, .f32⟩ : BufTy).Contents (Elt F)),
    binary main_v65 main_v64 main_v66 (maximumf : (⟨S4096, .f32⟩ : BufTy).Contents (Elt F) → (⟨S4096, .f32⟩ : BufTy).Contents (Elt F) → (⟨S4096, .f32⟩ : BufTy).Contents (Elt F)),
    unary main_v66 main_v67 (broadcastInDim S4096x1 ![0] bcast_S4096_S4096x1_0 : (⟨S4096, .f32⟩ : BufTy).Contents (Elt F) → (⟨S4096x1, .f32⟩ : BufTy).Contents (Elt F)),
    unary main_v67 main_v68 (broadcastInDim S4096x8192 ![0, 1] bcast_S4096x1_S4096x8192_0_1 : (⟨S4096x1, .f32⟩ : BufTy).Contents (Elt F) → (⟨S4096x8192, .f32⟩ : BufTy).Contents (Elt F)),
    binary main_v63 main_v68 main_v69 (subf : (⟨S4096x8192, .f32⟩ : BufTy).Contents (Elt F) → (⟨S4096x8192, .f32⟩ : BufTy).Contents (Elt F) → (⟨S4096x8192, .f32⟩ : BufTy).Contents (Elt F)),
    unary main_v69 main_v70 (Host.exp : (⟨S4096x8192, .f32⟩ : BufTy).Contents (Elt F) → (⟨S4096x8192, .f32⟩ : BufTy).Contents (Elt F)),
    nullary main_cst_30 (constant S_ .f32 0x00000000#32),
    binary main_v70 main_cst_30 main_v71 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v71 main_v72 (broadcastInDim S4096x1 ![0] bcast_S4096_S4096x1_0 : (⟨S4096, .f32⟩ : BufTy).Contents (Elt F) → (⟨S4096x1, .f32⟩ : BufTy).Contents (Elt F)),
    unary main_v72 main_v73 (broadcastInDim S4096x8192 ![0, 1] bcast_S4096x1_S4096x8192_0_1 : (⟨S4096x1, .f32⟩ : BufTy).Contents (Elt F) → (⟨S4096x8192, .f32⟩ : BufTy).Contents (Elt F)),
    binary main_v70 main_v73 main_v74 (Host.divf : (⟨S4096x8192, .f32⟩ : BufTy).Contents (Elt F) → (⟨S4096x8192, .f32⟩ : BufTy).Contents (Elt F) → (⟨S4096x8192, .f32⟩ : BufTy).Contents (Elt F)),
    nullary main_cst_31 (constant S_ .f32 0xF149F2CA#32),
    TRef.unary (TRef.of (T := ⟨S_, .f32⟩) main_cst_31) (TRef.of (T := ⟨S_, .f32⟩) main_call3_v0) id,
    TRef.unary (TRef.of (T := ⟨S_, .f32⟩) main_call3_v0) (TRef.of (T := ⟨S4096x8192, .f32⟩) main_call3_v1) (broadcastInDim S4096x8192 ![] bcast_S_S4096x8192),
    TRef.ternary (TRef.of (T := ⟨S4096x8192, .i1⟩) main_v58) (TRef.of (T := ⟨S4096x8192, .f32⟩) main_arg5) (TRef.of (T := ⟨S4096x8192, .f32⟩) main_call3_v1) (TRef.of (T := ⟨S4096x8192, .f32⟩) main_v75) select,
    TRef.nullary (TRef.of (T := ⟨S_, .f32⟩) main_call4_cst) (constant S_ .f32 0xFF800000#32),
    TRef.binary (TRef.of (T := ⟨S4096x8192, .f32⟩) main_v75) (TRef.of (T := ⟨S_, .f32⟩) main_call4_cst) (TRef.of (T := ⟨S4096, .f32⟩) main_call4_v0) (fun x v => Host.reduce FloatOps.maximumf x v reducesTo_S4096x8192_S4096_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S4096, .f32⟩) main_call4_v1) (broadcastInDim S4096 ![] bcast_S_S4096),
    TRef.binary (TRef.of (T := ⟨S4096, .f32⟩) main_call4_v1) (TRef.of (T := ⟨S4096, .f32⟩) main_call4_v0) (TRef.of (T := ⟨S4096, .f32⟩) main_call4_v2) maximumf,
    TRef.unary (TRef.of (T := ⟨S4096, .f32⟩) main_call4_v2) (TRef.of (T := ⟨S4096x1, .f32⟩) main_call4_v3) (broadcastInDim S4096x1 ![0] bcast_S4096_S4096x1_0),
    TRef.unary (TRef.of (T := ⟨S4096x1, .f32⟩) main_call4_v3) (TRef.of (T := ⟨S4096x8192, .f32⟩) main_call4_v4) (broadcastInDim S4096x8192 ![0, 1] bcast_S4096x1_S4096x8192_0_1),
    TRef.binary (TRef.of (T := ⟨S4096x8192, .f32⟩) main_v75) (TRef.of (T := ⟨S4096x8192, .f32⟩) main_call4_v4) (TRef.of (T := ⟨S4096x8192, .f32⟩) main_call4_v5) subf,
    TRef.unary (TRef.of (T := ⟨S4096x8192, .f32⟩) main_call4_v5) (TRef.of (T := ⟨S4096x8192, .f32⟩) main_call4_v6) Host.exp,
    TRef.nullary (TRef.of (T := ⟨S_, .f32⟩) main_call4_cst_1) (constant S_ .f32 0x00000000#32),
    TRef.binary (TRef.of (T := ⟨S4096x8192, .f32⟩) main_call4_v6) (TRef.of (T := ⟨S_, .f32⟩) main_call4_cst_1) (TRef.of (T := ⟨S4096, .f32⟩) main_call4_v7) (fun x v => Host.reduceAdd x v reducesTo_S4096x8192_S4096_d1 h_S_),
    TRef.unary (TRef.of (T := ⟨S4096, .f32⟩) main_call4_v7) (TRef.of (T := ⟨S4096x1, .f32⟩) main_call4_v8) (broadcastInDim S4096x1 ![0] bcast_S4096_S4096x1_0),
    TRef.unary (TRef.of (T := ⟨S4096x1, .f32⟩) main_call4_v8) (TRef.of (T := ⟨S4096x1, .f32⟩) main_call4_v9) Host.log,
    TRef.unary (TRef.of (T := ⟨S4096x1, .f32⟩) main_call4_v9) (TRef.of (T := ⟨S4096x8192, .f32⟩) main_call4_v10) (broadcastInDim S4096x8192 ![0, 1] bcast_S4096x1_S4096x8192_0_1),
    TRef.binary (TRef.of (T := ⟨S4096x8192, .f32⟩) main_call4_v5) (TRef.of (T := ⟨S4096x8192, .f32⟩) main_call4_v10) (TRef.of (T := ⟨S4096x8192, .f32⟩) main_v76) subf,
    nullary main_cst_32 (constant S_ .f32 0x00000000#32),
    TRef.unary (TRef.of (T := ⟨S_, .f32⟩) main_cst_32) (TRef.of (T := ⟨S_, .f32⟩) main_call5_v0) id,
    TRef.unary (TRef.of (T := ⟨S_, .f32⟩) main_call5_v0) (TRef.of (T := ⟨S4096x8192, .f32⟩) main_call5_v1) (broadcastInDim S4096x8192 ![] bcast_S_S4096x8192),
    TRef.ternary (TRef.of (T := ⟨S4096x8192, .i1⟩) main_v58) (TRef.of (T := ⟨S4096x8192, .f32⟩) main_v76) (TRef.of (T := ⟨S4096x8192, .f32⟩) main_call5_v1) (TRef.of (T := ⟨S4096x8192, .f32⟩) main_v77) select,
    binary main_v74 main_v77 main_v78 (mulf : (⟨S4096x8192, .f32⟩ : BufTy).Contents (Elt F) → (⟨S4096x8192, .f32⟩ : BufTy).Contents (Elt F) → (⟨S4096x8192, .f32⟩ : BufTy).Contents (Elt F)),
    nullary main_cst_33 (constant S_ .f32 0x00000000#32),
    binary main_v78 main_cst_33 main_v79 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v79 main_v80 (Host.negf : (⟨S4096, .f32⟩ : BufTy).Contents (Elt F) → (⟨S4096, .f32⟩ : BufTy).Contents (Elt F)),
    nullary main_c_34 (constantI S_ 32 1#32),
    unary main_c_34 main_v81 (broadcastInDim S4096 ![] bcast_S_S4096 : (⟨S_, .i32⟩ : BufTy).Contents (Elt F) → (⟨S4096, .i32⟩ : BufTy).Contents (Elt F)),
    binary main_v60 main_v81 main_v82 (maxsi : (⟨S4096, .i32⟩ : BufTy).Contents (Elt F) → (⟨S4096, .i32⟩ : BufTy).Contents (Elt F) → (⟨S4096, .i32⟩ : BufTy).Contents (Elt F)) ]

/-- The buffers those operations write, in order. -/
abbrev W1 : List (Ref sig .tc) :=
  [main_v40, main_v41, main_v42, main_cst_18, main_v43, main_cst_19, main_v44, main_v45, main_cst_20, main_v46, main_cst_21, main_v47, main_v48, main_v49, main_cst_22, main_v50, main_v51, main_v52, main_v53, main_cst_23, main_v54, main_v55, main_v56, main_cst_24, main_v57, main_v58, main_v59, main_c_25, main_v60, main_cst_26, main_v61, main_v62, main_cst_27, main_call2_v0, main_call2_v1, main_v63, main_cst_28, main_v64, main_cst_29, main_v65, main_v66, main_v67, main_v68, main_v69, main_v70, main_cst_30, main_v71, main_v72, main_v73, main_v74, main_cst_31, main_call3_v0, main_call3_v1, main_v75, main_call4_cst, main_call4_v0, main_call4_cst_0, main_call4_v1, main_call4_v2, main_call4_v3, main_call4_v4, main_call4_v5, main_call4_v6, main_call4_cst_1, main_call4_v7, main_call4_v8, main_call4_v9, main_call4_v10, main_v76, main_cst_32, main_call5_v0, main_call5_v1, main_v77, main_v78, main_cst_33, main_v79, main_v80, main_c_34, main_v81, main_v82]

end Cert.ReferenceIdeal.RefRun

end
-- ==== Proof.RefRunOps2.lean ====
/- The reference's host operations 164 … 203 as a list: the statements of the program's part 2 in order, each
   called function's operations standing in its call's place over that call's own buffers. -/
import proofs.«122764_j16621523435816_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of part 2, in order. -/
abbrev ops2 : List (HloOp τ sig (Elt F)) :=
  [ unary main_v82 main_v83 (sitofp .f32 : (⟨S4096, .i32⟩ : BufTy).Contents (Elt F) → (⟨S4096, .f32⟩ : BufTy).Contents (Elt F)),
    binary main_v80 main_v83 main_v84 (Host.divf : (⟨S4096, .f32⟩ : BufTy).Contents (Elt F) → (⟨S4096, .f32⟩ : BufTy).Contents (Elt F) → (⟨S4096, .f32⟩ : BufTy).Contents (Elt F)),
    nullary main_c_35 (constantI S_ 32 2#32),
    unary main_c_35 main_v85 (broadcastInDim S4096 ![] bcast_S_S4096 : (⟨S_, .i32⟩ : BufTy).Contents (Elt F) → (⟨S4096, .i32⟩ : BufTy).Contents (Elt F)),
    binary main_v60 main_v85 main_v86 (cmpi .sge : (⟨S4096, .i32⟩ : BufTy).Contents (Elt F) → (⟨S4096, .i32⟩ : BufTy).Contents (Elt F) → (⟨S4096, .i1⟩ : BufTy).Contents (Elt F)),
    unary main_v86 main_v87 ((extui 32 · natLt_1_32) : (⟨S4096, .i1⟩ : BufTy).Contents (Elt F) → (⟨S4096, .i32⟩ : BufTy).Contents (Elt F)),
    nullary main_c_36 (constantI S_ 32 0#32),
    binary main_v87 main_c_36 main_v88 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_cst_37 (constant S_ .f32 0x00000000#32),
    TRef.unary (TRef.of (T := ⟨S_, .f32⟩) main_cst_37) (TRef.of (T := ⟨S_, .f32⟩) main_call6_v0) id,
    TRef.unary (TRef.of (T := ⟨S_, .f32⟩) main_call6_v0) (TRef.of (T := ⟨S4096, .f32⟩) main_call6_v1) (broadcastInDim S4096 ![] bcast_S_S4096),
    TRef.ternary (TRef.of (T := ⟨S4096, .i1⟩) main_v86) (TRef.of (T := ⟨S4096, .f32⟩) main_v84) (TRef.of (T := ⟨S4096, .f32⟩) main_call6_v1) (TRef.of (T := ⟨S4096, .f32⟩) main_v89) select,
    nullary main_cst_38 (constant S_ .f32 0x00000000#32),
    binary main_v89 main_cst_38 main_v90 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_c_39 (constantI S_ 32 0#32),
    binary main_v88 main_c_39 main_v91 (cmpi .sgt : (⟨S_, .i32⟩ : BufTy).Contents (Elt F) → (⟨S_, .i32⟩ : BufTy).Contents (Elt F) → (⟨S_, .i1⟩ : BufTy).Contents (Elt F)),
    nullary main_c_40 (constantI S_ 32 1#32),
    binary main_v88 main_c_40 main_v92 (maxsi : (⟨S_, .i32⟩ : BufTy).Contents (Elt F) → (⟨S_, .i32⟩ : BufTy).Contents (Elt F) → (⟨S_, .i32⟩ : BufTy).Contents (Elt F)),
    unary main_v92 main_v93 (sitofp .f32 : (⟨S_, .i32⟩ : BufTy).Contents (Elt F) → (⟨S_, .f32⟩ : BufTy).Contents (Elt F)),
    binary main_v90 main_v93 main_v94 (Host.divf : (⟨S_, .f32⟩ : BufTy).Contents (Elt F) → (⟨S_, .f32⟩ : BufTy).Contents (Elt F) → (⟨S_, .f32⟩ : BufTy).Contents (Elt F)),
    nullary main_cst_41 (constant S_ .f32 0x00000000#32),
    TRef.unary (TRef.of (T := ⟨S_, .f32⟩) main_cst_41) (TRef.of (T := ⟨S_, .f32⟩) main_call7_v0) id,
    TRef.ternary (TRef.of (T := ⟨S_, .i1⟩) main_v91) (TRef.of (T := ⟨S_, .f32⟩) main_v94) (TRef.of (T := ⟨S_, .f32⟩) main_call7_v0) (TRef.of (T := ⟨S_, .f32⟩) main_v95) select,
    nullary main_cst_42 (constant S_ .f32 0x3F800000#32),
    binary main_cst_42 main_v2 main_v96 (mulf : (⟨S_, .f32⟩ : BufTy).Contents (Elt F) → (⟨S_, .f32⟩ : BufTy).Contents (Elt F) → (⟨S_, .f32⟩ : BufTy).Contents (Elt F)),
    nullary main_cst_43 (constant S_ .f32 0x3DCCCCCD#32),
    binary main_cst_43 main_v7 main_v97 (mulf : (⟨S_, .f32⟩ : BufTy).Contents (Elt F) → (⟨S_, .f32⟩ : BufTy).Contents (Elt F) → (⟨S_, .f32⟩ : BufTy).Contents (Elt F)),
    binary main_v96 main_v97 main_v98 (addf : (⟨S_, .f32⟩ : BufTy).Contents (Elt F) → (⟨S_, .f32⟩ : BufTy).Contents (Elt F) → (⟨S_, .f32⟩ : BufTy).Contents (Elt F)),
    nullary main_cst_44 (constant S_ .f32 0x3C23D70A#32),
    binary main_cst_44 main_v15 main_v99 (mulf : (⟨S_, .f32⟩ : BufTy).Contents (Elt F) → (⟨S_, .f32⟩ : BufTy).Contents (Elt F) → (⟨S_, .f32⟩ : BufTy).Contents (Elt F)),
    binary main_v98 main_v99 main_v100 (addf : (⟨S_, .f32⟩ : BufTy).Contents (Elt F) → (⟨S_, .f32⟩ : BufTy).Contents (Elt F) → (⟨S_, .f32⟩ : BufTy).Contents (Elt F)),
    nullary main_cst_45 (constant S_ .f32 0x3DCCCCCD#32),
    binary main_cst_45 main_v35 main_v101 (mulf : (⟨S_, .f32⟩ : BufTy).Contents (Elt F) → (⟨S_, .f32⟩ : BufTy).Contents (Elt F) → (⟨S_, .f32⟩ : BufTy).Contents (Elt F)),
    binary main_v100 main_v101 main_v102 (addf : (⟨S_, .f32⟩ : BufTy).Contents (Elt F) → (⟨S_, .f32⟩ : BufTy).Contents (Elt F) → (⟨S_, .f32⟩ : BufTy).Contents (Elt F)),
    nullary main_cst_46 (constant S_ .f32 0x3C23D70A#32),
    binary main_cst_46 main_v56 main_v103 (mulf : (⟨S_, .f32⟩ : BufTy).Contents (Elt F) → (⟨S_, .f32⟩ : BufTy).Contents (Elt F) → (⟨S_, .f32⟩ : BufTy).Contents (Elt F)),
    binary main_v102 main_v103 main_v104 (addf : (⟨S_, .f32⟩ : BufTy).Contents (Elt F) → (⟨S_, .f32⟩ : BufTy).Contents (Elt F) → (⟨S_, .f32⟩ : BufTy).Contents (Elt F)),
    nullary main_cst_47 (constant S_ .f32 0x3DCCCCCD#32),
    binary main_cst_47 main_v95 main_v105 (mulf : (⟨S_, .f32⟩ : BufTy).Contents (Elt F) → (⟨S_, .f32⟩ : BufTy).Contents (Elt F) → (⟨S_, .f32⟩ : BufTy).Contents (Elt F)),
    binary main_v104 main_v105 main_v106 (addf : (⟨S_, .f32⟩ : BufTy).Contents (Elt F) → (⟨S_, .f32⟩ : BufTy).Contents (Elt F) → (⟨S_, .f32⟩ : BufTy).Contents (Elt F)) ]

/-- The buffers those operations write, in order. -/
abbrev W2 : List (Ref sig .tc) :=
  [main_v83, main_v84, main_c_35, main_v85, main_v86, main_v87, main_c_36, main_v88, main_cst_37, main_call6_v0, main_call6_v1, main_v89, main_cst_38, main_v90, main_c_39, main_v91, main_c_40, main_v92, main_v93, main_v94, main_cst_41, main_call7_v0, main_v95, main_cst_42, main_v96, main_cst_43, main_v97, main_v98, main_cst_44, main_v99, main_v100, main_cst_45, main_v101, main_v102, main_cst_46, main_v103, main_v104, main_cst_47, main_v105, main_v106]

set_option maxRecDepth 8192 in
set_option maxHeartbeats 4000000 in
/-- Part 2 of the program is the straight line of those operations. -/
theorem main_part2_eq (c : Dev nD) : main_part2 (F := F) c = seq ops2 := rfl

end Cert.ReferenceIdeal.RefRun

end
-- ==== Proof.LibReadBack.lean ====
/-
  A single-assignment line of host operations read back one operation at a time.

  A line of host operations in which every operation writes one buffer of its own, listed at its position (`WritesAt`),
  leaves in each buffer what the operation writing it computed from what ITS operands held at that point — and an operand
  not written from that point on still holds the same at the end. So at the end of the line (and after any further
  computation `G` that leaves the buffers in question alone) the contents satisfy one equation per operation,
  `result = f (operand₁) (operand₂) …`, every buffer read at the END: `read0` … `read3`, `readReshape`, and
  `read_result` / `read_operand` for an operation of any other form. Such equations compose by rewriting, with no fold
  in sight.

  General in the topology, the reference signature and the element values.
-/
import Idealize.ShloMosaic.Lib.StableHlo.Run
import Idealize.ShloMosaic.Lib.Pipeline.Frame
import Mathlib.Data.List.Forall2

namespace Cert.ReadBack

open Idealize.ShloMosaic Idealize.ShloMosaic.StableHlo

variable {τ : Topo} {sig : RefSig} {Val : EltTy → Type}

/-- Each operation of `l` writes exactly the buffer `W` lists at its position. -/
abbrev WritesAt (l : List (HloOp τ sig Val)) (W : List (Ref sig .tc)) : Prop :=
  List.Forall₂ (fun op w => op.writes = {Proc.devRef (τ := τ) .tc w}) l W

/-- A buffer not listed is written by no operation. -/
theorem WritesAt.not_mem {l : List (HloOp τ sig Val)} {W : List (Ref sig .tc)} (h : WritesAt l W) {r : Ref sig .tc}
    (hr : r ∉ W) : ∀ op ∈ l, Proc.devRef (τ := τ) .tc r ∉ op.writes := by
  induction h with
  | nil => intro op hop; cases hop
  | cons hw _ ih =>
    intro op hop
    rcases List.mem_cons.mp hop with rfl | hop
    · rw [hw, Finset.mem_singleton]
      exact devRef_ne_of_ne fun e => hr (e ▸ List.mem_cons_self)
    · exact ih (fun hm => hr (List.mem_cons_of_mem _ hm)) op hop

/-- A buffer not listed keeps its contents through the line. -/
theorem WritesAt.keep {l : List (HloOp τ sig Val)} {W : List (Ref sig .tc)} (h : WritesAt l W) {r : Ref sig .tc}
    (hr : r ∉ W) (V : Valuation τ sig Val) : after l V (Proc.devRef .tc r) = V (Proc.devRef .tc r) :=
  after_of_forall_not_mem l V (WritesAt.not_mem h hr)

/-- A buffer not written from position `j` on holds at the end what it held after the first `j` operations. -/
theorem WritesAt.after_take {l : List (HloOp τ sig Val)} {W : List (Ref sig .tc)} (h : WritesAt l W) (j : Nat)
    (V : Valuation τ sig Val) {r : Ref sig .tc} (hr : r ∉ W.drop j) :
    after l V (Proc.devRef .tc r) = after (l.take j) V (Proc.devRef .tc r) := by
  conv_lhs => rw [← List.take_append_drop j l, StableHlo.after_append]
  exact WritesAt.keep (List.forall₂_drop j h) hr _

/-- A buffer not written after position `j` holds at the end what the operation at `j` left in it. -/
theorem WritesAt.after_at {l : List (HloOp τ sig Val)} {W : List (Ref sig .tc)} (h : WritesAt l W) (j : Nat)
    (op : HloOp τ sig Val) (hop : l[j]? = some op) (V : Valuation τ sig Val) {r : Ref sig .tc} (hr : r ∉ W.drop (j + 1)) :
    after l V (Proc.devRef .tc r) = op.result (after (l.take j) V) (Proc.devRef .tc r) := by
  rw [WritesAt.after_take h (j + 1) V hr, List.take_succ, hop, Option.toList_some, StableHlo.after_append]
  rfl

section Read

variable {l : List (HloOp τ sig Val)} {W : List (Ref sig .tc)} (h : WritesAt l W)
  (G : Valuation τ sig Val → Valuation τ sig Val) (W' : List (Ref sig .tc))
  (hG : ∀ (X : Valuation τ sig Val) (r : Ref sig .tc), r ∉ W' → G X (Proc.devRef .tc r) = X (Proc.devRef .tc r))
  (j : Nat) (V : Valuation τ sig Val)

include h hG

/-- After the line and `G`: the result buffer of the operation at `j` holds what that operation left in it. -/
theorem read_result (op : HloOp τ sig Val) (hop : l[j]? = some op) {y : Ref sig .tc} (ny : y ∉ W.drop (j + 1) ++ W') :
    G (after l V) (Proc.devRef .tc y) = op.result (after (l.take j) V) (Proc.devRef .tc y) :=
  (hG _ y fun hm => ny (List.mem_append.mpr (Or.inr hm))).trans
    (WritesAt.after_at h j op hop V fun hm => ny (List.mem_append.mpr (Or.inl hm)))

/-- After the line and `G`: a buffer not written from `j` on holds what the operation at `j` read in it. -/
theorem read_operand {a : Ref sig .tc} (na : a ∉ W.drop j ++ W') :
    G (after l V) (Proc.devRef .tc a) = after (l.take j) V (Proc.devRef .tc a) :=
  (hG _ a fun hm => na (List.mem_append.mpr (Or.inr hm))).trans
    (WritesAt.after_take h j V fun hm => na (List.mem_append.mpr (Or.inl hm)))

theorem read0 (y : Ref sig .tc) (v : y.ty.Contents Val) (hy) (hop : l[j]? = some (nullary y v hy))
    (ny : y ∉ W.drop (j + 1) ++ W') : G (after l V) (Proc.devRef .tc y) = v :=
  (read_result h G W' hG j V _ hop ny).trans (nullary_result y v hy _)

theorem read1 (x y : Ref sig .tc) (f : x.ty.Contents Val → y.ty.Contents Val) (hx hy) (hop : l[j]? = some (unary x y f hx hy))
    (ny : y ∉ W.drop (j + 1) ++ W') (nx : x ∉ W.drop j ++ W') :
    G (after l V) (Proc.devRef .tc y) = f (G (after l V) (Proc.devRef .tc x)) := by
  rw [read_operand h G W' hG j V nx]
  exact (read_result h G W' hG j V _ hop ny).trans (unary_result x y f hx hy _)

theorem read2 (a b y : Ref sig .tc) (f : a.ty.Contents Val → b.ty.Contents Val → y.ty.Contents Val) (ha hb hy)
    (hop : l[j]? = some (binary a b y f ha hb hy))
    (ny : y ∉ W.drop (j + 1) ++ W') (na : a ∉ W.drop j ++ W') (nb : b ∉ W.drop j ++ W') :
    G (after l V) (Proc.devRef .tc y) = f (G (after l V) (Proc.devRef .tc a)) (G (after l V) (Proc.devRef .tc b)) := by
  rw [read_operand h G W' hG j V na, read_operand h G W' hG j V nb]
  exact (read_result h G W' hG j V _ hop ny).trans (binary_result a b y f ha hb hy _)

theorem read3 (c a b y : Ref sig .tc) (f : c.ty.Contents Val → a.ty.Contents Val → b.ty.Contents Val → y.ty.Contents Val)
    (hc ha hb hy) (hop : l[j]? = some (ternary c a b y f hc ha hb hy))
    (ny : y ∉ W.drop (j + 1) ++ W') (nc : c ∉ W.drop j ++ W') (na : a ∉ W.drop j ++ W') (nb : b ∉ W.drop j ++ W') :
    G (after l V) (Proc.devRef .tc y)
      = f (G (after l V) (Proc.devRef .tc c)) (G (after l V) (Proc.devRef .tc a)) (G (after l V) (Proc.devRef .tc b)) := by
  rw [read_operand h G W' hG j V nc, read_operand h G W' hG j V na, read_operand h G W' hG j V nb]
  exact (read_result h G W' hG j V _ hop ny).trans (ternary_result c a b y f hc ha hb hy _)

theorem readReshape (x y : Ref sig .tc) (he hn hx hy) (hop : l[j]? = some (reshape (Val := Val) x y he hn hx hy))
    (ny : y ∉ W.drop (j + 1) ++ W') (nx : x ∉ W.drop j ++ W') :
    G (after l V) (Proc.devRef .tc y) = fun i => he ▸ shapeCast y.ty.shape (G (after l V) (Proc.devRef .tc x)) hn i := by
  rw [read_operand h G W' hG j V nx]
  exact (read_result h G W' hG j V _ hop ny).trans (reshape_result x y he hn hx hy _)

end Read

end Cert.ReadBack
-- ==== Proof.LibReadEnd.lean ====
/-
  Host operations read back against an END valuation.

  A program's host operations come in lines; after a line, later lines and kernel regions may run, each rewriting
  buffers of its own. Let `E` be the contents at the very end, and suppose `E` agrees with the contents right after
  the line `l` (run from `V`) on every buffer outside a list `later` — the buffers anything after the line writes.
  Then every operation of `l` whose result and operands are written neither later in `l` nor in `later` satisfies
  its defining equation with EVERY buffer read at the end: `E y = f (E a) (E b)`. Equations of this form, for two
  programs, compose by rewriting: equal operations of equal operands have equal results.

  Side conditions of the form `a ∉ L` over long literal lists are meant to be discharged through `nk` (numbers compared,
  not references).

  General in the topology, the reference signature and the element values.
-/
import proofs.«122764_j16621523435816_2_alg».proof.Proof.LibReadBack

namespace Cert.ReadEnd

open Idealize.ShloMosaic Idealize.ShloMosaic.StableHlo Cert.ReadBack

variable {τ : Topo} {sig : RefSig} {Val : EltTy → Type}

/-- The number a buffer reference carries within its memory space. -/
abbrev key (r : Ref sig .tc) : Nat := r.idx.val

/-- A reference whose number is not among the listed references' numbers is not listed: non-membership in a long list
    of references decided on numerals alone. -/
theorem nk {a : Ref sig .tc} {L : List (Ref sig .tc)} (h : key a ∉ L.map key) : a ∉ L :=
  fun hm => h (List.mem_map.mpr ⟨a, hm, rfl⟩)

section

variable {l : List (HloOp τ sig Val)} {W : List (Ref sig .tc)} (h : WritesAt l W)
  (V E : Valuation τ sig Val) (later : List (Ref sig .tc))
  (T : ∀ r : Ref sig .tc, r ∉ later → E (Proc.devRef .tc r) = after l V (Proc.devRef .tc r))
  (j : Nat)

include h T

private theorem notIn_nil {r : Ref sig .tc} {L : List (Ref sig .tc)} (hr : r ∉ L ++ later) : r ∉ L ++ [] := by
  simpa using fun hm => hr (List.mem_append.mpr (Or.inl hm))

private theorem notIn_later {r : Ref sig .tc} {L : List (Ref sig .tc)} (hr : r ∉ L ++ later) : r ∉ later :=
  fun hm => hr (List.mem_append.mpr (Or.inr hm))

/-- A constant: at the end its buffer holds the constant. -/
theorem end0 (y : Ref sig .tc) (v : y.ty.Contents Val) (hy) (hop : l[j]? = some (nullary y v hy))
    (ny : y ∉ W.drop (j + 1) ++ later) : E (Proc.devRef .tc y) = v := by
  rw [T y (notIn_later h V E later T ny)]
  exact read0 h id [] (fun _ _ _ => rfl) j V y v hy hop (notIn_nil h V E later T ny)

/-- A one-operand operation: at the end its result is the function of its operand at the end. -/
theorem end1 (x y : Ref sig .tc) (f : x.ty.Contents Val → y.ty.Contents Val) (hx hy)
    (hop : l[j]? = some (unary x y f hx hy))
    (ny : y ∉ W.drop (j + 1) ++ later) (nx : x ∉ W.drop j ++ later) :
    E (Proc.devRef .tc y) = f (E (Proc.devRef .tc x)) := by
  rw [T y (notIn_later h V E later T ny), T x (notIn_later h V E later T nx)]
  exact read1 h id [] (fun _ _ _ => rfl) j V x y f hx hy hop (notIn_nil h V E later T ny) (notIn_nil h V E later T nx)

/-- A two-operand operation read at the end. -/
theorem end2 (a b y : Ref sig .tc) (f : a.ty.Contents Val → b.ty.Contents Val → y.ty.Contents Val) (ha hb hy)
    (hop : l[j]? = some (binary a b y f ha hb hy))
    (ny : y ∉ W.drop (j + 1) ++ later) (na : a ∉ W.drop j ++ later) (nb : b ∉ W.drop j ++ later) :
    E (Proc.devRef .tc y) = f (E (Proc.devRef .tc a)) (E (Proc.devRef .tc b)) := by
  rw [T y (notIn_later h V E later T ny), T a (notIn_later h V E later T na), T b (notIn_later h V E later T nb)]
  exact read2 h id [] (fun _ _ _ => rfl) j V a b y f ha hb hy hop (notIn_nil h V E later T ny)
    (notIn_nil h V E later T na) (notIn_nil h V E later T nb)

/-- A three-operand operation read at the end. -/
theorem end3 (c a b y : Ref sig .tc)
    (f : c.ty.Contents Val → a.ty.Contents Val → b.ty.Contents Val → y.ty.Contents Val) (hc ha hb hy)
    (hop : l[j]? = some (ternary c a b y f hc ha hb hy))
    (ny : y ∉ W.drop (j + 1) ++ later) (nc : c ∉ W.drop j ++ later) (na : a ∉ W.drop j ++ later)
    (nb : b ∉ W.drop j ++ later) :
    E (Proc.devRef .tc y) = f (E (Proc.devRef .tc c)) (E (Proc.devRef .tc a)) (E (Proc.devRef .tc b)) := by
  rw [T y (notIn_later h V E later T ny), T c (notIn_later h V E later T nc), T a (notIn_later h V E later T na),
    T b (notIn_later h V E later T nb)]
  exact read3 h id [] (fun _ _ _ => rfl) j V c a b y f hc ha hb hy hop (notIn_nil h V E later T ny)
    (notIn_nil h V E later T nc) (notIn_nil h V E later T na) (notIn_nil h V E later T nb)

/-- A reshape read at the end: the operand's contents re-indexed. -/
theorem endReshape (x y : Ref sig .tc) (he hn hx hy) (hop : l[j]? = some (reshape (Val := Val) x y he hn hx hy))
    (ny : y ∉ W.drop (j + 1) ++ later) (nx : x ∉ W.drop j ++ later) :
    E (Proc.devRef .tc y) = fun i => he ▸ shapeCast y.ty.shape (E (Proc.devRef .tc x)) hn i := by
  rw [T y (notIn_later h V E later T ny), T x (notIn_later h V E later T nx)]
  exact readReshape h id [] (fun _ _ _ => rfl) j V x y he hn hx hy hop (notIn_nil h V E later T ny)
    (notIn_nil h V E later T nx)

end

end Cert.ReadEnd
-- ==== Proof.RefRunLine.lean ====
/- The reference's whole line of host operations: the three parts joined, what each part writes, and the contents at the
   end of the line in terms of the contents after each part. -/
import proofs.«122764_j16621523435816_2_alg».proof.Proof.RefRunOps0
import proofs.«122764_j16621523435816_2_alg».proof.Proof.RefRunOps1
import proofs.«122764_j16621523435816_2_alg».proof.Proof.RefRunOps2
import proofs.«122764_j16621523435816_2_alg».proof.Proof.LibReadEnd

noncomputable section

namespace Cert.ReferenceIdeal.RefRun

open Cert.ReferenceIdeal Cert.ReferenceIdeal.Gen Idealize.ShloMosaic Idealize.ShloMosaic.TcCoe Idealize.SL.Sem Idealize.ShloMosaic.StableHlo Cert.ReadBack Cert.ReadEnd

variable {F : FTy → Type} [FloatOps F]

/-- The program's operations, in order. -/
abbrev ops : List (HloOp τ sig (Elt F)) := ops0 ++ (ops1 ++ ops2)

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., binary_bufs_sub .., nullary_bufs_sub .., binary_bufs_sub .., unary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., unary_bufs_sub .., nullary_bufs_sub .., binary_bufs_sub .., binary_bufs_sub .., nullary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., binary_bufs_sub .., nullary_bufs_sub .., binary_bufs_sub .., unary_bufs_sub .., binary_bufs_sub .., binary_bufs_sub .., nullary_bufs_sub .., binary_bufs_sub .., binary_bufs_sub .., nullary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., unary_bufs_sub .., nullary_bufs_sub .., unary_bufs_sub .., binary_bufs_sub ..⟩
set_option maxRecDepth 8192 in
theorem ops1_sub : (ops1 : List (HloOp τ sig (Elt F))).Forall fun op => op.bufs ⊆ tcRefs τ sig :=
  ⟨unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., unary_bufs_sub .., ternary_bufs_sub .., binary_bufs_sub .., nullary_bufs_sub .., binary_bufs_sub .., unary_bufs_sub .., nullary_bufs_sub .., unary_bufs_sub .., binary_bufs_sub ..⟩
set_option maxRecDepth 8192 in
theorem ops2_sub : (ops2 : List (HloOp τ sig (Elt F))).Forall fun op => op.bufs ⊆ tcRefs τ sig :=
  ⟨unary_bufs_sub .., binary_bufs_sub .., nullary_bufs_sub .., unary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., binary_bufs_sub .., nullary_bufs_sub .., unary_bufs_sub .., ternary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Every operation determines its results. -/
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h, List.forall_iff_forall_mem.mp ops2_fresh op h]

set_option maxRecDepth 8192 in
/-- Each operation of part 0 writes the buffer listed at its position. -/
theorem wa0 : WritesAt (ops0 : List (HloOp τ sig (Elt F))) W0 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))))))))))))))))))))))))))
set_option maxRecDepth 8192 in
theorem wa1 : WritesAt (ops1 : List (HloOp τ sig (Elt F))) W1 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))
set_option maxRecDepth 8192 in
theorem wa2 : WritesAt (ops2 : List (HloOp τ sig (Elt F))) W2 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))

/-- The buffers' contents at the end of the line run from `V`. -/
def Efin (V : Valuation τ sig (Elt F)) : Valuation τ sig (Elt F) := after ops2 (after ops1 (after ops0 V))

theorem after_ops (V : Valuation τ sig (Elt F)) : after ops V = Efin V := by
  unfold Efin
  rw [ops, StableHlo.after_append, StableHlo.after_append]

/-- Outside what parts 1 and 2 write, the end holds what part 0 left. -/
theorem T0 (V : Valuation τ sig (Elt F)) (r : Ref sig .tc) (hr : r ∉ W1 ++ W2) :
    Efin V (Proc.devRef .tc r) = after ops0 V (Proc.devRef .tc r) :=
  (WritesAt.keep wa2 (fun h => hr (List.mem_append.mpr (Or.inr h))) _).trans
    (WritesAt.keep wa1 (fun h => hr (List.mem_append.mpr (Or.inl h))) _)

/-- Outside what part 2 writes, the end holds what part 1 left. -/
theorem T1 (V : Valuation τ sig (Elt F)) (r : Ref sig .tc) (hr : r ∉ W2) :
    Efin V (Proc.devRef .tc r) = after ops1 (after ops0 V) (Proc.devRef .tc r) :=
  WritesAt.keep wa2 hr _

/-- The end is what part 2 left. -/
theorem T2 (V : Valuation τ sig (Elt F)) (r : Ref sig .tc) (hr : r ∉ ([] : List (Ref sig .tc))) :
    Efin V (Proc.devRef .tc r) = after ops2 (after ops1 (after ops0 V)) (Proc.devRef .tc r) := rfl

/-- A buffer no operation writes holds at the end what it held at the start. -/
theorem keep_all (V : Valuation τ sig (Elt F)) (r : Ref sig .tc) (h0 : r ∉ W0) (h12 : r ∉ W1 ++ W2) :
    Efin V (Proc.devRef .tc r) = V (Proc.devRef .tc r) :=
  (T0 V r h12).trans (WritesAt.keep wa0 h0 V)

theorem e_main_arg0 (V : Valuation τ sig (Elt F)) : Efin V (Proc.devRef .tc main_arg0) = V (Proc.devRef .tc main_arg0) :=
  keep_all V main_arg0 (nk (by decide)) (nk (by decide))
theorem e_main_arg1 (V : Valuation τ sig (Elt F)) : Efin V (Proc.devRef .tc main_arg1) = V (Proc.devRef .tc main_arg1) :=
  keep_all V main_arg1 (nk (by decide)) (nk (by decide))
theorem e_main_arg2 (V : Valuation τ sig (Elt F)) : Efin V (Proc.devRef .tc main_arg2) = V (Proc.devRef .tc main_arg2) :=
  keep_all V main_arg2 (nk (by decide)) (nk (by decide))
theorem e_main_arg3 (V : Valuation τ sig (Elt F)) : Efin V (Proc.devRef .tc main_arg3) = V (Proc.devRef .tc main_arg3) :=
  keep_all V main_arg3 (nk (by decide)) (nk (by decide))
theorem e_main_arg4 (V : Valuation τ sig (Elt F)) : Efin V (Proc.devRef .tc main_arg4) = V (Proc.devRef .tc main_arg4) :=
  keep_all V main_arg4 (nk (by decide)) (nk (by decide))
theorem e_main_arg5 (V : Valuation τ sig (Elt F)) : Efin V (Proc.devRef .tc main_arg5) = V (Proc.devRef .tc main_arg5) :=
  keep_all V main_arg5 (nk (by decide)) (nk (by decide))

end Cert.ReferenceIdeal.RefRun

end
-- ==== Proof.RefRunVals.lean ====
/- The reference's values, one definition per host operation: each buffer's contents as the operation's function of its
   operands' values, down to the six argument arrays. A constant's buffer is read as the constant itself. -/
import proofs.«122764_j16621523435816_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def val_main_v0 (a0 : (⟨S4096, .f32⟩ : BufTy).Contents (Elt F)) : (⟨S_, .f32⟩ : BufTy).Contents (Elt F) :=
  ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) a0 ((constant S_ .f32 0x00000000#32) : (⟨S_, .f32⟩ : BufTy).Contents (Elt F))

def val_main_v1 (a0 : (⟨S4096, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v0 (F := F) a0) ((constant S_ .f32 0x45800000#32) : (⟨S_, .f32⟩ : BufTy).Contents (Elt F))

def val_main_v2 (a0 : (⟨S4096, .f32⟩ : BufTy).Contents (Elt F)) : (⟨S_, .f32⟩ : BufTy).Contents (Elt F) :=
  (Host.negf : (⟨S_, .f32⟩ : BufTy).Contents (Elt F) → (⟨S_, .f32⟩ : BufTy).Contents (Elt F)) (val_main_v1 (F := F) a0)

def val_main_call0_call0_v0 (a0 : (⟨S4096, .f32⟩ : BufTy).Contents (Elt F)) : (⟨S_, .f32⟩ : BufTy).Contents (Elt F) :=
  ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) a0 ((constant S_ .f32 0x00000000#32) : (⟨S_, .f32⟩ : BufTy).Contents (Elt F))

def val_main_call0_call0_v1 (a0 : (⟨S4096, .f32⟩ : BufTy).Contents (Elt F)) : (⟨S1, .f32⟩ : BufTy).Contents (Elt F) :=
  ((broadcastInDim S1 ![] bcast_S_S1) : (⟨S_, .f32⟩ : BufTy).Contents (Elt F) → (⟨S1, .f32⟩ : BufTy).Contents (Elt F)) (val_main_call0_call0_v0 (F := F) a0)

def val_main_call0_call0_v2 : (⟨S1, .f32⟩ : BufTy).Contents (Elt F) :=
  ((broadcastInDim S1 ![] bcast_S_S1) : (⟨S_, .f32⟩ : BufTy).Contents (Elt F) → (⟨S1, .f32⟩ : BufTy).Contents (Elt F)) ((constant S_ .f32 0x45800000#32) : (⟨S_, .f32⟩ : BufTy).Contents (Elt F))

def val_main_call0_call0_v3 (a0 : (⟨S4096, .f32⟩ : BufTy).Contents (Elt F)) : (⟨S1, .f32⟩ : BufTy).Contents (Elt F) :=
  (Host.divf : (⟨S1, .f32⟩ : BufTy).Contents (Elt F) → (⟨S1, .f32⟩ : BufTy).Contents (Elt F) → (⟨S1, .f32⟩ : BufTy).Contents (Elt F)) (val_main_call0_call0_v1 (F := F) a0) (val_main_call0_call0_v2 (F := F))

def val_main_call0_call0_v4 (a0 : (⟨S4096, .f32⟩ : BufTy).Contents (Elt F)) : (⟨S4096, .f32⟩ : BufTy).Contents (Elt F) :=
  ((broadcastInDim S4096 ![0] bcast_S1_S4096_0) : (⟨S1, .f32⟩ : BufTy).Contents (Elt F) → (⟨S4096, .f32⟩ : BufTy).Contents (Elt F)) (val_main_call0_call0_v3 (F := F) a0)

def val_main_call0_call0_v5 (a0 : (⟨S4096, .f32⟩ : BufTy).Contents (Elt F)) : (⟨S4096, .f32⟩ : BufTy).Contents (Elt F) :=
  (subf : (⟨S4096, .f32⟩ : BufTy).Contents (Elt F) → (⟨S4096, .f32⟩ : BufTy).Contents (Elt F) → (⟨S4096, .f32⟩ : BufTy).Contents (Elt F)) a0 (val_main_call0_call0_v4 (F := F) a0)

def val_main_call0_call0_v6 (a0 : (⟨S4096, .f32⟩ : BufTy).Contents (Elt F)) : (⟨S4096, .f32⟩ : BufTy).Contents (Elt F) :=
  (mulf : (⟨S4096, .f32⟩ : BufTy).Contents (Elt F) → (⟨S4096, .f32⟩ : BufTy).Contents (Elt F) → (⟨S4096, .f32⟩ : BufTy).Contents (Elt F)) (val_main_call0_call0_v5 (F := F) a0) (val_main_call0_call0_v5 (F := F) a0)

def val_main_call0_call0_v7 : (⟨S_, .f32⟩ : BufTy).Contents (Elt F) :=
  ((sitofp .f32) : (⟨S_, .i32⟩ : BufTy).Contents (Elt F) → (⟨S_, .f32⟩ : BufTy).Contents (Elt F)) ((constantI S_ 32 1#32) : (⟨S_, .i32⟩ : BufTy).Contents (Elt F))

def val_main_call0_call0_v8 : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) ((constant S_ .f32 0x45800000#32) : (⟨S_, .f32⟩ : BufTy).Contents (Elt F)) (val_main_call0_call0_v7 (F := F))

def val_main_call0_call0_v9 (a0 : (⟨S4096, .f32⟩ : BufTy).Contents (Elt F)) : (⟨S_, .f32⟩ : BufTy).Contents (Elt F) :=
  ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (val_main_call0_call0_v6 (F := F) a0) ((constant S_ .f32 0x00000000#32) : (⟨S_, .f32⟩ : BufTy).Contents (Elt F))

def val_main_call0_call0_v10 (a0 : (⟨S4096, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_call0_call0_v9 (F := F) a0) (val_main_call0_call0_v8 (F := F))

def val_main_call0_call0_v11 : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (val_main_call0_call0_v8 (F := F)) ((constant S_ .f32 0x00000000#32) : (⟨S_, .f32⟩ : BufTy).Contents (Elt F))

def val_main_call0_call0_call0_v0 : (⟨S_, .f32⟩ : BufTy).Contents (Elt F) :=
  (id : (⟨S_, .f32⟩ : BufTy).Contents (Elt F) → (⟨S_, .f32⟩ : BufTy).Contents (Elt F)) ((constant S_ .f32 0x7FC00000#32) : (⟨S_, .f32⟩ : BufTy).Contents (Elt F))

def val_main_call0_v0 (a0 : (⟨S4096, .f32⟩ : BufTy).Contents (Elt F)) : (⟨S_, .f32⟩ : BufTy).Contents (Elt F) :=
  (select : (⟨S_, .i1⟩ : BufTy).Contents (Elt F) → (⟨S_, .f32⟩ : BufTy).Contents (Elt F) → (⟨S_, .f32⟩ : BufTy).Contents (Elt F) → (⟨S_, .f32⟩ : BufTy).Contents (Elt F)) (val_main_call0_call0_v11 (F := F)) (val_main_call0_call0_v10 (F := F) a0) (val_main_call0_call0_call0_v0 (F := F))

def val_main_v3 (a0 : (⟨S4096, .f32⟩ : BufTy).Contents (Elt F)) : (⟨S_, .f32⟩ : BufTy).Contents (Elt F) :=
  (Host.sqrt : (⟨S_, .f32⟩ : BufTy).Contents (Elt F) → (⟨S_, .f32⟩ : BufTy).Contents (Elt F)) (val_main_call0_v0 (F := F) a0)

def val_main_v4 (a0 : (⟨S4096, .f32⟩ : BufTy).Contents (Elt F)) : (⟨S_, .f32⟩ : BufTy).Contents (Elt F) :=
  (Host.negf : (⟨S_, .f32⟩ : BufTy).Contents (Elt F) → (⟨S_, .f32⟩ : BufTy).Contents (Elt F)) (val_main_v1 (F := F) a0)

def val_main_v5 (a0 : (⟨S4096, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v3 (F := F) a0) ((constant S_ .f32 0x3C23D70A#32) : (⟨S_, .f32⟩ : BufTy).Contents (Elt F))

def val_main_v6 (a0 : (⟨S4096, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v4 (F := F) a0) (val_main_v5 (F := F) a0)

def val_main_call1_v0 : (⟨S_, .f32⟩ : BufTy).Contents (Elt F) :=
  (id : (⟨S_, .f32⟩ : BufTy).Contents (Elt F) → (⟨S_, .f32⟩ : BufTy).Contents (Elt F)) ((constant S_ .f32 0xC1200000#32) : (⟨S_, .f32⟩ : BufTy).Contents (Elt F))

def val_main_call1_v1 (a0 : (⟨S4096, .f32⟩ : BufTy).Contents (Elt F)) : (⟨S_, .f32⟩ : BufTy).Contents (Elt F) :=
  (maximumf : (⟨S_, .f32⟩ : BufTy).Contents (Elt F) → (⟨S_, .f32⟩ : BufTy).Contents (Elt F) → (⟨S_, .f32⟩ : BufTy).Contents (Elt F)) (val_main_call1_v0 (F := F)) (val_main_v6 (F := F) a0)

def val_main_call1_v2 : (⟨S_, .f32⟩ : BufTy).Contents (Elt F) :=
  (id : (⟨S_, .f32⟩ : BufTy).Contents (Elt F) → (⟨S_, .f32⟩ : BufTy).Contents (Elt F)) ((constant S_ .f32 0x41200000#32) : (⟨S_, .f32⟩ : BufTy).Contents (Elt F))

def val_main_v7 (a0 : (⟨S4096, .f32⟩ : BufTy).Contents (Elt F)) : (⟨S_, .f32⟩ : BufTy).Contents (Elt F) :=
  (minimumf : (⟨S_, .f32⟩ : BufTy).Contents (Elt F) → (⟨S_, .f32⟩ : BufTy).Contents (Elt F) → (⟨S_, .f32⟩ : BufTy).Contents (Elt F)) (val_main_call1_v2 (F := F)) (val_main_call1_v1 (F := F) a0)

def val_main_v8 : (⟨S4096x8192, .f32⟩ : BufTy).Contents (Elt F) :=
  (broadcastInDim S4096x8192 ![] bcast_S_S4096x8192 : (⟨S_, .f32⟩ : BufTy).Contents (Elt F) → (⟨S4096x8192, .f32⟩ : BufTy).Contents (Elt F)) ((constant S_ .f32 0x322BCC77#32) : (⟨S_, .f32⟩ : BufTy).Contents (Elt F))

def val_main_v9 (a1 : (⟨S4096x8192, .f32⟩ : BufTy).Contents (Elt F)) : (⟨S4096x8192, .f32⟩ : BufTy).Contents (Elt F) :=
  (addf : (⟨S4096x8192, .f32⟩ : BufTy).Contents (Elt F) → (⟨S4096x8192, .f32⟩ : BufTy).Contents (Elt F) → (⟨S4096x8192, .f32⟩ : BufTy).Contents (Elt F)) a1 (val_main_v8 (F := F))

def val_main_v10 (a1 : (⟨S4096x8192, .f32⟩ : BufTy).Contents (Elt F)) : (⟨S4096x8192, .f32⟩ : BufTy).Contents (Elt F) :=
  (Host.log : (⟨S4096x8192, .f32⟩ : BufTy).Contents (Elt F) → (⟨S4096x8192, .f32⟩ : BufTy).Contents (Elt F)) (val_main_v9 (F := F) a1)

def val_main_v11 (a1 : (⟨S4096x8192, .f32⟩ : BufTy).Contents (Elt F)) : (⟨S4096x8192, .f32⟩ : BufTy).Contents (Elt F) :=
  (mulf : (⟨S4096x8192, .f32⟩ : BufTy).Contents (Elt F) → (⟨S4096x8192, .f32⟩ : BufTy).Contents (Elt F) → (⟨S4096x8192, .f32⟩ : BufTy).Contents (Elt F)) a1 (val_main_v10 (F := F) a1)

def val_main_v12 (a1 : (⟨S4096x8192, .f32⟩ : BufTy).Contents (Elt F)) : (⟨S4096, .f32⟩ : BufTy).Contents (Elt F) :=
  ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)) (val_main_v11 (F := F) a1) ((constant S_ .f32 0x00000000#32) : (⟨S_, .f32⟩ : BufTy).Contents (Elt F))

def val_main_v13 (a1 : (⟨S4096x8192, .f32⟩ : BufTy).Contents (Elt F)) : (⟨S_, .f32⟩ : BufTy).Contents (Elt F) :=
  ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (val_main_v12 (F := F) a1) ((constant S_ .f32 0x00000000#32) : (⟨S_, .f32⟩ : BufTy).Contents (Elt F))

def val_main_v14 (a1 : (⟨S4096x8192, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v13 (F := F) a1) ((constant S_ .f32 0x45800000#32) : (⟨S_, .f32⟩ : BufTy).Contents (Elt F))

def val_main_v15 (a1 : (⟨S4096x8192, .f32⟩ : BufTy).Contents (Elt F)) : (⟨S_, .f32⟩ : BufTy).Contents (Elt F) :=
  (Host.negf : (⟨S_, .f32⟩ : BufTy).Contents (Elt F) → (⟨S_, .f32⟩ : BufTy).Contents (Elt F)) (val_main_v14 (F := F) a1)

def val_main_v16 (a1 : (⟨S4096x8192, .f32⟩ : BufTy).Contents (Elt F)) (a2 : (⟨S4096x8192, .f32⟩ : BufTy).Contents (Elt F)) : (⟨S4096x8192, .f32⟩ : BufTy).Contents (Elt F) :=
  (mulf : (⟨S4096x8192, .f32⟩ : BufTy).Contents (Elt F) → (⟨S4096x8192, .f32⟩ : BufTy).Contents (Elt F) → (⟨S4096x8192, .f32⟩ : BufTy).Contents (Elt F)) a1 a2

def val_main_v17 (a1 : (⟨S4096x8192, .f32⟩ : BufTy).Contents (Elt F)) (a2 : (⟨S4096x8192, .f32⟩ : BufTy).Contents (Elt F)) (a4 : (⟨S4096x8192, .f32⟩ : BufTy).Contents (Elt F)) : (⟨S4096x8192, .f32⟩ : BufTy).Contents (Elt F) :=
  (mulf : (⟨S4096x8192, .f32⟩ : BufTy).Contents (Elt F) → (⟨S4096x8192, .f32⟩ : BufTy).Contents (Elt F) → (⟨S4096x8192, .f32⟩ : BufTy).Contents (Elt F)) (val_main_v16 (F := F) a1 a2) a4

def val_main_v18 (a1 : (⟨S4096x8192, .f32⟩ : BufTy).Contents (Elt F)) (a2 : (⟨S4096x8192, .f32⟩ : BufTy).Contents (Elt F)) (a4 : (⟨S4096x8192, .f32⟩ : BufTy).Contents (Elt F)) : (⟨S4096, .f32⟩ : BufTy).Contents (Elt F) :=
  ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)) (val_main_v17 (F := F) a1 a2 a4) ((constant S_ .f32 0x00000000#32) : (⟨S_, .f32⟩ : BufTy).Contents (Elt F))

def val_main_v19 (a1 : (⟨S4096x8192, .f32⟩ : BufTy).Contents (Elt F)) (a4 : (⟨S4096x8192, .f32⟩ : BufTy).Contents (Elt F)) : (⟨S4096x8192, .f32⟩ : BufTy).Contents (Elt F) :=
  (mulf : (⟨S4096x8192, .f32⟩ : BufTy).Contents (Elt F) → (⟨S4096x8192, .f32⟩ : BufTy).Contents (Elt F) → (⟨S4096x8192, .f32⟩ : BufTy).Contents (Elt F)) a1 a4

def val_main_v20 (a1 : (⟨S4096x8192, .f32⟩ : BufTy).Contents (Elt F)) (a4 : (⟨S4096x8192, .f32⟩ : BufTy).Contents (Elt F)) : (⟨S4096, .f32⟩ : BufTy).Contents (Elt F) :=
  ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)) (val_main_v19 (F := F) a1 a4) ((constant S_ .f32 0x00000000#32) : (⟨S_, .f32⟩ : BufTy).Contents (Elt F))

def val_main_v21 : (⟨S4096, .f32⟩ : BufTy).Contents (Elt F) :=
  (broadcastInDim S4096 ![] bcast_S_S4096 : (⟨S_, .f32⟩ : BufTy).Contents (Elt F) → (⟨S4096, .f32⟩ : BufTy).Contents (Elt F)) ((constant S_ .f32 0x322BCC77#32) : (⟨S_, .f32⟩ : BufTy).Contents (Elt F))

def val_main_v22 (a1 : (⟨S4096x8192, .f32⟩ : BufTy).Contents (Elt F)) (a4 : (⟨S4096x8192, .f32⟩ : BufTy).Contents (Elt F)) : (⟨S4096, .f32⟩ : BufTy).Contents (Elt F) :=
  (addf : (⟨S4096, .f32⟩ : BufTy).Contents (Elt F) → (⟨S4096, .f32⟩ : BufTy).Contents (Elt F) → (⟨S4096, .f32⟩ : BufTy).Contents (Elt F)) (val_main_v20 (F := F) a1 a4) (val_main_v21 (F := F))

def val_main_v23 (a1 : (⟨S4096x8192, .f32⟩ : BufTy).Contents (Elt F)) (a2 : (⟨S4096x8192, .f32⟩ : BufTy).Contents (Elt F)) (a4 : (⟨S4096x8192, .f32⟩ : BufTy).Contents (Elt F)) : (⟨S4096, .f32⟩ : BufTy).Contents (Elt F) :=
  (Host.divf : (⟨S4096, .f32⟩ : BufTy).Contents (Elt F) → (⟨S4096, .f32⟩ : BufTy).Contents (Elt F) → (⟨S4096, .f32⟩ : BufTy).Contents (Elt F)) (val_main_v18 (F := F) a1 a2 a4) (val_main_v22 (F := F) a1 a4)

def val_main_v24 : (⟨S4096, .f32⟩ : BufTy).Contents (Elt F) :=
  (broadcastInDim S4096 ![] bcast_S_S4096 : (⟨S_, .f32⟩ : BufTy).Contents (Elt F) → (⟨S4096, .f32⟩ : BufTy).Contents (Elt F)) ((constant S_ .f32 0x42480000#32) : (⟨S_, .f32⟩ : BufTy).Contents (Elt F))

def val_main_v25 (a0 : (⟨S4096, .f32⟩ : BufTy).Contents (Elt F)) : (⟨S4096, .f32⟩ : BufTy).Contents (Elt F) :=
  (mulf : (⟨S4096, .f32⟩ : BufTy).Contents (Elt F) → (⟨S4096, .f32⟩ : BufTy).Contents (Elt F) → (⟨S4096, .f32⟩ : BufTy).Contents (Elt F)) a0 (val_main_v24 (F := F))

def val_main_v26 (a0 : (⟨S4096, .f32⟩ : BufTy).Contents (Elt F)) : (⟨S4096, .f32⟩ : BufTy).Contents (Elt F) :=
  (Host.negf : (⟨S4096, .f32⟩ : BufTy).Contents (Elt F) → (⟨S4096, .f32⟩ : BufTy).Contents (Elt F)) (val_main_v25 (F := F) a0)

def val_main_v27 (a0 : (⟨S4096, .f32⟩ : BufTy).Contents (Elt F)) : (⟨S4096, .f32⟩ : BufTy).Contents (Elt F) :=
  (Host.exp : (⟨S4096, .f32⟩ : BufTy).Contents (Elt F) → (⟨S4096, .f32⟩ : BufTy).Contents (Elt F)) (val_main_v26 (F := F) a0)

def val_main_v28 : (⟨S4096, .f32⟩ : BufTy).Contents (Elt F) :=
  (broadcastInDim S4096 ![] bcast_S_S4096 : (⟨S_, .f32⟩ : BufTy).Contents (Elt F) → (⟨S4096, .f32⟩ : BufTy).Contents (Elt F)) ((constant S_ .f32 0x3F800000#32) : (⟨S_, .f32⟩ : BufTy).Contents (Elt F))

def val_main_v29 (a0 : (⟨S4096, .f32⟩ : BufTy).Contents (Elt F)) : (⟨S4096, .f32⟩ : BufTy).Contents (Elt F) :=
  (addf : (⟨S4096, .f32⟩ : BufTy).Contents (Elt F) → (⟨S4096, .f32⟩ : BufTy).Contents (Elt F) → (⟨S4096, .f32⟩ : BufTy).Contents (Elt F)) (val_main_v28 (F := F)) (val_main_v27 (F := F) a0)

def val_main_v30 : (⟨S4096, .f32⟩ : BufTy).Contents (Elt F) :=
  (broadcastInDim S4096 ![] bcast_S_S4096 : (⟨S_, .f32⟩ : BufTy).Contents (Elt F) → (⟨S4096, .f32⟩ : BufTy).Contents (Elt F)) ((constant S_ .f32 0x3F800000#32) : (⟨S_, .f32⟩ : BufTy).Contents (Elt F))

def val_main_v31 (a0 : (⟨S4096, .f32⟩ : BufTy).Contents (Elt F)) : (⟨S4096, .f32⟩ : BufTy).Contents (Elt F) :=
  (Host.divf : (⟨S4096, .f32⟩ : BufTy).Contents (Elt F) → (⟨S4096, .f32⟩ : BufTy).Contents (Elt F) → (⟨S4096, .f32⟩ : BufTy).Contents (Elt F)) (val_main_v30 (F := F)) (val_main_v29 (F := F) a0)

def val_main_v32 (a0 : (⟨S4096, .f32⟩ : BufTy).Contents (Elt F)) (a1 : (⟨S4096x8192, .f32⟩ : BufTy).Contents (Elt F)) (a2 : (⟨S4096x8192, .f32⟩ : BufTy).Contents (Elt F)) (a4 : (⟨S4096x8192, .f32⟩ : BufTy).Contents (Elt F)) : (⟨S4096, .f32⟩ : BufTy).Contents (Elt F) :=
  (subf : (⟨S4096, .f32⟩ : BufTy).Contents (Elt F) → (⟨S4096, .f32⟩ : BufTy).Contents (Elt F) → (⟨S4096, .f32⟩ : BufTy).Contents (Elt F)) (val_main_v23 (F := F) a1 a2 a4) (val_main_v31 (F := F) a0)

def val_main_v33 (a0 : (⟨S4096, .f32⟩ : BufTy).Contents (Elt F)) (a1 : (⟨S4096x8192, .f32⟩ : BufTy).Contents (Elt F)) (a2 : (⟨S4096x8192, .f32⟩ : BufTy).Contents (Elt F)) (a4 : (⟨S4096x8192, .f32⟩ : BufTy).Contents (Elt F)) : (⟨S4096, .f32⟩ : BufTy).Contents (Elt F) :=
  (mulf : (⟨S4096, .f32⟩ : BufTy).Contents (Elt F) → (⟨S4096, .f32⟩ : BufTy).Contents (Elt F) → (⟨S4096, .f32⟩ : BufTy).Contents (Elt F)) (val_main_v32 (F := F) a0 a1 a2 a4) (val_main_v32 (F := F) a0 a1 a2 a4)

def val_main_v34 (a0 : (⟨S4096, .f32⟩ : BufTy).Contents (Elt F)) (a1 : (⟨S4096x8192, .f32⟩ : BufTy).Contents (Elt F)) (a2 : (⟨S4096x8192, .f32⟩ : BufTy).Contents (Elt F)) (a4 : (⟨S4096x8192, .f32⟩ : BufTy).Contents (Elt F)) : (⟨S_, .f32⟩ : BufTy).Contents (Elt F) :=
  ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (val_main_v33 (F := F) a0 a1 a2 a4) ((constant S_ .f32 0x00000000#32) : (⟨S_, .f32⟩ : BufTy).Contents (Elt F))

def val_main_v35 (a0 : (⟨S4096, .f32⟩ : BufTy).Contents (Elt F)) (a1 : (⟨S4096x8192, .f32⟩ : BufTy).Contents (Elt F)) (a2 : (⟨S4096x8192, .f32⟩ : BufTy).Contents (Elt F)) (a4 : (⟨S4096x8192, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v34 (F := F) a0 a1 a2 a4) ((constant S_ .f32 0x45800000#32) : (⟨S_, .f32⟩ : BufTy).Contents (Elt F))

def val_main_v36 (a1 : (⟨S4096x8192, .f32⟩ : BufTy).Contents (Elt F)) : (⟨S4096, .f32⟩ : BufTy).Contents (Elt F) :=
  ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)) a1 ((constant S_ .f32 0x00000000#32) : (⟨S_, .f32⟩ : BufTy).Contents (Elt F))

def val_main_v37 (a1 : (⟨S4096x8192, .f32⟩ : BufTy).Contents (Elt F)) : (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (val_main_v36 (F := F) a1)

def val_main_v38 : (⟨S4096x1, .f32⟩ : BufTy).Contents (Elt F) :=
  (broadcastInDim S4096x1 ![] bcast_S_S4096x1 : (⟨S_, .f32⟩ : BufTy).Contents (Elt F) → (⟨S4096x1, .f32⟩ : BufTy).Contents (Elt F)) ((constant S_ .f32 0x322BCC77#32) : (⟨S_, .f32⟩ : BufTy).Contents (Elt F))

def val_main_v39 (a1 : (⟨S4096x8192, .f32⟩ : BufTy).Contents (Elt F)) : (⟨S4096x1, .f32⟩ : BufTy).Contents (Elt F) :=
  (addf : (⟨S4096x1, .f32⟩ : BufTy).Contents (Elt F) → (⟨S4096x1, .f32⟩ : BufTy).Contents (Elt F) → (⟨S4096x1, .f32⟩ : BufTy).Contents (Elt F)) (val_main_v37 (F := F) a1) (val_main_v38 (F := F))

def val_main_v40 (a1 : (⟨S4096x8192, .f32⟩ : BufTy).Contents (Elt F)) : (⟨S4096x8192, .f32⟩ : BufTy).Contents (Elt F) :=
  (broadcastInDim S4096x8192 ![0, 1] bcast_S4096x1_S4096x8192_0_1 : (⟨S4096x1, .f32⟩ : BufTy).Contents (Elt F) → (⟨S4096x8192, .f32⟩ : BufTy).Contents (Elt F)) (val_main_v39 (F := F) a1)

def val_main_v41 (a1 : (⟨S4096x8192, .f32⟩ : BufTy).Contents (Elt F)) : (⟨S4096x8192, .f32⟩ : BufTy).Contents (Elt F) :=
  (Host.divf : (⟨S4096x8192, .f32⟩ : BufTy).Contents (Elt F) → (⟨S4096x8192, .f32⟩ : BufTy).Contents (Elt F) → (⟨S4096x8192, .f32⟩ : BufTy).Contents (Elt F)) a1 (val_main_v40 (F := F) a1)

def val_main_v42 (a1 : (⟨S4096x8192, .f32⟩ : BufTy).Contents (Elt F)) (a4 : (⟨S4096x8192, .f32⟩ : BufTy).Contents (Elt F)) : (⟨S4096x8192, .f32⟩ : BufTy).Contents (Elt F) :=
  (mulf : (⟨S4096x8192, .f32⟩ : BufTy).Contents (Elt F) → (⟨S4096x8192, .f32⟩ : BufTy).Contents (Elt F) → (⟨S4096x8192, .f32⟩ : BufTy).Contents (Elt F)) (val_main_v41 (F := F) a1) a4

def val_main_v43 (a1 : (⟨S4096x8192, .f32⟩ : BufTy).Contents (Elt F)) (a4 : (⟨S4096x8192, .f32⟩ : BufTy).Contents (Elt F)) : (⟨S8192, .f32⟩ : BufTy).Contents (Elt F) :=
  ((fun x v => Host.reduceAdd x v reducesTo_S4096x8192_S8192_d0 h_S_) : (⟨S4096x8192, .f32⟩ : BufTy).Contents (Elt F) → (⟨S_, .f32⟩ : BufTy).Contents (Elt F) → (⟨S8192, .f32⟩ : BufTy).Contents (Elt F)) (val_main_v42 (F := F) a1 a4) ((constant S_ .f32 0x00000000#32) : (⟨S_, .f32⟩ : BufTy).Contents (Elt F))

def val_main_v44 : (⟨S8192, .f32⟩ : BufTy).Contents (Elt F) :=
  (broadcastInDim S8192 ![] bcast_S_S8192 : (⟨S_, .f32⟩ : BufTy).Contents (Elt F) → (⟨S8192, .f32⟩ : BufTy).Contents (Elt F)) ((constant S_ .f32 0x45800000#32) : (⟨S_, .f32⟩ : BufTy).Contents (Elt F))

def val_main_v45 (a1 : (⟨S4096x8192, .f32⟩ : BufTy).Contents (Elt F)) (a4 : (⟨S4096x8192, .f32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (val_main_v43 (F := F) a1 a4) (val_main_v44 (F := F))

def val_main_v46 (a1 : (⟨S4096x8192, .f32⟩ : BufTy).Contents (Elt F)) (a4 : (⟨S4096x8192, .f32⟩ : BufTy).Contents (Elt F)) : (⟨S_, .f32⟩ : BufTy).Contents (Elt F) :=
  ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (val_main_v45 (F := F) a1 a4) ((constant S_ .f32 0x00000000#32) : (⟨S_, .f32⟩ : BufTy).Contents (Elt F))

def val_main_v47 (a1 : (⟨S4096x8192, .f32⟩ : BufTy).Contents (Elt F)) (a4 : (⟨S4096x8192, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v46 (F := F) a1 a4) ((constant S_ .f32 0x322BCC77#32) : (⟨S_, .f32⟩ : BufTy).Contents (Elt F))

def val_main_v48 (a1 : (⟨S4096x8192, .f32⟩ : BufTy).Contents (Elt F)) (a4 : (⟨S4096x8192, .f32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (val_main_v47 (F := F) a1 a4)

def val_main_v49 (a1 : (⟨S4096x8192, .f32⟩ : BufTy).Contents (Elt F)) (a4 : (⟨S4096x8192, .f32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (val_main_v45 (F := F) a1 a4) (val_main_v48 (F := F) a1 a4)

def val_main_v50 : (⟨S8192, .f32⟩ : BufTy).Contents (Elt F) :=
  (broadcastInDim S8192 ![] bcast_S_S8192 : (⟨S_, .f32⟩ : BufTy).Contents (Elt F) → (⟨S8192, .f32⟩ : BufTy).Contents (Elt F)) ((constant S_ .f32 0x322BCC77#32) : (⟨S_, .f32⟩ : BufTy).Contents (Elt F))

def val_main_v51 (a1 : (⟨S4096x8192, .f32⟩ : BufTy).Contents (Elt F)) (a4 : (⟨S4096x8192, .f32⟩ : BufTy).Contents (Elt F)) : (⟨S8192, .f32⟩ : BufTy).Contents (Elt F) :=
  (addf : (⟨S8192, .f32⟩ : BufTy).Contents (Elt F) → (⟨S8192, .f32⟩ : BufTy).Contents (Elt F) → (⟨S8192, .f32⟩ : BufTy).Contents (Elt F)) (val_main_v49 (F := F) a1 a4) (val_main_v50 (F := F))

def val_main_v52 (a1 : (⟨S4096x8192, .f32⟩ : BufTy).Contents (Elt F)) (a4 : (⟨S4096x8192, .f32⟩ : BufTy).Contents (Elt F)) : (⟨S8192, .f32⟩ : BufTy).Contents (Elt F) :=
  (Host.log : (⟨S8192, .f32⟩ : BufTy).Contents (Elt F) → (⟨S8192, .f32⟩ : BufTy).Contents (Elt F)) (val_main_v51 (F := F) a1 a4)

def val_main_v53 (a1 : (⟨S4096x8192, .f32⟩ : BufTy).Contents (Elt F)) (a4 : (⟨S4096x8192, .f32⟩ : BufTy).Contents (Elt F)) : (⟨S8192, .f32⟩ : BufTy).Contents (Elt F) :=
  (mulf : (⟨S8192, .f32⟩ : BufTy).Contents (Elt F) → (⟨S8192, .f32⟩ : BufTy).Contents (Elt F) → (⟨S8192, .f32⟩ : BufTy).Contents (Elt F)) (val_main_v49 (F := F) a1 a4) (val_main_v52 (F := F) a1 a4)

def val_main_v54 (a1 : (⟨S4096x8192, .f32⟩ : BufTy).Contents (Elt F)) (a4 : (⟨S4096x8192, .f32⟩ : BufTy).Contents (Elt F)) : (⟨S_, .f32⟩ : BufTy).Contents (Elt F) :=
  ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (val_main_v53 (F := F) a1 a4) ((constant S_ .f32 0x00000000#32) : (⟨S_, .f32⟩ : BufTy).Contents (Elt F))

def val_main_v55 (a1 : (⟨S4096x8192, .f32⟩ : BufTy).Contents (Elt F)) (a4 : (⟨S4096x8192, .f32⟩ : BufTy).Contents (Elt F)) : (⟨S_, .f32⟩ : BufTy).Contents (Elt F) :=
  (Host.negf : (⟨S_, .f32⟩ : BufTy).Contents (Elt F) → (⟨S_, .f32⟩ : BufTy).Contents (Elt F)) (val_main_v54 (F := F) a1 a4)

def val_main_v56 (a1 : (⟨S4096x8192, .f32⟩ : BufTy).Contents (Elt F)) (a4 : (⟨S4096x8192, .f32⟩ : BufTy).Contents (Elt F)) : (⟨S_, .f32⟩ : BufTy).Contents (Elt F) :=
  (Host.negf : (⟨S_, .f32⟩ : BufTy).Contents (Elt F) → (⟨S_, .f32⟩ : BufTy).Contents (Elt F)) (val_main_v55 (F := F) a1 a4)

def val_main_v57 : (⟨S4096x8192, .f32⟩ : BufTy).Contents (Elt F) :=
  (broadcastInDim S4096x8192 ![] bcast_S_S4096x8192 : (⟨S_, .f32⟩ : BufTy).Contents (Elt F) → (⟨S4096x8192, .f32⟩ : BufTy).Contents (Elt F)) ((constant S_ .f32 0x00000000#32) : (⟨S_, .f32⟩ : BufTy).Contents (Elt F))

def val_main_v58 (a4 : (⟨S4096x8192, .f32⟩ : BufTy).Contents (Elt F)) : (⟨S4096x8192, .i1⟩ : BufTy).Contents (Elt F) :=
  (cmpf .ogt : (⟨S4096x8192, .f32⟩ : BufTy).Contents (Elt F) → (⟨S4096x8192, .f32⟩ : BufTy).Contents (Elt F) → (⟨S4096x8192, .i1⟩ : BufTy).Contents (Elt F)) a4 (val_main_v57 (F := F))

def val_main_v59 (a4 : (⟨S4096x8192, .f32⟩ : BufTy).Contents (Elt F)) : (⟨S4096x8192, .i32⟩ : BufTy).Contents (Elt F) :=
  ((extui 32 · natLt_1_32) : (⟨S4096x8192, .i1⟩ : BufTy).Contents (Elt F) → (⟨S4096x8192, .i32⟩ : BufTy).Contents (Elt F)) (val_main_v58 (F := F) a4)

def val_main_v60 (a4 : (⟨S4096x8192, .f32⟩ : BufTy).Contents (Elt F)) : (⟨S4096, .i32⟩ : BufTy).Contents (Elt F) :=
  ((fun x v => Host.reduce IntOp.addi x v reducesTo_S4096x8192_S4096_d1 h_S_) : (⟨S4096x8192, .i32⟩ : BufTy).Contents (Elt F) → (⟨S_, .i32⟩ : BufTy).Contents (Elt F) → (⟨S4096, .i32⟩ : BufTy).Contents (Elt F)) (val_main_v59 (F := F) a4) ((constantI S_ 32 0#32) : (⟨S_, .i32⟩ : BufTy).Contents (Elt F))

def val_main_v61 : (⟨S4096x8192, .f32⟩ : BufTy).Contents (Elt F) :=
  (broadcastInDim S4096x8192 ![] bcast_S_S4096x8192 : (⟨S_, .f32⟩ : BufTy).Contents (Elt F) → (⟨S4096x8192, .f32⟩ : BufTy).Contents (Elt F)) ((constant S_ .f32 0x41A00000#32) : (⟨S_, .f32⟩ : BufTy).Contents (Elt F))

def val_main_v62 (a3 : (⟨S4096x8192, .f32⟩ : BufTy).Contents (Elt F)) : (⟨S4096x8192, .f32⟩ : BufTy).Contents (Elt F) :=
  (mulf : (⟨S4096x8192, .f32⟩ : BufTy).Contents (Elt F) → (⟨S4096x8192, .f32⟩ : BufTy).Contents (Elt F) → (⟨S4096x8192, .f32⟩ : BufTy).Contents (Elt F)) a3 (val_main_v61 (F := F))

def val_main_call2_v0 : (⟨S_, .f32⟩ : BufTy).Contents (Elt F) :=
  (id : (⟨S_, .f32⟩ : BufTy).Contents (Elt F) → (⟨S_, .f32⟩ : BufTy).Contents (Elt F)) ((constant S_ .f32 0xF149F2CA#32) : (⟨S_, .f32⟩ : BufTy).Contents (Elt F))

def val_main_call2_v1 : (⟨S4096x8192, .f32⟩ : BufTy).Contents (Elt F) :=
  ((broadcastInDim S4096x8192 ![] bcast_S_S4096x8192) : (⟨S_, .f32⟩ : BufTy).Contents (Elt F) → (⟨S4096x8192, .f32⟩ : BufTy).Contents (Elt F)) (val_main_call2_v0 (F := F))

def val_main_v63 (a3 : (⟨S4096x8192, .f32⟩ : BufTy).Contents (Elt F)) (a4 : (⟨S4096x8192, .f32⟩ : BufTy).Contents (Elt F)) : (⟨S4096x8192, .f32⟩ : BufTy).Contents (Elt F) :=
  (select : (⟨S4096x8192, .i1⟩ : BufTy).Contents (Elt F) → (⟨S4096x8192, .f32⟩ : BufTy).Contents (Elt F) → (⟨S4096x8192, .f32⟩ : BufTy).Contents (Elt F) → (⟨S4096x8192, .f32⟩ : BufTy).Contents (Elt F)) (val_main_v58 (F := F) a4) (val_main_v62 (F := F) a3) (val_main_call2_v1 (F := F))

def val_main_v64 (a3 : (⟨S4096x8192, .f32⟩ : BufTy).Contents (Elt F)) (a4 : (⟨S4096x8192, .f32⟩ : BufTy).Contents (Elt F)) : (⟨S4096, .f32⟩ : BufTy).Contents (Elt F) :=
  ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)) (val_main_v63 (F := F) a3 a4) ((constant S_ .f32 0xFF800000#32) : (⟨S_, .f32⟩ : BufTy).Contents (Elt F))

def val_main_v65 : (⟨S4096, .f32⟩ : BufTy).Contents (Elt F) :=
  (broadcastInDim S4096 ![] bcast_S_S4096 : (⟨S_, .f32⟩ : BufTy).Contents (Elt F) → (⟨S4096, .f32⟩ : BufTy).Contents (Elt F)) ((constant S_ .f32 0xFF800000#32) : (⟨S_, .f32⟩ : BufTy).Contents (Elt F))

def val_main_v66 (a3 : (⟨S4096x8192, .f32⟩ : BufTy).Contents (Elt F)) (a4 : (⟨S4096x8192, .f32⟩ : BufTy).Contents (Elt F)) : (⟨S4096, .f32⟩ : BufTy).Contents (Elt F) :=
  (maximumf : (⟨S4096, .f32⟩ : BufTy).Contents (Elt F) → (⟨S4096, .f32⟩ : BufTy).Contents (Elt F) → (⟨S4096, .f32⟩ : BufTy).Contents (Elt F)) (val_main_v65 (F := F)) (val_main_v64 (F := F) a3 a4)

def val_main_v67 (a3 : (⟨S4096x8192, .f32⟩ : BufTy).Contents (Elt F)) (a4 : (⟨S4096x8192, .f32⟩ : BufTy).Contents (Elt F)) : (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (val_main_v66 (F := F) a3 a4)

def val_main_v68 (a3 : (⟨S4096x8192, .f32⟩ : BufTy).Contents (Elt F)) (a4 : (⟨S4096x8192, .f32⟩ : BufTy).Contents (Elt F)) : (⟨S4096x8192, .f32⟩ : BufTy).Contents (Elt F) :=
  (broadcastInDim S4096x8192 ![0, 1] bcast_S4096x1_S4096x8192_0_1 : (⟨S4096x1, .f32⟩ : BufTy).Contents (Elt F) → (⟨S4096x8192, .f32⟩ : BufTy).Contents (Elt F)) (val_main_v67 (F := F) a3 a4)

def val_main_v69 (a3 : (⟨S4096x8192, .f32⟩ : BufTy).Contents (Elt F)) (a4 : (⟨S4096x8192, .f32⟩ : BufTy).Contents (Elt F)) : (⟨S4096x8192, .f32⟩ : BufTy).Contents (Elt F) :=
  (subf : (⟨S4096x8192, .f32⟩ : BufTy).Contents (Elt F) → (⟨S4096x8192, .f32⟩ : BufTy).Contents (Elt F) → (⟨S4096x8192, .f32⟩ : BufTy).Contents (Elt F)) (val_main_v63 (F := F) a3 a4) (val_main_v68 (F := F) a3 a4)

def val_main_v70 (a3 : (⟨S4096x8192, .f32⟩ : BufTy).Contents (Elt F)) (a4 : (⟨S4096x8192, .f32⟩ : BufTy).Contents (Elt F)) : (⟨S4096x8192, .f32⟩ : BufTy).Contents (Elt F) :=
  (Host.exp : (⟨S4096x8192, .f32⟩ : BufTy).Contents (Elt F) → (⟨S4096x8192, .f32⟩ : BufTy).Contents (Elt F)) (val_main_v69 (F := F) a3 a4)

def val_main_v71 (a3 : (⟨S4096x8192, .f32⟩ : BufTy).Contents (Elt F)) (a4 : (⟨S4096x8192, .f32⟩ : BufTy).Contents (Elt F)) : (⟨S4096, .f32⟩ : BufTy).Contents (Elt F) :=
  ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)) (val_main_v70 (F := F) a3 a4) ((constant S_ .f32 0x00000000#32) : (⟨S_, .f32⟩ : BufTy).Contents (Elt F))

def val_main_v72 (a3 : (⟨S4096x8192, .f32⟩ : BufTy).Contents (Elt F)) (a4 : (⟨S4096x8192, .f32⟩ : BufTy).Contents (Elt F)) : (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (val_main_v71 (F := F) a3 a4)

def val_main_v73 (a3 : (⟨S4096x8192, .f32⟩ : BufTy).Contents (Elt F)) (a4 : (⟨S4096x8192, .f32⟩ : BufTy).Contents (Elt F)) : (⟨S4096x8192, .f32⟩ : BufTy).Contents (Elt F) :=
  (broadcastInDim S4096x8192 ![0, 1] bcast_S4096x1_S4096x8192_0_1 : (⟨S4096x1, .f32⟩ : BufTy).Contents (Elt F) → (⟨S4096x8192, .f32⟩ : BufTy).Contents (Elt F)) (val_main_v72 (F := F) a3 a4)

def val_main_v74 (a3 : (⟨S4096x8192, .f32⟩ : BufTy).Contents (Elt F)) (a4 : (⟨S4096x8192, .f32⟩ : BufTy).Contents (Elt F)) : (⟨S4096x8192, .f32⟩ : BufTy).Contents (Elt F) :=
  (Host.divf : (⟨S4096x8192, .f32⟩ : BufTy).Contents (Elt F) → (⟨S4096x8192, .f32⟩ : BufTy).Contents (Elt F) → (⟨S4096x8192, .f32⟩ : BufTy).Contents (Elt F)) (val_main_v70 (F := F) a3 a4) (val_main_v73 (F := F) a3 a4)

def val_main_call3_v0 : (⟨S_, .f32⟩ : BufTy).Contents (Elt F) :=
  (id : (⟨S_, .f32⟩ : BufTy).Contents (Elt F) → (⟨S_, .f32⟩ : BufTy).Contents (Elt F)) ((constant S_ .f32 0xF149F2CA#32) : (⟨S_, .f32⟩ : BufTy).Contents (Elt F))

def val_main_call3_v1 : (⟨S4096x8192, .f32⟩ : BufTy).Contents (Elt F) :=
  ((broadcastInDim S4096x8192 ![] bcast_S_S4096x8192) : (⟨S_, .f32⟩ : BufTy).Contents (Elt F) → (⟨S4096x8192, .f32⟩ : BufTy).Contents (Elt F)) (val_main_call3_v0 (F := F))

def val_main_v75 (a4 : (⟨S4096x8192, .f32⟩ : BufTy).Contents (Elt F)) (a5 : (⟨S4096x8192, .f32⟩ : BufTy).Contents (Elt F)) : (⟨S4096x8192, .f32⟩ : BufTy).Contents (Elt F) :=
  (select : (⟨S4096x8192, .i1⟩ : BufTy).Contents (Elt F) → (⟨S4096x8192, .f32⟩ : BufTy).Contents (Elt F) → (⟨S4096x8192, .f32⟩ : BufTy).Contents (Elt F) → (⟨S4096x8192, .f32⟩ : BufTy).Contents (Elt F)) (val_main_v58 (F := F) a4) a5 (val_main_call3_v1 (F := F))

def val_main_call4_v0 (a4 : (⟨S4096x8192, .f32⟩ : BufTy).Contents (Elt F)) (a5 : (⟨S4096x8192, .f32⟩ : BufTy).Contents (Elt F)) : (⟨S4096, .f32⟩ : BufTy).Contents (Elt F) :=
  ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)) (val_main_v75 (F := F) a4 a5) ((constant S_ .f32 0xFF800000#32) : (⟨S_, .f32⟩ : BufTy).Contents (Elt F))

def val_main_call4_v1 : (⟨S4096, .f32⟩ : BufTy).Contents (Elt F) :=
  ((broadcastInDim S4096 ![] bcast_S_S4096) : (⟨S_, .f32⟩ : BufTy).Contents (Elt F) → (⟨S4096, .f32⟩ : BufTy).Contents (Elt F)) ((constant S_ .f32 0xFF800000#32) : (⟨S_, .f32⟩ : BufTy).Contents (Elt F))

def val_main_call4_v2 (a4 : (⟨S4096x8192, .f32⟩ : BufTy).Contents (Elt F)) (a5 : (⟨S4096x8192, .f32⟩ : BufTy).Contents (Elt F)) : (⟨S4096, .f32⟩ : BufTy).Contents (Elt F) :=
  (maximumf : (⟨S4096, .f32⟩ : BufTy).Contents (Elt F) → (⟨S4096, .f32⟩ : BufTy).Contents (Elt F) → (⟨S4096, .f32⟩ : BufTy).Contents (Elt F)) (val_main_call4_v1 (F := F)) (val_main_call4_v0 (F := F) a4 a5)

def val_main_call4_v3 (a4 : (⟨S4096x8192, .f32⟩ : BufTy).Contents (Elt F)) (a5 : (⟨S4096x8192, .f32⟩ : BufTy).Contents (Elt F)) : (⟨S4096x1, .f32⟩ : BufTy).Contents (Elt F) :=
  ((broadcastInDim S4096x1 ![0] bcast_S4096_S4096x1_0) : (⟨S4096, .f32⟩ : BufTy).Contents (Elt F) → (⟨S4096x1, .f32⟩ : BufTy).Contents (Elt F)) (val_main_call4_v2 (F := F) a4 a5)

def val_main_call4_v4 (a4 : (⟨S4096x8192, .f32⟩ : BufTy).Contents (Elt F)) (a5 : (⟨S4096x8192, .f32⟩ : BufTy).Contents (Elt F)) : (⟨S4096x8192, .f32⟩ : BufTy).Contents (Elt F) :=
  ((broadcastInDim S4096x8192 ![0, 1] bcast_S4096x1_S4096x8192_0_1) : (⟨S4096x1, .f32⟩ : BufTy).Contents (Elt F) → (⟨S4096x8192, .f32⟩ : BufTy).Contents (Elt F)) (val_main_call4_v3 (F := F) a4 a5)

def val_main_call4_v5 (a4 : (⟨S4096x8192, .f32⟩ : BufTy).Contents (Elt F)) (a5 : (⟨S4096x8192, .f32⟩ : BufTy).Contents (Elt F)) : (⟨S4096x8192, .f32⟩ : BufTy).Contents (Elt F) :=
  (subf : (⟨S4096x8192, .f32⟩ : BufTy).Contents (Elt F) → (⟨S4096x8192, .f32⟩ : BufTy).Contents (Elt F) → (⟨S4096x8192, .f32⟩ : BufTy).Contents (Elt F)) (val_main_v75 (F := F) a4 a5) (val_main_call4_v4 (F := F) a4 a5)

def val_main_call4_v6 (a4 : (⟨S4096x8192, .f32⟩ : BufTy).Contents (Elt F)) (a5 : (⟨S4096x8192, .f32⟩ : BufTy).Contents (Elt F)) : (⟨S4096x8192, .f32⟩ : BufTy).Contents (Elt F) :=
  (Host.exp : (⟨S4096x8192, .f32⟩ : BufTy).Contents (Elt F) → (⟨S4096x8192, .f32⟩ : BufTy).Contents (Elt F)) (val_main_call4_v5 (F := F) a4 a5)

def val_main_call4_v7 (a4 : (⟨S4096x8192, .f32⟩ : BufTy).Contents (Elt F)) (a5 : (⟨S4096x8192, .f32⟩ : BufTy).Contents (Elt F)) : (⟨S4096, .f32⟩ : BufTy).Contents (Elt F) :=
  ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)) (val_main_call4_v6 (F := F) a4 a5) ((constant S_ .f32 0x00000000#32) : (⟨S_, .f32⟩ : BufTy).Contents (Elt F))

def val_main_call4_v8 (a4 : (⟨S4096x8192, .f32⟩ : BufTy).Contents (Elt F)) (a5 : (⟨S4096x8192, .f32⟩ : BufTy).Contents (Elt F)) : (⟨S4096x1, .f32⟩ : BufTy).Contents (Elt F) :=
  ((broadcastInDim S4096x1 ![0] bcast_S4096_S4096x1_0) : (⟨S4096, .f32⟩ : BufTy).Contents (Elt F) → (⟨S4096x1, .f32⟩ : BufTy).Contents (Elt F)) (val_main_call4_v7 (F := F) a4 a5)

def val_main_call4_v9 (a4 : (⟨S4096x8192, .f32⟩ : BufTy).Contents (Elt F)) (a5 : (⟨S4096x8192, .f32⟩ : BufTy).Contents (Elt F)) : (⟨S4096x1, .f32⟩ : BufTy).Contents (Elt F) :=
  (Host.log : (⟨S4096x1, .f32⟩ : BufTy).Contents (Elt F) → (⟨S4096x1, .f32⟩ : BufTy).Contents (Elt F)) (val_main_call4_v8 (F := F) a4 a5)

def val_main_call4_v10 (a4 : (⟨S4096x8192, .f32⟩ : BufTy).Contents (Elt F)) (a5 : (⟨S4096x8192, .f32⟩ : BufTy).Contents (Elt F)) : (⟨S4096x8192, .f32⟩ : BufTy).Contents (Elt F) :=
  ((broadcastInDim S4096x8192 ![0, 1] bcast_S4096x1_S4096x8192_0_1) : (⟨S4096x1, .f32⟩ : BufTy).Contents (Elt F) → (⟨S4096x8192, .f32⟩ : BufTy).Contents (Elt F)) (val_main_call4_v9 (F := F) a4 a5)

def val_main_v76 (a4 : (⟨S4096x8192, .f32⟩ : BufTy).Contents (Elt F)) (a5 : (⟨S4096x8192, .f32⟩ : BufTy).Contents (Elt F)) : (⟨S4096x8192, .f32⟩ : BufTy).Contents (Elt F) :=
  (subf : (⟨S4096x8192, .f32⟩ : BufTy).Contents (Elt F) → (⟨S4096x8192, .f32⟩ : BufTy).Contents (Elt F) → (⟨S4096x8192, .f32⟩ : BufTy).Contents (Elt F)) (val_main_call4_v5 (F := F) a4 a5) (val_main_call4_v10 (F := F) a4 a5)

def val_main_call5_v0 : (⟨S_, .f32⟩ : BufTy).Contents (Elt F) :=
  (id : (⟨S_, .f32⟩ : BufTy).Contents (Elt F) → (⟨S_, .f32⟩ : BufTy).Contents (Elt F)) ((constant S_ .f32 0x00000000#32) : (⟨S_, .f32⟩ : BufTy).Contents (Elt F))

def val_main_call5_v1 : (⟨S4096x8192, .f32⟩ : BufTy).Contents (Elt F) :=
  ((broadcastInDim S4096x8192 ![] bcast_S_S4096x8192) : (⟨S_, .f32⟩ : BufTy).Contents (Elt F) → (⟨S4096x8192, .f32⟩ : BufTy).Contents (Elt F)) (val_main_call5_v0 (F := F))

def val_main_v77 (a4 : (⟨S4096x8192, .f32⟩ : BufTy).Contents (Elt F)) (a5 : (⟨S4096x8192, .f32⟩ : BufTy).Contents (Elt F)) : (⟨S4096x8192, .f32⟩ : BufTy).Contents (Elt F) :=
  (select : (⟨S4096x8192, .i1⟩ : BufTy).Contents (Elt F) → (⟨S4096x8192, .f32⟩ : BufTy).Contents (Elt F) → (⟨S4096x8192, .f32⟩ : BufTy).Contents (Elt F) → (⟨S4096x8192, .f32⟩ : BufTy).Contents (Elt F)) (val_main_v58 (F := F) a4) (val_main_v76 (F := F) a4 a5) (val_main_call5_v1 (F := F))

def val_main_v78 (a3 : (⟨S4096x8192, .f32⟩ : BufTy).Contents (Elt F)) (a4 : (⟨S4096x8192, .f32⟩ : BufTy).Contents (Elt F)) (a5 : (⟨S4096x8192, .f32⟩ : BufTy).Contents (Elt F)) : (⟨S4096x8192, .f32⟩ : BufTy).Contents (Elt F) :=
  (mulf : (⟨S4096x8192, .f32⟩ : BufTy).Contents (Elt F) → (⟨S4096x8192, .f32⟩ : BufTy).Contents (Elt F) → (⟨S4096x8192, .f32⟩ : BufTy).Contents (Elt F)) (val_main_v74 (F := F) a3 a4) (val_main_v77 (F := F) a4 a5)

def val_main_v79 (a3 : (⟨S4096x8192, .f32⟩ : BufTy).Contents (Elt F)) (a4 : (⟨S4096x8192, .f32⟩ : BufTy).Contents (Elt F)) (a5 : (⟨S4096x8192, .f32⟩ : BufTy).Contents (Elt F)) : (⟨S4096, .f32⟩ : BufTy).Contents (Elt F) :=
  ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)) (val_main_v78 (F := F) a3 a4 a5) ((constant S_ .f32 0x00000000#32) : (⟨S_, .f32⟩ : BufTy).Contents (Elt F))

def val_main_v80 (a3 : (⟨S4096x8192, .f32⟩ : BufTy).Contents (Elt F)) (a4 : (⟨S4096x8192, .f32⟩ : BufTy).Contents (Elt F)) (a5 : (⟨S4096x8192, .f32⟩ : BufTy).Contents (Elt F)) : (⟨S4096, .f32⟩ : BufTy).Contents (Elt F) :=
  (Host.negf : (⟨S4096, .f32⟩ : BufTy).Contents (Elt F) → (⟨S4096, .f32⟩ : BufTy).Contents (Elt F)) (val_main_v79 (F := F) a3 a4 a5)

def val_main_v81 : (⟨S4096, .i32⟩ : BufTy).Contents (Elt F) :=
  (broadcastInDim S4096 ![] bcast_S_S4096 : (⟨S_, .i32⟩ : BufTy).Contents (Elt F) → (⟨S4096, .i32⟩ : BufTy).Contents (Elt F)) ((constantI S_ 32 1#32) : (⟨S_, .i32⟩ : BufTy).Contents (Elt F))

def val_main_v82 (a4 : (⟨S4096x8192, .f32⟩ : BufTy).Contents (Elt F)) : (⟨S4096, .i32⟩ : BufTy).Contents (Elt F) :=
  (maxsi : (⟨S4096, .i32⟩ : BufTy).Contents (Elt F) → (⟨S4096, .i32⟩ : BufTy).Contents (Elt F) → (⟨S4096, .i32⟩ : BufTy).Contents (Elt F)) (val_main_v60 (F := F) a4) (val_main_v81 (F := F))

def val_main_v83 (a4 : (⟨S4096x8192, .f32⟩ : BufTy).Contents (Elt F)) : (⟨S4096, .f32⟩ : BufTy).Contents (Elt F) :=
  (sitofp .f32 : (⟨S4096, .i32⟩ : BufTy).Contents (Elt F) → (⟨S4096, .f32⟩ : BufTy).Contents (Elt F)) (val_main_v82 (F := F) a4)

def val_main_v84 (a3 : (⟨S4096x8192, .f32⟩ : BufTy).Contents (Elt F)) (a4 : (⟨S4096x8192, .f32⟩ : BufTy).Contents (Elt F)) (a5 : (⟨S4096x8192, .f32⟩ : BufTy).Contents (Elt F)) : (⟨S4096, .f32⟩ : BufTy).Contents (Elt F) :=
  (Host.divf : (⟨S4096, .f32⟩ : BufTy).Contents (Elt F) → (⟨S4096, .f32⟩ : BufTy).Contents (Elt F) → (⟨S4096, .f32⟩ : BufTy).Contents (Elt F)) (val_main_v80 (F := F) a3 a4 a5) (val_main_v83 (F := F) a4)

def val_main_v85 : (⟨S4096, .i32⟩ : BufTy).Contents (Elt F) :=
  (broadcastInDim S4096 ![] bcast_S_S4096 : (⟨S_, .i32⟩ : BufTy).Contents (Elt F) → (⟨S4096, .i32⟩ : BufTy).Contents (Elt F)) ((constantI S_ 32 2#32) : (⟨S_, .i32⟩ : BufTy).Contents (Elt F))

def val_main_v86 (a4 : (⟨S4096x8192, .f32⟩ : BufTy).Contents (Elt F)) : (⟨S4096, .i1⟩ : BufTy).Contents (Elt F) :=
  (cmpi .sge : (⟨S4096, .i32⟩ : BufTy).Contents (Elt F) → (⟨S4096, .i32⟩ : BufTy).Contents (Elt F) → (⟨S4096, .i1⟩ : BufTy).Contents (Elt F)) (val_main_v60 (F := F) a4) (val_main_v85 (F := F))

def val_main_v87 (a4 : (⟨S4096x8192, .f32⟩ : BufTy).Contents (Elt F)) : (⟨S4096, .i32⟩ : BufTy).Contents (Elt F) :=
  ((extui 32 · natLt_1_32) : (⟨S4096, .i1⟩ : BufTy).Contents (Elt F) → (⟨S4096, .i32⟩ : BufTy).Contents (Elt F)) (val_main_v86 (F := F) a4)

def val_main_v88 (a4 : (⟨S4096x8192, .f32⟩ : BufTy).Contents (Elt F)) : (⟨S_, .i32⟩ : BufTy).Contents (Elt F) :=
  ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)) (val_main_v87 (F := F) a4) ((constantI S_ 32 0#32) : (⟨S_, .i32⟩ : BufTy).Contents (Elt F))

def val_main_call6_v0 : (⟨S_, .f32⟩ : BufTy).Contents (Elt F) :=
  (id : (⟨S_, .f32⟩ : BufTy).Contents (Elt F) → (⟨S_, .f32⟩ : BufTy).Contents (Elt F)) ((constant S_ .f32 0x00000000#32) : (⟨S_, .f32⟩ : BufTy).Contents (Elt F))

def val_main_call6_v1 : (⟨S4096, .f32⟩ : BufTy).Contents (Elt F) :=
  ((broadcastInDim S4096 ![] bcast_S_S4096) : (⟨S_, .f32⟩ : BufTy).Contents (Elt F) → (⟨S4096, .f32⟩ : BufTy).Contents (Elt F)) (val_main_call6_v0 (F := F))

def val_main_v89 (a3 : (⟨S4096x8192, .f32⟩ : BufTy).Contents (Elt F)) (a4 : (⟨S4096x8192, .f32⟩ : BufTy).Contents (Elt F)) (a5 : (⟨S4096x8192, .f32⟩ : BufTy).Contents (Elt F)) : (⟨S4096, .f32⟩ : BufTy).Contents (Elt F) :=
  (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) (val_main_v86 (F := F) a4) (val_main_v84 (F := F) a3 a4 a5) (val_main_call6_v1 (F := F))

def val_main_v90 (a3 : (⟨S4096x8192, .f32⟩ : BufTy).Contents (Elt F)) (a4 : (⟨S4096x8192, .f32⟩ : BufTy).Contents (Elt F)) (a5 : (⟨S4096x8192, .f32⟩ : BufTy).Contents (Elt F)) : (⟨S_, .f32⟩ : BufTy).Contents (Elt F) :=
  ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (val_main_v89 (F := F) a3 a4 a5) ((constant S_ .f32 0x00000000#32) : (⟨S_, .f32⟩ : BufTy).Contents (Elt F))

def val_main_v91 (a4 : (⟨S4096x8192, .f32⟩ : BufTy).Contents (Elt F)) : (⟨S_, .i1⟩ : BufTy).Contents (Elt F) :=
  (cmpi .sgt : (⟨S_, .i32⟩ : BufTy).Contents (Elt F) → (⟨S_, .i32⟩ : BufTy).Contents (Elt F) → (⟨S_, .i1⟩ : BufTy).Contents (Elt F)) (val_main_v88 (F := F) a4) ((constantI S_ 32 0#32) : (⟨S_, .i32⟩ : BufTy).Contents (Elt F))

def val_main_v92 (a4 : (⟨S4096x8192, .f32⟩ : BufTy).Contents (Elt F)) : (⟨S_, .i32⟩ : BufTy).Contents (Elt F) :=
  (maxsi : (⟨S_, .i32⟩ : BufTy).Contents (Elt F) → (⟨S_, .i32⟩ : BufTy).Contents (Elt F) → (⟨S_, .i32⟩ : BufTy).Contents (Elt F)) (val_main_v88 (F := F) a4) ((constantI S_ 32 1#32) : (⟨S_, .i32⟩ : BufTy).Contents (Elt F))

def val_main_v93 (a4 : (⟨S4096x8192, .f32⟩ : BufTy).Contents (Elt F)) : (⟨S_, .f32⟩ : BufTy).Contents (Elt F) :=
  (sitofp .f32 : (⟨S_, .i32⟩ : BufTy).Contents (Elt F) → (⟨S_, .f32⟩ : BufTy).Contents (Elt F)) (val_main_v92 (F := F) a4)

def val_main_v94 (a3 : (⟨S4096x8192, .f32⟩ : BufTy).Contents (Elt F)) (a4 : (⟨S4096x8192, .f32⟩ : BufTy).Contents (Elt F)) (a5 : (⟨S4096x8192, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v90 (F := F) a3 a4 a5) (val_main_v93 (F := F) a4)

def val_main_call7_v0 : (⟨S_, .f32⟩ : BufTy).Contents (Elt F) :=
  (id : (⟨S_, .f32⟩ : BufTy).Contents (Elt F) → (⟨S_, .f32⟩ : BufTy).Contents (Elt F)) ((constant S_ .f32 0x00000000#32) : (⟨S_, .f32⟩ : BufTy).Contents (Elt F))

def val_main_v95 (a3 : (⟨S4096x8192, .f32⟩ : BufTy).Contents (Elt F)) (a4 : (⟨S4096x8192, .f32⟩ : BufTy).Contents (Elt F)) (a5 : (⟨S4096x8192, .f32⟩ : BufTy).Contents (Elt F)) : (⟨S_, .f32⟩ : BufTy).Contents (Elt F) :=
  (select : (⟨S_, .i1⟩ : BufTy).Contents (Elt F) → (⟨S_, .f32⟩ : BufTy).Contents (Elt F) → (⟨S_, .f32⟩ : BufTy).Contents (Elt F) → (⟨S_, .f32⟩ : BufTy).Contents (Elt F)) (val_main_v91 (F := F) a4) (val_main_v94 (F := F) a3 a4 a5) (val_main_call7_v0 (F := F))

def val_main_v96 (a0 : (⟨S4096, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3F800000#32) : (⟨S_, .f32⟩ : BufTy).Contents (Elt F)) (val_main_v2 (F := F) a0)

def val_main_v97 (a0 : (⟨S4096, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3DCCCCCD#32) : (⟨S_, .f32⟩ : BufTy).Contents (Elt F)) (val_main_v7 (F := F) a0)

def val_main_v98 (a0 : (⟨S4096, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v96 (F := F) a0) (val_main_v97 (F := F) a0)

def val_main_v99 (a1 : (⟨S4096x8192, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3C23D70A#32) : (⟨S_, .f32⟩ : BufTy).Contents (Elt F)) (val_main_v15 (F := F) a1)

def val_main_v100 (a0 : (⟨S4096, .f32⟩ : BufTy).Contents (Elt F)) (a1 : (⟨S4096x8192, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v98 (F := F) a0) (val_main_v99 (F := F) a1)

def val_main_v101 (a0 : (⟨S4096, .f32⟩ : BufTy).Contents (Elt F)) (a1 : (⟨S4096x8192, .f32⟩ : BufTy).Contents (Elt F)) (a2 : (⟨S4096x8192, .f32⟩ : BufTy).Contents (Elt F)) (a4 : (⟨S4096x8192, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3DCCCCCD#32) : (⟨S_, .f32⟩ : BufTy).Contents (Elt F)) (val_main_v35 (F := F) a0 a1 a2 a4)

def val_main_v102 (a0 : (⟨S4096, .f32⟩ : BufTy).Contents (Elt F)) (a1 : (⟨S4096x8192, .f32⟩ : BufTy).Contents (Elt F)) (a2 : (⟨S4096x8192, .f32⟩ : BufTy).Contents (Elt F)) (a4 : (⟨S4096x8192, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v100 (F := F) a0 a1) (val_main_v101 (F := F) a0 a1 a2 a4)

def val_main_v103 (a1 : (⟨S4096x8192, .f32⟩ : BufTy).Contents (Elt F)) (a4 : (⟨S4096x8192, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3C23D70A#32) : (⟨S_, .f32⟩ : BufTy).Contents (Elt F)) (val_main_v56 (F := F) a1 a4)

def val_main_v104 (a0 : (⟨S4096, .f32⟩ : BufTy).Contents (Elt F)) (a1 : (⟨S4096x8192, .f32⟩ : BufTy).Contents (Elt F)) (a2 : (⟨S4096x8192, .f32⟩ : BufTy).Contents (Elt F)) (a4 : (⟨S4096x8192, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v102 (F := F) a0 a1 a2 a4) (val_main_v103 (F := F) a1 a4)

def val_main_v105 (a3 : (⟨S4096x8192, .f32⟩ : BufTy).Contents (Elt F)) (a4 : (⟨S4096x8192, .f32⟩ : BufTy).Contents (Elt F)) (a5 : (⟨S4096x8192, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3DCCCCCD#32) : (⟨S_, .f32⟩ : BufTy).Contents (Elt F)) (val_main_v95 (F := F) a3 a4 a5)

def val_main_v106 (a0 : (⟨S4096, .f32⟩ : BufTy).Contents (Elt F)) (a1 : (⟨S4096x8192, .f32⟩ : BufTy).Contents (Elt F)) (a2 : (⟨S4096x8192, .f32⟩ : BufTy).Contents (Elt F)) (a3 : (⟨S4096x8192, .f32⟩ : BufTy).Contents (Elt F)) (a4 : (⟨S4096x8192, .f32⟩ : BufTy).Contents (Elt F)) (a5 : (⟨S4096x8192, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v104 (F := F) a0 a1 a2 a4) (val_main_v105 (F := F) a3 a4 a5)

end Cert.ReferenceIdeal.RefRun

end
-- ==== Proof.RefRunRead0.lean ====
/- The reference's part 0 read back: at the end of the line every buffer this part writes holds its value as a function of
   the argument arrays (one equation per operation, each from the operation's own equation at the end and the equations of
   its operands). -/
import proofs.«122764_j16621523435816_2_alg».proof.Proof.RefRunLine
import proofs.«122764_j16621523435816_2_alg».proof.Proof.RefRunVals

noncomputable section

namespace Cert.ReferenceIdeal.RefRun

open Cert.ReferenceIdeal Cert.ReferenceIdeal.Gen Idealize.ShloMosaic Idealize.ShloMosaic.TcCoe Idealize.SL.Sem Idealize.ShloMosaic.StableHlo Cert.ReadBack Cert.ReadEnd

variable {F : FTy → Type} [FloatOps F]

theorem e_main_cst (V : Valuation τ sig (Elt F)) : Efin V (Proc.devRef .tc main_cst) = ((constant S_ .f32 0x00000000#32) : (⟨S_, .f32⟩ : BufTy).Contents (Elt F)) :=
  end0 wa0 V (Efin V) (W1 ++ W2) (T0 V) 0 main_cst _ _ rfl (nk (by decide))

theorem e_main_v0 (V : Valuation τ sig (Elt F)) : Efin V (Proc.devRef .tc main_v0) = val_main_v0 (F := F) (V (Proc.devRef .tc main_arg0)) := by
  have h := end2 wa0 V (Efin V) (W1 ++ W2) (T0 V) 1 main_arg0 main_cst main_v0 _ _ _ _ rfl (nk (by decide)) (nk (by decide)) (nk (by decide))
  rw [h, e_main_arg0 V, e_main_cst V]
  all_goals rfl

theorem e_main_cst_0 (V : Valuation τ sig (Elt F)) : Efin V (Proc.devRef .tc main_cst_0) = ((constant S_ .f32 0x45800000#32) : (⟨S_, .f32⟩ : BufTy).Contents (Elt F)) :=
  end0 wa0 V (Efin V) (W1 ++ W2) (T0 V) 2 main_cst_0 _ _ rfl (nk (by decide))

theorem e_main_v1 (V : Valuation τ sig (Elt F)) : Efin V (Proc.devRef .tc main_v1) = val_main_v1 (F := F) (V (Proc.devRef .tc main_arg0)) := by
  have h := end2 wa0 V (Efin V) (W1 ++ W2) (T0 V) 3 main_v0 main_cst_0 main_v1 _ _ _ _ rfl (nk (by decide)) (nk (by decide)) (nk (by decide))
  rw [h, e_main_v0 V, e_main_cst_0 V]
  all_goals rfl

theorem e_main_v2 (V : Valuation τ sig (Elt F)) : Efin V (Proc.devRef .tc main_v2) = val_main_v2 (F := F) (V (Proc.devRef .tc main_arg0)) := by
  have h := end1 wa0 V (Efin V) (W1 ++ W2) (T0 V) 4 main_v1 main_v2 _ _ _ rfl (nk (by decide)) (nk (by decide))
  rw [h, e_main_v1 V]
  all_goals rfl

theorem e_main_c (V : Valuation τ sig (Elt F)) : Efin V (Proc.devRef .tc main_c) = ((constantI S_ 32 1#32) : (⟨S_, .i32⟩ : BufTy).Contents (Elt F)) :=
  end0 wa0 V (Efin V) (W1 ++ W2) (T0 V) 5 main_c _ _ rfl (nk (by decide))

theorem e_main_call0_call0_cst (V : Valuation τ sig (Elt F)) : Efin V (Proc.devRef .tc main_call0_call0_cst) = ((constant S_ .f32 0x00000000#32) : (⟨S_, .f32⟩ : BufTy).Contents (Elt F)) :=
  end0 wa0 V (Efin V) (W1 ++ W2) (T0 V) 6 main_call0_call0_cst _ _ rfl (nk (by decide))

theorem e_main_call0_call0_v0 (V : Valuation τ sig (Elt F)) : Efin V (Proc.devRef .tc main_call0_call0_v0) = val_main_call0_call0_v0 (F := F) (V (Proc.devRef .tc main_arg0)) := by
  have h := end2 wa0 V (Efin V) (W1 ++ W2) (T0 V) 7 main_arg0 main_call0_call0_cst main_call0_call0_v0 _ _ _ _ rfl (nk (by decide)) (nk (by decide)) (nk (by decide))
  rw [h, e_main_arg0 V, e_main_call0_call0_cst V]
  all_goals rfl

theorem e_main_call0_call0_v1 (V : Valuation τ sig (Elt F)) : Efin V (Proc.devRef .tc main_call0_call0_v1) = val_main_call0_call0_v1 (F := F) (V (Proc.devRef .tc main_arg0)) := by
  have h := end1 wa0 V (Efin V) (W1 ++ W2) (T0 V) 8 main_call0_call0_v0 main_call0_call0_v1 _ _ _ rfl (nk (by decide)) (nk (by decide))
  rw [h, e_main_call0_call0_v0 V]
  all_goals rfl

theorem e_main_call0_call0_cst_0 (V : Valuation τ sig (Elt F)) : Efin V (Proc.devRef .tc main_call0_call0_cst_0) = ((constant S_ .f32 0x45800000#32) : (⟨S_, .f32⟩ : BufTy).Contents (Elt F)) :=
  end0 wa0 V (Efin V) (W1 ++ W2) (T0 V) 9 main_call0_call0_cst_0 _ _ rfl (nk (by decide))

theorem e_main_call0_call0_v2 (V : Valuation τ sig (Elt F)) : Efin V (Proc.devRef .tc main_call0_call0_v2) = val_main_call0_call0_v2 (F := F) := by
  have h := end1 wa0 V (Efin V) (W1 ++ W2) (T0 V) 10 main_call0_call0_cst_0 main_call0_call0_v2 _ _ _ rfl (nk (by decide)) (nk (by decide))
  rw [h, e_main_call0_call0_cst_0 V]
  all_goals rfl

theorem e_main_call0_call0_v3 (V : Valuation τ sig (Elt F)) : Efin V (Proc.devRef .tc main_call0_call0_v3) = val_main_call0_call0_v3 (F := F) (V (Proc.devRef .tc main_arg0)) := by
  have h := end2 wa0 V (Efin V) (W1 ++ W2) (T0 V) 11 main_call0_call0_v1 main_call0_call0_v2 main_call0_call0_v3 _ _ _ _ rfl (nk (by decide)) (nk (by decide)) (nk (by decide))
  rw [h, e_main_call0_call0_v1 V, e_main_call0_call0_v2 V]
  all_goals rfl

theorem e_main_call0_call0_v4 (V : Valuation τ sig (Elt F)) : Efin V (Proc.devRef .tc main_call0_call0_v4) = val_main_call0_call0_v4 (F := F) (V (Proc.devRef .tc main_arg0)) := by
  have h := end1 wa0 V (Efin V) (W1 ++ W2) (T0 V) 12 main_call0_call0_v3 main_call0_call0_v4 _ _ _ rfl (nk (by decide)) (nk (by decide))
  rw [h, e_main_call0_call0_v3 V]
  all_goals rfl

theorem e_main_call0_call0_v5 (V : Valuation τ sig (Elt F)) : Efin V (Proc.devRef .tc main_call0_call0_v5) = val_main_call0_call0_v5 (F := F) (V (Proc.devRef .tc main_arg0)) := by
  have h := end2 wa0 V (Efin V) (W1 ++ W2) (T0 V) 13 main_arg0 main_call0_call0_v4 main_call0_call0_v5 _ _ _ _ rfl (nk (by decide)) (nk (by decide)) (nk (by decide))
  rw [h, e_main_arg0 V, e_main_call0_call0_v4 V]
  all_goals rfl

theorem e_main_call0_call0_v6 (V : Valuation τ sig (Elt F)) : Efin V (Proc.devRef .tc main_call0_call0_v6) = val_main_call0_call0_v6 (F := F) (V (Proc.devRef .tc main_arg0)) := by
  have h := end2 wa0 V (Efin V) (W1 ++ W2) (T0 V) 14 main_call0_call0_v5 main_call0_call0_v5 main_call0_call0_v6 _ _ _ _ rfl (nk (by decide)) (nk (by decide)) (nk (by decide))
  rw [h, e_main_call0_call0_v5 V]
  all_goals rfl

theorem e_main_call0_call0_v7 (V : Valuation τ sig (Elt F)) : Efin V (Proc.devRef .tc main_call0_call0_v7) = val_main_call0_call0_v7 (F := F) := by
  have h := end1 wa0 V (Efin V) (W1 ++ W2) (T0 V) 15 main_c main_call0_call0_v7 _ _ _ rfl (nk (by decide)) (nk (by decide))
  rw [h, e_main_c V]
  all_goals rfl

theorem e_main_call0_call0_cst_1 (V : Valuation τ sig (Elt F)) : Efin V (Proc.devRef .tc main_call0_call0_cst_1) = ((constant S_ .f32 0x45800000#32) : (⟨S_, .f32⟩ : BufTy).Contents (Elt F)) :=
  end0 wa0 V (Efin V) (W1 ++ W2) (T0 V) 16 main_call0_call0_cst_1 _ _ rfl (nk (by decide))

theorem e_main_call0_call0_v8 (V : Valuation τ sig (Elt F)) : Efin V (Proc.devRef .tc main_call0_call0_v8) = val_main_call0_call0_v8 (F := F) := by
  have h := end2 wa0 V (Efin V) (W1 ++ W2) (T0 V) 17 main_call0_call0_cst_1 main_call0_call0_v7 main_call0_call0_v8 _ _ _ _ rfl (nk (by decide)) (nk (by decide)) (nk (by decide))
  rw [h, e_main_call0_call0_cst_1 V, e_main_call0_call0_v7 V]
  all_goals rfl

theorem e_main_call0_call0_cst_2 (V : Valuation τ sig (Elt F)) : Efin V (Proc.devRef .tc main_call0_call0_cst_2) = ((constant S_ .f32 0x00000000#32) : (⟨S_, .f32⟩ : BufTy).Contents (Elt F)) :=
  end0 wa0 V (Efin V) (W1 ++ W2) (T0 V) 18 main_call0_call0_cst_2 _ _ rfl (nk (by decide))

theorem e_main_call0_call0_v9 (V : Valuation τ sig (Elt F)) : Efin V (Proc.devRef .tc main_call0_call0_v9) = val_main_call0_call0_v9 (F := F) (V (Proc.devRef .tc main_arg0)) := by
  have h := end2 wa0 V (Efin V) (W1 ++ W2) (T0 V) 19 main_call0_call0_v6 main_call0_call0_cst_2 main_call0_call0_v9 _ _ _ _ rfl (nk (by decide)) (nk (by decide)) (nk (by decide))
  rw [h, e_main_call0_call0_v6 V, e_main_call0_call0_cst_2 V]
  all_goals rfl

theorem e_main_call0_call0_v10 (V : Valuation τ sig (Elt F)) : Efin V (Proc.devRef .tc main_call0_call0_v10) = val_main_call0_call0_v10 (F := F) (V (Proc.devRef .tc main_arg0)) := by
  have h := end2 wa0 V (Efin V) (W1 ++ W2) (T0 V) 20 main_call0_call0_v9 main_call0_call0_v8 main_call0_call0_v10 _ _ _ _ rfl (nk (by decide)) (nk (by decide)) (nk (by decide))
  rw [h, e_main_call0_call0_v9 V, e_main_call0_call0_v8 V]
  all_goals rfl

theorem e_main_call0_call0_cst_3 (V : Valuation τ sig (Elt F)) : Efin V (Proc.devRef .tc main_call0_call0_cst_3) = ((constant S_ .f32 0x00000000#32) : (⟨S_, .f32⟩ : BufTy).Contents (Elt F)) :=
  end0 wa0 V (Efin V) (W1 ++ W2) (T0 V) 21 main_call0_call0_cst_3 _ _ rfl (nk (by decide))

theorem e_main_call0_call0_v11 (V : Valuation τ sig (Elt F)) : Efin V (Proc.devRef .tc main_call0_call0_v11) = val_main_call0_call0_v11 (F := F) := by
  have h := end2 wa0 V (Efin V) (W1 ++ W2) (T0 V) 22 main_call0_call0_v8 main_call0_call0_cst_3 main_call0_call0_v11 _ _ _ _ rfl (nk (by decide)) (nk (by decide)) (nk (by decide))
  rw [h, e_main_call0_call0_v8 V, e_main_call0_call0_cst_3 V]
  all_goals rfl

theorem e_main_call0_call0_cst_4 (V : Valuation τ sig (Elt F)) : Efin V (Proc.devRef .tc main_call0_call0_cst_4) = ((constant S_ .f32 0x7FC00000#32) : (⟨S_, .f32⟩ : BufTy).Contents (Elt F)) :=
  end0 wa0 V (Efin V) (W1 ++ W2) (T0 V) 23 main_call0_call0_cst_4 _ _ rfl (nk (by decide))

theorem e_main_call0_call0_call0_v0 (V : Valuation τ sig (Elt F)) : Efin V (Proc.devRef .tc main_call0_call0_call0_v0) = val_main_call0_call0_call0_v0 (F := F) := by
  have h := end1 wa0 V (Efin V) (W1 ++ W2) (T0 V) 24 main_call0_call0_cst_4 main_call0_call0_call0_v0 _ _ _ rfl (nk (by decide)) (nk (by decide))
  rw [h, e_main_call0_call0_cst_4 V]
  all_goals rfl

theorem e_main_call0_v0 (V : Valuation τ sig (Elt F)) : Efin V (Proc.devRef .tc main_call0_v0) = val_main_call0_v0 (F := F) (V (Proc.devRef .tc main_arg0)) := by
  have h := end3 wa0 V (Efin V) (W1 ++ W2) (T0 V) 25 main_call0_call0_v11 main_call0_call0_v10 main_call0_call0_call0_v0 main_call0_v0 _ _ _ _ _ rfl (nk (by decide)) (nk (by decide)) (nk (by decide)) (nk (by decide))
  rw [h, e_main_call0_call0_v11 V, e_main_call0_call0_v10 V, e_main_call0_call0_call0_v0 V]
  all_goals rfl

theorem e_main_v3 (V : Valuation τ sig (Elt F)) : Efin V (Proc.devRef .tc main_v3) = val_main_v3 (F := F) (V (Proc.devRef .tc main_arg0)) := by
  have h := end1 wa0 V (Efin V) (W1 ++ W2) (T0 V) 26 main_call0_v0 main_v3 _ _ _ rfl (nk (by decide)) (nk (by decide))
  rw [h, e_main_call0_v0 V]
  all_goals rfl

theorem e_main_v4 (V : Valuation τ sig (Elt F)) : Efin V (Proc.devRef .tc main_v4) = val_main_v4 (F := F) (V (Proc.devRef .tc main_arg0)) := by
  have h := end1 wa0 V (Efin V) (W1 ++ W2) (T0 V) 27 main_v1 main_v4 _ _ _ rfl (nk (by decide)) (nk (by decide))
  rw [h, e_main_v1 V]
  all_goals rfl

theorem e_main_cst_1 (V : Valuation τ sig (Elt F)) : Efin V (Proc.devRef .tc main_cst_1) = ((constant S_ .f32 0x3C23D70A#32) : (⟨S_, .f32⟩ : BufTy).Contents (Elt F)) :=
  end0 wa0 V (Efin V) (W1 ++ W2) (T0 V) 28 main_cst_1 _ _ rfl (nk (by decide))

theorem e_main_v5 (V : Valuation τ sig (Elt F)) : Efin V (Proc.devRef .tc main_v5) = val_main_v5 (F := F) (V (Proc.devRef .tc main_arg0)) := by
  have h := end2 wa0 V (Efin V) (W1 ++ W2) (T0 V) 29 main_v3 main_cst_1 main_v5 _ _ _ _ rfl (nk (by decide)) (nk (by decide)) (nk (by decide))
  rw [h, e_main_v3 V, e_main_cst_1 V]
  all_goals rfl

theorem e_main_v6 (V : Valuation τ sig (Elt F)) : Efin V (Proc.devRef .tc main_v6) = val_main_v6 (F := F) (V (Proc.devRef .tc main_arg0)) := by
  have h := end2 wa0 V (Efin V) (W1 ++ W2) (T0 V) 30 main_v4 main_v5 main_v6 _ _ _ _ rfl (nk (by decide)) (nk (by decide)) (nk (by decide))
  rw [h, e_main_v4 V, e_main_v5 V]
  all_goals rfl

theorem e_main_cst_2 (V : Valuation τ sig (Elt F)) : Efin V (Proc.devRef .tc main_cst_2) = ((constant S_ .f32 0xC1200000#32) : (⟨S_, .f32⟩ : BufTy).Contents (Elt F)) :=
  end0 wa0 V (Efin V) (W1 ++ W2) (T0 V) 31 main_cst_2 _ _ rfl (nk (by decide))

theorem e_main_cst_3 (V : Valuation τ sig (Elt F)) : Efin V (Proc.devRef .tc main_cst_3) = ((constant S_ .f32 0x41200000#32) : (⟨S_, .f32⟩ : BufTy).Contents (Elt F)) :=
  end0 wa0 V (Efin V) (W1 ++ W2) (T0 V) 32 main_cst_3 _ _ rfl (nk (by decide))

theorem e_main_call1_v0 (V : Valuation τ sig (Elt F)) : Efin V (Proc.devRef .tc main_call1_v0) = val_main_call1_v0 (F := F) := by
  have h := end1 wa0 V (Efin V) (W1 ++ W2) (T0 V) 33 main_cst_2 main_call1_v0 _ _ _ rfl (nk (by decide)) (nk (by decide))
  rw [h, e_main_cst_2 V]
  all_goals rfl

theorem e_main_call1_v1 (V : Valuation τ sig (Elt F)) : Efin V (Proc.devRef .tc main_call1_v1) = val_main_call1_v1 (F := F) (V (Proc.devRef .tc main_arg0)) := by
  have h := end2 wa0 V (Efin V) (W1 ++ W2) (T0 V) 34 main_call1_v0 main_v6 main_call1_v1 _ _ _ _ rfl (nk (by decide)) (nk (by decide)) (nk (by decide))
  rw [h, e_main_call1_v0 V, e_main_v6 V]
  all_goals rfl

theorem e_main_call1_v2 (V : Valuation τ sig (Elt F)) : Efin V (Proc.devRef .tc main_call1_v2) = val_main_call1_v2 (F := F) := by
  have h := end1 wa0 V (Efin V) (W1 ++ W2) (T0 V) 35 main_cst_3 main_call1_v2 _ _ _ rfl (nk (by decide)) (nk (by decide))
  rw [h, e_main_cst_3 V]
  all_goals rfl

theorem e_main_v7 (V : Valuation τ sig (Elt F)) : Efin V (Proc.devRef .tc main_v7) = val_main_v7 (F := F) (V (Proc.devRef .tc main_arg0)) := by
  have h := end2 wa0 V (Efin V) (W1 ++ W2) (T0 V) 36 main_call1_v2 main_call1_v1 main_v7 _ _ _ _ rfl (nk (by decide)) (nk (by decide)) (nk (by decide))
  rw [h, e_main_call1_v2 V, e_main_call1_v1 V]
  all_goals rfl

theorem e_main_cst_4 (V : Valuation τ sig (Elt F)) : Efin V (Proc.devRef .tc main_cst_4) = ((constant S_ .f32 0x322BCC77#32) : (⟨S_, .f32⟩ : BufTy).Contents (Elt F)) :=
  end0 wa0 V (Efin V) (W1 ++ W2) (T0 V) 37 main_cst_4 _ _ rfl (nk (by decide))

theorem e_main_v8 (V : Valuation τ sig (Elt F)) : Efin V (Proc.devRef .tc main_v8) = val_main_v8 (F := F) := by
  have h := end1 wa0 V (Efin V) (W1 ++ W2) (T0 V) 38 main_cst_4 main_v8 _ _ _ rfl (nk (by decide)) (nk (by decide))
  rw [h, e_main_cst_4 V]
  all_goals rfl

theorem e_main_v9 (V : Valuation τ sig (Elt F)) : Efin V (Proc.devRef .tc main_v9) = val_main_v9 (F := F) (V (Proc.devRef .tc main_arg1)) := by
  have h := end2 wa0 V (Efin V) (W1 ++ W2) (T0 V) 39 main_arg1 main_v8 main_v9 _ _ _ _ rfl (nk (by decide)) (nk (by decide)) (nk (by decide))
  rw [h, e_main_arg1 V, e_main_v8 V]
  all_goals rfl

theorem e_main_v10 (V : Valuation τ sig (Elt F)) : Efin V (Proc.devRef .tc main_v10) = val_main_v10 (F := F) (V (Proc.devRef .tc main_arg1)) := by
  have h := end1 wa0 V (Efin V) (W1 ++ W2) (T0 V) 40 main_v9 main_v10 _ _ _ rfl (nk (by decide)) (nk (by decide))
  rw [h, e_main_v9 V]
  all_goals rfl

theorem e_main_v11 (V : Valuation τ sig (Elt F)) : Efin V (Proc.devRef .tc main_v11) = val_main_v11 (F := F) (V (Proc.devRef .tc main_arg1)) := by
  have h := end2 wa0 V (Efin V) (W1 ++ W2) (T0 V) 41 main_arg1 main_v10 main_v11 _ _ _ _ rfl (nk (by decide)) (nk (by decide)) (nk (by decide))
  rw [h, e_main_arg1 V, e_main_v10 V]
  all_goals rfl

theorem e_main_cst_5 (V : Valuation τ sig (Elt F)) : Efin V (Proc.devRef .tc main_cst_5) = ((constant S_ .f32 0x00000000#32) : (⟨S_, .f32⟩ : BufTy).Contents (Elt F)) :=
  end0 wa0 V (Efin V) (W1 ++ W2) (T0 V) 42 main_cst_5 _ _ rfl (nk (by decide))

theorem e_main_v12 (V : Valuation τ sig (Elt F)) : Efin V (Proc.devRef .tc main_v12) = val_main_v12 (F := F) (V (Proc.devRef .tc main_arg1)) := by
  have h := end2 wa0 V (Efin V) (W1 ++ W2) (T0 V) 43 main_v11 main_cst_5 main_v12 _ _ _ _ rfl (nk (by decide)) (nk (by decide)) (nk (by decide))
  rw [h, e_main_v11 V, e_main_cst_5 V]
  all_goals rfl

theorem e_main_cst_6 (V : Valuation τ sig (Elt F)) : Efin V (Proc.devRef .tc main_cst_6) = ((constant S_ .f32 0x00000000#32) : (⟨S_, .f32⟩ : BufTy).Contents (Elt F)) :=
  end0 wa0 V (Efin V) (W1 ++ W2) (T0 V) 44 main_cst_6 _ _ rfl (nk (by decide))

theorem e_main_v13 (V : Valuation τ sig (Elt F)) : Efin V (Proc.devRef .tc main_v13) = val_main_v13 (F := F) (V (Proc.devRef .tc main_arg1)) := by
  have h := end2 wa0 V (Efin V) (W1 ++ W2) (T0 V) 45 main_v12 main_cst_6 main_v13 _ _ _ _ rfl (nk (by decide)) (nk (by decide)) (nk (by decide))
  rw [h, e_main_v12 V, e_main_cst_6 V]
  all_goals rfl

theorem e_main_cst_7 (V : Valuation τ sig (Elt F)) : Efin V (Proc.devRef .tc main_cst_7) = ((constant S_ .f32 0x45800000#32) : (⟨S_, .f32⟩ : BufTy).Contents (Elt F)) :=
  end0 wa0 V (Efin V) (W1 ++ W2) (T0 V) 46 main_cst_7 _ _ rfl (nk (by decide))

theorem e_main_v14 (V : Valuation τ sig (Elt F)) : Efin V (Proc.devRef .tc main_v14) = val_main_v14 (F := F) (V (Proc.devRef .tc main_arg1)) := by
  have h := end2 wa0 V (Efin V) (W1 ++ W2) (T0 V) 47 main_v13 main_cst_7 main_v14 _ _ _ _ rfl (nk (by decide)) (nk (by decide)) (nk (by decide))
  rw [h, e_main_v13 V, e_main_cst_7 V]
  all_goals rfl

theorem e_main_v15 (V : Valuation τ sig (Elt F)) : Efin V (Proc.devRef .tc main_v15) = val_main_v15 (F := F) (V (Proc.devRef .tc main_arg1)) := by
  have h := end1 wa0 V (Efin V) (W1 ++ W2) (T0 V) 48 main_v14 main_v15 _ _ _ rfl (nk (by decide)) (nk (by decide))
  rw [h, e_main_v14 V]
  all_goals rfl

theorem e_main_v16 (V : Valuation τ sig (Elt F)) : Efin V (Proc.devRef .tc main_v16) = val_main_v16 (F := F) (V (Proc.devRef .tc main_arg1)) (V (Proc.devRef .tc main_arg2)) := by
  have h := end2 wa0 V (Efin V) (W1 ++ W2) (T0 V) 49 main_arg1 main_arg2 main_v16 _ _ _ _ rfl (nk (by decide)) (nk (by decide)) (nk (by decide))
  rw [h, e_main_arg1 V, e_main_arg2 V]
  all_goals rfl

theorem e_main_v17 (V : Valuation τ sig (Elt F)) : Efin V (Proc.devRef .tc main_v17) = val_main_v17 (F := F) (V (Proc.devRef .tc main_arg1)) (V (Proc.devRef .tc main_arg2)) (V (Proc.devRef .tc main_arg4)) := by
  have h := end2 wa0 V (Efin V) (W1 ++ W2) (T0 V) 50 main_v16 main_arg4 main_v17 _ _ _ _ rfl (nk (by decide)) (nk (by decide)) (nk (by decide))
  rw [h, e_main_v16 V, e_main_arg4 V]
  all_goals rfl

theorem e_main_cst_8 (V : Valuation τ sig (Elt F)) : Efin V (Proc.devRef .tc main_cst_8) = ((constant S_ .f32 0x00000000#32) : (⟨S_, .f32⟩ : BufTy).Contents (Elt F)) :=
  end0 wa0 V (Efin V) (W1 ++ W2) (T0 V) 51 main_cst_8 _ _ rfl (nk (by decide))

theorem e_main_v18 (V : Valuation τ sig (Elt F)) : Efin V (Proc.devRef .tc main_v18) = val_main_v18 (F := F) (V (Proc.devRef .tc main_arg1)) (V (Proc.devRef .tc main_arg2)) (V (Proc.devRef .tc main_arg4)) := by
  have h := end2 wa0 V (Efin V) (W1 ++ W2) (T0 V) 52 main_v17 main_cst_8 main_v18 _ _ _ _ rfl (nk (by decide)) (nk (by decide)) (nk (by decide))
  rw [h, e_main_v17 V, e_main_cst_8 V]
  all_goals rfl

theorem e_main_v19 (V : Valuation τ sig (Elt F)) : Efin V (Proc.devRef .tc main_v19) = val_main_v19 (F := F) (V (Proc.devRef .tc main_arg1)) (V (Proc.devRef .tc main_arg4)) := by
  have h := end2 wa0 V (Efin V) (W1 ++ W2) (T0 V) 53 main_arg1 main_arg4 main_v19 _ _ _ _ rfl (nk (by decide)) (nk (by decide)) (nk (by decide))
  rw [h, e_main_arg1 V, e_main_arg4 V]
  all_goals rfl

theorem e_main_cst_9 (V : Valuation τ sig (Elt F)) : Efin V (Proc.devRef .tc main_cst_9) = ((constant S_ .f32 0x00000000#32) : (⟨S_, .f32⟩ : BufTy).Contents (Elt F)) :=
  end0 wa0 V (Efin V) (W1 ++ W2) (T0 V) 54 main_cst_9 _ _ rfl (nk (by decide))

theorem e_main_v20 (V : Valuation τ sig (Elt F)) : Efin V (Proc.devRef .tc main_v20) = val_main_v20 (F := F) (V (Proc.devRef .tc main_arg1)) (V (Proc.devRef .tc main_arg4)) := by
  have h := end2 wa0 V (Efin V) (W1 ++ W2) (T0 V) 55 main_v19 main_cst_9 main_v20 _ _ _ _ rfl (nk (by decide)) (nk (by decide)) (nk (by decide))
  rw [h, e_main_v19 V, e_main_cst_9 V]
  all_goals rfl

theorem e_main_cst_10 (V : Valuation τ sig (Elt F)) : Efin V (Proc.devRef .tc main_cst_10) = ((constant S_ .f32 0x322BCC77#32) : (⟨S_, .f32⟩ : BufTy).Contents (Elt F)) :=
  end0 wa0 V (Efin V) (W1 ++ W2) (T0 V) 56 main_cst_10 _ _ rfl (nk (by decide))

theorem e_main_v21 (V : Valuation τ sig (Elt F)) : Efin V (Proc.devRef .tc main_v21) = val_main_v21 (F := F) := by
  have h := end1 wa0 V (Efin V) (W1 ++ W2) (T0 V) 57 main_cst_10 main_v21 _ _ _ rfl (nk (by decide)) (nk (by decide))
  rw [h, e_main_cst_10 V]
  all_goals rfl

theorem e_main_v22 (V : Valuation τ sig (Elt F)) : Efin V (Proc.devRef .tc main_v22) = val_main_v22 (F := F) (V (Proc.devRef .tc main_arg1)) (V (Proc.devRef .tc main_arg4)) := by
  have h := end2 wa0 V (Efin V) (W1 ++ W2) (T0 V) 58 main_v20 main_v21 main_v22 _ _ _ _ rfl (nk (by decide)) (nk (by decide)) (nk (by decide))
  rw [h, e_main_v20 V, e_main_v21 V]
  all_goals rfl

theorem e_main_v23 (V : Valuation τ sig (Elt F)) : Efin V (Proc.devRef .tc main_v23) = val_main_v23 (F := F) (V (Proc.devRef .tc main_arg1)) (V (Proc.devRef .tc main_arg2)) (V (Proc.devRef .tc main_arg4)) := by
  have h := end2 wa0 V (Efin V) (W1 ++ W2) (T0 V) 59 main_v18 main_v22 main_v23 _ _ _ _ rfl (nk (by decide)) (nk (by decide)) (nk (by decide))
  rw [h, e_main_v18 V, e_main_v22 V]
  all_goals rfl

theorem e_main_cst_11 (V : Valuation τ sig (Elt F)) : Efin V (Proc.devRef .tc main_cst_11) = ((constant S_ .f32 0x42480000#32) : (⟨S_, .f32⟩ : BufTy).Contents (Elt F)) :=
  end0 wa0 V (Efin V) (W1 ++ W2) (T0 V) 60 main_cst_11 _ _ rfl (nk (by decide))

theorem e_main_v24 (V : Valuation τ sig (Elt F)) : Efin V (Proc.devRef .tc main_v24) = val_main_v24 (F := F) := by
  have h := end1 wa0 V (Efin V) (W1 ++ W2) (T0 V) 61 main_cst_11 main_v24 _ _ _ rfl (nk (by decide)) (nk (by decide))
  rw [h, e_main_cst_11 V]
  all_goals rfl

theorem e_main_v25 (V : Valuation τ sig (Elt F)) : Efin V (Proc.devRef .tc main_v25) = val_main_v25 (F := F) (V (Proc.devRef .tc main_arg0)) := by
  have h := end2 wa0 V (Efin V) (W1 ++ W2) (T0 V) 62 main_arg0 main_v24 main_v25 _ _ _ _ rfl (nk (by decide)) (nk (by decide)) (nk (by decide))
  rw [h, e_main_arg0 V, e_main_v24 V]
  all_goals rfl

theorem e_main_v26 (V : Valuation τ sig (Elt F)) : Efin V (Proc.devRef .tc main_v26) = val_main_v26 (F := F) (V (Proc.devRef .tc main_arg0)) := by
  have h := end1 wa0 V (Efin V) (W1 ++ W2) (T0 V) 63 main_v25 main_v26 _ _ _ rfl (nk (by decide)) (nk (by decide))
  rw [h, e_main_v25 V]
  all_goals rfl

theorem e_main_v27 (V : Valuation τ sig (Elt F)) : Efin V (Proc.devRef .tc main_v27) = val_main_v27 (F := F) (V (Proc.devRef .tc main_arg0)) := by
  have h := end1 wa0 V (Efin V) (W1 ++ W2) (T0 V) 64 main_v26 main_v27 _ _ _ rfl (nk (by decide)) (nk (by decide))
  rw [h, e_main_v26 V]
  all_goals rfl

theorem e_main_cst_12 (V : Valuation τ sig (Elt F)) : Efin V (Proc.devRef .tc main_cst_12) = ((constant S_ .f32 0x3F800000#32) : (⟨S_, .f32⟩ : BufTy).Contents (Elt F)) :=
  end0 wa0 V (Efin V) (W1 ++ W2) (T0 V) 65 main_cst_12 _ _ rfl (nk (by decide))

theorem e_main_v28 (V : Valuation τ sig (Elt F)) : Efin V (Proc.devRef .tc main_v28) = val_main_v28 (F := F) := by
  have h := end1 wa0 V (Efin V) (W1 ++ W2) (T0 V) 66 main_cst_12 main_v28 _ _ _ rfl (nk (by decide)) (nk (by decide))
  rw [h, e_main_cst_12 V]
  all_goals rfl

theorem e_main_v29 (V : Valuation τ sig (Elt F)) : Efin V (Proc.devRef .tc main_v29) = val_main_v29 (F := F) (V (Proc.devRef .tc main_arg0)) := by
  have h := end2 wa0 V (Efin V) (W1 ++ W2) (T0 V) 67 main_v28 main_v27 main_v29 _ _ _ _ rfl (nk (by decide)) (nk (by decide)) (nk (by decide))
  rw [h, e_main_v28 V, e_main_v27 V]
  all_goals rfl

theorem e_main_cst_13 (V : Valuation τ sig (Elt F)) : Efin V (Proc.devRef .tc main_cst_13) = ((constant S_ .f32 0x3F800000#32) : (⟨S_, .f32⟩ : BufTy).Contents (Elt F)) :=
  end0 wa0 V (Efin V) (W1 ++ W2) (T0 V) 68 main_cst_13 _ _ rfl (nk (by decide))

theorem e_main_v30 (V : Valuation τ sig (Elt F)) : Efin V (Proc.devRef .tc main_v30) = val_main_v30 (F := F) := by
  have h := end1 wa0 V (Efin V) (W1 ++ W2) (T0 V) 69 main_cst_13 main_v30 _ _ _ rfl (nk (by decide)) (nk (by decide))
  rw [h, e_main_cst_13 V]
  all_goals rfl

theorem e_main_v31 (V : Valuation τ sig (Elt F)) : Efin V (Proc.devRef .tc main_v31) = val_main_v31 (F := F) (V (Proc.devRef .tc main_arg0)) := by
  have h := end2 wa0 V (Efin V) (W1 ++ W2) (T0 V) 70 main_v30 main_v29 main_v31 _ _ _ _ rfl (nk (by decide)) (nk (by decide)) (nk (by decide))
  rw [h, e_main_v30 V, e_main_v29 V]
  all_goals rfl

theorem e_main_v32 (V : Valuation τ sig (Elt F)) : Efin V (Proc.devRef .tc main_v32) = val_main_v32 (F := F) (V (Proc.devRef .tc main_arg0)) (V (Proc.devRef .tc main_arg1)) (V (Proc.devRef .tc main_arg2)) (V (Proc.devRef .tc main_arg4)) := by
  have h := end2 wa0 V (Efin V) (W1 ++ W2) (T0 V) 71 main_v23 main_v31 main_v32 _ _ _ _ rfl (nk (by decide)) (nk (by decide)) (nk (by decide))
  rw [h, e_main_v23 V, e_main_v31 V]
  all_goals rfl

theorem e_main_v33 (V : Valuation τ sig (Elt F)) : Efin V (Proc.devRef .tc main_v33) = val_main_v33 (F := F) (V (Proc.devRef .tc main_arg0)) (V (Proc.devRef .tc main_arg1)) (V (Proc.devRef .tc main_arg2)) (V (Proc.devRef .tc main_arg4)) := by
  have h := end2 wa0 V (Efin V) (W1 ++ W2) (T0 V) 72 main_v32 main_v32 main_v33 _ _ _ _ rfl (nk (by decide)) (nk (by decide)) (nk (by decide))
  rw [h, e_main_v32 V]
  all_goals rfl

theorem e_main_cst_14 (V : Valuation τ sig (Elt F)) : Efin V (Proc.devRef .tc main_cst_14) = ((constant S_ .f32 0x00000000#32) : (⟨S_, .f32⟩ : BufTy).Contents (Elt F)) :=
  end0 wa0 V (Efin V) (W1 ++ W2) (T0 V) 73 main_cst_14 _ _ rfl (nk (by decide))

theorem e_main_v34 (V : Valuation τ sig (Elt F)) : Efin V (Proc.devRef .tc main_v34) = val_main_v34 (F := F) (V (Proc.devRef .tc main_arg0)) (V (Proc.devRef .tc main_arg1)) (V (Proc.devRef .tc main_arg2)) (V (Proc.devRef .tc main_arg4)) := by
  have h := end2 wa0 V (Efin V) (W1 ++ W2) (T0 V) 74 main_v33 main_cst_14 main_v34 _ _ _ _ rfl (nk (by decide)) (nk (by decide)) (nk (by decide))
  rw [h, e_main_v33 V, e_main_cst_14 V]
  all_goals rfl

theorem e_main_cst_15 (V : Valuation τ sig (Elt F)) : Efin V (Proc.devRef .tc main_cst_15) = ((constant S_ .f32 0x45800000#32) : (⟨S_, .f32⟩ : BufTy).Contents (Elt F)) :=
  end0 wa0 V (Efin V) (W1 ++ W2) (T0 V) 75 main_cst_15 _ _ rfl (nk (by decide))

theorem e_main_v35 (V : Valuation τ sig (Elt F)) : Efin V (Proc.devRef .tc main_v35) = val_main_v35 (F := F) (V (Proc.devRef .tc main_arg0)) (V (Proc.devRef .tc main_arg1)) (V (Proc.devRef .tc main_arg2)) (V (Proc.devRef .tc main_arg4)) := by
  have h := end2 wa0 V (Efin V) (W1 ++ W2) (T0 V) 76 main_v34 main_cst_15 main_v35 _ _ _ _ rfl (nk (by decide)) (nk (by decide)) (nk (by decide))
  rw [h, e_main_v34 V, e_main_cst_15 V]
  all_goals rfl

theorem e_main_cst_16 (V : Valuation τ sig (Elt F)) : Efin V (Proc.devRef .tc main_cst_16) = ((constant S_ .f32 0x00000000#32) : (⟨S_, .f32⟩ : BufTy).Contents (Elt F)) :=
  end0 wa0 V (Efin V) (W1 ++ W2) (T0 V) 77 main_cst_16 _ _ rfl (nk (by decide))

theorem e_main_v36 (V : Valuation τ sig (Elt F)) : Efin V (Proc.devRef .tc main_v36) = val_main_v36 (F := F) (V (Proc.devRef .tc main_arg1)) := by
  have h := end2 wa0 V (Efin V) (W1 ++ W2) (T0 V) 78 main_arg1 main_cst_16 main_v36 _ _ _ _ rfl (nk (by decide)) (nk (by decide)) (nk (by decide))
  rw [h, e_main_arg1 V, e_main_cst_16 V]
  all_goals rfl

theorem e_main_v37 (V : Valuation τ sig (Elt F)) : Efin V (Proc.devRef .tc main_v37) = val_main_v37 (F := F) (V (Proc.devRef .tc main_arg1)) := by
  have h := end1 wa0 V (Efin V) (W1 ++ W2) (T0 V) 79 main_v36 main_v37 _ _ _ rfl (nk (by decide)) (nk (by decide))
  rw [h, e_main_v36 V]
  all_goals rfl

theorem e_main_cst_17 (V : Valuation τ sig (Elt F)) : Efin V (Proc.devRef .tc main_cst_17) = ((constant S_ .f32 0x322BCC77#32) : (⟨S_, .f32⟩ : BufTy).Contents (Elt F)) :=
  end0 wa0 V (Efin V) (W1 ++ W2) (T0 V) 80 main_cst_17 _ _ rfl (nk (by decide))

theorem e_main_v38 (V : Valuation τ sig (Elt F)) : Efin V (Proc.devRef .tc main_v38) = val_main_v38 (F := F) := by
  have h := end1 wa0 V (Efin V) (W1 ++ W2) (T0 V) 81 main_cst_17 main_v38 _ _ _ rfl (nk (by decide)) (nk (by decide))
  rw [h, e_main_cst_17 V]
  all_goals rfl

theorem e_main_v39 (V : Valuation τ sig (Elt F)) : Efin V (Proc.devRef .tc main_v39) = val_main_v39 (F := F) (V (Proc.devRef .tc main_arg1)) := by
  have h := end2 wa0 V (Efin V) (W1 ++ W2) (T0 V) 82 main_v37 main_v38 main_v39 _ _ _ _ rfl (nk (by decide)) (nk (by decide)) (nk (by decide))
  rw [h, e_main_v37 V, e_main_v38 V]
  all_goals rfl

end Cert.ReferenceIdeal.RefRun

end
-- ==== Proof.RefRunRead1.lean ====
/- The reference's part 1 read back: at the end of the line every buffer this part writes holds its value as a function of
   the argument arrays (one equation per operation, each from the operation's own equation at the end and the equations of
   its operands). -/
import proofs.«122764_j16621523435816_2_alg».proof.Proof.RefRunRead0

noncomputable section

namespace Cert.ReferenceIdeal.RefRun

open Cert.ReferenceIdeal Cert.ReferenceIdeal.Gen Idealize.ShloMosaic Idealize.ShloMosaic.TcCoe Idealize.SL.Sem Idealize.ShloMosaic.StableHlo Cert.ReadBack Cert.ReadEnd

variable {F : FTy → Type} [FloatOps F]

theorem e_main_v40 (V : Valuation τ sig (Elt F)) : Efin V (Proc.devRef .tc main_v40) = val_main_v40 (F := F) (V (Proc.devRef .tc main_arg1)) := by
  have h := end1 wa1 (after ops0 V) (Efin V) W2 (T1 V) 0 main_v39 main_v40 _ _ _ rfl (nk (by decide)) (nk (by decide))
  rw [h, e_main_v39 V]
  all_goals rfl

theorem e_main_v41 (V : Valuation τ sig (Elt F)) : Efin V (Proc.devRef .tc main_v41) = val_main_v41 (F := F) (V (Proc.devRef .tc main_arg1)) := by
  have h := end2 wa1 (after ops0 V) (Efin V) W2 (T1 V) 1 main_arg1 main_v40 main_v41 _ _ _ _ rfl (nk (by decide)) (nk (by decide)) (nk (by decide))
  rw [h, e_main_arg1 V, e_main_v40 V]
  all_goals rfl

theorem e_main_v42 (V : Valuation τ sig (Elt F)) : Efin V (Proc.devRef .tc main_v42) = val_main_v42 (F := F) (V (Proc.devRef .tc main_arg1)) (V (Proc.devRef .tc main_arg4)) := by
  have h := end2 wa1 (after ops0 V) (Efin V) W2 (T1 V) 2 main_v41 main_arg4 main_v42 _ _ _ _ rfl (nk (by decide)) (nk (by decide)) (nk (by decide))
  rw [h, e_main_v41 V, e_main_arg4 V]
  all_goals rfl

theorem e_main_cst_18 (V : Valuation τ sig (Elt F)) : Efin V (Proc.devRef .tc main_cst_18) = ((constant S_ .f32 0x00000000#32) : (⟨S_, .f32⟩ : BufTy).Contents (Elt F)) :=
  end0 wa1 (after ops0 V) (Efin V) W2 (T1 V) 3 main_cst_18 _ _ rfl (nk (by decide))

theorem e_main_v43 (V : Valuation τ sig (Elt F)) : Efin V (Proc.devRef .tc main_v43) = val_main_v43 (F := F) (V (Proc.devRef .tc main_arg1)) (V (Proc.devRef .tc main_arg4)) := by
  have h := end2 wa1 (after ops0 V) (Efin V) W2 (T1 V) 4 main_v42 main_cst_18 main_v43 _ _ _ _ rfl (nk (by decide)) (nk (by decide)) (nk (by decide))
  rw [h, e_main_v42 V, e_main_cst_18 V]
  all_goals rfl

theorem e_main_cst_19 (V : Valuation τ sig (Elt F)) : Efin V (Proc.devRef .tc main_cst_19) = ((constant S_ .f32 0x45800000#32) : (⟨S_, .f32⟩ : BufTy).Contents (Elt F)) :=
  end0 wa1 (after ops0 V) (Efin V) W2 (T1 V) 5 main_cst_19 _ _ rfl (nk (by decide))

theorem e_main_v44 (V : Valuation τ sig (Elt F)) : Efin V (Proc.devRef .tc main_v44) = val_main_v44 (F := F) := by
  have h := end1 wa1 (after ops0 V) (Efin V) W2 (T1 V) 6 main_cst_19 main_v44 _ _ _ rfl (nk (by decide)) (nk (by decide))
  rw [h, e_main_cst_19 V]
  all_goals rfl

theorem e_main_v45 (V : Valuation τ sig (Elt F)) : Efin V (Proc.devRef .tc main_v45) = val_main_v45 (F := F) (V (Proc.devRef .tc main_arg1)) (V (Proc.devRef .tc main_arg4)) := by
  have h := end2 wa1 (after ops0 V) (Efin V) W2 (T1 V) 7 main_v43 main_v44 main_v45 _ _ _ _ rfl (nk (by decide)) (nk (by decide)) (nk (by decide))
  rw [h, e_main_v43 V, e_main_v44 V]
  all_goals rfl

theorem e_main_cst_20 (V : Valuation τ sig (Elt F)) : Efin V (Proc.devRef .tc main_cst_20) = ((constant S_ .f32 0x00000000#32) : (⟨S_, .f32⟩ : BufTy).Contents (Elt F)) :=
  end0 wa1 (after ops0 V) (Efin V) W2 (T1 V) 8 main_cst_20 _ _ rfl (nk (by decide))

theorem e_main_v46 (V : Valuation τ sig (Elt F)) : Efin V (Proc.devRef .tc main_v46) = val_main_v46 (F := F) (V (Proc.devRef .tc main_arg1)) (V (Proc.devRef .tc main_arg4)) := by
  have h := end2 wa1 (after ops0 V) (Efin V) W2 (T1 V) 9 main_v45 main_cst_20 main_v46 _ _ _ _ rfl (nk (by decide)) (nk (by decide)) (nk (by decide))
  rw [h, e_main_v45 V, e_main_cst_20 V]
  all_goals rfl

theorem e_main_cst_21 (V : Valuation τ sig (Elt F)) : Efin V (Proc.devRef .tc main_cst_21) = ((constant S_ .f32 0x322BCC77#32) : (⟨S_, .f32⟩ : BufTy).Contents (Elt F)) :=
  end0 wa1 (after ops0 V) (Efin V) W2 (T1 V) 10 main_cst_21 _ _ rfl (nk (by decide))

theorem e_main_v47 (V : Valuation τ sig (Elt F)) : Efin V (Proc.devRef .tc main_v47) = val_main_v47 (F := F) (V (Proc.devRef .tc main_arg1)) (V (Proc.devRef .tc main_arg4)) := by
  have h := end2 wa1 (after ops0 V) (Efin V) W2 (T1 V) 11 main_v46 main_cst_21 main_v47 _ _ _ _ rfl (nk (by decide)) (nk (by decide)) (nk (by decide))
  rw [h, e_main_v46 V, e_main_cst_21 V]
  all_goals rfl

theorem e_main_v48 (V : Valuation τ sig (Elt F)) : Efin V (Proc.devRef .tc main_v48) = val_main_v48 (F := F) (V (Proc.devRef .tc main_arg1)) (V (Proc.devRef .tc main_arg4)) := by
  have h := end1 wa1 (after ops0 V) (Efin V) W2 (T1 V) 12 main_v47 main_v48 _ _ _ rfl (nk (by decide)) (nk (by decide))
  rw [h, e_main_v47 V]
  all_goals rfl

theorem e_main_v49 (V : Valuation τ sig (Elt F)) : Efin V (Proc.devRef .tc main_v49) = val_main_v49 (F := F) (V (Proc.devRef .tc main_arg1)) (V (Proc.devRef .tc main_arg4)) := by
  have h := end2 wa1 (after ops0 V) (Efin V) W2 (T1 V) 13 main_v45 main_v48 main_v49 _ _ _ _ rfl (nk (by decide)) (nk (by decide)) (nk (by decide))
  rw [h, e_main_v45 V, e_main_v48 V]
  all_goals rfl

theorem e_main_cst_22 (V : Valuation τ sig (Elt F)) : Efin V (Proc.devRef .tc main_cst_22) = ((constant S_ .f32 0x322BCC77#32) : (⟨S_, .f32⟩ : BufTy).Contents (Elt F)) :=
  end0 wa1 (after ops0 V) (Efin V) W2 (T1 V) 14 main_cst_22 _ _ rfl (nk (by decide))

theorem e_main_v50 (V : Valuation τ sig (Elt F)) : Efin V (Proc.devRef .tc main_v50) = val_main_v50 (F := F) := by
  have h := end1 wa1 (after ops0 V) (Efin V) W2 (T1 V) 15 main_cst_22 main_v50 _ _ _ rfl (nk (by decide)) (nk (by decide))
  rw [h, e_main_cst_22 V]
  all_goals rfl

theorem e_main_v51 (V : Valuation τ sig (Elt F)) : Efin V (Proc.devRef .tc main_v51) = val_main_v51 (F := F) (V (Proc.devRef .tc main_arg1)) (V (Proc.devRef .tc main_arg4)) := by
  have h := end2 wa1 (after ops0 V) (Efin V) W2 (T1 V) 16 main_v49 main_v50 main_v51 _ _ _ _ rfl (nk (by decide)) (nk (by decide)) (nk (by decide))
  rw [h, e_main_v49 V, e_main_v50 V]
  all_goals rfl

theorem e_main_v52 (V : Valuation τ sig (Elt F)) : Efin V (Proc.devRef .tc main_v52) = val_main_v52 (F := F) (V (Proc.devRef .tc main_arg1)) (V (Proc.devRef .tc main_arg4)) := by
  have h := end1 wa1 (after ops0 V) (Efin V) W2 (T1 V) 17 main_v51 main_v52 _ _ _ rfl (nk (by decide)) (nk (by decide))
  rw [h, e_main_v51 V]
  all_goals rfl

theorem e_main_v53 (V : Valuation τ sig (Elt F)) : Efin V (Proc.devRef .tc main_v53) = val_main_v53 (F := F) (V (Proc.devRef .tc main_arg1)) (V (Proc.devRef .tc main_arg4)) := by
  have h := end2 wa1 (after ops0 V) (Efin V) W2 (T1 V) 18 main_v49 main_v52 main_v53 _ _ _ _ rfl (nk (by decide)) (nk (by decide)) (nk (by decide))
  rw [h, e_main_v49 V, e_main_v52 V]
  all_goals rfl

theorem e_main_cst_23 (V : Valuation τ sig (Elt F)) : Efin V (Proc.devRef .tc main_cst_23) = ((constant S_ .f32 0x00000000#32) : (⟨S_, .f32⟩ : BufTy).Contents (Elt F)) :=
  end0 wa1 (after ops0 V) (Efin V) W2 (T1 V) 19 main_cst_23 _ _ rfl (nk (by decide))

theorem e_main_v54 (V : Valuation τ sig (Elt F)) : Efin V (Proc.devRef .tc main_v54) = val_main_v54 (F := F) (V (Proc.devRef .tc main_arg1)) (V (Proc.devRef .tc main_arg4)) := by
  have h := end2 wa1 (after ops0 V) (Efin V) W2 (T1 V) 20 main_v53 main_cst_23 main_v54 _ _ _ _ rfl (nk (by decide)) (nk (by decide)) (nk (by decide))
  rw [h, e_main_v53 V, e_main_cst_23 V]
  all_goals rfl

theorem e_main_v55 (V : Valuation τ sig (Elt F)) : Efin V (Proc.devRef .tc main_v55) = val_main_v55 (F := F) (V (Proc.devRef .tc main_arg1)) (V (Proc.devRef .tc main_arg4)) := by
  have h := end1 wa1 (after ops0 V) (Efin V) W2 (T1 V) 21 main_v54 main_v55 _ _ _ rfl (nk (by decide)) (nk (by decide))
  rw [h, e_main_v54 V]
  all_goals rfl

theorem e_main_v56 (V : Valuation τ sig (Elt F)) : Efin V (Proc.devRef .tc main_v56) = val_main_v56 (F := F) (V (Proc.devRef .tc main_arg1)) (V (Proc.devRef .tc main_arg4)) := by
  have h := end1 wa1 (after ops0 V) (Efin V) W2 (T1 V) 22 main_v55 main_v56 _ _ _ rfl (nk (by decide)) (nk (by decide))
  rw [h, e_main_v55 V]
  all_goals rfl

theorem e_main_cst_24 (V : Valuation τ sig (Elt F)) : Efin V (Proc.devRef .tc main_cst_24) = ((constant S_ .f32 0x00000000#32) : (⟨S_, .f32⟩ : BufTy).Contents (Elt F)) :=
  end0 wa1 (after ops0 V) (Efin V) W2 (T1 V) 23 main_cst_24 _ _ rfl (nk (by decide))

theorem e_main_v57 (V : Valuation τ sig (Elt F)) : Efin V (Proc.devRef .tc main_v57) = val_main_v57 (F := F) := by
  have h := end1 wa1 (after ops0 V) (Efin V) W2 (T1 V) 24 main_cst_24 main_v57 _ _ _ rfl (nk (by decide)) (nk (by decide))
  rw [h, e_main_cst_24 V]
  all_goals rfl

theorem e_main_v58 (V : Valuation τ sig (Elt F)) : Efin V (Proc.devRef .tc main_v58) = val_main_v58 (F := F) (V (Proc.devRef .tc main_arg4)) := by
  have h := end2 wa1 (after ops0 V) (Efin V) W2 (T1 V) 25 main_arg4 main_v57 main_v58 _ _ _ _ rfl (nk (by decide)) (nk (by decide)) (nk (by decide))
  rw [h, e_main_arg4 V, e_main_v57 V]
  all_goals rfl

theorem e_main_v59 (V : Valuation τ sig (Elt F)) : Efin V (Proc.devRef .tc main_v59) = val_main_v59 (F := F) (V (Proc.devRef .tc main_arg4)) := by
  have h := end1 wa1 (after ops0 V) (Efin V) W2 (T1 V) 26 main_v58 main_v59 _ _ _ rfl (nk (by decide)) (nk (by decide))
  rw [h, e_main_v58 V]
  all_goals rfl

theorem e_main_c_25 (V : Valuation τ sig (Elt F)) : Efin V (Proc.devRef .tc main_c_25) = ((constantI S_ 32 0#32) : (⟨S_, .i32⟩ : BufTy).Contents (Elt F)) :=
  end0 wa1 (after ops0 V) (Efin V) W2 (T1 V) 27 main_c_25 _ _ rfl (nk (by decide))

theorem e_main_v60 (V : Valuation τ sig (Elt F)) : Efin V (Proc.devRef .tc main_v60) = val_main_v60 (F := F) (V (Proc.devRef .tc main_arg4)) := by
  have h := end2 wa1 (after ops0 V) (Efin V) W2 (T1 V) 28 main_v59 main_c_25 main_v60 _ _ _ _ rfl (nk (by decide)) (nk (by decide)) (nk (by decide))
  rw [h, e_main_v59 V, e_main_c_25 V]
  all_goals rfl

theorem e_main_cst_26 (V : Valuation τ sig (Elt F)) : Efin V (Proc.devRef .tc main_cst_26) = ((constant S_ .f32 0x41A00000#32) : (⟨S_, .f32⟩ : BufTy).Contents (Elt F)) :=
  end0 wa1 (after ops0 V) (Efin V) W2 (T1 V) 29 main_cst_26 _ _ rfl (nk (by decide))

theorem e_main_v61 (V : Valuation τ sig (Elt F)) : Efin V (Proc.devRef .tc main_v61) = val_main_v61 (F := F) := by
  have h := end1 wa1 (after ops0 V) (Efin V) W2 (T1 V) 30 main_cst_26 main_v61 _ _ _ rfl (nk (by decide)) (nk (by decide))
  rw [h, e_main_cst_26 V]
  all_goals rfl

theorem e_main_v62 (V : Valuation τ sig (Elt F)) : Efin V (Proc.devRef .tc main_v62) = val_main_v62 (F := F) (V (Proc.devRef .tc main_arg3)) := by
  have h := end2 wa1 (after ops0 V) (Efin V) W2 (T1 V) 31 main_arg3 main_v61 main_v62 _ _ _ _ rfl (nk (by decide)) (nk (by decide)) (nk (by decide))
  rw [h, e_main_arg3 V, e_main_v61 V]
  all_goals rfl

theorem e_main_cst_27 (V : Valuation τ sig (Elt F)) : Efin V (Proc.devRef .tc main_cst_27) = ((constant S_ .f32 0xF149F2CA#32) : (⟨S_, .f32⟩ : BufTy).Contents (Elt F)) :=
  end0 wa1 (after ops0 V) (Efin V) W2 (T1 V) 32 main_cst_27 _ _ rfl (nk (by decide))

theorem e_main_call2_v0 (V : Valuation τ sig (Elt F)) : Efin V (Proc.devRef .tc main_call2_v0) = val_main_call2_v0 (F := F) := by
  have h := end1 wa1 (after ops0 V) (Efin V) W2 (T1 V) 33 main_cst_27 main_call2_v0 _ _ _ rfl (nk (by decide)) (nk (by decide))
  rw [h, e_main_cst_27 V]
  unfold val_main_call2_v0
  exact cast_eq_iff_heq.mpr (heq_of_eq rfl)

theorem e_main_call2_v1 (V : Valuation τ sig (Elt F)) : Efin V (Proc.devRef .tc main_call2_v1) = val_main_call2_v1 (F := F) := by
  have h := end1 wa1 (after ops0 V) (Efin V) W2 (T1 V) 34 main_call2_v0 main_call2_v1 _ _ _ rfl (nk (by decide)) (nk (by decide))
  rw [h, e_main_call2_v0 V]
  unfold val_main_call2_v1
  generalize val_main_call2_v0 (F := F) = x0
  exact cast_eq_iff_heq.mpr (heq_of_eq rfl)

theorem e_main_v63 (V : Valuation τ sig (Elt F)) : Efin V (Proc.devRef .tc main_v63) = val_main_v63 (F := F) (V (Proc.devRef .tc main_arg3)) (V (Proc.devRef .tc main_arg4)) := by
  have h := end3 wa1 (after ops0 V) (Efin V) W2 (T1 V) 35 main_v58 main_v62 main_call2_v1 main_v63 _ _ _ _ _ rfl (nk (by decide)) (nk (by decide)) (nk (by decide)) (nk (by decide))
  rw [h, e_main_v58 V, e_main_v62 V, e_main_call2_v1 V]
  unfold val_main_v63
  generalize val_main_v58 (F := F) (V (Proc.devRef .tc main_arg4)) = x0
  generalize val_main_v62 (F := F) (V (Proc.devRef .tc main_arg3)) = x1
  generalize val_main_call2_v1 (F := F) = x2
  exact cast_eq_iff_heq.mpr (heq_of_eq rfl)

theorem e_main_cst_28 (V : Valuation τ sig (Elt F)) : Efin V (Proc.devRef .tc main_cst_28) = ((constant S_ .f32 0xFF800000#32) : (⟨S_, .f32⟩ : BufTy).Contents (Elt F)) :=
  end0 wa1 (after ops0 V) (Efin V) W2 (T1 V) 36 main_cst_28 _ _ rfl (nk (by decide))

theorem e_main_v64 (V : Valuation τ sig (Elt F)) : Efin V (Proc.devRef .tc main_v64) = val_main_v64 (F := F) (V (Proc.devRef .tc main_arg3)) (V (Proc.devRef .tc main_arg4)) := by
  have h := end2 wa1 (after ops0 V) (Efin V) W2 (T1 V) 37 main_v63 main_cst_28 main_v64 _ _ _ _ rfl (nk (by decide)) (nk (by decide)) (nk (by decide))
  rw [h, e_main_v63 V, e_main_cst_28 V]
  all_goals rfl

theorem e_main_cst_29 (V : Valuation τ sig (Elt F)) : Efin V (Proc.devRef .tc main_cst_29) = ((constant S_ .f32 0xFF800000#32) : (⟨S_, .f32⟩ : BufTy).Contents (Elt F)) :=
  end0 wa1 (after ops0 V) (Efin V) W2 (T1 V) 38 main_cst_29 _ _ rfl (nk (by decide))

theorem e_main_v65 (V : Valuation τ sig (Elt F)) : Efin V (Proc.devRef .tc main_v65) = val_main_v65 (F := F) := by
  have h := end1 wa1 (after ops0 V) (Efin V) W2 (T1 V) 39 main_cst_29 main_v65 _ _ _ rfl (nk (by decide)) (nk (by decide))
  rw [h, e_main_cst_29 V]
  all_goals rfl

theorem e_main_v66 (V : Valuation τ sig (Elt F)) : Efin V (Proc.devRef .tc main_v66) = val_main_v66 (F := F) (V (Proc.devRef .tc main_arg3)) (V (Proc.devRef .tc main_arg4)) := by
  have h := end2 wa1 (after ops0 V) (Efin V) W2 (T1 V) 40 main_v65 main_v64 main_v66 _ _ _ _ rfl (nk (by decide)) (nk (by decide)) (nk (by decide))
  rw [h, e_main_v65 V, e_main_v64 V]
  all_goals rfl

theorem e_main_v67 (V : Valuation τ sig (Elt F)) : Efin V (Proc.devRef .tc main_v67) = val_main_v67 (F := F) (V (Proc.devRef .tc main_arg3)) (V (Proc.devRef .tc main_arg4)) := by
  have h := end1 wa1 (after ops0 V) (Efin V) W2 (T1 V) 41 main_v66 main_v67 _ _ _ rfl (nk (by decide)) (nk (by decide))
  rw [h, e_main_v66 V]
  all_goals rfl

theorem e_main_v68 (V : Valuation τ sig (Elt F)) : Efin V (Proc.devRef .tc main_v68) = val_main_v68 (F := F) (V (Proc.devRef .tc main_arg3)) (V (Proc.devRef .tc main_arg4)) := by
  have h := end1 wa1 (after ops0 V) (Efin V) W2 (T1 V) 42 main_v67 main_v68 _ _ _ rfl (nk (by decide)) (nk (by decide))
  rw [h, e_main_v67 V]
  all_goals rfl

theorem e_main_v69 (V : Valuation τ sig (Elt F)) : Efin V (Proc.devRef .tc main_v69) = val_main_v69 (F := F) (V (Proc.devRef .tc main_arg3)) (V (Proc.devRef .tc main_arg4)) := by
  have h := end2 wa1 (after ops0 V) (Efin V) W2 (T1 V) 43 main_v63 main_v68 main_v69 _ _ _ _ rfl (nk (by decide)) (nk (by decide)) (nk (by decide))
  rw [h, e_main_v63 V, e_main_v68 V]
  all_goals rfl

theorem e_main_v70 (V : Valuation τ sig (Elt F)) : Efin V (Proc.devRef .tc main_v70) = val_main_v70 (F := F) (V (Proc.devRef .tc main_arg3)) (V (Proc.devRef .tc main_arg4)) := by
  have h := end1 wa1 (after ops0 V) (Efin V) W2 (T1 V) 44 main_v69 main_v70 _ _ _ rfl (nk (by decide)) (nk (by decide))
  rw [h, e_main_v69 V]
  all_goals rfl

theorem e_main_cst_30 (V : Valuation τ sig (Elt F)) : Efin V (Proc.devRef .tc main_cst_30) = ((constant S_ .f32 0x00000000#32) : (⟨S_, .f32⟩ : BufTy).Contents (Elt F)) :=
  end0 wa1 (after ops0 V) (Efin V) W2 (T1 V) 45 main_cst_30 _ _ rfl (nk (by decide))

theorem e_main_v71 (V : Valuation τ sig (Elt F)) : Efin V (Proc.devRef .tc main_v71) = val_main_v71 (F := F) (V (Proc.devRef .tc main_arg3)) (V (Proc.devRef .tc main_arg4)) := by
  have h := end2 wa1 (after ops0 V) (Efin V) W2 (T1 V) 46 main_v70 main_cst_30 main_v71 _ _ _ _ rfl (nk (by decide)) (nk (by decide)) (nk (by decide))
  rw [h, e_main_v70 V, e_main_cst_30 V]
  all_goals rfl

theorem e_main_v72 (V : Valuation τ sig (Elt F)) : Efin V (Proc.devRef .tc main_v72) = val_main_v72 (F := F) (V (Proc.devRef .tc main_arg3)) (V (Proc.devRef .tc main_arg4)) := by
  have h := end1 wa1 (after ops0 V) (Efin V) W2 (T1 V) 47 main_v71 main_v72 _ _ _ rfl (nk (by decide)) (nk (by decide))
  rw [h, e_main_v71 V]
  all_goals rfl

theorem e_main_v73 (V : Valuation τ sig (Elt F)) : Efin V (Proc.devRef .tc main_v73) = val_main_v73 (F := F) (V (Proc.devRef .tc main_arg3)) (V (Proc.devRef .tc main_arg4)) := by
  have h := end1 wa1 (after ops0 V) (Efin V) W2 (T1 V) 48 main_v72 main_v73 _ _ _ rfl (nk (by decide)) (nk (by decide))
  rw [h, e_main_v72 V]
  all_goals rfl

theorem e_main_v74 (V : Valuation τ sig (Elt F)) : Efin V (Proc.devRef .tc main_v74) = val_main_v74 (F := F) (V (Proc.devRef .tc main_arg3)) (V (Proc.devRef .tc main_arg4)) := by
  have h := end2 wa1 (after ops0 V) (Efin V) W2 (T1 V) 49 main_v70 main_v73 main_v74 _ _ _ _ rfl (nk (by decide)) (nk (by decide)) (nk (by decide))
  rw [h, e_main_v70 V, e_main_v73 V]
  all_goals rfl

theorem e_main_cst_31 (V : Valuation τ sig (Elt F)) : Efin V (Proc.devRef .tc main_cst_31) = ((constant S_ .f32 0xF149F2CA#32) : (⟨S_, .f32⟩ : BufTy).Contents (Elt F)) :=
  end0 wa1 (after ops0 V) (Efin V) W2 (T1 V) 50 main_cst_31 _ _ rfl (nk (by decide))

theorem e_main_call3_v0 (V : Valuation τ sig (Elt F)) : Efin V (Proc.devRef .tc main_call3_v0) = val_main_call3_v0 (F := F) := by
  have h := end1 wa1 (after ops0 V) (Efin V) W2 (T1 V) 51 main_cst_31 main_call3_v0 _ _ _ rfl (nk (by decide)) (nk (by decide))
  rw [h, e_main_cst_31 V]
  unfold val_main_call3_v0
  exact cast_eq_iff_heq.mpr (heq_of_eq rfl)

theorem e_main_call3_v1 (V : Valuation τ sig (Elt F)) : Efin V (Proc.devRef .tc main_call3_v1) = val_main_call3_v1 (F := F) := by
  have h := end1 wa1 (after ops0 V) (Efin V) W2 (T1 V) 52 main_call3_v0 main_call3_v1 _ _ _ rfl (nk (by decide)) (nk (by decide))
  rw [h, e_main_call3_v0 V]
  unfold val_main_call3_v1
  generalize val_main_call3_v0 (F := F) = x0
  exact cast_eq_iff_heq.mpr (heq_of_eq rfl)

theorem e_main_v75 (V : Valuation τ sig (Elt F)) : Efin V (Proc.devRef .tc main_v75) = val_main_v75 (F := F) (V (Proc.devRef .tc main_arg4)) (V (Proc.devRef .tc main_arg5)) := by
  have h := end3 wa1 (after ops0 V) (Efin V) W2 (T1 V) 53 main_v58 main_arg5 main_call3_v1 main_v75 _ _ _ _ _ rfl (nk (by decide)) (nk (by decide)) (nk (by decide)) (nk (by decide))
  rw [h, e_main_v58 V, e_main_arg5 V, e_main_call3_v1 V]
  unfold val_main_v75
  generalize val_main_v58 (F := F) (V (Proc.devRef .tc main_arg4)) = x0
  generalize val_main_call3_v1 (F := F) = x1
  exact cast_eq_iff_heq.mpr (heq_of_eq rfl)

theorem e_main_call4_cst (V : Valuation τ sig (Elt F)) : Efin V (Proc.devRef .tc main_call4_cst) = ((constant S_ .f32 0xFF800000#32) : (⟨S_, .f32⟩ : BufTy).Contents (Elt F)) :=
  end0 wa1 (after ops0 V) (Efin V) W2 (T1 V) 54 main_call4_cst _ _ rfl (nk (by decide))

theorem e_main_call4_v0 (V : Valuation τ sig (Elt F)) : Efin V (Proc.devRef .tc main_call4_v0) = val_main_call4_v0 (F := F) (V (Proc.devRef .tc main_arg4)) (V (Proc.devRef .tc main_arg5)) := by
  have h := end2 wa1 (after ops0 V) (Efin V) W2 (T1 V) 55 main_v75 main_call4_cst main_call4_v0 _ _ _ _ rfl (nk (by decide)) (nk (by decide)) (nk (by decide))
  rw [h, e_main_v75 V, e_main_call4_cst V]
  unfold val_main_call4_v0
  generalize val_main_v75 (F := F) (V (Proc.devRef .tc main_arg4)) (V (Proc.devRef .tc main_arg5)) = x0
  exact cast_eq_iff_heq.mpr (heq_of_eq rfl)

theorem e_main_call4_cst_0 (V : Valuation τ sig (Elt F)) : Efin V (Proc.devRef .tc main_call4_cst_0) = ((constant S_ .f32 0xFF800000#32) : (⟨S_, .f32⟩ : BufTy).Contents (Elt F)) :=
  end0 wa1 (after ops0 V) (Efin V) W2 (T1 V) 56 main_call4_cst_0 _ _ rfl (nk (by decide))

theorem e_main_call4_v1 (V : Valuation τ sig (Elt F)) : Efin V (Proc.devRef .tc main_call4_v1) = val_main_call4_v1 (F := F) := by
  have h := end1 wa1 (after ops0 V) (Efin V) W2 (T1 V) 57 main_call4_cst_0 main_call4_v1 _ _ _ rfl (nk (by decide)) (nk (by decide))
  rw [h, e_main_call4_cst_0 V]
  unfold val_main_call4_v1
  exact cast_eq_iff_heq.mpr (heq_of_eq rfl)

theorem e_main_call4_v2 (V : Valuation τ sig (Elt F)) : Efin V (Proc.devRef .tc main_call4_v2) = val_main_call4_v2 (F := F) (V (Proc.devRef .tc main_arg4)) (V (Proc.devRef .tc main_arg5)) := by
  have h := end2 wa1 (after ops0 V) (Efin V) W2 (T1 V) 58 main_call4_v1 main_call4_v0 main_call4_v2 _ _ _ _ rfl (nk (by decide)) (nk (by decide)) (nk (by decide))
  rw [h, e_main_call4_v1 V, e_main_call4_v0 V]
  unfold val_main_call4_v2
  generalize val_main_call4_v1 (F := F) = x0
  generalize val_main_call4_v0 (F := F) (V (Proc.devRef .tc main_arg4)) (V (Proc.devRef .tc main_arg5)) = x1
  exact cast_eq_iff_heq.mpr (heq_of_eq rfl)

theorem e_main_call4_v3 (V : Valuation τ sig (Elt F)) : Efin V (Proc.devRef .tc main_call4_v3) = val_main_call4_v3 (F := F) (V (Proc.devRef .tc main_arg4)) (V (Proc.devRef .tc main_arg5)) := by
  have h := end1 wa1 (after ops0 V) (Efin V) W2 (T1 V) 59 main_call4_v2 main_call4_v3 _ _ _ rfl (nk (by decide)) (nk (by decide))
  rw [h, e_main_call4_v2 V]
  unfold val_main_call4_v3
  generalize val_main_call4_v2 (F := F) (V (Proc.devRef .tc main_arg4)) (V (Proc.devRef .tc main_arg5)) = x0
  exact cast_eq_iff_heq.mpr (heq_of_eq rfl)

theorem e_main_call4_v4 (V : Valuation τ sig (Elt F)) : Efin V (Proc.devRef .tc main_call4_v4) = val_main_call4_v4 (F := F) (V (Proc.devRef .tc main_arg4)) (V (Proc.devRef .tc main_arg5)) := by
  have h := end1 wa1 (after ops0 V) (Efin V) W2 (T1 V) 60 main_call4_v3 main_call4_v4 _ _ _ rfl (nk (by decide)) (nk (by decide))
  rw [h, e_main_call4_v3 V]
  unfold val_main_call4_v4
  generalize val_main_call4_v3 (F := F) (V (Proc.devRef .tc main_arg4)) (V (Proc.devRef .tc main_arg5)) = x0
  exact cast_eq_iff_heq.mpr (heq_of_eq rfl)

theorem e_main_call4_v5 (V : Valuation τ sig (Elt F)) : Efin V (Proc.devRef .tc main_call4_v5) = val_main_call4_v5 (F := F) (V (Proc.devRef .tc main_arg4)) (V (Proc.devRef .tc main_arg5)) := by
  have h := end2 wa1 (after ops0 V) (Efin V) W2 (T1 V) 61 main_v75 main_call4_v4 main_call4_v5 _ _ _ _ rfl (nk (by decide)) (nk (by decide)) (nk (by decide))
  rw [h, e_main_v75 V, e_main_call4_v4 V]
  unfold val_main_call4_v5
  generalize val_main_v75 (F := F) (V (Proc.devRef .tc main_arg4)) (V (Proc.devRef .tc main_arg5)) = x0
  generalize val_main_call4_v4 (F := F) (V (Proc.devRef .tc main_arg4)) (V (Proc.devRef .tc main_arg5)) = x1
  exact cast_eq_iff_heq.mpr (heq_of_eq rfl)

theorem e_main_call4_v6 (V : Valuation τ sig (Elt F)) : Efin V (Proc.devRef .tc main_call4_v6) = val_main_call4_v6 (F := F) (V (Proc.devRef .tc main_arg4)) (V (Proc.devRef .tc main_arg5)) := by
  have h := end1 wa1 (after ops0 V) (Efin V) W2 (T1 V) 62 main_call4_v5 main_call4_v6 _ _ _ rfl (nk (by decide)) (nk (by decide))
  rw [h, e_main_call4_v5 V]
  unfold val_main_call4_v6
  generalize val_main_call4_v5 (F := F) (V (Proc.devRef .tc main_arg4)) (V (Proc.devRef .tc main_arg5)) = x0
  exact cast_eq_iff_heq.mpr (heq_of_eq rfl)

theorem e_main_call4_cst_1 (V : Valuation τ sig (Elt F)) : Efin V (Proc.devRef .tc main_call4_cst_1) = ((constant S_ .f32 0x00000000#32) : (⟨S_, .f32⟩ : BufTy).Contents (Elt F)) :=
  end0 wa1 (after ops0 V) (Efin V) W2 (T1 V) 63 main_call4_cst_1 _ _ rfl (nk (by decide))

theorem e_main_call4_v7 (V : Valuation τ sig (Elt F)) : Efin V (Proc.devRef .tc main_call4_v7) = val_main_call4_v7 (F := F) (V (Proc.devRef .tc main_arg4)) (V (Proc.devRef .tc main_arg5)) := by
  have h := end2 wa1 (after ops0 V) (Efin V) W2 (T1 V) 64 main_call4_v6 main_call4_cst_1 main_call4_v7 _ _ _ _ rfl (nk (by decide)) (nk (by decide)) (nk (by decide))
  rw [h, e_main_call4_v6 V, e_main_call4_cst_1 V]
  unfold val_main_call4_v7
  generalize val_main_call4_v6 (F := F) (V (Proc.devRef .tc main_arg4)) (V (Proc.devRef .tc main_arg5)) = x0
  exact cast_eq_iff_heq.mpr (heq_of_eq rfl)

theorem e_main_call4_v8 (V : Valuation τ sig (Elt F)) : Efin V (Proc.devRef .tc main_call4_v8) = val_main_call4_v8 (F := F) (V (Proc.devRef .tc main_arg4)) (V (Proc.devRef .tc main_arg5)) := by
  have h := end1 wa1 (after ops0 V) (Efin V) W2 (T1 V) 65 main_call4_v7 main_call4_v8 _ _ _ rfl (nk (by decide)) (nk (by decide))
  rw [h, e_main_call4_v7 V]
  unfold val_main_call4_v8
  generalize val_main_call4_v7 (F := F) (V (Proc.devRef .tc main_arg4)) (V (Proc.devRef .tc main_arg5)) = x0
  exact cast_eq_iff_heq.mpr (heq_of_eq rfl)

theorem e_main_call4_v9 (V : Valuation τ sig (Elt F)) : Efin V (Proc.devRef .tc main_call4_v9) = val_main_call4_v9 (F := F) (V (Proc.devRef .tc main_arg4)) (V (Proc.devRef .tc main_arg5)) := by
  have h := end1 wa1 (after ops0 V) (Efin V) W2 (T1 V) 66 main_call4_v8 main_call4_v9 _ _ _ rfl (nk (by decide)) (nk (by decide))
  rw [h, e_main_call4_v8 V]
  unfold val_main_call4_v9
  generalize val_main_call4_v8 (F := F) (V (Proc.devRef .tc main_arg4)) (V (Proc.devRef .tc main_arg5)) = x0
  exact cast_eq_iff_heq.mpr (heq_of_eq rfl)

theorem e_main_call4_v10 (V : Valuation τ sig (Elt F)) : Efin V (Proc.devRef .tc main_call4_v10) = val_main_call4_v10 (F := F) (V (Proc.devRef .tc main_arg4)) (V (Proc.devRef .tc main_arg5)) := by
  have h := end1 wa1 (after ops0 V) (Efin V) W2 (T1 V) 67 main_call4_v9 main_call4_v10 _ _ _ rfl (nk (by decide)) (nk (by decide))
  rw [h, e_main_call4_v9 V]
  unfold val_main_call4_v10
  generalize val_main_call4_v9 (F := F) (V (Proc.devRef .tc main_arg4)) (V (Proc.devRef .tc main_arg5)) = x0
  exact cast_eq_iff_heq.mpr (heq_of_eq rfl)

theorem e_main_v76 (V : Valuation τ sig (Elt F)) : Efin V (Proc.devRef .tc main_v76) = val_main_v76 (F := F) (V (Proc.devRef .tc main_arg4)) (V (Proc.devRef .tc main_arg5)) := by
  have h := end2 wa1 (after ops0 V) (Efin V) W2 (T1 V) 68 main_call4_v5 main_call4_v10 main_v76 _ _ _ _ rfl (nk (by decide)) (nk (by decide)) (nk (by decide))
  rw [h, e_main_call4_v5 V, e_main_call4_v10 V]
  unfold val_main_v76
  generalize val_main_call4_v5 (F := F) (V (Proc.devRef .tc main_arg4)) (V (Proc.devRef .tc main_arg5)) = x0
  generalize val_main_call4_v10 (F := F) (V (Proc.devRef .tc main_arg4)) (V (Proc.devRef .tc main_arg5)) = x1
  exact cast_eq_iff_heq.mpr (heq_of_eq rfl)

theorem e_main_cst_32 (V : Valuation τ sig (Elt F)) : Efin V (Proc.devRef .tc main_cst_32) = ((constant S_ .f32 0x00000000#32) : (⟨S_, .f32⟩ : BufTy).Contents (Elt F)) :=
  end0 wa1 (after ops0 V) (Efin V) W2 (T1 V) 69 main_cst_32 _ _ rfl (nk (by decide))

theorem e_main_call5_v0 (V : Valuation τ sig (Elt F)) : Efin V (Proc.devRef .tc main_call5_v0) = val_main_call5_v0 (F := F) := by
  have h := end1 wa1 (after ops0 V) (Efin V) W2 (T1 V) 70 main_cst_32 main_call5_v0 _ _ _ rfl (nk (by decide)) (nk (by decide))
  rw [h, e_main_cst_32 V]
  unfold val_main_call5_v0
  exact cast_eq_iff_heq.mpr (heq_of_eq rfl)

theorem e_main_call5_v1 (V : Valuation τ sig (Elt F)) : Efin V (Proc.devRef .tc main_call5_v1) = val_main_call5_v1 (F := F) := by
  have h := end1 wa1 (after ops0 V) (Efin V) W2 (T1 V) 71 main_call5_v0 main_call5_v1 _ _ _ rfl (nk (by decide)) (nk (by decide))
  rw [h, e_main_call5_v0 V]
  unfold val_main_call5_v1
  generalize val_main_call5_v0 (F := F) = x0
  exact cast_eq_iff_heq.mpr (heq_of_eq rfl)

theorem e_main_v77 (V : Valuation τ sig (Elt F)) : Efin V (Proc.devRef .tc main_v77) = val_main_v77 (F := F) (V (Proc.devRef .tc main_arg4)) (V (Proc.devRef .tc main_arg5)) := by
  have h := end3 wa1 (after ops0 V) (Efin V) W2 (T1 V) 72 main_v58 main_v76 main_call5_v1 main_v77 _ _ _ _ _ rfl (nk (by decide)) (nk (by decide)) (nk (by decide)) (nk (by decide))
  rw [h, e_main_v58 V, e_main_v76 V, e_main_call5_v1 V]
  unfold val_main_v77
  generalize val_main_v58 (F := F) (V (Proc.devRef .tc main_arg4)) = x0
  generalize val_main_v76 (F := F) (V (Proc.devRef .tc main_arg4)) (V (Proc.devRef .tc main_arg5)) = x1
  generalize val_main_call5_v1 (F := F) = x2
  exact cast_eq_iff_heq.mpr (heq_of_eq rfl)

theorem e_main_v78 (V : Valuation τ sig (Elt F)) : Efin V (Proc.devRef .tc main_v78) = val_main_v78 (F := F) (V (Proc.devRef .tc main_arg3)) (V (Proc.devRef .tc main_arg4)) (V (Proc.devRef .tc main_arg5)) := by
  have h := end2 wa1 (after ops0 V) (Efin V) W2 (T1 V) 73 main_v74 main_v77 main_v78 _ _ _ _ rfl (nk (by decide)) (nk (by decide)) (nk (by decide))
  rw [h, e_main_v74 V, e_main_v77 V]
  all_goals rfl

theorem e_main_cst_33 (V : Valuation τ sig (Elt F)) : Efin V (Proc.devRef .tc main_cst_33) = ((constant S_ .f32 0x00000000#32) : (⟨S_, .f32⟩ : BufTy).Contents (Elt F)) :=
  end0 wa1 (after ops0 V) (Efin V) W2 (T1 V) 74 main_cst_33 _ _ rfl (nk (by decide))

theorem e_main_v79 (V : Valuation τ sig (Elt F)) : Efin V (Proc.devRef .tc main_v79) = val_main_v79 (F := F) (V (Proc.devRef .tc main_arg3)) (V (Proc.devRef .tc main_arg4)) (V (Proc.devRef .tc main_arg5)) := by
  have h := end2 wa1 (after ops0 V) (Efin V) W2 (T1 V) 75 main_v78 main_cst_33 main_v79 _ _ _ _ rfl (nk (by decide)) (nk (by decide)) (nk (by decide))
  rw [h, e_main_v78 V, e_main_cst_33 V]
  all_goals rfl

theorem e_main_v80 (V : Valuation τ sig (Elt F)) : Efin V (Proc.devRef .tc main_v80) = val_main_v80 (F := F) (V (Proc.devRef .tc main_arg3)) (V (Proc.devRef .tc main_arg4)) (V (Proc.devRef .tc main_arg5)) := by
  have h := end1 wa1 (after ops0 V) (Efin V) W2 (T1 V) 76 main_v79 main_v80 _ _ _ rfl (nk (by decide)) (nk (by decide))
  rw [h, e_main_v79 V]
  all_goals rfl

theorem e_main_c_34 (V : Valuation τ sig (Elt F)) : Efin V (Proc.devRef .tc main_c_34) = ((constantI S_ 32 1#32) : (⟨S_, .i32⟩ : BufTy).Contents (Elt F)) :=
  end0 wa1 (after ops0 V) (Efin V) W2 (T1 V) 77 main_c_34 _ _ rfl (nk (by decide))

theorem e_main_v81 (V : Valuation τ sig (Elt F)) : Efin V (Proc.devRef .tc main_v81) = val_main_v81 (F := F) := by
  have h := end1 wa1 (after ops0 V) (Efin V) W2 (T1 V) 78 main_c_34 main_v81 _ _ _ rfl (nk (by decide)) (nk (by decide))
  rw [h, e_main_c_34 V]
  all_goals rfl

theorem e_main_v82 (V : Valuation τ sig (Elt F)) : Efin V (Proc.devRef .tc main_v82) = val_main_v82 (F := F) (V (Proc.devRef .tc main_arg4)) := by
  have h := end2 wa1 (after ops0 V) (Efin V) W2 (T1 V) 79 main_v60 main_v81 main_v82 _ _ _ _ rfl (nk (by decide)) (nk (by decide)) (nk (by decide))
  rw [h, e_main_v60 V, e_main_v81 V]
  all_goals rfl

end Cert.ReferenceIdeal.RefRun

end
-- ==== Proof.RefRunRead2.lean ====
/- The reference's part 2 read back: at the end of the line every buffer this part writes holds its value as a function of
   the argument arrays (one equation per operation, each from the operation's own equation at the end and the equations of
   its operands). -/
import proofs.«122764_j16621523435816_2_alg».proof.Proof.RefRunRead1

noncomputable section

namespace Cert.ReferenceIdeal.RefRun

open Cert.ReferenceIdeal Cert.ReferenceIdeal.Gen Idealize.ShloMosaic Idealize.ShloMosaic.TcCoe Idealize.SL.Sem Idealize.ShloMosaic.StableHlo Cert.ReadBack Cert.ReadEnd

variable {F : FTy → Type} [FloatOps F]

theorem e_main_v83 (V : Valuation τ sig (Elt F)) : Efin V (Proc.devRef .tc main_v83) = val_main_v83 (F := F) (V (Proc.devRef .tc main_arg4)) := by
  have h := end1 wa2 (after ops1 (after ops0 V)) (Efin V) ([] : List (Ref sig .tc)) (T2 V) 0 main_v82 main_v83 _ _ _ rfl (nk (by decide)) (nk (by decide))
  rw [h, e_main_v82 V]
  all_goals rfl

theorem e_main_v84 (V : Valuation τ sig (Elt F)) : Efin V (Proc.devRef .tc main_v84) = val_main_v84 (F := F) (V (Proc.devRef .tc main_arg3)) (V (Proc.devRef .tc main_arg4)) (V (Proc.devRef .tc main_arg5)) := by
  have h := end2 wa2 (after ops1 (after ops0 V)) (Efin V) ([] : List (Ref sig .tc)) (T2 V) 1 main_v80 main_v83 main_v84 _ _ _ _ rfl (nk (by decide)) (nk (by decide)) (nk (by decide))
  rw [h, e_main_v80 V, e_main_v83 V]
  all_goals rfl

theorem e_main_c_35 (V : Valuation τ sig (Elt F)) : Efin V (Proc.devRef .tc main_c_35) = ((constantI S_ 32 2#32) : (⟨S_, .i32⟩ : BufTy).Contents (Elt F)) :=
  end0 wa2 (after ops1 (after ops0 V)) (Efin V) ([] : List (Ref sig .tc)) (T2 V) 2 main_c_35 _ _ rfl (nk (by decide))

theorem e_main_v85 (V : Valuation τ sig (Elt F)) : Efin V (Proc.devRef .tc main_v85) = val_main_v85 (F := F) := by
  have h := end1 wa2 (after ops1 (after ops0 V)) (Efin V) ([] : List (Ref sig .tc)) (T2 V) 3 main_c_35 main_v85 _ _ _ rfl (nk (by decide)) (nk (by decide))
  rw [h, e_main_c_35 V]
  all_goals rfl

theorem e_main_v86 (V : Valuation τ sig (Elt F)) : Efin V (Proc.devRef .tc main_v86) = val_main_v86 (F := F) (V (Proc.devRef .tc main_arg4)) := by
  have h := end2 wa2 (after ops1 (after ops0 V)) (Efin V) ([] : List (Ref sig .tc)) (T2 V) 4 main_v60 main_v85 main_v86 _ _ _ _ rfl (nk (by decide)) (nk (by decide)) (nk (by decide))
  rw [h, e_main_v60 V, e_main_v85 V]
  all_goals rfl

theorem e_main_v87 (V : Valuation τ sig (Elt F)) : Efin V (Proc.devRef .tc main_v87) = val_main_v87 (F := F) (V (Proc.devRef .tc main_arg4)) := by
  have h := end1 wa2 (after ops1 (after ops0 V)) (Efin V) ([] : List (Ref sig .tc)) (T2 V) 5 main_v86 main_v87 _ _ _ rfl (nk (by decide)) (nk (by decide))
  rw [h, e_main_v86 V]
  all_goals rfl

theorem e_main_c_36 (V : Valuation τ sig (Elt F)) : Efin V (Proc.devRef .tc main_c_36) = ((constantI S_ 32 0#32) : (⟨S_, .i32⟩ : BufTy).Contents (Elt F)) :=
  end0 wa2 (after ops1 (after ops0 V)) (Efin V) ([] : List (Ref sig .tc)) (T2 V) 6 main_c_36 _ _ rfl (nk (by decide))

theorem e_main_v88 (V : Valuation τ sig (Elt F)) : Efin V (Proc.devRef .tc main_v88) = val_main_v88 (F := F) (V (Proc.devRef .tc main_arg4)) := by
  have h := end2 wa2 (after ops1 (after ops0 V)) (Efin V) ([] : List (Ref sig .tc)) (T2 V) 7 main_v87 main_c_36 main_v88 _ _ _ _ rfl (nk (by decide)) (nk (by decide)) (nk (by decide))
  rw [h, e_main_v87 V, e_main_c_36 V]
  all_goals rfl

theorem e_main_cst_37 (V : Valuation τ sig (Elt F)) : Efin V (Proc.devRef .tc main_cst_37) = ((constant S_ .f32 0x00000000#32) : (⟨S_, .f32⟩ : BufTy).Contents (Elt F)) :=
  end0 wa2 (after ops1 (after ops0 V)) (Efin V) ([] : List (Ref sig .tc)) (T2 V) 8 main_cst_37 _ _ rfl (nk (by decide))

theorem e_main_call6_v0 (V : Valuation τ sig (Elt F)) : Efin V (Proc.devRef .tc main_call6_v0) = val_main_call6_v0 (F := F) := by
  have h := end1 wa2 (after ops1 (after ops0 V)) (Efin V) ([] : List (Ref sig .tc)) (T2 V) 9 main_cst_37 main_call6_v0 _ _ _ rfl (nk (by decide)) (nk (by decide))
  rw [h, e_main_cst_37 V]
  unfold val_main_call6_v0
  exact cast_eq_iff_heq.mpr (heq_of_eq rfl)

theorem e_main_call6_v1 (V : Valuation τ sig (Elt F)) : Efin V (Proc.devRef .tc main_call6_v1) = val_main_call6_v1 (F := F) := by
  have h := end1 wa2 (after ops1 (after ops0 V)) (Efin V) ([] : List (Ref sig .tc)) (T2 V) 10 main_call6_v0 main_call6_v1 _ _ _ rfl (nk (by decide)) (nk (by decide))
  rw [h, e_main_call6_v0 V]
  unfold val_main_call6_v1
  generalize val_main_call6_v0 (F := F) = x0
  exact cast_eq_iff_heq.mpr (heq_of_eq rfl)

theorem e_main_v89 (V : Valuation τ sig (Elt F)) : Efin V (Proc.devRef .tc main_v89) = val_main_v89 (F := F) (V (Proc.devRef .tc main_arg3)) (V (Proc.devRef .tc main_arg4)) (V (Proc.devRef .tc main_arg5)) := by
  have h := end3 wa2 (after ops1 (after ops0 V)) (Efin V) ([] : List (Ref sig .tc)) (T2 V) 11 main_v86 main_v84 main_call6_v1 main_v89 _ _ _ _ _ rfl (nk (by decide)) (nk (by decide)) (nk (by decide)) (nk (by decide))
  rw [h, e_main_v86 V, e_main_v84 V, e_main_call6_v1 V]
  unfold val_main_v89
  generalize val_main_v86 (F := F) (V (Proc.devRef .tc main_arg4)) = x0
  generalize val_main_v84 (F := F) (V (Proc.devRef .tc main_arg3)) (V (Proc.devRef .tc main_arg4)) (V (Proc.devRef .tc main_arg5)) = x1
  generalize val_main_call6_v1 (F := F) = x2
  exact cast_eq_iff_heq.mpr (heq_of_eq rfl)

theorem e_main_cst_38 (V : Valuation τ sig (Elt F)) : Efin V (Proc.devRef .tc main_cst_38) = ((constant S_ .f32 0x00000000#32) : (⟨S_, .f32⟩ : BufTy).Contents (Elt F)) :=
  end0 wa2 (after ops1 (after ops0 V)) (Efin V) ([] : List (Ref sig .tc)) (T2 V) 12 main_cst_38 _ _ rfl (nk (by decide))

theorem e_main_v90 (V : Valuation τ sig (Elt F)) : Efin V (Proc.devRef .tc main_v90) = val_main_v90 (F := F) (V (Proc.devRef .tc main_arg3)) (V (Proc.devRef .tc main_arg4)) (V (Proc.devRef .tc main_arg5)) := by
  have h := end2 wa2 (after ops1 (after ops0 V)) (Efin V) ([] : List (Ref sig .tc)) (T2 V) 13 main_v89 main_cst_38 main_v90 _ _ _ _ rfl (nk (by decide)) (nk (by decide)) (nk (by decide))
  rw [h, e_main_v89 V, e_main_cst_38 V]
  all_goals rfl

theorem e_main_c_39 (V : Valuation τ sig (Elt F)) : Efin V (Proc.devRef .tc main_c_39) = ((constantI S_ 32 0#32) : (⟨S_, .i32⟩ : BufTy).Contents (Elt F)) :=
  end0 wa2 (after ops1 (after ops0 V)) (Efin V) ([] : List (Ref sig .tc)) (T2 V) 14 main_c_39 _ _ rfl (nk (by decide))

theorem e_main_v91 (V : Valuation τ sig (Elt F)) : Efin V (Proc.devRef .tc main_v91) = val_main_v91 (F := F) (V (Proc.devRef .tc main_arg4)) := by
  have h := end2 wa2 (after ops1 (after ops0 V)) (Efin V) ([] : List (Ref sig .tc)) (T2 V) 15 main_v88 main_c_39 main_v91 _ _ _ _ rfl (nk (by decide)) (nk (by decide)) (nk (by decide))
  rw [h, e_main_v88 V, e_main_c_39 V]
  all_goals rfl

theorem e_main_c_40 (V : Valuation τ sig (Elt F)) : Efin V (Proc.devRef .tc main_c_40) = ((constantI S_ 32 1#32) : (⟨S_, .i32⟩ : BufTy).Contents (Elt F)) :=
  end0 wa2 (after ops1 (after ops0 V)) (Efin V) ([] : List (Ref sig .tc)) (T2 V) 16 main_c_40 _ _ rfl (nk (by decide))

theorem e_main_v92 (V : Valuation τ sig (Elt F)) : Efin V (Proc.devRef .tc main_v92) = val_main_v92 (F := F) (V (Proc.devRef .tc main_arg4)) := by
  have h := end2 wa2 (after ops1 (after ops0 V)) (Efin V) ([] : List (Ref sig .tc)) (T2 V) 17 main_v88 main_c_40 main_v92 _ _ _ _ rfl (nk (by decide)) (nk (by decide)) (nk (by decide))
  rw [h, e_main_v88 V, e_main_c_40 V]
  all_goals rfl

theorem e_main_v93 (V : Valuation τ sig (Elt F)) : Efin V (Proc.devRef .tc main_v93) = val_main_v93 (F := F) (V (Proc.devRef .tc main_arg4)) := by
  have h := end1 wa2 (after ops1 (after ops0 V)) (Efin V) ([] : List (Ref sig .tc)) (T2 V) 18 main_v92 main_v93 _ _ _ rfl (nk (by decide)) (nk (by decide))
  rw [h, e_main_v92 V]
  all_goals rfl

theorem e_main_v94 (V : Valuation τ sig (Elt F)) : Efin V (Proc.devRef .tc main_v94) = val_main_v94 (F := F) (V (Proc.devRef .tc main_arg3)) (V (Proc.devRef .tc main_arg4)) (V (Proc.devRef .tc main_arg5)) := by
  have h := end2 wa2 (after ops1 (after ops0 V)) (Efin V) ([] : List (Ref sig .tc)) (T2 V) 19 main_v90 main_v93 main_v94 _ _ _ _ rfl (nk (by decide)) (nk (by decide)) (nk (by decide))
  rw [h, e_main_v90 V, e_main_v93 V]
  all_goals rfl

theorem e_main_cst_41 (V : Valuation τ sig (Elt F)) : Efin V (Proc.devRef .tc main_cst_41) = ((constant S_ .f32 0x00000000#32) : (⟨S_, .f32⟩ : BufTy).Contents (Elt F)) :=
  end0 wa2 (after ops1 (after ops0 V)) (Efin V) ([] : List (Ref sig .tc)) (T2 V) 20 main_cst_41 _ _ rfl (nk (by decide))

theorem e_main_call7_v0 (V : Valuation τ sig (Elt F)) : Efin V (Proc.devRef .tc main_call7_v0) = val_main_call7_v0 (F := F) := by
  have h := end1 wa2 (after ops1 (after ops0 V)) (Efin V) ([] : List (Ref sig .tc)) (T2 V) 21 main_cst_41 main_call7_v0 _ _ _ rfl (nk (by decide)) (nk (by decide))
  rw [h, e_main_cst_41 V]
  unfold val_main_call7_v0
  exact cast_eq_iff_heq.mpr (heq_of_eq rfl)

theorem e_main_v95 (V : Valuation τ sig (Elt F)) : Efin V (Proc.devRef .tc main_v95) = val_main_v95 (F := F) (V (Proc.devRef .tc main_arg3)) (V (Proc.devRef .tc main_arg4)) (V (Proc.devRef .tc main_arg5)) := by
  have h := end3 wa2 (after ops1 (after ops0 V)) (Efin V) ([] : List (Ref sig .tc)) (T2 V) 22 main_v91 main_v94 main_call7_v0 main_v95 _ _ _ _ _ rfl (nk (by decide)) (nk (by decide)) (nk (by decide)) (nk (by decide))
  rw [h, e_main_v91 V, e_main_v94 V, e_main_call7_v0 V]
  unfold val_main_v95
  generalize val_main_v91 (F := F) (V (Proc.devRef .tc main_arg4)) = x0
  generalize val_main_v94 (F := F) (V (Proc.devRef .tc main_arg3)) (V (Proc.devRef .tc main_arg4)) (V (Proc.devRef .tc main_arg5)) = x1
  generalize val_main_call7_v0 (F := F) = x2
  exact cast_eq_iff_heq.mpr (heq_of_eq rfl)

theorem e_main_cst_42 (V : Valuation τ sig (Elt F)) : Efin V (Proc.devRef .tc main_cst_42) = ((constant S_ .f32 0x3F800000#32) : (⟨S_, .f32⟩ : BufTy).Contents (Elt F)) :=
  end0 wa2 (after ops1 (after ops0 V)) (Efin V) ([] : List (Ref sig .tc)) (T2 V) 23 main_cst_42 _ _ rfl (nk (by decide))

theorem e_main_v96 (V : Valuation τ sig (Elt F)) : Efin V (Proc.devRef .tc main_v96) = val_main_v96 (F := F) (V (Proc.devRef .tc main_arg0)) := by
  have h := end2 wa2 (after ops1 (after ops0 V)) (Efin V) ([] : List (Ref sig .tc)) (T2 V) 24 main_cst_42 main_v2 main_v96 _ _ _ _ rfl (nk (by decide)) (nk (by decide)) (nk (by decide))
  rw [h, e_main_cst_42 V, e_main_v2 V]
  all_goals rfl

theorem e_main_cst_43 (V : Valuation τ sig (Elt F)) : Efin V (Proc.devRef .tc main_cst_43) = ((constant S_ .f32 0x3DCCCCCD#32) : (⟨S_, .f32⟩ : BufTy).Contents (Elt F)) :=
  end0 wa2 (after ops1 (after ops0 V)) (Efin V) ([] : List (Ref sig .tc)) (T2 V) 25 main_cst_43 _ _ rfl (nk (by decide))

theorem e_main_v97 (V : Valuation τ sig (Elt F)) : Efin V (Proc.devRef .tc main_v97) = val_main_v97 (F := F) (V (Proc.devRef .tc main_arg0)) := by
  have h := end2 wa2 (after ops1 (after ops0 V)) (Efin V) ([] : List (Ref sig .tc)) (T2 V) 26 main_cst_43 main_v7 main_v97 _ _ _ _ rfl (nk (by decide)) (nk (by decide)) (nk (by decide))
  rw [h, e_main_cst_43 V, e_main_v7 V]
  all_goals rfl

theorem e_main_v98 (V : Valuation τ sig (Elt F)) : Efin V (Proc.devRef .tc main_v98) = val_main_v98 (F := F) (V (Proc.devRef .tc main_arg0)) := by
  have h := end2 wa2 (after ops1 (after ops0 V)) (Efin V) ([] : List (Ref sig .tc)) (T2 V) 27 main_v96 main_v97 main_v98 _ _ _ _ rfl (nk (by decide)) (nk (by decide)) (nk (by decide))
  rw [h, e_main_v96 V, e_main_v97 V]
  all_goals rfl

theorem e_main_cst_44 (V : Valuation τ sig (Elt F)) : Efin V (Proc.devRef .tc main_cst_44) = ((constant S_ .f32 0x3C23D70A#32) : (⟨S_, .f32⟩ : BufTy).Contents (Elt F)) :=
  end0 wa2 (after ops1 (after ops0 V)) (Efin V) ([] : List (Ref sig .tc)) (T2 V) 28 main_cst_44 _ _ rfl (nk (by decide))

theorem e_main_v99 (V : Valuation τ sig (Elt F)) : Efin V (Proc.devRef .tc main_v99) = val_main_v99 (F := F) (V (Proc.devRef .tc main_arg1)) := by
  have h := end2 wa2 (after ops1 (after ops0 V)) (Efin V) ([] : List (Ref sig .tc)) (T2 V) 29 main_cst_44 main_v15 main_v99 _ _ _ _ rfl (nk (by decide)) (nk (by decide)) (nk (by decide))
  rw [h, e_main_cst_44 V, e_main_v15 V]
  all_goals rfl

theorem e_main_v100 (V : Valuation τ sig (Elt F)) : Efin V (Proc.devRef .tc main_v100) = val_main_v100 (F := F) (V (Proc.devRef .tc main_arg0)) (V (Proc.devRef .tc main_arg1)) := by
  have h := end2 wa2 (after ops1 (after ops0 V)) (Efin V) ([] : List (Ref sig .tc)) (T2 V) 30 main_v98 main_v99 main_v100 _ _ _ _ rfl (nk (by decide)) (nk (by decide)) (nk (by decide))
  rw [h, e_main_v98 V, e_main_v99 V]
  all_goals rfl

theorem e_main_cst_45 (V : Valuation τ sig (Elt F)) : Efin V (Proc.devRef .tc main_cst_45) = ((constant S_ .f32 0x3DCCCCCD#32) : (⟨S_, .f32⟩ : BufTy).Contents (Elt F)) :=
  end0 wa2 (after ops1 (after ops0 V)) (Efin V) ([] : List (Ref sig .tc)) (T2 V) 31 main_cst_45 _ _ rfl (nk (by decide))

theorem e_main_v101 (V : Valuation τ sig (Elt F)) : Efin V (Proc.devRef .tc main_v101) = val_main_v101 (F := F) (V (Proc.devRef .tc main_arg0)) (V (Proc.devRef .tc main_arg1)) (V (Proc.devRef .tc main_arg2)) (V (Proc.devRef .tc main_arg4)) := by
  have h := end2 wa2 (after ops1 (after ops0 V)) (Efin V) ([] : List (Ref sig .tc)) (T2 V) 32 main_cst_45 main_v35 main_v101 _ _ _ _ rfl (nk (by decide)) (nk (by decide)) (nk (by decide))
  rw [h, e_main_cst_45 V, e_main_v35 V]
  all_goals rfl

theorem e_main_v102 (V : Valuation τ sig (Elt F)) : Efin V (Proc.devRef .tc main_v102) = val_main_v102 (F := F) (V (Proc.devRef .tc main_arg0)) (V (Proc.devRef .tc main_arg1)) (V (Proc.devRef .tc main_arg2)) (V (Proc.devRef .tc main_arg4)) := by
  have h := end2 wa2 (after ops1 (after ops0 V)) (Efin V) ([] : List (Ref sig .tc)) (T2 V) 33 main_v100 main_v101 main_v102 _ _ _ _ rfl (nk (by decide)) (nk (by decide)) (nk (by decide))
  rw [h, e_main_v100 V, e_main_v101 V]
  all_goals rfl

theorem e_main_cst_46 (V : Valuation τ sig (Elt F)) : Efin V (Proc.devRef .tc main_cst_46) = ((constant S_ .f32 0x3C23D70A#32) : (⟨S_, .f32⟩ : BufTy).Contents (Elt F)) :=
  end0 wa2 (after ops1 (after ops0 V)) (Efin V) ([] : List (Ref sig .tc)) (T2 V) 34 main_cst_46 _ _ rfl (nk (by decide))

theorem e_main_v103 (V : Valuation τ sig (Elt F)) : Efin V (Proc.devRef .tc main_v103) = val_main_v103 (F := F) (V (Proc.devRef .tc main_arg1)) (V (Proc.devRef .tc main_arg4)) := by
  have h := end2 wa2 (after ops1 (after ops0 V)) (Efin V) ([] : List (Ref sig .tc)) (T2 V) 35 main_cst_46 main_v56 main_v103 _ _ _ _ rfl (nk (by decide)) (nk (by decide)) (nk (by decide))
  rw [h, e_main_cst_46 V, e_main_v56 V]
  all_goals rfl

theorem e_main_v104 (V : Valuation τ sig (Elt F)) : Efin V (Proc.devRef .tc main_v104) = val_main_v104 (F := F) (V (Proc.devRef .tc main_arg0)) (V (Proc.devRef .tc main_arg1)) (V (Proc.devRef .tc main_arg2)) (V (Proc.devRef .tc main_arg4)) := by
  have h := end2 wa2 (after ops1 (after ops0 V)) (Efin V) ([] : List (Ref sig .tc)) (T2 V) 36 main_v102 main_v103 main_v104 _ _ _ _ rfl (nk (by decide)) (nk (by decide)) (nk (by decide))
  rw [h, e_main_v102 V, e_main_v103 V]
  all_goals rfl

theorem e_main_cst_47 (V : Valuation τ sig (Elt F)) : Efin V (Proc.devRef .tc main_cst_47) = ((constant S_ .f32 0x3DCCCCCD#32) : (⟨S_, .f32⟩ : BufTy).Contents (Elt F)) :=
  end0 wa2 (after ops1 (after ops0 V)) (Efin V) ([] : List (Ref sig .tc)) (T2 V) 37 main_cst_47 _ _ rfl (nk (by decide))

theorem e_main_v105 (V : Valuation τ sig (Elt F)) : Efin V (Proc.devRef .tc main_v105) = val_main_v105 (F := F) (V (Proc.devRef .tc main_arg3)) (V (Proc.devRef .tc main_arg4)) (V (Proc.devRef .tc main_arg5)) := by
  have h := end2 wa2 (after ops1 (after ops0 V)) (Efin V) ([] : List (Ref sig .tc)) (T2 V) 38 main_cst_47 main_v95 main_v105 _ _ _ _ rfl (nk (by decide)) (nk (by decide)) (nk (by decide))
  rw [h, e_main_cst_47 V, e_main_v95 V]
  all_goals rfl

theorem e_main_v106 (V : Valuation τ sig (Elt F)) : Efin V (Proc.devRef .tc main_v106) = val_main_v106 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  have h := end2 wa2 (after ops1 (after ops0 V)) (Efin V) ([] : List (Ref sig .tc)) (T2 V) 39 main_v104 main_v105 main_v106 _ _ _ _ rfl (nk (by decide)) (nk (by decide)) (nk (by decide))
  rw [h, e_main_v104 V, e_main_v105 V]
  all_goals rfl

end Cert.ReferenceIdeal.RefRun

end
-- ==== Proof.RefRunEq1.lean ====
/- Part 1 of the reference's program is the straight line of its operations: read in stretches of eight statements, each
   stretch the line of its own operations, and the stretches joined. -/
import proofs.«122764_j16621523435816_2_alg».proof.Proof.RefRunOps1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 8 of part 1. -/
def p1_0 : Prog (TpuEff nD τ sig (Elt F) (Pipeline.Sig Λ₀ (Fin 0) fun p => (pcfgs (F := F) p).Adm) .tc) PUnit := do
  hlo rfl (StableHlo.unary main_v39 main_v40 (broadcastInDim S4096x8192 ![0, 1] bcast_S4096x1_S4096x8192_0_1 : (⟨S4096x1, .f32⟩ : BufTy).Contents (Elt F) → (⟨S4096x8192, .f32⟩ : BufTy).Contents (Elt F))) (fun _ => .ret ⟨⟩)
  hlo rfl (StableHlo.binary main_arg1 main_v40 main_v41 (Host.divf : (⟨S4096x8192, .f32⟩ : BufTy).Contents (Elt F) → (⟨S4096x8192, .f32⟩ : BufTy).Contents (Elt F) → (⟨S4096x8192, .f32⟩ : BufTy).Contents (Elt F))) (fun _ => .ret ⟨⟩)
  hlo rfl (StableHlo.binary main_v41 main_arg4 main_v42 (mulf : (⟨S4096x8192, .f32⟩ : BufTy).Contents (Elt F) → (⟨S4096x8192, .f32⟩ : BufTy).Contents (Elt F) → (⟨S4096x8192, .f32⟩ : BufTy).Contents (Elt F))) (fun _ => .ret ⟨⟩)
  hlo rfl (StableHlo.nullary main_cst_18 (constant S_ .f32 0x00000000#32)) (fun _ => .ret ⟨⟩)
  hlo rfl (StableHlo.binary main_v42 main_cst_18 main_v43 ((fun x v => Host.reduceAdd x v reducesTo_S4096x8192_S8192_d0 h_S_) : (⟨S4096x8192, .f32⟩ : BufTy).Contents (Elt F) → (⟨S_, .f32⟩ : BufTy).Contents (Elt F) → (⟨S8192, .f32⟩ : BufTy).Contents (Elt F))) (fun _ => .ret ⟨⟩)
  hlo rfl (StableHlo.nullary main_cst_19 (constant S_ .f32 0x45800000#32)) (fun _ => .ret ⟨⟩)
  hlo rfl (StableHlo.unary main_cst_19 main_v44 (broadcastInDim S8192 ![] bcast_S_S8192 : (⟨S_, .f32⟩ : BufTy).Contents (Elt F) → (⟨S8192, .f32⟩ : BufTy).Contents (Elt F))) (fun _ => .ret ⟨⟩)
  hlo rfl (StableHlo.binary main_v43 main_v44 main_v45 (Host.divf : (⟨S8192, .f32⟩ : BufTy).Contents (Elt F) → (⟨S8192, .f32⟩ : BufTy).Contents (Elt F) → (⟨S8192, .f32⟩ : BufTy).Contents (Elt F))) (fun _ => .ret ⟨⟩)

abbrev p1_ops0 : List (HloOp τ sig (Elt F)) :=
  [ unary main_v39 main_v40 (broadcastInDim S4096x8192 ![0, 1] bcast_S4096x1_S4096x8192_0_1 : (⟨S4096x1, .f32⟩ : BufTy).Contents (Elt F) → (⟨S4096x8192, .f32⟩ : BufTy).Contents (Elt F)),
    binary main_arg1 main_v40 main_v41 (Host.divf : (⟨S4096x8192, .f32⟩ : BufTy).Contents (Elt F) → (⟨S4096x8192, .f32⟩ : BufTy).Contents (Elt F) → (⟨S4096x8192, .f32⟩ : BufTy).Contents (Elt F)),
    binary main_v41 main_arg4 main_v42 (mulf : (⟨S4096x8192, .f32⟩ : BufTy).Contents (Elt F) → (⟨S4096x8192, .f32⟩ : BufTy).Contents (Elt F) → (⟨S4096x8192, .f32⟩ : BufTy).Contents (Elt F)),
    nullary main_cst_18 (constant S_ .f32 0x00000000#32),
    binary main_v42 main_cst_18 main_v43 ((fun x v => Host.reduceAdd x v reducesTo_S4096x8192_S8192_d0 h_S_) : (⟨S4096x8192, .f32⟩ : BufTy).Contents (Elt F) → (⟨S_, .f32⟩ : BufTy).Contents (Elt F) → (⟨S8192, .f32⟩ : BufTy).Contents (Elt F)),
    nullary main_cst_19 (constant S_ .f32 0x45800000#32),
    unary main_cst_19 main_v44 (broadcastInDim S8192 ![] bcast_S_S8192 : (⟨S_, .f32⟩ : BufTy).Contents (Elt F) → (⟨S8192, .f32⟩ : BufTy).Contents (Elt F)),
    binary main_v43 main_v44 main_v45 (Host.divf : (⟨S8192, .f32⟩ : BufTy).Contents (Elt F) → (⟨S8192, .f32⟩ : BufTy).Contents (Elt F) → (⟨S8192, .f32⟩ : BufTy).Contents (Elt F)) ]

set_option maxRecDepth 8192 in
theorem p1_0_eq : p1_0 (F := F) = seq p1_ops0 := rfl

/-- Statements 9 … 16 of part 1. -/
def p1_1 : Prog (TpuEff nD τ sig (Elt F) (Pipeline.Sig Λ₀ (Fin 0) fun p => (pcfgs (F := F) p).Adm) .tc) PUnit := do
  hlo rfl (StableHlo.nullary main_cst_20 (constant S_ .f32 0x00000000#32)) (fun _ => .ret ⟨⟩)
  hlo rfl (StableHlo.binary main_v45 main_cst_20 main_v46 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))) (fun _ => .ret ⟨⟩)
  hlo rfl (StableHlo.nullary main_cst_21 (constant S_ .f32 0x322BCC77#32)) (fun _ => .ret ⟨⟩)
  hlo rfl (StableHlo.binary main_v46 main_cst_21 main_v47 (addf : (⟨S_, .f32⟩ : BufTy).Contents (Elt F) → (⟨S_, .f32⟩ : BufTy).Contents (Elt F) → (⟨S_, .f32⟩ : BufTy).Contents (Elt F))) (fun _ => .ret ⟨⟩)
  hlo rfl (StableHlo.unary main_v47 main_v48 (broadcastInDim S8192 ![] bcast_S_S8192 : (⟨S_, .f32⟩ : BufTy).Contents (Elt F) → (⟨S8192, .f32⟩ : BufTy).Contents (Elt F))) (fun _ => .ret ⟨⟩)
  hlo rfl (StableHlo.binary main_v45 main_v48 main_v49 (Host.divf : (⟨S8192, .f32⟩ : BufTy).Contents (Elt F) → (⟨S8192, .f32⟩ : BufTy).Contents (Elt F) → (⟨S8192, .f32⟩ : BufTy).Contents (Elt F))) (fun _ => .ret ⟨⟩)
  hlo rfl (StableHlo.nullary main_cst_22 (constant S_ .f32 0x322BCC77#32)) (fun _ => .ret ⟨⟩)
  hlo rfl (StableHlo.unary main_cst_22 main_v50 (broadcastInDim S8192 ![] bcast_S_S8192 : (⟨S_, .f32⟩ : BufTy).Contents (Elt F) → (⟨S8192, .f32⟩ : BufTy).Contents (Elt F))) (fun _ => .ret ⟨⟩)

abbrev p1_ops1 : List (HloOp τ sig (Elt F)) :=
  [ nullary main_cst_20 (constant S_ .f32 0x00000000#32),
    binary main_v45 main_cst_20 main_v46 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_21 (constant S_ .f32 0x322BCC77#32),
    binary main_v46 main_cst_21 main_v47 (addf : (⟨S_, .f32⟩ : BufTy).Contents (Elt F) → (⟨S_, .f32⟩ : BufTy).Contents (Elt F) → (⟨S_, .f32⟩ : BufTy).Contents (Elt F)),
    unary main_v47 main_v48 (broadcastInDim S8192 ![] bcast_S_S8192 : (⟨S_, .f32⟩ : BufTy).Contents (Elt F) → (⟨S8192, .f32⟩ : BufTy).Contents (Elt F)),
    binary main_v45 main_v48 main_v49 (Host.divf : (⟨S8192, .f32⟩ : BufTy).Contents (Elt F) → (⟨S8192, .f32⟩ : BufTy).Contents (Elt F) → (⟨S8192, .f32⟩ : BufTy).Contents (Elt F)),
    nullary main_cst_22 (constant S_ .f32 0x322BCC77#32),
    unary main_cst_22 main_v50 (broadcastInDim S8192 ![] bcast_S_S8192 : (⟨S_, .f32⟩ : BufTy).Contents (Elt F) → (⟨S8192, .f32⟩ : BufTy).Contents (Elt F)) ]

set_option maxRecDepth 8192 in
theorem p1_1_eq : p1_1 (F := F) = seq p1_ops1 := rfl

/-- Statements 17 … 24 of part 1. -/
def p1_2 : Prog (TpuEff nD τ sig (Elt F) (Pipeline.Sig Λ₀ (Fin 0) fun p => (pcfgs (F := F) p).Adm) .tc) PUnit := do
  hlo rfl (StableHlo.binary main_v49 main_v50 main_v51 (addf : (⟨S8192, .f32⟩ : BufTy).Contents (Elt F) → (⟨S8192, .f32⟩ : BufTy).Contents (Elt F) → (⟨S8192, .f32⟩ : BufTy).Contents (Elt F))) (fun _ => .ret ⟨⟩)
  hlo rfl (StableHlo.unary main_v51 main_v52 (Host.log : (⟨S8192, .f32⟩ : BufTy).Contents (Elt F) → (⟨S8192, .f32⟩ : BufTy).Contents (Elt F))) (fun _ => .ret ⟨⟩)
  hlo rfl (StableHlo.binary main_v49 main_v52 main_v53 (mulf : (⟨S8192, .f32⟩ : BufTy).Contents (Elt F) → (⟨S8192, .f32⟩ : BufTy).Contents (Elt F) → (⟨S8192, .f32⟩ : BufTy).Contents (Elt F))) (fun _ => .ret ⟨⟩)
  hlo rfl (StableHlo.nullary main_cst_23 (constant S_ .f32 0x00000000#32)) (fun _ => .ret ⟨⟩)
  hlo rfl (StableHlo.binary main_v53 main_cst_23 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))) (fun _ => .ret ⟨⟩)
  hlo rfl (StableHlo.unary main_v54 main_v55 (Host.negf : (⟨S_, .f32⟩ : BufTy).Contents (Elt F) → (⟨S_, .f32⟩ : BufTy).Contents (Elt F))) (fun _ => .ret ⟨⟩)
  hlo rfl (StableHlo.unary main_v55 main_v56 (Host.negf : (⟨S_, .f32⟩ : BufTy).Contents (Elt F) → (⟨S_, .f32⟩ : BufTy).Contents (Elt F))) (fun _ => .ret ⟨⟩)
  hlo rfl (StableHlo.nullary main_cst_24 (constant S_ .f32 0x00000000#32)) (fun _ => .ret ⟨⟩)

abbrev p1_ops2 : List (HloOp τ sig (Elt F)) :=
  [ binary main_v49 main_v50 main_v51 (addf : (⟨S8192, .f32⟩ : BufTy).Contents (Elt F) → (⟨S8192, .f32⟩ : BufTy).Contents (Elt F) → (⟨S8192, .f32⟩ : BufTy).Contents (Elt F)),
    unary main_v51 main_v52 (Host.log : (⟨S8192, .f32⟩ : BufTy).Contents (Elt F) → (⟨S8192, .f32⟩ : BufTy).Contents (Elt F)),
    binary main_v49 main_v52 main_v53 (mulf : (⟨S8192, .f32⟩ : BufTy).Contents (Elt F) → (⟨S8192, .f32⟩ : BufTy).Contents (Elt F) → (⟨S8192, .f32⟩ : BufTy).Contents (Elt F)),
    nullary main_cst_23 (constant S_ .f32 0x00000000#32),
    binary main_v53 main_cst_23 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v54 main_v55 (Host.negf : (⟨S_, .f32⟩ : BufTy).Contents (Elt F) → (⟨S_, .f32⟩ : BufTy).Contents (Elt F)),
    unary main_v55 main_v56 (Host.negf : (⟨S_, .f32⟩ : BufTy).Contents (Elt F) → (⟨S_, .f32⟩ : BufTy).Contents (Elt F)),
    nullary main_cst_24 (constant S_ .f32 0x00000000#32) ]

set_option maxRecDepth 8192 in
theorem p1_2_eq : p1_2 (F := F) = seq p1_ops2 := rfl

/-- Statements 25 … 32 of part 1. -/
def p1_3 : Prog (TpuEff nD τ sig (Elt F) (Pipeline.Sig Λ₀ (Fin 0) fun p => (pcfgs (F := F) p).Adm) .tc) PUnit := do
  hlo rfl (StableHlo.unary main_cst_24 main_v57 (broadcastInDim S4096x8192 ![] bcast_S_S4096x8192 : (⟨S_, .f32⟩ : BufTy).Contents (Elt F) → (⟨S4096x8192, .f32⟩ : BufTy).Contents (Elt F))) (fun _ => .ret ⟨⟩)
  hlo rfl (StableHlo.binary main_arg4 main_v57 main_v58 (cmpf .ogt : (⟨S4096x8192, .f32⟩ : BufTy).Contents (Elt F) → (⟨S4096x8192, .f32⟩ : BufTy).Contents (Elt F) → (⟨S4096x8192, .i1⟩ : BufTy).Contents (Elt F))) (fun _ => .ret ⟨⟩)
  hlo rfl (StableHlo.unary main_v58 main_v59 ((extui 32 · natLt_1_32) : (⟨S4096x8192, .i1⟩ : BufTy).Contents (Elt F) → (⟨S4096x8192, .i32⟩ : BufTy).Contents (Elt F))) (fun _ => .ret ⟨⟩)
  hlo rfl (StableHlo.nullary main_c_25 (constantI S_ 32 0#32)) (fun _ => .ret ⟨⟩)
  hlo rfl (StableHlo.binary main_v59 main_c_25 main_v60 ((fun x v => Host.reduce IntOp.addi x v reducesTo_S4096x8192_S4096_d1 h_S_) : (⟨S4096x8192, .i32⟩ : BufTy).Contents (Elt F) → (⟨S_, .i32⟩ : BufTy).Contents (Elt F) → (⟨S4096, .i32⟩ : BufTy).Contents (Elt F))) (fun _ => .ret ⟨⟩)
  hlo rfl (StableHlo.nullary main_cst_26 (constant S_ .f32 0x41A00000#32)) (fun _ => .ret ⟨⟩)
  hlo rfl (StableHlo.unary main_cst_26 main_v61 (broadcastInDim S4096x8192 ![] bcast_S_S4096x8192 : (⟨S_, .f32⟩ : BufTy).Contents (Elt F) → (⟨S4096x8192, .f32⟩ : BufTy).Contents (Elt F))) (fun _ => .ret ⟨⟩)
  hlo rfl (StableHlo.binary main_arg3 main_v61 main_v62 (mulf : (⟨S4096x8192, .f32⟩ : BufTy).Contents (Elt F) → (⟨S4096x8192, .f32⟩ : BufTy).Contents (Elt F) → (⟨S4096x8192, .f32⟩ : BufTy).Contents (Elt F))) (fun _ => .ret ⟨⟩)

abbrev p1_ops3 : List (HloOp τ sig (Elt F)) :=
  [ unary main_cst_24 main_v57 (broadcastInDim S4096x8192 ![] bcast_S_S4096x8192 : (⟨S_, .f32⟩ : BufTy).Contents (Elt F) → (⟨S4096x8192, .f32⟩ : BufTy).Contents (Elt F)),
    binary main_arg4 main_v57 main_v58 (cmpf .ogt : (⟨S4096x8192, .f32⟩ : BufTy).Contents (Elt F) → (⟨S4096x8192, .f32⟩ : BufTy).Contents (Elt F) → (⟨S4096x8192, .i1⟩ : BufTy).Contents (Elt F)),
    unary main_v58 main_v59 ((extui 32 · natLt_1_32) : (⟨S4096x8192, .i1⟩ : BufTy).Contents (Elt F) → (⟨S4096x8192, .i32⟩ : BufTy).Contents (Elt F)),
    nullary main_c_25 (constantI S_ 32 0#32),
    binary main_v59 main_c_25 main_v60 ((fun x v => Host.reduce IntOp.addi x v reducesTo_S4096x8192_S4096_d1 h_S_) : (⟨S4096x8192, .i32⟩ : BufTy).Contents (Elt F) → (⟨S_, .i32⟩ : BufTy).Contents (Elt F) → (⟨S4096, .i32⟩ : BufTy).Contents (Elt F)),
    nullary main_cst_26 (constant S_ .f32 0x41A00000#32),
    unary main_cst_26 main_v61 (broadcastInDim S4096x8192 ![] bcast_S_S4096x8192 : (⟨S_, .f32⟩ : BufTy).Contents (Elt F) → (⟨S4096x8192, .f32⟩ : BufTy).Contents (Elt F)),
    binary main_arg3 main_v61 main_v62 (mulf : (⟨S4096x8192, .f32⟩ : BufTy).Contents (Elt F) → (⟨S4096x8192, .f32⟩ : BufTy).Contents (Elt F) → (⟨S4096x8192, .f32⟩ : BufTy).Contents (Elt F)) ]

set_option maxRecDepth 8192 in
theorem p1_3_eq : p1_3 (F := F) = seq p1_ops3 := rfl

/-- Statements 33 … 40 of part 1. -/
def p1_4 : Prog (TpuEff nD τ sig (Elt F) (Pipeline.Sig Λ₀ (Fin 0) fun p => (pcfgs (F := F) p).Adm) .tc) PUnit := do
  hlo rfl (StableHlo.nullary main_cst_27 (constant S_ .f32 0xF149F2CA#32)) (fun _ => .ret ⟨⟩)
  fn_where_0.body (.of main_v58) (.of main_v62) (.of main_cst_27) main_call2
  hlo rfl (StableHlo.nullary main_cst_28 (constant S_ .f32 0xFF800000#32)) (fun _ => .ret ⟨⟩)
  hlo rfl (StableHlo.binary main_v63 main_cst_28 main_v64 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F))) (fun _ => .ret ⟨⟩)
  hlo rfl (StableHlo.nullary main_cst_29 (constant S_ .f32 0xFF800000#32)) (fun _ => .ret ⟨⟩)
  hlo rfl (StableHlo.unary main_cst_29 main_v65 (broadcastInDim S4096 ![] bcast_S_S4096 : (⟨S_, .f32⟩ : BufTy).Contents (Elt F) → (⟨S4096, .f32⟩ : BufTy).Contents (Elt F))) (fun _ => .ret ⟨⟩)
  hlo rfl (StableHlo.binary main_v65 main_v64 main_v66 (maximumf : (⟨S4096, .f32⟩ : BufTy).Contents (Elt F) → (⟨S4096, .f32⟩ : BufTy).Contents (Elt F) → (⟨S4096, .f32⟩ : BufTy).Contents (Elt F))) (fun _ => .ret ⟨⟩)
  hlo rfl (StableHlo.unary main_v66 main_v67 (broadcastInDim S4096x1 ![0] bcast_S4096_S4096x1_0 : (⟨S4096, .f32⟩ : BufTy).Contents (Elt F) → (⟨S4096x1, .f32⟩ : BufTy).Contents (Elt F))) (fun _ => .ret ⟨⟩)

abbrev p1_ops4 : List (HloOp τ sig (Elt F)) :=
  [ nullary main_cst_27 (constant S_ .f32 0xF149F2CA#32),
    TRef.unary (TRef.of (T := ⟨S_, .f32⟩) main_cst_27) (TRef.of (T := ⟨S_, .f32⟩) main_call2_v0) id,
    TRef.unary (TRef.of (T := ⟨S_, .f32⟩) main_call2_v0) (TRef.of (T := ⟨S4096x8192, .f32⟩) main_call2_v1) (broadcastInDim S4096x8192 ![] bcast_S_S4096x8192),
    TRef.ternary (TRef.of (T := ⟨S4096x8192, .i1⟩) main_v58) (TRef.of (T := ⟨S4096x8192, .f32⟩) main_v62) (TRef.of (T := ⟨S4096x8192, .f32⟩) main_call2_v1) (TRef.of (T := ⟨S4096x8192, .f32⟩) main_v63) select,
    nullary main_cst_28 (constant S_ .f32 0xFF800000#32),
    binary main_v63 main_cst_28 main_v64 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_29 (constant S_ .f32 0xFF800000#32),
    unary main_cst_29 main_v65 (broadcastInDim S4096 ![] bcast_S_S4096 : (⟨S_, .f32⟩ : BufTy).Contents (Elt F) → (⟨S4096, .f32⟩ : BufTy).Contents (Elt F)),
    binary main_v65 main_v64 main_v66 (maximumf : (⟨S4096, .f32⟩ : BufTy).Contents (Elt F) → (⟨S4096, .f32⟩ : BufTy).Contents (Elt F) → (⟨S4096, .f32⟩ : BufTy).Contents (Elt F)),
    unary main_v66 main_v67 (broadcastInDim S4096x1 ![0] bcast_S4096_S4096x1_0 : (⟨S4096, .f32⟩ : BufTy).Contents (Elt F) → (⟨S4096x1, .f32⟩ : BufTy).Contents (Elt F)) ]

set_option maxRecDepth 8192 in
theorem p1_4_eq : p1_4 (F := F) = seq p1_ops4 := rfl

/-- Statements 41 … 48 of part 1. -/
def p1_5 : Prog (TpuEff nD τ sig (Elt F) (Pipeline.Sig Λ₀ (Fin 0) fun p => (pcfgs (F := F) p).Adm) .tc) PUnit := do
  hlo rfl (StableHlo.unary main_v67 main_v68 (broadcastInDim S4096x8192 ![0, 1] bcast_S4096x1_S4096x8192_0_1 : (⟨S4096x1, .f32⟩ : BufTy).Contents (Elt F) → (⟨S4096x8192, .f32⟩ : BufTy).Contents (Elt F))) (fun _ => .ret ⟨⟩)
  hlo rfl (StableHlo.binary main_v63 main_v68 main_v69 (subf : (⟨S4096x8192, .f32⟩ : BufTy).Contents (Elt F) → (⟨S4096x8192, .f32⟩ : BufTy).Contents (Elt F) → (⟨S4096x8192, .f32⟩ : BufTy).Contents (Elt F))) (fun _ => .ret ⟨⟩)
  hlo rfl (StableHlo.unary main_v69 main_v70 (Host.exp : (⟨S4096x8192, .f32⟩ : BufTy).Contents (Elt F) → (⟨S4096x8192, .f32⟩ : BufTy).Contents (Elt F))) (fun _ => .ret ⟨⟩)
  hlo rfl (StableHlo.nullary main_cst_30 (constant S_ .f32 0x00000000#32)) (fun _ => .ret ⟨⟩)
  hlo rfl (StableHlo.binary main_v70 main_cst_30 main_v71 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F))) (fun _ => .ret ⟨⟩)
  hlo rfl (StableHlo.unary main_v71 main_v72 (broadcastInDim S4096x1 ![0] bcast_S4096_S4096x1_0 : (⟨S4096, .f32⟩ : BufTy).Contents (Elt F) → (⟨S4096x1, .f32⟩ : BufTy).Contents (Elt F))) (fun _ => .ret ⟨⟩)
  hlo rfl (StableHlo.unary main_v72 main_v73 (broadcastInDim S4096x8192 ![0, 1] bcast_S4096x1_S4096x8192_0_1 : (⟨S4096x1, .f32⟩ : BufTy).Contents (Elt F) → (⟨S4096x8192, .f32⟩ : BufTy).Contents (Elt F))) (fun _ => .ret ⟨⟩)
  hlo rfl (StableHlo.binary main_v70 main_v73 main_v74 (Host.divf : (⟨S4096x8192, .f32⟩ : BufTy).Contents (Elt F) → (⟨S4096x8192, .f32⟩ : BufTy).Contents (Elt F) → (⟨S4096x8192, .f32⟩ : BufTy).Contents (Elt F))) (fun _ => .ret ⟨⟩)

abbrev p1_ops5 : List (HloOp τ sig (Elt F)) :=
  [ unary main_v67 main_v68 (broadcastInDim S4096x8192 ![0, 1] bcast_S4096x1_S4096x8192_0_1 : (⟨S4096x1, .f32⟩ : BufTy).Contents (Elt F) → (⟨S4096x8192, .f32⟩ : BufTy).Contents (Elt F)),
    binary main_v63 main_v68 main_v69 (subf : (⟨S4096x8192, .f32⟩ : BufTy).Contents (Elt F) → (⟨S4096x8192, .f32⟩ : BufTy).Contents (Elt F) → (⟨S4096x8192, .f32⟩ : BufTy).Contents (Elt F)),
    unary main_v69 main_v70 (Host.exp : (⟨S4096x8192, .f32⟩ : BufTy).Contents (Elt F) → (⟨S4096x8192, .f32⟩ : BufTy).Contents (Elt F)),
    nullary main_cst_30 (constant S_ .f32 0x00000000#32),
    binary main_v70 main_cst_30 main_v71 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v71 main_v72 (broadcastInDim S4096x1 ![0] bcast_S4096_S4096x1_0 : (⟨S4096, .f32⟩ : BufTy).Contents (Elt F) → (⟨S4096x1, .f32⟩ : BufTy).Contents (Elt F)),
    unary main_v72 main_v73 (broadcastInDim S4096x8192 ![0, 1] bcast_S4096x1_S4096x8192_0_1 : (⟨S4096x1, .f32⟩ : BufTy).Contents (Elt F) → (⟨S4096x8192, .f32⟩ : BufTy).Contents (Elt F)),
    binary main_v70 main_v73 main_v74 (Host.divf : (⟨S4096x8192, .f32⟩ : BufTy).Contents (Elt F) → (⟨S4096x8192, .f32⟩ : BufTy).Contents (Elt F) → (⟨S4096x8192, .f32⟩ : BufTy).Contents (Elt F)) ]

set_option maxRecDepth 8192 in
theorem p1_5_eq : p1_5 (F := F) = seq p1_ops5 := rfl

/-- Statements 49 … 56 of part 1. -/
def p1_6 : Prog (TpuEff nD τ sig (Elt F) (Pipeline.Sig Λ₀ (Fin 0) fun p => (pcfgs (F := F) p).Adm) .tc) PUnit := do
  hlo rfl (StableHlo.nullary main_cst_31 (constant S_ .f32 0xF149F2CA#32)) (fun _ => .ret ⟨⟩)
  fn_where_1.body (.of main_v58) (.of main_arg5) (.of main_cst_31) main_call3
  fn_log_softmax.body (.of main_v75) main_call4
  hlo rfl (StableHlo.nullary main_cst_32 (constant S_ .f32 0x00000000#32)) (fun _ => .ret ⟨⟩)
  fn_where_0.body (.of main_v58) (.of main_v76) (.of main_cst_32) main_call5
  hlo rfl (StableHlo.binary main_v74 main_v77 main_v78 (mulf : (⟨S4096x8192, .f32⟩ : BufTy).Contents (Elt F) → (⟨S4096x8192, .f32⟩ : BufTy).Contents (Elt F) → (⟨S4096x8192, .f32⟩ : BufTy).Contents (Elt F))) (fun _ => .ret ⟨⟩)
  hlo rfl (StableHlo.nullary main_cst_33 (constant S_ .f32 0x00000000#32)) (fun _ => .ret ⟨⟩)
  hlo rfl (StableHlo.binary main_v78 main_cst_33 main_v79 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F))) (fun _ => .ret ⟨⟩)

abbrev p1_ops6 : List (HloOp τ sig (Elt F)) :=
  [ nullary main_cst_31 (constant S_ .f32 0xF149F2CA#32),
    TRef.unary (TRef.of (T := ⟨S_, .f32⟩) main_cst_31) (TRef.of (T := ⟨S_, .f32⟩) main_call3_v0) id,
    TRef.unary (TRef.of (T := ⟨S_, .f32⟩) main_call3_v0) (TRef.of (T := ⟨S4096x8192, .f32⟩) main_call3_v1) (broadcastInDim S4096x8192 ![] bcast_S_S4096x8192),
    TRef.ternary (TRef.of (T := ⟨S4096x8192, .i1⟩) main_v58) (TRef.of (T := ⟨S4096x8192, .f32⟩) main_arg5) (TRef.of (T := ⟨S4096x8192, .f32⟩) main_call3_v1) (TRef.of (T := ⟨S4096x8192, .f32⟩) main_v75) select,
    TRef.nullary (TRef.of (T := ⟨S_, .f32⟩) main_call4_cst) (constant S_ .f32 0xFF800000#32),
    TRef.binary (TRef.of (T := ⟨S4096x8192, .f32⟩) main_v75) (TRef.of (T := ⟨S_, .f32⟩) main_call4_cst) (TRef.of (T := ⟨S4096, .f32⟩) main_call4_v0) (fun x v => Host.reduce FloatOps.maximumf x v reducesTo_S4096x8192_S4096_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S4096, .f32⟩) main_call4_v1) (broadcastInDim S4096 ![] bcast_S_S4096),
    TRef.binary (TRef.of (T := ⟨S4096, .f32⟩) main_call4_v1) (TRef.of (T := ⟨S4096, .f32⟩) main_call4_v0) (TRef.of (T := ⟨S4096, .f32⟩) main_call4_v2) maximumf,
    TRef.unary (TRef.of (T := ⟨S4096, .f32⟩) main_call4_v2) (TRef.of (T := ⟨S4096x1, .f32⟩) main_call4_v3) (broadcastInDim S4096x1 ![0] bcast_S4096_S4096x1_0),
    TRef.unary (TRef.of (T := ⟨S4096x1, .f32⟩) main_call4_v3) (TRef.of (T := ⟨S4096x8192, .f32⟩) main_call4_v4) (broadcastInDim S4096x8192 ![0, 1] bcast_S4096x1_S4096x8192_0_1),
    TRef.binary (TRef.of (T := ⟨S4096x8192, .f32⟩) main_v75) (TRef.of (T := ⟨S4096x8192, .f32⟩) main_call4_v4) (TRef.of (T := ⟨S4096x8192, .f32⟩) main_call4_v5) subf,
    TRef.unary (TRef.of (T := ⟨S4096x8192, .f32⟩) main_call4_v5) (TRef.of (T := ⟨S4096x8192, .f32⟩) main_call4_v6) Host.exp,
    TRef.nullary (TRef.of (T := ⟨S_, .f32⟩) main_call4_cst_1) (constant S_ .f32 0x00000000#32),
    TRef.binary (TRef.of (T := ⟨S4096x8192, .f32⟩) main_call4_v6) (TRef.of (T := ⟨S_, .f32⟩) main_call4_cst_1) (TRef.of (T := ⟨S4096, .f32⟩) main_call4_v7) (fun x v => Host.reduceAdd x v reducesTo_S4096x8192_S4096_d1 h_S_),
    TRef.unary (TRef.of (T := ⟨S4096, .f32⟩) main_call4_v7) (TRef.of (T := ⟨S4096x1, .f32⟩) main_call4_v8) (broadcastInDim S4096x1 ![0] bcast_S4096_S4096x1_0),
    TRef.unary (TRef.of (T := ⟨S4096x1, .f32⟩) main_call4_v8) (TRef.of (T := ⟨S4096x1, .f32⟩) main_call4_v9) Host.log,
    TRef.unary (TRef.of (T := ⟨S4096x1, .f32⟩) main_call4_v9) (TRef.of (T := ⟨S4096x8192, .f32⟩) main_call4_v10) (broadcastInDim S4096x8192 ![0, 1] bcast_S4096x1_S4096x8192_0_1),
    TRef.binary (TRef.of (T := ⟨S4096x8192, .f32⟩) main_call4_v5) (TRef.of (T := ⟨S4096x8192, .f32⟩) main_call4_v10) (TRef.of (T := ⟨S4096x8192, .f32⟩) main_v76) subf,
    nullary main_cst_32 (constant S_ .f32 0x00000000#32),
    TRef.unary (TRef.of (T := ⟨S_, .f32⟩) main_cst_32) (TRef.of (T := ⟨S_, .f32⟩) main_call5_v0) id,
    TRef.unary (TRef.of (T := ⟨S_, .f32⟩) main_call5_v0) (TRef.of (T := ⟨S4096x8192, .f32⟩) main_call5_v1) (broadcastInDim S4096x8192 ![] bcast_S_S4096x8192),
    TRef.ternary (TRef.of (T := ⟨S4096x8192, .i1⟩) main_v58) (TRef.of (T := ⟨S4096x8192, .f32⟩) main_v76) (TRef.of (T := ⟨S4096x8192, .f32⟩) main_call5_v1) (TRef.of (T := ⟨S4096x8192, .f32⟩) main_v77) select,
    binary main_v74 main_v77 main_v78 (mulf : (⟨S4096x8192, .f32⟩ : BufTy).Contents (Elt F) → (⟨S4096x8192, .f32⟩ : BufTy).Contents (Elt F) → (⟨S4096x8192, .f32⟩ : BufTy).Contents (Elt F)),
    nullary main_cst_33 (constant S_ .f32 0x00000000#32),
    binary main_v78 main_cst_33 main_v79 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)) ]

set_option maxRecDepth 8192 in
theorem p1_6_eq : p1_6 (F := F) = seq p1_ops6 := rfl

/-- Statements 57 … 60 of part 1. -/
def p1_7 : Prog (TpuEff nD τ sig (Elt F) (Pipeline.Sig Λ₀ (Fin 0) fun p => (pcfgs (F := F) p).Adm) .tc) PUnit := do
  hlo rfl (StableHlo.unary main_v79 main_v80 (Host.negf : (⟨S4096, .f32⟩ : BufTy).Contents (Elt F) → (⟨S4096, .f32⟩ : BufTy).Contents (Elt F))) (fun _ => .ret ⟨⟩)
  hlo rfl (StableHlo.nullary main_c_34 (constantI S_ 32 1#32)) (fun _ => .ret ⟨⟩)
  hlo rfl (StableHlo.unary main_c_34 main_v81 (broadcastInDim S4096 ![] bcast_S_S4096 : (⟨S_, .i32⟩ : BufTy).Contents (Elt F) → (⟨S4096, .i32⟩ : BufTy).Contents (Elt F))) (fun _ => .ret ⟨⟩)
  hlo rfl (StableHlo.binary main_v60 main_v81 main_v82 (maxsi : (⟨S4096, .i32⟩ : BufTy).Contents (Elt F) → (⟨S4096, .i32⟩ : BufTy).Contents (Elt F) → (⟨S4096, .i32⟩ : BufTy).Contents (Elt F))) (fun _ => .ret ⟨⟩)

abbrev p1_ops7 : List (HloOp τ sig (Elt F)) :=
  [ unary main_v79 main_v80 (Host.negf : (⟨S4096, .f32⟩ : BufTy).Contents (Elt F) → (⟨S4096, .f32⟩ : BufTy).Contents (Elt F)),
    nullary main_c_34 (constantI S_ 32 1#32),
    unary main_c_34 main_v81 (broadcastInDim S4096 ![] bcast_S_S4096 : (⟨S_, .i32⟩ : BufTy).Contents (Elt F) → (⟨S4096, .i32⟩ : BufTy).Contents (Elt F)),
    binary main_v60 main_v81 main_v82 (maxsi : (⟨S4096, .i32⟩ : BufTy).Contents (Elt F) → (⟨S4096, .i32⟩ : BufTy).Contents (Elt F) → (⟨S4096, .i32⟩ : BufTy).Contents (Elt F)) ]

set_option maxRecDepth 8192 in
theorem p1_7_eq : p1_7 (F := F) = seq p1_ops7 := rfl

set_option maxRecDepth 8192 in
set_option maxHeartbeats 4000000 in
theorem main_part1_split (c : Dev nD) : main_part1 (F := F) c = (do
  p1_0
  p1_1
  p1_2
  p1_3
  p1_4
  p1_5
  p1_6
  p1_7) := rfl

theorem ops1_split : (ops1 : List (HloOp τ sig (Elt F))) = p1_ops0 ++ (p1_ops1 ++ (p1_ops2 ++ (p1_ops3 ++ (p1_ops4 ++ (p1_ops5 ++ (p1_ops6 ++ (p1_ops7))))))) := rfl

/-- Part 1 of the program is the straight line of its operations. -/
theorem main_part1_eq (c : Dev nD) : main_part1 (F := F) c = seq ops1 := by
  rw [main_part1_split c, ops1_split]
  simp only [seq_append, ← p1_0_eq, ← p1_1_eq, ← p1_2_eq, ← p1_3_eq, ← p1_4_eq, ← p1_5_eq, ← p1_6_eq, ← p1_7_eq]

end Cert.ReferenceIdeal.RefRun

end
-- ==== Proof.RefRun.lean ====
/- The reference's run: its program is the straight line of its host operations, so every weakly fair execution terminates
   with the result buffer at the composed value of the six argument arrays and the argument arrays unchanged. -/
import proofs.«122764_j16621523435816_2_alg».proof.Proof.RefRunRead2
import proofs.«122764_j16621523435816_2_alg».proof.Proof.RefRunEq1

noncomputable section

namespace Cert.ReferenceIdeal.RefRun

open Cert.ReferenceIdeal Cert.ReferenceIdeal.Gen Idealize.ShloMosaic Idealize.ShloMosaic.TcCoe Idealize.SL.Sem Idealize.ShloMosaic.StableHlo Cert.ReadBack Cert.ReadEnd

variable {F : FTy → Type} [FloatOps F]

theorem main_eq (c : Dev nD) : main (F := F) c = seq ops := by
  simp only [ops, seq_append, ← main_part0_eq c, ← main_part1_eq c, ← main_part2_eq c]
  rfl

/-- The reference's result as a function of the six argument arrays: the last operation's value. -/
def refVal (a0 : (⟨S4096, .f32⟩ : BufTy).Contents (Elt F)) (a1 : (⟨S4096x8192, .f32⟩ : BufTy).Contents (Elt F)) (a2 : (⟨S4096x8192, .f32⟩ : BufTy).Contents (Elt F)) (a3 : (⟨S4096x8192, .f32⟩ : BufTy).Contents (Elt F)) (a4 : (⟨S4096x8192, .f32⟩ : BufTy).Contents (Elt F)) (a5 : (⟨S4096x8192, .f32⟩ : BufTy).Contents (Elt F)) : (⟨S_, .f32⟩ : BufTy).Contents (Elt F) :=
  val_main_v106 (F := F) a0 a1 a2 a3 a4 a5

/-- On every device, for any float values, from any memory with zero counters: every weakly fair execution of the
    program terminates with the result at `refVal` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v106).trans ((congrFun (after_ops _) _).trans (e_main_v106 _)),
      (h c main_arg0).trans ((congrFun (after_ops _) _).trans (e_main_arg0 _)),
      (h c main_arg1).trans ((congrFun (after_ops _) _).trans (e_main_arg1 _)),
      (h c main_arg2).trans ((congrFun (after_ops _) _).trans (e_main_arg2 _)),
      (h c main_arg3).trans ((congrFun (after_ops _) _).trans (e_main_arg3 _)),
      (h c main_arg4).trans ((congrFun (after_ops _) _).trans (e_main_arg4 _)),
      (h c main_arg5).trans ((congrFun (after_ops _) _).trans (e_main_arg5 _))⟩)
    (run_seq scopedRefs_eq scopedSems_eq defs main (fun _ => ops) main_eq (fun _ => ops_sub) m ρ (fun _ => ops_fresh))

end Cert.ReferenceIdeal.RefRun

end
-- ==== Proof.RefRunFrame.lean ====
/- The reference's frame: it runs to the end, nothing faulting, its argument arrays unchanged — the run with the result dropped. -/
import proofs.«122764_j16621523435816_2_alg».proof.Proof.RefRun
import proofs.«122764_j16621523435816_2_alg».proof.Defs
import proofs.«122764_j16621523435816_2_alg».proof.Proof.Gen.Pre_finite_inputs

noncomputable section

namespace Cert.ReferenceIdeal.RefRun

open Cert.ReferenceIdeal Idealize.ShloMosaic Idealize.SL.Sem

theorem frame_ri : Cert.frame_ReferenceIdeal := fun m ρ _ =>
  (θ_run _ _ _).mono (fun _ h c => (h c).2) (run (F := Ideal) m ρ)

end Cert.ReferenceIdeal.RefRun

end
-- ==== Proof.KFrameIVals.lean ====
/- The host operations after the kernel region, one definition per operation: each buffer's contents as the
   operation's function of its operands' values, down to the two arrays of per-tile partial results (`x6`: the packed
   partial sums, [64, 1, 128]; `x7`: the partial column sums, [64, 1, 8192]) and the first argument `a0`. A constant's
   buffer is read as the constant itself. The last definition is the program's scalar result. -/
import proofs.«122764_j16621523435816_2_alg».proof.Proof.Gen.KernelIdeal

noncomputable section

namespace Cert.KernelIdeal.KFrame

open Cert.KernelIdeal Cert.KernelIdeal.Gen Idealize.ShloMosaic Idealize.ShloMosaic.TcCoe Idealize.SL.Sem Idealize.ShloMosaic.StableHlo

variable {F : FTy → Type} [FloatOps F]

def val_main_v2 (x6 : (⟨S64x1x128, .f32⟩ : BufTy).Contents (Elt F)) : (⟨S1x128, .f32⟩ : BufTy).Contents (Elt F) :=
  ((fun x v => Host.reduceAdd x v reducesTo_S64x1x128_S1x128_d0 h_S_) : (⟨S64x1x128, .f32⟩ : BufTy).Contents (Elt F) → (⟨S_, .f32⟩ : BufTy).Contents (Elt F) → (⟨S1x128, .f32⟩ : BufTy).Contents (Elt F)) x6 ((constant S_ .f32 0x00000000#32) : (⟨S_, .f32⟩ : BufTy).Contents (Elt F))

def val_main_v3 (x6 : (⟨S64x1x128, .f32⟩ : BufTy).Contents (Elt F)) : (⟨S128, .f32⟩ : BufTy).Contents (Elt F) :=
  shapeCast S128 (val_main_v2 (F := F) x6) shapeCasts_S1x128_S128

def val_main_v4 (x6 : (⟨S64x1x128, .f32⟩ : BufTy).Contents (Elt F)) : (⟨S1, .f32⟩ : BufTy).Contents (Elt F) :=
  ((extractStridedSlice S1 ![0] · slices_S128_S1_0) : (⟨S128, .f32⟩ : BufTy).Contents (Elt F) → (⟨S1, .f32⟩ : BufTy).Contents (Elt F)) (val_main_v3 (F := F) x6)

def val_main_v5 (x6 : (⟨S64x1x128, .f32⟩ : BufTy).Contents (Elt F)) : (⟨S_, .f32⟩ : BufTy).Contents (Elt F) :=
  shapeCast S_ (val_main_v4 (F := F) x6) shapeCasts_S1_S_

def val_main_v6 (x6 : (⟨S64x1x128, .f32⟩ : BufTy).Contents (Elt F)) : (⟨S1, .f32⟩ : BufTy).Contents (Elt F) :=
  ((extractStridedSlice S1 ![1] · slices_S128_S1_1) : (⟨S128, .f32⟩ : BufTy).Contents (Elt F) → (⟨S1, .f32⟩ : BufTy).Contents (Elt F)) (val_main_v3 (F := F) x6)

def val_main_v7 (x6 : (⟨S64x1x128, .f32⟩ : BufTy).Contents (Elt F)) : (⟨S_, .f32⟩ : BufTy).Contents (Elt F) :=
  shapeCast S_ (val_main_v6 (F := F) x6) shapeCasts_S1_S_

def val_main_v8 (x6 : (⟨S64x1x128, .f32⟩ : BufTy).Contents (Elt F)) : (⟨S1, .f32⟩ : BufTy).Contents (Elt F) :=
  ((extractStridedSlice S1 ![2] · slices_S128_S1_2) : (⟨S128, .f32⟩ : BufTy).Contents (Elt F) → (⟨S1, .f32⟩ : BufTy).Contents (Elt F)) (val_main_v3 (F := F) x6)

def val_main_v9 (x6 : (⟨S64x1x128, .f32⟩ : BufTy).Contents (Elt F)) : (⟨S_, .f32⟩ : BufTy).Contents (Elt F) :=
  shapeCast S_ (val_main_v8 (F := F) x6) shapeCasts_S1_S_

def val_main_v10 (x6 : (⟨S64x1x128, .f32⟩ : BufTy).Contents (Elt F)) : (⟨S1, .f32⟩ : BufTy).Contents (Elt F) :=
  ((extractStridedSlice S1 ![3] · slices_S128_S1_3) : (⟨S128, .f32⟩ : BufTy).Contents (Elt F) → (⟨S1, .f32⟩ : BufTy).Contents (Elt F)) (val_main_v3 (F := F) x6)

def val_main_v11 (x6 : (⟨S64x1x128, .f32⟩ : BufTy).Contents (Elt F)) : (⟨S_, .f32⟩ : BufTy).Contents (Elt F) :=
  shapeCast S_ (val_main_v10 (F := F) x6) shapeCasts_S1_S_

def val_main_v12 (x7 : (⟨S64x1x8192, .f32⟩ : BufTy).Contents (Elt F)) : (⟨S1x8192, .f32⟩ : BufTy).Contents (Elt F) :=
  ((fun x v => Host.reduceAdd x v reducesTo_S64x1x8192_S1x8192_d0 h_S_) : (⟨S64x1x8192, .f32⟩ : BufTy).Contents (Elt F) → (⟨S_, .f32⟩ : BufTy).Contents (Elt F) → (⟨S1x8192, .f32⟩ : BufTy).Contents (Elt F)) x7 ((constant S_ .f32 0x00000000#32) : (⟨S_, .f32⟩ : BufTy).Contents (Elt F))

def val_main_v13 (x7 : (⟨S64x1x8192, .f32⟩ : BufTy).Contents (Elt F)) : (⟨S8192, .f32⟩ : BufTy).Contents (Elt F) :=
  shapeCast S8192 (val_main_v12 (F := F) x7) shapeCasts_S1x8192_S8192

def val_main_v14 (x6 : (⟨S64x1x128, .f32⟩ : BufTy).Contents (Elt F)) : (⟨S_, .f32⟩ : BufTy).Contents (Elt F) :=
  (Host.negf : (⟨S_, .f32⟩ : BufTy).Contents (Elt F) → (⟨S_, .f32⟩ : BufTy).Contents (Elt F)) (val_main_v5 (F := F) x6)

def val_main_v15 (x6 : (⟨S64x1x128, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v14 (F := F) x6) ((constant S_ .f32 0x45800000#32) : (⟨S_, .f32⟩ : BufTy).Contents (Elt F))

def val_main_v16 (x6 : (⟨S64x1x128, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v7 (F := F) x6) ((constant S_ .f32 0x45800000#32) : (⟨S_, .f32⟩ : BufTy).Contents (Elt F))

def val_main_v17 : (⟨S8192, .f32⟩ : BufTy).Contents (Elt F) :=
  (broadcastInDim S8192 ![] bcast_S_S8192 : (⟨S_, .f32⟩ : BufTy).Contents (Elt F) → (⟨S8192, .f32⟩ : BufTy).Contents (Elt F)) ((constant S_ .f32 0x45800000#32) : (⟨S_, .f32⟩ : BufTy).Contents (Elt F))

def val_main_v18 (x7 : (⟨S64x1x8192, .f32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (val_main_v13 (F := F) x7) (val_main_v17 (F := F))

def val_main_v19 (x7 : (⟨S64x1x8192, .f32⟩ : BufTy).Contents (Elt F)) : (⟨S_, .f32⟩ : BufTy).Contents (Elt F) :=
  ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (val_main_v18 (F := F) x7) ((constant S_ .f32 0x00000000#32) : (⟨S_, .f32⟩ : BufTy).Contents (Elt F))

def val_main_v20 (x7 : (⟨S64x1x8192, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v19 (F := F) x7) ((constant S_ .f32 0x322BCC77#32) : (⟨S_, .f32⟩ : BufTy).Contents (Elt F))

def val_main_v21 (x7 : (⟨S64x1x8192, .f32⟩ : BufTy).Contents (Elt F)) : (⟨S8192, .f32⟩ : BufTy).Contents (Elt F) :=
  (broadcastInDim S8192 ![] bcast_S_S8192 : (⟨S_, .f32⟩ : BufTy).Contents (Elt F) → (⟨S8192, .f32⟩ : BufTy).Contents (Elt F)) (val_main_v20 (F := F) x7)

def val_main_v22 (x7 : (⟨S64x1x8192, .f32⟩ : BufTy).Contents (Elt F)) : (⟨S8192, .f32⟩ : BufTy).Contents (Elt F) :=
  (Host.divf : (⟨S8192, .f32⟩ : BufTy).Contents (Elt F) → (⟨S8192, .f32⟩ : BufTy).Contents (Elt F) → (⟨S8192, .f32⟩ : BufTy).Contents (Elt F)) (val_main_v18 (F := F) x7) (val_main_v21 (F := F) x7)

def val_main_v23 : (⟨S8192, .f32⟩ : BufTy).Contents (Elt F) :=
  (broadcastInDim S8192 ![] bcast_S_S8192 : (⟨S_, .f32⟩ : BufTy).Contents (Elt F) → (⟨S8192, .f32⟩ : BufTy).Contents (Elt F)) ((constant S_ .f32 0x322BCC77#32) : (⟨S_, .f32⟩ : BufTy).Contents (Elt F))

def val_main_v24 (x7 : (⟨S64x1x8192, .f32⟩ : BufTy).Contents (Elt F)) : (⟨S8192, .f32⟩ : BufTy).Contents (Elt F) :=
  (addf : (⟨S8192, .f32⟩ : BufTy).Contents (Elt F) → (⟨S8192, .f32⟩ : BufTy).Contents (Elt F) → (⟨S8192, .f32⟩ : BufTy).Contents (Elt F)) (val_main_v22 (F := F) x7) (val_main_v23 (F := F))

def val_main_v25 (x7 : (⟨S64x1x8192, .f32⟩ : BufTy).Contents (Elt F)) : (⟨S8192, .f32⟩ : BufTy).Contents (Elt F) :=
  (Host.log : (⟨S8192, .f32⟩ : BufTy).Contents (Elt F) → (⟨S8192, .f32⟩ : BufTy).Contents (Elt F)) (val_main_v24 (F := F) x7)

def val_main_v26 (x7 : (⟨S64x1x8192, .f32⟩ : BufTy).Contents (Elt F)) : (⟨S8192, .f32⟩ : BufTy).Contents (Elt F) :=
  (mulf : (⟨S8192, .f32⟩ : BufTy).Contents (Elt F) → (⟨S8192, .f32⟩ : BufTy).Contents (Elt F) → (⟨S8192, .f32⟩ : BufTy).Contents (Elt F)) (val_main_v22 (F := F) x7) (val_main_v25 (F := F) x7)

def val_main_v27 (x7 : (⟨S64x1x8192, .f32⟩ : BufTy).Contents (Elt F)) : (⟨S_, .f32⟩ : BufTy).Contents (Elt F) :=
  ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (val_main_v26 (F := F) x7) ((constant S_ .f32 0x00000000#32) : (⟨S_, .f32⟩ : BufTy).Contents (Elt F))

def val_main_v28 (x6 : (⟨S64x1x128, .f32⟩ : BufTy).Contents (Elt F)) : (⟨S_, .i1⟩ : BufTy).Contents (Elt F) :=
  (cmpf .ogt : (⟨S_, .f32⟩ : BufTy).Contents (Elt F) → (⟨S_, .f32⟩ : BufTy).Contents (Elt F) → (⟨S_, .i1⟩ : BufTy).Contents (Elt F)) (val_main_v11 (F := F) x6) ((constant S_ .f32 0x00000000#32) : (⟨S_, .f32⟩ : BufTy).Contents (Elt F))

def val_main_v29 (x6 : (⟨S64x1x128, .f32⟩ : BufTy).Contents (Elt F)) : (⟨S_, .f32⟩ : BufTy).Contents (Elt F) :=
  (maximumf : (⟨S_, .f32⟩ : BufTy).Contents (Elt F) → (⟨S_, .f32⟩ : BufTy).Contents (Elt F) → (⟨S_, .f32⟩ : BufTy).Contents (Elt F)) (val_main_v11 (F := F) x6) ((constant S_ .f32 0x3F800000#32) : (⟨S_, .f32⟩ : BufTy).Contents (Elt F))

def val_main_v30 (x6 : (⟨S64x1x128, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v9 (F := F) x6) (val_main_v29 (F := F) x6)

def val_main_call0_v0 : (⟨S_, .f32⟩ : BufTy).Contents (Elt F) :=
  (id : (⟨S_, .f32⟩ : BufTy).Contents (Elt F) → (⟨S_, .f32⟩ : BufTy).Contents (Elt F)) ((constant S_ .f32 0x00000000#32) : (⟨S_, .f32⟩ : BufTy).Contents (Elt F))

def val_main_v31 (x6 : (⟨S64x1x128, .f32⟩ : BufTy).Contents (Elt F)) : (⟨S_, .f32⟩ : BufTy).Contents (Elt F) :=
  (select : (⟨S_, .i1⟩ : BufTy).Contents (Elt F) → (⟨S_, .f32⟩ : BufTy).Contents (Elt F) → (⟨S_, .f32⟩ : BufTy).Contents (Elt F) → (⟨S_, .f32⟩ : BufTy).Contents (Elt F)) (val_main_v28 (F := F) x6) (val_main_v30 (F := F) x6) (val_main_call0_v0 (F := F))

def val_main_v32 (x6 : (⟨S64x1x128, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3C23D70A#32) : (⟨S_, .f32⟩ : BufTy).Contents (Elt F)) (val_main_v15 (F := F) x6)

def val_main_v33 (x6 : (⟨S64x1x128, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3DCCCCCD#32) : (⟨S_, .f32⟩ : BufTy).Contents (Elt F)) (val_main_v16 (F := F) x6)

def val_main_v34 (x6 : (⟨S64x1x128, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v32 (F := F) x6) (val_main_v33 (F := F) x6)

def val_main_v35 (x7 : (⟨S64x1x8192, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3C23D70A#32) : (⟨S_, .f32⟩ : BufTy).Contents (Elt F)) (val_main_v27 (F := F) x7)

def val_main_v36 (x6 : (⟨S64x1x128, .f32⟩ : BufTy).Contents (Elt F)) (x7 : (⟨S64x1x8192, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v34 (F := F) x6) (val_main_v35 (F := F) x7)

def val_main_v37 (x6 : (⟨S64x1x128, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3DCCCCCD#32) : (⟨S_, .f32⟩ : BufTy).Contents (Elt F)) (val_main_v31 (F := F) x6)

def val_main_v38 (x6 : (⟨S64x1x128, .f32⟩ : BufTy).Contents (Elt F)) (x7 : (⟨S64x1x8192, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v36 (F := F) x6 x7) (val_main_v37 (F := F) x6)

def val_main_v39 (a0 : (⟨S4096, .f32⟩ : BufTy).Contents (Elt F)) : (⟨S_, .f32⟩ : BufTy).Contents (Elt F) :=
  ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) a0 ((constant S_ .f32 0x00000000#32) : (⟨S_, .f32⟩ : BufTy).Contents (Elt F))

def val_main_v40 (a0 : (⟨S4096, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v39 (F := F) a0) ((constant S_ .f32 0x45800000#32) : (⟨S_, .f32⟩ : BufTy).Contents (Elt F))

def val_main_v41 (a0 : (⟨S4096, .f32⟩ : BufTy).Contents (Elt F)) : (⟨S_, .f32⟩ : BufTy).Contents (Elt F) :=
  (Host.negf : (⟨S_, .f32⟩ : BufTy).Contents (Elt F) → (⟨S_, .f32⟩ : BufTy).Contents (Elt F)) (val_main_v40 (F := F) a0)

def val_main_call1_call0_v0 (a0 : (⟨S4096, .f32⟩ : BufTy).Contents (Elt F)) : (⟨S_, .f32⟩ : BufTy).Contents (Elt F) :=
  ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) a0 ((constant S_ .f32 0x00000000#32) : (⟨S_, .f32⟩ : BufTy).Contents (Elt F))

def val_main_call1_call0_v1 (a0 : (⟨S4096, .f32⟩ : BufTy).Contents (Elt F)) : (⟨S1, .f32⟩ : BufTy).Contents (Elt F) :=
  ((broadcastInDim S1 ![] bcast_S_S1) : (⟨S_, .f32⟩ : BufTy).Contents (Elt F) → (⟨S1, .f32⟩ : BufTy).Contents (Elt F)) (val_main_call1_call0_v0 (F := F) a0)

def val_main_call1_call0_v2 : (⟨S1, .f32⟩ : BufTy).Contents (Elt F) :=
  ((broadcastInDim S1 ![] bcast_S_S1) : (⟨S_, .f32⟩ : BufTy).Contents (Elt F) → (⟨S1, .f32⟩ : BufTy).Contents (Elt F)) ((constant S_ .f32 0x45800000#32) : (⟨S_, .f32⟩ : BufTy).Contents (Elt F))

def val_main_call1_call0_v3 (a0 : (⟨S4096, .f32⟩ : BufTy).Contents (Elt F)) : (⟨S1, .f32⟩ : BufTy).Contents (Elt F) :=
  (Host.divf : (⟨S1, .f32⟩ : BufTy).Contents (Elt F) → (⟨S1, .f32⟩ : BufTy).Contents (Elt F) → (⟨S1, .f32⟩ : BufTy).Contents (Elt F)) (val_main_call1_call0_v1 (F := F) a0) (val_main_call1_call0_v2 (F := F))

def val_main_call1_call0_v4 (a0 : (⟨S4096, .f32⟩ : BufTy).Contents (Elt F)) : (⟨S4096, .f32⟩ : BufTy).Contents (Elt F) :=
  ((broadcastInDim S4096 ![0] bcast_S1_S4096_0) : (⟨S1, .f32⟩ : BufTy).Contents (Elt F) → (⟨S4096, .f32⟩ : BufTy).Contents (Elt F)) (val_main_call1_call0_v3 (F := F) a0)

def val_main_call1_call0_v5 (a0 : (⟨S4096, .f32⟩ : BufTy).Contents (Elt F)) : (⟨S4096, .f32⟩ : BufTy).Contents (Elt F) :=
  (subf : (⟨S4096, .f32⟩ : BufTy).Contents (Elt F) → (⟨S4096, .f32⟩ : BufTy).Contents (Elt F) → (⟨S4096, .f32⟩ : BufTy).Contents (Elt F)) a0 (val_main_call1_call0_v4 (F := F) a0)

def val_main_call1_call0_v6 (a0 : (⟨S4096, .f32⟩ : BufTy).Contents (Elt F)) : (⟨S4096, .f32⟩ : BufTy).Contents (Elt F) :=
  (mulf : (⟨S4096, .f32⟩ : BufTy).Contents (Elt F) → (⟨S4096, .f32⟩ : BufTy).Contents (Elt F) → (⟨S4096, .f32⟩ : BufTy).Contents (Elt F)) (val_main_call1_call0_v5 (F := F) a0) (val_main_call1_call0_v5 (F := F) a0)

def val_main_call1_call0_v7 : (⟨S_, .f32⟩ : BufTy).Contents (Elt F) :=
  ((sitofp .f32) : (⟨S_, .i32⟩ : BufTy).Contents (Elt F) → (⟨S_, .f32⟩ : BufTy).Contents (Elt F)) ((constantI S_ 32 1#32) : (⟨S_, .i32⟩ : BufTy).Contents (Elt F))

def val_main_call1_call0_v8 : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F)) ((constant S_ .f32 0x45800000#32) : (⟨S_, .f32⟩ : BufTy).Contents (Elt F)) (val_main_call1_call0_v7 (F := F))

def val_main_call1_call0_v9 (a0 : (⟨S4096, .f32⟩ : BufTy).Contents (Elt F)) : (⟨S_, .f32⟩ : BufTy).Contents (Elt F) :=
  ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (val_main_call1_call0_v6 (F := F) a0) ((constant S_ .f32 0x00000000#32) : (⟨S_, .f32⟩ : BufTy).Contents (Elt F))

def val_main_call1_call0_v10 (a0 : (⟨S4096, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_call1_call0_v9 (F := F) a0) (val_main_call1_call0_v8 (F := F))

def val_main_call1_call0_v11 : (⟨S_, .i1⟩ : BufTy).Contents (Elt F) :=
  ((cmpf .ogt) : (⟨S_, .f32⟩ : BufTy).Contents (Elt F) → (⟨S_, .f32⟩ : BufTy).Contents (Elt F) → (⟨S_, .i1⟩ : BufTy).Contents (Elt F)) (val_main_call1_call0_v8 (F := F)) ((constant S_ .f32 0x00000000#32) : (⟨S_, .f32⟩ : BufTy).Contents (Elt F))

def val_main_call1_call0_call0_v0 : (⟨S_, .f32⟩ : BufTy).Contents (Elt F) :=
  (id : (⟨S_, .f32⟩ : BufTy).Contents (Elt F) → (⟨S_, .f32⟩ : BufTy).Contents (Elt F)) ((constant S_ .f32 0x7FC00000#32) : (⟨S_, .f32⟩ : BufTy).Contents (Elt F))

def val_main_call1_v0 (a0 : (⟨S4096, .f32⟩ : BufTy).Contents (Elt F)) : (⟨S_, .f32⟩ : BufTy).Contents (Elt F) :=
  (select : (⟨S_, .i1⟩ : BufTy).Contents (Elt F) → (⟨S_, .f32⟩ : BufTy).Contents (Elt F) → (⟨S_, .f32⟩ : BufTy).Contents (Elt F) → (⟨S_, .f32⟩ : BufTy).Contents (Elt F)) (val_main_call1_call0_v11 (F := F)) (val_main_call1_call0_v10 (F := F) a0) (val_main_call1_call0_call0_v0 (F := F))

def val_main_v42 (a0 : (⟨S4096, .f32⟩ : BufTy).Contents (Elt F)) : (⟨S_, .f32⟩ : BufTy).Contents (Elt F) :=
  (Host.sqrt : (⟨S_, .f32⟩ : BufTy).Contents (Elt F) → (⟨S_, .f32⟩ : BufTy).Contents (Elt F)) (val_main_call1_v0 (F := F) a0)

def val_main_v43 (a0 : (⟨S4096, .f32⟩ : BufTy).Contents (Elt F)) : (⟨S_, .f32⟩ : BufTy).Contents (Elt F) :=
  (Host.negf : (⟨S_, .f32⟩ : BufTy).Contents (Elt F) → (⟨S_, .f32⟩ : BufTy).Contents (Elt F)) (val_main_v40 (F := F) a0)

def val_main_v44 (a0 : (⟨S4096, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v42 (F := F) a0) ((constant S_ .f32 0x3C23D70A#32) : (⟨S_, .f32⟩ : BufTy).Contents (Elt F))

def val_main_v45 (a0 : (⟨S4096, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v43 (F := F) a0) (val_main_v44 (F := F) a0)

def val_main_call2_v0 : (⟨S_, .f32⟩ : BufTy).Contents (Elt F) :=
  (id : (⟨S_, .f32⟩ : BufTy).Contents (Elt F) → (⟨S_, .f32⟩ : BufTy).Contents (Elt F)) ((constant S_ .f32 0xC1200000#32) : (⟨S_, .f32⟩ : BufTy).Contents (Elt F))

def val_main_call2_v1 (a0 : (⟨S4096, .f32⟩ : BufTy).Contents (Elt F)) : (⟨S_, .f32⟩ : BufTy).Contents (Elt F) :=
  (maximumf : (⟨S_, .f32⟩ : BufTy).Contents (Elt F) → (⟨S_, .f32⟩ : BufTy).Contents (Elt F) → (⟨S_, .f32⟩ : BufTy).Contents (Elt F)) (val_main_call2_v0 (F := F)) (val_main_v45 (F := F) a0)

def val_main_call2_v2 : (⟨S_, .f32⟩ : BufTy).Contents (Elt F) :=
  (id : (⟨S_, .f32⟩ : BufTy).Contents (Elt F) → (⟨S_, .f32⟩ : BufTy).Contents (Elt F)) ((constant S_ .f32 0x41200000#32) : (⟨S_, .f32⟩ : BufTy).Contents (Elt F))

def val_main_v46 (a0 : (⟨S4096, .f32⟩ : BufTy).Contents (Elt F)) : (⟨S_, .f32⟩ : BufTy).Contents (Elt F) :=
  (minimumf : (⟨S_, .f32⟩ : BufTy).Contents (Elt F) → (⟨S_, .f32⟩ : BufTy).Contents (Elt F) → (⟨S_, .f32⟩ : BufTy).Contents (Elt F)) (val_main_call2_v2 (F := F)) (val_main_call2_v1 (F := F) a0)

def val_main_v47 (a0 : (⟨S4096, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3F800000#32) : (⟨S_, .f32⟩ : BufTy).Contents (Elt F)) (val_main_v41 (F := F) a0)

def val_main_v48 (a0 : (⟨S4096, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) ((constant S_ .f32 0x3DCCCCCD#32) : (⟨S_, .f32⟩ : BufTy).Contents (Elt F)) (val_main_v46 (F := F) a0)

def val_main_v49 (a0 : (⟨S4096, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v47 (F := F) a0) (val_main_v48 (F := F) a0)

def val_main_v50 (x6 : (⟨S64x1x128, .f32⟩ : BufTy).Contents (Elt F)) (x7 : (⟨S64x1x8192, .f32⟩ : BufTy).Contents (Elt F)) (a0 : (⟨S4096, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v49 (F := F) a0) (val_main_v38 (F := F) x6 x7)

/-- The program's scalar result as a function of the two arrays of partial results and the first argument. -/
def kTail (x6 : (⟨S64x1x128, .f32⟩ : BufTy).Contents (Elt F)) (x7 : (⟨S64x1x8192, .f32⟩ : BufTy).Contents (Elt F)) (a0 : (⟨S4096, .f32⟩ : BufTy).Contents (Elt F)) : (⟨S_, .f32⟩ : BufTy).Contents (Elt F) :=
  val_main_v50 (F := F) x6 x7 a0

end Cert.KernelIdeal.KFrame

end
-- ==== Proof.KFrameITail.lean ====
/- The host operations after the kernel region, read back one operation at a time: at the end of the line every
   buffer holds its operation's function of what its operands hold at the end, because each operation writes one
   buffer of its own and nothing later writes it again. Composed, the program's scalar result is `kTail` of the two
   arrays of partial results and the first argument as the line found them. -/
import proofs.«122764_j16621523435816_2_alg».proof.Proof.KFrameIVals
import proofs.«122764_j16621523435816_2_alg».proof.Proof.KFrameIHost
import proofs.«122764_j16621523435816_2_alg».proof.Proof.LibReadEnd

set_option maxRecDepth 16384

noncomputable section

namespace Cert.KernelIdeal.KFrame

open Cert.KernelIdeal Cert.KernelIdeal.Gen Idealize.ShloMosaic Idealize.ShloMosaic.TcCoe Idealize.SL.Sem Idealize.ShloMosaic.StableHlo Cert.ReadBack Cert.ReadEnd

variable {F : FTy → Type} [FloatOps F]

/-- The operations after the region as one line. -/
abbrev tailLine : List (HloOp τ sig (Elt F)) := hostOps1 ++ (hostOps1_1 ++ (hostOps1_2 ++ (hostOps1_3 ++ (hostOps1_4 ++ (hostOps1_5 ++ (hostOps1_6))))))
/-- The buffer each writes, in order. -/
abbrev tailW : List (Ref sig .tc) := hostOps1_W ++ (hostOps1_1_W ++ (hostOps1_2_W ++ (hostOps1_3_W ++ (hostOps1_4_W ++ (hostOps1_5_W ++ (hostOps1_6_W))))))

theorem wa0 : WritesAt (hostOps1 : List (HloOp τ sig (Elt F))) hostOps1_W :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))
theorem wa1 : WritesAt (hostOps1_1 : List (HloOp τ sig (Elt F))) hostOps1_1_W :=
  (.cons rfl (.cons rfl .nil))
theorem wa2 : WritesAt (hostOps1_2 : List (HloOp τ sig (Elt F))) hostOps1_2_W :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
theorem wa3 : WritesAt (hostOps1_3 : List (HloOp τ sig (Elt F))) hostOps1_3_W :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
theorem wa4 : WritesAt (hostOps1_4 : List (HloOp τ sig (Elt F))) hostOps1_4_W :=
  (.cons rfl (.cons rfl (.cons rfl (.cons rfl (.cons rfl (.cons rfl .nil))))))
theorem wa5 : WritesAt (hostOps1_5 : List (HloOp τ sig (Elt F))) hostOps1_5_W :=
  (.cons rfl (.cons rfl (.cons rfl (.cons rfl .nil))))
theorem wa6 : WritesAt (hostOps1_6 : List (HloOp τ sig (Elt F))) hostOps1_6_W :=
  (.cons rfl (.cons rfl (.cons rfl (.cons rfl (.cons rfl (.cons rfl .nil))))))

theorem waT : WritesAt (tailLine : List (HloOp τ sig (Elt F))) tailW :=
  List.rel_append wa0 (List.rel_append wa1 (List.rel_append wa2 (List.rel_append wa3 (List.rel_append wa4 (List.rel_append wa5 (wa6))))))

theorem flatten_eq : (opsAfter : List (List (HloOp τ sig (Elt F)))).flatten = tailLine := by
  simp only [List.flatten_cons, List.flatten_nil, List.append_nil]

variable (X : Valuation τ sig (Elt F))

/-- The buffers' contents at the end of the line run from `X`. -/
def Efin : Valuation τ sig (Elt F) := after tailLine X

theorem v_main_v1_0 : Efin X (Proc.devRef .tc main_v1_0) = X (Proc.devRef .tc main_v1_0) := WritesAt.keep waT (nk (by decide)) X
theorem v_main_v1_1 : Efin X (Proc.devRef .tc main_v1_1) = X (Proc.devRef .tc main_v1_1) := WritesAt.keep waT (nk (by decide)) X
theorem v_main_arg0 : Efin X (Proc.devRef .tc main_arg0) = X (Proc.devRef .tc main_arg0) := WritesAt.keep waT (nk (by decide)) X

theorem v_main_cst : Efin X (Proc.devRef .tc main_cst) = ((constant S_ .f32 0x00000000#32) : (⟨S_, .f32⟩ : BufTy).Contents (Elt F)) :=
  end0 waT X (Efin X) [] (fun _ _ => rfl) 0 main_cst _ _ rfl (nk (by decide))
theorem v_main_v2 : Efin X (Proc.devRef .tc main_v2) = val_main_v2 (F := F) (X (Proc.devRef .tc main_v1_0)) := by
  rw [end2 waT X (Efin X) [] (fun _ _ => rfl) 1 main_v1_0 main_cst main_v2 _ _ _ _ rfl (nk (by decide)) (nk (by decide)) (nk (by decide)), v_main_v1_0 X, v_main_cst X]
  rfl
theorem v_main_v3 : Efin X (Proc.devRef .tc main_v3) = val_main_v3 (F := F) (X (Proc.devRef .tc main_v1_0)) := by
  rw [endReshape waT X (Efin X) [] (fun _ _ => rfl) 2 main_v2 main_v3 _ _ _ _ rfl (nk (by decide)) (nk (by decide)), v_main_v2 X]
  rfl
theorem v_main_v4 : Efin X (Proc.devRef .tc main_v4) = val_main_v4 (F := F) (X (Proc.devRef .tc main_v1_0)) := by
  rw [end1 waT X (Efin X) [] (fun _ _ => rfl) 3 main_v3 main_v4 _ _ _ rfl (nk (by decide)) (nk (by decide)), v_main_v3 X]
  rfl
theorem v_main_v5 : Efin X (Proc.devRef .tc main_v5) = val_main_v5 (F := F) (X (Proc.devRef .tc main_v1_0)) := by
  rw [endReshape waT X (Efin X) [] (fun _ _ => rfl) 4 main_v4 main_v5 _ _ _ _ rfl (nk (by decide)) (nk (by decide)), v_main_v4 X]
  rfl
theorem v_main_v6 : Efin X (Proc.devRef .tc main_v6) = val_main_v6 (F := F) (X (Proc.devRef .tc main_v1_0)) := by
  rw [end1 waT X (Efin X) [] (fun _ _ => rfl) 5 main_v3 main_v6 _ _ _ rfl (nk (by decide)) (nk (by decide)), v_main_v3 X]
  rfl
theorem v_main_v7 : Efin X (Proc.devRef .tc main_v7) = val_main_v7 (F := F) (X (Proc.devRef .tc main_v1_0)) := by
  rw [endReshape waT X (Efin X) [] (fun _ _ => rfl) 6 main_v6 main_v7 _ _ _ _ rfl (nk (by decide)) (nk (by decide)), v_main_v6 X]
  rfl
theorem v_main_v8 : Efin X (Proc.devRef .tc main_v8) = val_main_v8 (F := F) (X (Proc.devRef .tc main_v1_0)) := by
  rw [end1 waT X (Efin X) [] (fun _ _ => rfl) 7 main_v3 main_v8 _ _ _ rfl (nk (by decide)) (nk (by decide)), v_main_v3 X]
  rfl
theorem v_main_v9 : Efin X (Proc.devRef .tc main_v9) = val_main_v9 (F := F) (X (Proc.devRef .tc main_v1_0)) := by
  rw [endReshape waT X (Efin X) [] (fun _ _ => rfl) 8 main_v8 main_v9 _ _ _ _ rfl (nk (by decide)) (nk (by decide)), v_main_v8 X]
  rfl
theorem v_main_v10 : Efin X (Proc.devRef .tc main_v10) = val_main_v10 (F := F) (X (Proc.devRef .tc main_v1_0)) := by
  rw [end1 waT X (Efin X) [] (fun _ _ => rfl) 9 main_v3 main_v10 _ _ _ rfl (nk (by decide)) (nk (by decide)), v_main_v3 X]
  rfl
theorem v_main_v11 : Efin X (Proc.devRef .tc main_v11) = val_main_v11 (F := F) (X (Proc.devRef .tc main_v1_0)) := by
  rw [endReshape waT X (Efin X) [] (fun _ _ => rfl) 10 main_v10 main_v11 _ _ _ _ rfl (nk (by decide)) (nk (by decide)), v_main_v10 X]
  rfl
theorem v_main_cst_0 : Efin X (Proc.devRef .tc main_cst_0) = ((constant S_ .f32 0x00000000#32) : (⟨S_, .f32⟩ : BufTy).Contents (Elt F)) :=
  end0 waT X (Efin X) [] (fun _ _ => rfl) 11 main_cst_0 _ _ rfl (nk (by decide))
theorem v_main_v12 : Efin X (Proc.devRef .tc main_v12) = val_main_v12 (F := F) (X (Proc.devRef .tc main_v1_1)) := by
  rw [end2 waT X (Efin X) [] (fun _ _ => rfl) 12 main_v1_1 main_cst_0 main_v12 _ _ _ _ rfl (nk (by decide)) (nk (by decide)) (nk (by decide)), v_main_v1_1 X, v_main_cst_0 X]
  rfl
theorem v_main_v13 : Efin X (Proc.devRef .tc main_v13) = val_main_v13 (F := F) (X (Proc.devRef .tc main_v1_1)) := by
  rw [endReshape waT X (Efin X) [] (fun _ _ => rfl) 13 main_v12 main_v13 _ _ _ _ rfl (nk (by decide)) (nk (by decide)), v_main_v12 X]
  rfl
theorem v_main_v14 : Efin X (Proc.devRef .tc main_v14) = val_main_v14 (F := F) (X (Proc.devRef .tc main_v1_0)) := by
  rw [end1 waT X (Efin X) [] (fun _ _ => rfl) 14 main_v5 main_v14 _ _ _ rfl (nk (by decide)) (nk (by decide)), v_main_v5 X]
  rfl
theorem v_main_cst_1 : Efin X (Proc.devRef .tc main_cst_1) = ((constant S_ .f32 0x45800000#32) : (⟨S_, .f32⟩ : BufTy).Contents (Elt F)) :=
  end0 waT X (Efin X) [] (fun _ _ => rfl) 15 main_cst_1 _ _ rfl (nk (by decide))
theorem v_main_v15 : Efin X (Proc.devRef .tc main_v15) = val_main_v15 (F := F) (X (Proc.devRef .tc main_v1_0)) := by
  rw [end2 waT X (Efin X) [] (fun _ _ => rfl) 16 main_v14 main_cst_1 main_v15 _ _ _ _ rfl (nk (by decide)) (nk (by decide)) (nk (by decide)), v_main_v14 X, v_main_cst_1 X]
  rfl
theorem v_main_cst_2 : Efin X (Proc.devRef .tc main_cst_2) = ((constant S_ .f32 0x45800000#32) : (⟨S_, .f32⟩ : BufTy).Contents (Elt F)) :=
  end0 waT X (Efin X) [] (fun _ _ => rfl) 17 main_cst_2 _ _ rfl (nk (by decide))
theorem v_main_v16 : Efin X (Proc.devRef .tc main_v16) = val_main_v16 (F := F) (X (Proc.devRef .tc main_v1_0)) := by
  rw [end2 waT X (Efin X) [] (fun _ _ => rfl) 18 main_v7 main_cst_2 main_v16 _ _ _ _ rfl (nk (by decide)) (nk (by decide)) (nk (by decide)), v_main_v7 X, v_main_cst_2 X]
  rfl
theorem v_main_cst_3 : Efin X (Proc.devRef .tc main_cst_3) = ((constant S_ .f32 0x45800000#32) : (⟨S_, .f32⟩ : BufTy).Contents (Elt F)) :=
  end0 waT X (Efin X) [] (fun _ _ => rfl) 19 main_cst_3 _ _ rfl (nk (by decide))
theorem v_main_v17 : Efin X (Proc.devRef .tc main_v17) = val_main_v17 (F := F) := by
  rw [end1 waT X (Efin X) [] (fun _ _ => rfl) 20 main_cst_3 main_v17 _ _ _ rfl (nk (by decide)) (nk (by decide)), v_main_cst_3 X]
  rfl
theorem v_main_v18 : Efin X (Proc.devRef .tc main_v18) = val_main_v18 (F := F) (X (Proc.devRef .tc main_v1_1)) := by
  rw [end2 waT X (Efin X) [] (fun _ _ => rfl) 21 main_v13 main_v17 main_v18 _ _ _ _ rfl (nk (by decide)) (nk (by decide)) (nk (by decide)), v_main_v13 X, v_main_v17 X]
  rfl
theorem v_main_cst_4 : Efin X (Proc.devRef .tc main_cst_4) = ((constant S_ .f32 0x00000000#32) : (⟨S_, .f32⟩ : BufTy).Contents (Elt F)) :=
  end0 waT X (Efin X) [] (fun _ _ => rfl) 22 main_cst_4 _ _ rfl (nk (by decide))
theorem v_main_v19 : Efin X (Proc.devRef .tc main_v19) = val_main_v19 (F := F) (X (Proc.devRef .tc main_v1_1)) := by
  rw [end2 waT X (Efin X) [] (fun _ _ => rfl) 23 main_v18 main_cst_4 main_v19 _ _ _ _ rfl (nk (by decide)) (nk (by decide)) (nk (by decide)), v_main_v18 X, v_main_cst_4 X]
  rfl
theorem v_main_cst_5 : Efin X (Proc.devRef .tc main_cst_5) = ((constant S_ .f32 0x322BCC77#32) : (⟨S_, .f32⟩ : BufTy).Contents (Elt F)) :=
  end0 waT X (Efin X) [] (fun _ _ => rfl) 24 main_cst_5 _ _ rfl (nk (by decide))
theorem v_main_v20 : Efin X (Proc.devRef .tc main_v20) = val_main_v20 (F := F) (X (Proc.devRef .tc main_v1_1)) := by
  rw [end2 waT X (Efin X) [] (fun _ _ => rfl) 25 main_v19 main_cst_5 main_v20 _ _ _ _ rfl (nk (by decide)) (nk (by decide)) (nk (by decide)), v_main_v19 X, v_main_cst_5 X]
  rfl
theorem v_main_v21 : Efin X (Proc.devRef .tc main_v21) = val_main_v21 (F := F) (X (Proc.devRef .tc main_v1_1)) := by
  rw [end1 waT X (Efin X) [] (fun _ _ => rfl) 26 main_v20 main_v21 _ _ _ rfl (nk (by decide)) (nk (by decide)), v_main_v20 X]
  rfl
theorem v_main_v22 : Efin X (Proc.devRef .tc main_v22) = val_main_v22 (F := F) (X (Proc.devRef .tc main_v1_1)) := by
  rw [end2 waT X (Efin X) [] (fun _ _ => rfl) 27 main_v18 main_v21 main_v22 _ _ _ _ rfl (nk (by decide)) (nk (by decide)) (nk (by decide)), v_main_v18 X, v_main_v21 X]
  rfl
theorem v_main_cst_6 : Efin X (Proc.devRef .tc main_cst_6) = ((constant S_ .f32 0x322BCC77#32) : (⟨S_, .f32⟩ : BufTy).Contents (Elt F)) :=
  end0 waT X (Efin X) [] (fun _ _ => rfl) 28 main_cst_6 _ _ rfl (nk (by decide))
theorem v_main_v23 : Efin X (Proc.devRef .tc main_v23) = val_main_v23 (F := F) := by
  rw [end1 waT X (Efin X) [] (fun _ _ => rfl) 29 main_cst_6 main_v23 _ _ _ rfl (nk (by decide)) (nk (by decide)), v_main_cst_6 X]
  rfl
theorem v_main_v24 : Efin X (Proc.devRef .tc main_v24) = val_main_v24 (F := F) (X (Proc.devRef .tc main_v1_1)) := by
  rw [end2 waT X (Efin X) [] (fun _ _ => rfl) 30 main_v22 main_v23 main_v24 _ _ _ _ rfl (nk (by decide)) (nk (by decide)) (nk (by decide)), v_main_v22 X, v_main_v23 X]
  rfl
theorem v_main_v25 : Efin X (Proc.devRef .tc main_v25) = val_main_v25 (F := F) (X (Proc.devRef .tc main_v1_1)) := by
  rw [end1 waT X (Efin X) [] (fun _ _ => rfl) 31 main_v24 main_v25 _ _ _ rfl (nk (by decide)) (nk (by decide)), v_main_v24 X]
  rfl
theorem v_main_v26 : Efin X (Proc.devRef .tc main_v26) = val_main_v26 (F := F) (X (Proc.devRef .tc main_v1_1)) := by
  rw [end2 waT X (Efin X) [] (fun _ _ => rfl) 32 main_v22 main_v25 main_v26 _ _ _ _ rfl (nk (by decide)) (nk (by decide)) (nk (by decide)), v_main_v22 X, v_main_v25 X]
  rfl
theorem v_main_cst_7 : Efin X (Proc.devRef .tc main_cst_7) = ((constant S_ .f32 0x00000000#32) : (⟨S_, .f32⟩ : BufTy).Contents (Elt F)) :=
  end0 waT X (Efin X) [] (fun _ _ => rfl) 33 main_cst_7 _ _ rfl (nk (by decide))
theorem v_main_v27 : Efin X (Proc.devRef .tc main_v27) = val_main_v27 (F := F) (X (Proc.devRef .tc main_v1_1)) := by
  rw [end2 waT X (Efin X) [] (fun _ _ => rfl) 34 main_v26 main_cst_7 main_v27 _ _ _ _ rfl (nk (by decide)) (nk (by decide)) (nk (by decide)), v_main_v26 X, v_main_cst_7 X]
  rfl
theorem v_main_cst_8 : Efin X (Proc.devRef .tc main_cst_8) = ((constant S_ .f32 0x00000000#32) : (⟨S_, .f32⟩ : BufTy).Contents (Elt F)) :=
  end0 waT X (Efin X) [] (fun _ _ => rfl) 35 main_cst_8 _ _ rfl (nk (by decide))
theorem v_main_v28 : Efin X (Proc.devRef .tc main_v28) = val_main_v28 (F := F) (X (Proc.devRef .tc main_v1_0)) := by
  rw [end2 waT X (Efin X) [] (fun _ _ => rfl) 36 main_v11 main_cst_8 main_v28 _ _ _ _ rfl (nk (by decide)) (nk (by decide)) (nk (by decide)), v_main_v11 X, v_main_cst_8 X]
  rfl
theorem v_main_cst_9 : Efin X (Proc.devRef .tc main_cst_9) = ((constant S_ .f32 0x3F800000#32) : (⟨S_, .f32⟩ : BufTy).Contents (Elt F)) :=
  end0 waT X (Efin X) [] (fun _ _ => rfl) 37 main_cst_9 _ _ rfl (nk (by decide))
theorem v_main_v29 : Efin X (Proc.devRef .tc main_v29) = val_main_v29 (F := F) (X (Proc.devRef .tc main_v1_0)) := by
  rw [end2 waT X (Efin X) [] (fun _ _ => rfl) 38 main_v11 main_cst_9 main_v29 _ _ _ _ rfl (nk (by decide)) (nk (by decide)) (nk (by decide)), v_main_v11 X, v_main_cst_9 X]
  rfl
theorem v_main_v30 : Efin X (Proc.devRef .tc main_v30) = val_main_v30 (F := F) (X (Proc.devRef .tc main_v1_0)) := by
  rw [end2 waT X (Efin X) [] (fun _ _ => rfl) 39 main_v9 main_v29 main_v30 _ _ _ _ rfl (nk (by decide)) (nk (by decide)) (nk (by decide)), v_main_v9 X, v_main_v29 X]
  rfl
theorem v_main_cst_10 : Efin X (Proc.devRef .tc main_cst_10) = ((constant S_ .f32 0x00000000#32) : (⟨S_, .f32⟩ : BufTy).Contents (Elt F)) :=
  end0 waT X (Efin X) [] (fun _ _ => rfl) 40 main_cst_10 _ _ rfl (nk (by decide))
theorem v_main_call0_v0 : Efin X (Proc.devRef .tc main_call0_v0) = val_main_call0_v0 (F := F) := by
  rw [end1 waT X (Efin X) [] (fun _ _ => rfl) 41 main_cst_10 main_call0_v0 _ _ _ rfl (nk (by decide)) (nk (by decide)), v_main_cst_10 X]
  rfl
theorem v_main_v31 : Efin X (Proc.devRef .tc main_v31) = val_main_v31 (F := F) (X (Proc.devRef .tc main_v1_0)) := by
  rw [end3 waT X (Efin X) [] (fun _ _ => rfl) 42 main_v28 main_v30 main_call0_v0 main_v31 _ _ _ _ _ rfl (nk (by decide)) (nk (by decide)) (nk (by decide)) (nk (by decide)), v_main_v28 X, v_main_v30 X, v_main_call0_v0 X]
  rfl
theorem v_main_cst_11 : Efin X (Proc.devRef .tc main_cst_11) = ((constant S_ .f32 0x3C23D70A#32) : (⟨S_, .f32⟩ : BufTy).Contents (Elt F)) :=
  end0 waT X (Efin X) [] (fun _ _ => rfl) 43 main_cst_11 _ _ rfl (nk (by decide))
theorem v_main_v32 : Efin X (Proc.devRef .tc main_v32) = val_main_v32 (F := F) (X (Proc.devRef .tc main_v1_0)) := by
  rw [end2 waT X (Efin X) [] (fun _ _ => rfl) 44 main_cst_11 main_v15 main_v32 _ _ _ _ rfl (nk (by decide)) (nk (by decide)) (nk (by decide)), v_main_cst_11 X, v_main_v15 X]
  rfl
theorem v_main_cst_12 : Efin X (Proc.devRef .tc main_cst_12) = ((constant S_ .f32 0x3DCCCCCD#32) : (⟨S_, .f32⟩ : BufTy).Contents (Elt F)) :=
  end0 waT X (Efin X) [] (fun _ _ => rfl) 45 main_cst_12 _ _ rfl (nk (by decide))
theorem v_main_v33 : Efin X (Proc.devRef .tc main_v33) = val_main_v33 (F := F) (X (Proc.devRef .tc main_v1_0)) := by
  rw [end2 waT X (Efin X) [] (fun _ _ => rfl) 46 main_cst_12 main_v16 main_v33 _ _ _ _ rfl (nk (by decide)) (nk (by decide)) (nk (by decide)), v_main_cst_12 X, v_main_v16 X]
  rfl
theorem v_main_v34 : Efin X (Proc.devRef .tc main_v34) = val_main_v34 (F := F) (X (Proc.devRef .tc main_v1_0)) := by
  rw [end2 waT X (Efin X) [] (fun _ _ => rfl) 47 main_v32 main_v33 main_v34 _ _ _ _ rfl (nk (by decide)) (nk (by decide)) (nk (by decide)), v_main_v32 X, v_main_v33 X]
  rfl
theorem v_main_cst_13 : Efin X (Proc.devRef .tc main_cst_13) = ((constant S_ .f32 0x3C23D70A#32) : (⟨S_, .f32⟩ : BufTy).Contents (Elt F)) :=
  end0 waT X (Efin X) [] (fun _ _ => rfl) 48 main_cst_13 _ _ rfl (nk (by decide))
theorem v_main_v35 : Efin X (Proc.devRef .tc main_v35) = val_main_v35 (F := F) (X (Proc.devRef .tc main_v1_1)) := by
  rw [end2 waT X (Efin X) [] (fun _ _ => rfl) 49 main_cst_13 main_v27 main_v35 _ _ _ _ rfl (nk (by decide)) (nk (by decide)) (nk (by decide)), v_main_cst_13 X, v_main_v27 X]
  rfl
theorem v_main_v36 : Efin X (Proc.devRef .tc main_v36) = val_main_v36 (F := F) (X (Proc.devRef .tc main_v1_0)) (X (Proc.devRef .tc main_v1_1)) := by
  rw [end2 waT X (Efin X) [] (fun _ _ => rfl) 50 main_v34 main_v35 main_v36 _ _ _ _ rfl (nk (by decide)) (nk (by decide)) (nk (by decide)), v_main_v34 X, v_main_v35 X]
  rfl
theorem v_main_cst_14 : Efin X (Proc.devRef .tc main_cst_14) = ((constant S_ .f32 0x3DCCCCCD#32) : (⟨S_, .f32⟩ : BufTy).Contents (Elt F)) :=
  end0 waT X (Efin X) [] (fun _ _ => rfl) 51 main_cst_14 _ _ rfl (nk (by decide))
theorem v_main_v37 : Efin X (Proc.devRef .tc main_v37) = val_main_v37 (F := F) (X (Proc.devRef .tc main_v1_0)) := by
  rw [end2 waT X (Efin X) [] (fun _ _ => rfl) 52 main_cst_14 main_v31 main_v37 _ _ _ _ rfl (nk (by decide)) (nk (by decide)) (nk (by decide)), v_main_cst_14 X, v_main_v31 X]
  rfl
theorem v_main_v38 : Efin X (Proc.devRef .tc main_v38) = val_main_v38 (F := F) (X (Proc.devRef .tc main_v1_0)) (X (Proc.devRef .tc main_v1_1)) := by
  rw [end2 waT X (Efin X) [] (fun _ _ => rfl) 53 main_v36 main_v37 main_v38 _ _ _ _ rfl (nk (by decide)) (nk (by decide)) (nk (by decide)), v_main_v36 X, v_main_v37 X]
  rfl
theorem v_main_cst_15 : Efin X (Proc.devRef .tc main_cst_15) = ((constant S_ .f32 0x00000000#32) : (⟨S_, .f32⟩ : BufTy).Contents (Elt F)) :=
  end0 waT X (Efin X) [] (fun _ _ => rfl) 54 main_cst_15 _ _ rfl (nk (by decide))
theorem v_main_v39 : Efin X (Proc.devRef .tc main_v39) = val_main_v39 (F := F) (X (Proc.devRef .tc main_arg0)) := by
  rw [end2 waT X (Efin X) [] (fun _ _ => rfl) 55 main_arg0 main_cst_15 main_v39 _ _ _ _ rfl (nk (by decide)) (nk (by decide)) (nk (by decide)), v_main_arg0 X, v_main_cst_15 X]
  rfl
theorem v_main_cst_16 : Efin X (Proc.devRef .tc main_cst_16) = ((constant S_ .f32 0x45800000#32) : (⟨S_, .f32⟩ : BufTy).Contents (Elt F)) :=
  end0 waT X (Efin X) [] (fun _ _ => rfl) 56 main_cst_16 _ _ rfl (nk (by decide))
theorem v_main_v40 : Efin X (Proc.devRef .tc main_v40) = val_main_v40 (F := F) (X (Proc.devRef .tc main_arg0)) := by
  rw [end2 waT X (Efin X) [] (fun _ _ => rfl) 57 main_v39 main_cst_16 main_v40 _ _ _ _ rfl (nk (by decide)) (nk (by decide)) (nk (by decide)), v_main_v39 X, v_main_cst_16 X]
  rfl
theorem v_main_v41 : Efin X (Proc.devRef .tc main_v41) = val_main_v41 (F := F) (X (Proc.devRef .tc main_arg0)) := by
  rw [end1 waT X (Efin X) [] (fun _ _ => rfl) 58 main_v40 main_v41 _ _ _ rfl (nk (by decide)) (nk (by decide)), v_main_v40 X]
  rfl
theorem v_main_c : Efin X (Proc.devRef .tc main_c) = ((constantI S_ 32 1#32) : (⟨S_, .i32⟩ : BufTy).Contents (Elt F)) :=
  end0 waT X (Efin X) [] (fun _ _ => rfl) 59 main_c _ _ rfl (nk (by decide))
theorem v_main_call1_call0_cst : Efin X (Proc.devRef .tc main_call1_call0_cst) = ((constant S_ .f32 0x00000000#32) : (⟨S_, .f32⟩ : BufTy).Contents (Elt F)) :=
  end0 waT X (Efin X) [] (fun _ _ => rfl) 60 main_call1_call0_cst _ _ rfl (nk (by decide))
theorem v_main_call1_call0_v0 : Efin X (Proc.devRef .tc main_call1_call0_v0) = val_main_call1_call0_v0 (F := F) (X (Proc.devRef .tc main_arg0)) := by
  rw [end2 waT X (Efin X) [] (fun _ _ => rfl) 61 main_arg0 main_call1_call0_cst main_call1_call0_v0 _ _ _ _ rfl (nk (by decide)) (nk (by decide)) (nk (by decide)), v_main_arg0 X, v_main_call1_call0_cst X]
  rfl
theorem v_main_call1_call0_v1 : Efin X (Proc.devRef .tc main_call1_call0_v1) = val_main_call1_call0_v1 (F := F) (X (Proc.devRef .tc main_arg0)) := by
  rw [end1 waT X (Efin X) [] (fun _ _ => rfl) 62 main_call1_call0_v0 main_call1_call0_v1 _ _ _ rfl (nk (by decide)) (nk (by decide)), v_main_call1_call0_v0 X]
  rfl
theorem v_main_call1_call0_cst_0 : Efin X (Proc.devRef .tc main_call1_call0_cst_0) = ((constant S_ .f32 0x45800000#32) : (⟨S_, .f32⟩ : BufTy).Contents (Elt F)) :=
  end0 waT X (Efin X) [] (fun _ _ => rfl) 63 main_call1_call0_cst_0 _ _ rfl (nk (by decide))
theorem v_main_call1_call0_v2 : Efin X (Proc.devRef .tc main_call1_call0_v2) = val_main_call1_call0_v2 (F := F) := by
  rw [end1 waT X (Efin X) [] (fun _ _ => rfl) 64 main_call1_call0_cst_0 main_call1_call0_v2 _ _ _ rfl (nk (by decide)) (nk (by decide)), v_main_call1_call0_cst_0 X]
  rfl
theorem v_main_call1_call0_v3 : Efin X (Proc.devRef .tc main_call1_call0_v3) = val_main_call1_call0_v3 (F := F) (X (Proc.devRef .tc main_arg0)) := by
  rw [end2 waT X (Efin X) [] (fun _ _ => rfl) 65 main_call1_call0_v1 main_call1_call0_v2 main_call1_call0_v3 _ _ _ _ rfl (nk (by decide)) (nk (by decide)) (nk (by decide)), v_main_call1_call0_v1 X, v_main_call1_call0_v2 X]
  rfl
theorem v_main_call1_call0_v4 : Efin X (Proc.devRef .tc main_call1_call0_v4) = val_main_call1_call0_v4 (F := F) (X (Proc.devRef .tc main_arg0)) := by
  rw [end1 waT X (Efin X) [] (fun _ _ => rfl) 66 main_call1_call0_v3 main_call1_call0_v4 _ _ _ rfl (nk (by decide)) (nk (by decide)), v_main_call1_call0_v3 X]
  rfl
theorem v_main_call1_call0_v5 : Efin X (Proc.devRef .tc main_call1_call0_v5) = val_main_call1_call0_v5 (F := F) (X (Proc.devRef .tc main_arg0)) := by
  rw [end2 waT X (Efin X) [] (fun _ _ => rfl) 67 main_arg0 main_call1_call0_v4 main_call1_call0_v5 _ _ _ _ rfl (nk (by decide)) (nk (by decide)) (nk (by decide)), v_main_arg0 X, v_main_call1_call0_v4 X]
  rfl
theorem v_main_call1_call0_v6 : Efin X (Proc.devRef .tc main_call1_call0_v6) = val_main_call1_call0_v6 (F := F) (X (Proc.devRef .tc main_arg0)) := by
  rw [end2 waT X (Efin X) [] (fun _ _ => rfl) 68 main_call1_call0_v5 main_call1_call0_v5 main_call1_call0_v6 _ _ _ _ rfl (nk (by decide)) (nk (by decide)) (nk (by decide)), v_main_call1_call0_v5 X]
  rfl
theorem v_main_call1_call0_v7 : Efin X (Proc.devRef .tc main_call1_call0_v7) = val_main_call1_call0_v7 (F := F) := by
  rw [end1 waT X (Efin X) [] (fun _ _ => rfl) 69 main_c main_call1_call0_v7 _ _ _ rfl (nk (by decide)) (nk (by decide)), v_main_c X]
  rfl
theorem v_main_call1_call0_cst_1 : Efin X (Proc.devRef .tc main_call1_call0_cst_1) = ((constant S_ .f32 0x45800000#32) : (⟨S_, .f32⟩ : BufTy).Contents (Elt F)) :=
  end0 waT X (Efin X) [] (fun _ _ => rfl) 70 main_call1_call0_cst_1 _ _ rfl (nk (by decide))
theorem v_main_call1_call0_v8 : Efin X (Proc.devRef .tc main_call1_call0_v8) = val_main_call1_call0_v8 (F := F) := by
  rw [end2 waT X (Efin X) [] (fun _ _ => rfl) 71 main_call1_call0_cst_1 main_call1_call0_v7 main_call1_call0_v8 _ _ _ _ rfl (nk (by decide)) (nk (by decide)) (nk (by decide)), v_main_call1_call0_cst_1 X, v_main_call1_call0_v7 X]
  rfl
theorem v_main_call1_call0_cst_2 : Efin X (Proc.devRef .tc main_call1_call0_cst_2) = ((constant S_ .f32 0x00000000#32) : (⟨S_, .f32⟩ : BufTy).Contents (Elt F)) :=
  end0 waT X (Efin X) [] (fun _ _ => rfl) 72 main_call1_call0_cst_2 _ _ rfl (nk (by decide))
theorem v_main_call1_call0_v9 : Efin X (Proc.devRef .tc main_call1_call0_v9) = val_main_call1_call0_v9 (F := F) (X (Proc.devRef .tc main_arg0)) := by
  rw [end2 waT X (Efin X) [] (fun _ _ => rfl) 73 main_call1_call0_v6 main_call1_call0_cst_2 main_call1_call0_v9 _ _ _ _ rfl (nk (by decide)) (nk (by decide)) (nk (by decide)), v_main_call1_call0_v6 X, v_main_call1_call0_cst_2 X]
  rfl
theorem v_main_call1_call0_v10 : Efin X (Proc.devRef .tc main_call1_call0_v10) = val_main_call1_call0_v10 (F := F) (X (Proc.devRef .tc main_arg0)) := by
  rw [end2 waT X (Efin X) [] (fun _ _ => rfl) 74 main_call1_call0_v9 main_call1_call0_v8 main_call1_call0_v10 _ _ _ _ rfl (nk (by decide)) (nk (by decide)) (nk (by decide)), v_main_call1_call0_v9 X, v_main_call1_call0_v8 X]
  rfl
theorem v_main_call1_call0_cst_3 : Efin X (Proc.devRef .tc main_call1_call0_cst_3) = ((constant S_ .f32 0x00000000#32) : (⟨S_, .f32⟩ : BufTy).Contents (Elt F)) :=
  end0 waT X (Efin X) [] (fun _ _ => rfl) 75 main_call1_call0_cst_3 _ _ rfl (nk (by decide))
theorem v_main_call1_call0_v11 : Efin X (Proc.devRef .tc main_call1_call0_v11) = val_main_call1_call0_v11 (F := F) := by
  rw [end2 waT X (Efin X) [] (fun _ _ => rfl) 76 main_call1_call0_v8 main_call1_call0_cst_3 main_call1_call0_v11 _ _ _ _ rfl (nk (by decide)) (nk (by decide)) (nk (by decide)), v_main_call1_call0_v8 X, v_main_call1_call0_cst_3 X]
  rfl
theorem v_main_call1_call0_cst_4 : Efin X (Proc.devRef .tc main_call1_call0_cst_4) = ((constant S_ .f32 0x7FC00000#32) : (⟨S_, .f32⟩ : BufTy).Contents (Elt F)) :=
  end0 waT X (Efin X) [] (fun _ _ => rfl) 77 main_call1_call0_cst_4 _ _ rfl (nk (by decide))
theorem v_main_call1_call0_call0_v0 : Efin X (Proc.devRef .tc main_call1_call0_call0_v0) = val_main_call1_call0_call0_v0 (F := F) := by
  rw [end1 waT X (Efin X) [] (fun _ _ => rfl) 78 main_call1_call0_cst_4 main_call1_call0_call0_v0 _ _ _ rfl (nk (by decide)) (nk (by decide)), v_main_call1_call0_cst_4 X]
  rfl
theorem v_main_call1_v0 : Efin X (Proc.devRef .tc main_call1_v0) = val_main_call1_v0 (F := F) (X (Proc.devRef .tc main_arg0)) := by
  rw [end3 waT X (Efin X) [] (fun _ _ => rfl) 79 main_call1_call0_v11 main_call1_call0_v10 main_call1_call0_call0_v0 main_call1_v0 _ _ _ _ _ rfl (nk (by decide)) (nk (by decide)) (nk (by decide)) (nk (by decide)), v_main_call1_call0_v11 X, v_main_call1_call0_v10 X, v_main_call1_call0_call0_v0 X]
  rfl
theorem v_main_v42 : Efin X (Proc.devRef .tc main_v42) = val_main_v42 (F := F) (X (Proc.devRef .tc main_arg0)) := by
  rw [end1 waT X (Efin X) [] (fun _ _ => rfl) 80 main_call1_v0 main_v42 _ _ _ rfl (nk (by decide)) (nk (by decide)), v_main_call1_v0 X]
  rfl
theorem v_main_v43 : Efin X (Proc.devRef .tc main_v43) = val_main_v43 (F := F) (X (Proc.devRef .tc main_arg0)) := by
  rw [end1 waT X (Efin X) [] (fun _ _ => rfl) 81 main_v40 main_v43 _ _ _ rfl (nk (by decide)) (nk (by decide)), v_main_v40 X]
  rfl
theorem v_main_cst_17 : Efin X (Proc.devRef .tc main_cst_17) = ((constant S_ .f32 0x3C23D70A#32) : (⟨S_, .f32⟩ : BufTy).Contents (Elt F)) :=
  end0 waT X (Efin X) [] (fun _ _ => rfl) 82 main_cst_17 _ _ rfl (nk (by decide))
theorem v_main_v44 : Efin X (Proc.devRef .tc main_v44) = val_main_v44 (F := F) (X (Proc.devRef .tc main_arg0)) := by
  rw [end2 waT X (Efin X) [] (fun _ _ => rfl) 83 main_v42 main_cst_17 main_v44 _ _ _ _ rfl (nk (by decide)) (nk (by decide)) (nk (by decide)), v_main_v42 X, v_main_cst_17 X]
  rfl
theorem v_main_v45 : Efin X (Proc.devRef .tc main_v45) = val_main_v45 (F := F) (X (Proc.devRef .tc main_arg0)) := by
  rw [end2 waT X (Efin X) [] (fun _ _ => rfl) 84 main_v43 main_v44 main_v45 _ _ _ _ rfl (nk (by decide)) (nk (by decide)) (nk (by decide)), v_main_v43 X, v_main_v44 X]
  rfl
theorem v_main_cst_18 : Efin X (Proc.devRef .tc main_cst_18) = ((constant S_ .f32 0xC1200000#32) : (⟨S_, .f32⟩ : BufTy).Contents (Elt F)) :=
  end0 waT X (Efin X) [] (fun _ _ => rfl) 85 main_cst_18 _ _ rfl (nk (by decide))
theorem v_main_cst_19 : Efin X (Proc.devRef .tc main_cst_19) = ((constant S_ .f32 0x41200000#32) : (⟨S_, .f32⟩ : BufTy).Contents (Elt F)) :=
  end0 waT X (Efin X) [] (fun _ _ => rfl) 86 main_cst_19 _ _ rfl (nk (by decide))
theorem v_main_call2_v0 : Efin X (Proc.devRef .tc main_call2_v0) = val_main_call2_v0 (F := F) := by
  rw [end1 waT X (Efin X) [] (fun _ _ => rfl) 87 main_cst_18 main_call2_v0 _ _ _ rfl (nk (by decide)) (nk (by decide)), v_main_cst_18 X]
  rfl
theorem v_main_call2_v1 : Efin X (Proc.devRef .tc main_call2_v1) = val_main_call2_v1 (F := F) (X (Proc.devRef .tc main_arg0)) := by
  rw [end2 waT X (Efin X) [] (fun _ _ => rfl) 88 main_call2_v0 main_v45 main_call2_v1 _ _ _ _ rfl (nk (by decide)) (nk (by decide)) (nk (by decide)), v_main_call2_v0 X, v_main_v45 X]
  rfl
theorem v_main_call2_v2 : Efin X (Proc.devRef .tc main_call2_v2) = val_main_call2_v2 (F := F) := by
  rw [end1 waT X (Efin X) [] (fun _ _ => rfl) 89 main_cst_19 main_call2_v2 _ _ _ rfl (nk (by decide)) (nk (by decide)), v_main_cst_19 X]
  rfl
theorem v_main_v46 : Efin X (Proc.devRef .tc main_v46) = val_main_v46 (F := F) (X (Proc.devRef .tc main_arg0)) := by
  rw [end2 waT X (Efin X) [] (fun _ _ => rfl) 90 main_call2_v2 main_call2_v1 main_v46 _ _ _ _ rfl (nk (by decide)) (nk (by decide)) (nk (by decide)), v_main_call2_v2 X, v_main_call2_v1 X]
  rfl
theorem v_main_cst_20 : Efin X (Proc.devRef .tc main_cst_20) = ((constant S_ .f32 0x3F800000#32) : (⟨S_, .f32⟩ : BufTy).Contents (Elt F)) :=
  end0 waT X (Efin X) [] (fun _ _ => rfl) 91 main_cst_20 _ _ rfl (nk (by decide))
theorem v_main_v47 : Efin X (Proc.devRef .tc main_v47) = val_main_v47 (F := F) (X (Proc.devRef .tc main_arg0)) := by
  rw [end2 waT X (Efin X) [] (fun _ _ => rfl) 92 main_cst_20 main_v41 main_v47 _ _ _ _ rfl (nk (by decide)) (nk (by decide)) (nk (by decide)), v_main_cst_20 X, v_main_v41 X]
  rfl
theorem v_main_cst_21 : Efin X (Proc.devRef .tc main_cst_21) = ((constant S_ .f32 0x3DCCCCCD#32) : (⟨S_, .f32⟩ : BufTy).Contents (Elt F)) :=
  end0 waT X (Efin X) [] (fun _ _ => rfl) 93 main_cst_21 _ _ rfl (nk (by decide))
theorem v_main_v48 : Efin X (Proc.devRef .tc main_v48) = val_main_v48 (F := F) (X (Proc.devRef .tc main_arg0)) := by
  rw [end2 waT X (Efin X) [] (fun _ _ => rfl) 94 main_cst_21 main_v46 main_v48 _ _ _ _ rfl (nk (by decide)) (nk (by decide)) (nk (by decide)), v_main_cst_21 X, v_main_v46 X]
  rfl
theorem v_main_v49 : Efin X (Proc.devRef .tc main_v49) = val_main_v49 (F := F) (X (Proc.devRef .tc main_arg0)) := by
  rw [end2 waT X (Efin X) [] (fun _ _ => rfl) 95 main_v47 main_v48 main_v49 _ _ _ _ rfl (nk (by decide)) (nk (by decide)) (nk (by decide)), v_main_v47 X, v_main_v48 X]
  rfl
theorem v_main_v50 : Efin X (Proc.devRef .tc main_v50) = val_main_v50 (F := F) (X (Proc.devRef .tc main_v1_0)) (X (Proc.devRef .tc main_v1_1)) (X (Proc.devRef .tc main_arg0)) := by
  rw [end2 waT X (Efin X) [] (fun _ _ => rfl) 96 main_v49 main_v38 main_v50 _ _ _ _ rfl (nk (by decide)) (nk (by decide)) (nk (by decide)), v_main_v49 X, v_main_v38 X]
  rfl

/-- The program's scalar result at the end of the line. -/
theorem tail_value : after (opsAfter : List (List (HloOp τ sig (Elt F)))).flatten X (Proc.devRef .tc main_v50)
    = kTail (F := F) (X (Proc.devRef .tc main_v1_0)) (X (Proc.devRef .tc main_v1_1)) (X (Proc.devRef .tc main_arg0)) := by
  rw [flatten_eq]; exact v_main_v50 X

end Cert.KernelIdeal.KFrame

end
-- ==== Proof.KFrameIValue.lean ====
/-
  The program's scalar result, read off the run: it is `kTail` — the later host operations composed — of the two
  arrays the region leaves (the packed partial sums of the 64 tiles and their partial column sums, as the pipeline
  wrote them back tile by tile) and of the first argument as launched; the six arguments end unchanged.
-/
import proofs.«122764_j16621523435816_2_alg».proof.Proof.KFrameI
import proofs.«122764_j16621523435816_2_alg».proof.Proof.KFrameITail

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The array of packed partial sums after the region: what the pipeline wrote back, tile by tile. -/
abbrev A6 (c : Dev nD) : (⟨S64x1x128, .f32⟩ : BufTy).Contents (Elt F) := (dats m 0 c).arrAt 6 cfg0.N
/-- The array of partial column sums after the region. -/
abbrev A7 (c : Dev nD) : (⟨S64x1x8192, .f32⟩ : BufTy).Contents (Elt F) := (dats m 0 c).arrAt 7 cfg0.N

/-- The buffers' contents when the region is left: the staged arrays as written back, the rest as the region found them. -/
abbrev Xexit (c : Dev nD) : Valuation τ sig (Elt F) :=
  Pipeline.withArrays spec0 c (V0 m c) fun w => (dats m 0 c).arrAt w cfg0.N

theorem Xexit_6 (c : Dev nD) : Xexit m c (Proc.devRef .tc main_v1_0) = A6 m c :=
  Pipeline.withArrays_arr spec0 launch0.win.arr_inj c (V0 m c) (fun w => (dats m 0 c).arrAt w cfg0.N) 6
theorem Xexit_7 (c : Dev nD) : Xexit m c (Proc.devRef .tc main_v1_1) = A7 m c :=
  Pipeline.withArrays_arr spec0 launch0.win.arr_inj c (V0 m c) (fun w => (dats m 0 c).arrAt w cfg0.N) 7
theorem Xexit_arg0 (c : Dev nD) : Xexit m c (Proc.devRef .tc main_arg0) = m ((c : Thread nD τ).loc main_arg0) :=
  (Pipeline.withArrays_of_ne spec0 c (V0 m c) (fun w => (dats m 0 c).arrAt w cfg0.N) main_arg0 (by decide)).trans
    (V_of m c main_arg0 (by decide))

/-- The result buffer at the end: the later operations' composed term of the two arrays and the first argument. -/
theorem result_eq (c : Dev nD) :
    Pipeline.afterTail₀ cfgs (dats m) 0 (V0 m) opsAfter c main_v50 = kTail (F := F) (A6 m c) (A7 m c) (m ((c : Thread nD τ).loc main_arg0)) := by
  show StableHlo.after (opsAfter : List (List (HloOp τ sig (Elt F)))).flatten (Xexit m c) (Proc.devRef .tc main_v50) = _
  rw [tail_value, Xexit_6, Xexit_7, Xexit_arg0]

/-- The run, read: the result is `kTail` of the region's two arrays and the first argument; the arguments are kept. -/
theorem run_value : θ_run defs (onTc (τ := τ) (main (F := F))) ⟨m, fun _ => 0, ρ⟩ (fun r => ∀ c : Dev nD,
      r.2.mem ((c.tc : Thread nD τ).loc main_v50) = kTail (F := F) (A6 m c) (A7 m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v50 (Pipeline.mem_restRefs_of main_v50 (by decide) (by decide))).trans (result_eq m c),
     ⟨((h c).2 main_arg0 (Pipeline.mem_restRefs_of main_arg0 (by decide) (by decide))).trans
             (W_of m (dats m) c main_arg0 (by decide) (by decide) (by decide) (by decide) (by decide) (by decide) (by decide) (by decide) (by decide)),
          ((h c).1 0).trans ((((dats m) 0 c).arrAt_in 0 rfl _).trans ((A_eq m c 0).trans (V_of m c main_arg1 (by decide)))),
          ((h c).1 1).trans ((((dats m) 0 c).arrAt_in 1 rfl _).trans ((A_eq m c 1).trans (V_of m c main_arg2 (by decide)))),
          ((h c).1 2).trans ((((dats m) 0 c).arrAt_in 2 rfl _).trans ((A_eq m c 2).trans (V_of m c main_arg3 (by decide)))),
          ((h c).1 3).trans ((((dats m) 0 c).arrAt_in 3 rfl _).trans ((A_eq m c 3).trans (V_of m c main_arg4 (by decide)))),
          ((h c).1 4).trans ((((dats m) 0 c).arrAt_in 4 rfl _).trans ((A_eq m c 4).trans (V_of m c main_arg5 (by decide))))⟩⟩) (run_main m ρ)

/-- info: 'Cert.KernelIdeal.KFrame.run_value' depends on axioms: [propext, Classical.choice, Quot.sound] -/
#guard_msgs in #print axioms run_value

end Cert.KernelIdeal.KFrame

end
-- ==== Proof.KFrameIBlocks.lean ====
/-
  The region's two output arrays read block by block, and its input blocks read as rows of the arguments.

  Grid point `t` stages rows `64 t … 64 t + 63` of each argument and writes back row `t` of each output array
  ([64, 1, 128] and [64, 1, 8192]); distinct points write distinct rows, so row `t` of each final array is exactly
  what point `t` wrote: the body's stored value on that point's input blocks.
-/
import proofs.«122764_j16621523435816_2_alg».proof.Proof.KFrameIData
import Idealize.ShloMosaic.Lib.Pipeline.Value
import Idealize.ShloMosaic.Lib.ValueIdx

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's stored values as functions of the six input blocks -/

/-- The packed partial sums of one tile. -/
def pay6 (w c r k s : Vec F S64x8192 .f32) (p : Vec F S64x1 .f32) : Vec F S1x1x128 .f32 :=
  k0_pay1 (k0_pay4 w) (k0_pay5 w c k p) (k0_pay9 k) (k0_pay10 r k s) (k0_pay11 k)
/-- The partial column sums of one tile. -/
def pay7 (w k : Vec F S64x8192 .f32) : Vec F S1x1x8192 .f32 :=
  k0_pay2 (k0_pay7 (k0_pay6 w k))

theorem out6_eq (x0 x1 x2 x3 x4 : Vec F S64x8192 .f32) (x5 : Vec F S64x1 .f32) :
    out6 x0 x1 x2 x3 x4 x5 = pay6 x0 x1 x2 x3 x4 x5 := by
  unfold out6 pay6
  rw [View.canon_unit_zero hz3]
  simp only [View.ld_unit_zero (S := S64x8192) hz2, View.ld_unit_zero (S := S64x1) hz2]

theorem out7_eq (x0 x3 : Vec F S64x8192 .f32) : out7 x0 x3 = pay7 x0 x3 := by
  unfold out7 pay7
  rw [View.canon_unit_zero hz3]
  simp only [View.ld_unit_zero (S := S64x8192) hz2]

/-! ## Where each window's block sits at a grid point -/

theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_in2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_in3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_in4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_in5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_out6 : ∀ t : Fin cfg0.N, win0_6.index t (0 : Fin 3) = t.val ∧ win0_6.index t (1 : Fin 3) = 0 ∧ win0_6.index t (2 : Fin 3) = 0 :=
  (by decide +kernel : ∀ t : Fin grid0.N, win0_6.index t (0 : Fin 3) = t.val ∧ win0_6.index t (1 : Fin 3) = 0 ∧ win0_6.index t (2 : Fin 3) = 0)
theorem idx_out7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)

/-! ## The input blocks as rows of the arguments -/

/-- Input window 0's block at point `t` is rows `64 t … 64 t + 63` of argument 1. -/
theorem iblk0_apply (c : Dev nD) (t : Fin cfg0.N) (x : S64x8192.Idx) (k : S4096x8192.Idx)
    (hk0 : (k 0).val = 64 * t.val + (x 0).val) (hk1 : (k 1).val = (x 1).val) :
    (iblk m c 0 t : Vec F S64x8192 .f32) x = (m ((c : Thread nD τ).loc main_arg1) : S4096x8192.Idx → Elt F .f32) k := by
  obtain ⟨e0, e1⟩ := idx_in0 t
  unfold iblk
  rw [View.read_apply]
  show V m c main_arg1 _ = m (c.tc.loc main_arg1) _
  rw [V_of m c main_arg1 (by decide)]
  congr 1
  funext a
  apply Fin.ext
  match a with
  | ⟨0, _⟩ => show win0_0.index t 0 * 64 + 1 * (x 0).val = (k 0).val; rw [e0, hk0]; omega
  | ⟨1, _⟩ => show win0_0.index t 1 * 8192 + 1 * (x 1).val = (k 1).val; rw [e1, hk1]; omega

/-- Input window 1's block at point `t` is rows `64 t … 64 t + 63` of argument 2. -/
theorem iblk1_apply (c : Dev nD) (t : Fin cfg0.N) (x : S64x8192.Idx) (k : S4096x8192.Idx)
    (hk0 : (k 0).val = 64 * t.val + (x 0).val) (hk1 : (k 1).val = (x 1).val) :
    (iblk m c 1 t : Vec F S64x8192 .f32) x = (m ((c : Thread nD τ).loc main_arg2) : S4096x8192.Idx → Elt F .f32) k := by
  obtain ⟨e0, e1⟩ := idx_in1 t
  unfold iblk
  rw [View.read_apply]
  show V m c main_arg2 _ = m (c.tc.loc main_arg2) _
  rw [V_of m c main_arg2 (by decide)]
  congr 1
  funext a
  apply Fin.ext
  match a with
  | ⟨0, _⟩ => show win0_1.index t 0 * 64 + 1 * (x 0).val = (k 0).val; rw [e0, hk0]; omega
  | ⟨1, _⟩ => show win0_1.index t 1 * 8192 + 1 * (x 1).val = (k 1).val; rw [e1, hk1]; omega

/-- Input window 2's block at point `t` is rows `64 t … 64 t + 63` of argument 3. -/
theorem iblk2_apply (c : Dev nD) (t : Fin cfg0.N) (x : S64x8192.Idx) (k : S4096x8192.Idx)
    (hk0 : (k 0).val = 64 * t.val + (x 0).val) (hk1 : (k 1).val = (x 1).val) :
    (iblk m c 2 t : Vec F S64x8192 .f32) x = (m ((c : Thread nD τ).loc main_arg3) : S4096x8192.Idx → Elt F .f32) k := by
  obtain ⟨e0, e1⟩ := idx_in2 t
  unfold iblk
  rw [View.read_apply]
  show V m c main_arg3 _ = m (c.tc.loc main_arg3) _
  rw [V_of m c main_arg3 (by decide)]
  congr 1
  funext a
  apply Fin.ext
  match a with
  | ⟨0, _⟩ => show win0_2.index t 0 * 64 + 1 * (x 0).val = (k 0).val; rw [e0, hk0]; omega
  | ⟨1, _⟩ => show win0_2.index t 1 * 8192 + 1 * (x 1).val = (k 1).val; rw [e1, hk1]; omega

/-- Input window 3's block at point `t` is rows `64 t … 64 t + 63` of argument 4. -/
theorem iblk3_apply (c : Dev nD) (t : Fin cfg0.N) (x : S64x8192.Idx) (k : S4096x8192.Idx)
    (hk0 : (k 0).val = 64 * t.val + (x 0).val) (hk1 : (k 1).val = (x 1).val) :
    (iblk m c 3 t : Vec F S64x8192 .f32) x = (m ((c : Thread nD τ).loc main_arg4) : S4096x8192.Idx → Elt F .f32) k := by
  obtain ⟨e0, e1⟩ := idx_in3 t
  unfold iblk
  rw [View.read_apply]
  show V m c main_arg4 _ = m (c.tc.loc main_arg4) _
  rw [V_of m c main_arg4 (by decide)]
  congr 1
  funext a
  apply Fin.ext
  match a with
  | ⟨0, _⟩ => show win0_3.index t 0 * 64 + 1 * (x 0).val = (k 0).val; rw [e0, hk0]; omega
  | ⟨1, _⟩ => show win0_3.index t 1 * 8192 + 1 * (x 1).val = (k 1).val; rw [e1, hk1]; omega

/-- Input window 4's block at point `t` is rows `64 t … 64 t + 63` of argument 5. -/
theorem iblk4_apply (c : Dev nD) (t : Fin cfg0.N) (x : S64x8192.Idx) (k : S4096x8192.Idx)
    (hk0 : (k 0).val = 64 * t.val + (x 0).val) (hk1 : (k 1).val = (x 1).val) :
    (iblk m c 4 t : Vec F S64x8192 .f32) x = (m ((c : Thread nD τ).loc main_arg5) : S4096x8192.Idx → Elt F .f32) k := by
  obtain ⟨e0, e1⟩ := idx_in4 t
  unfold iblk
  rw [View.read_apply]
  show V m c main_arg5 _ = m (c.tc.loc main_arg5) _
  rw [V_of m c main_arg5 (by decide)]
  congr 1
  funext a
  apply Fin.ext
  match a with
  | ⟨0, _⟩ => show win0_4.index t 0 * 64 + 1 * (x 0).val = (k 0).val; rw [e0, hk0]; omega
  | ⟨1, _⟩ => show win0_4.index t 1 * 8192 + 1 * (x 1).val = (k 1).val; rw [e1, hk1]; omega

/-- The sixth window's array is the first argument re-laid as a column: at the region's entry it is the reshape. -/
theorem V_main_v0 (c : Dev nD) :
    (V m c main_v0 : S4096x1.Idx → Elt F .f32) = shapeCast S4096x1 (m ((c : Thread nD τ).loc main_arg0) : S4096.Idx → Elt F .f32) shapeCasts_S4096_S4096x1 := by
  show StableHlo.after hostOps0 (fun b => m (c, b)) (Proc.devRef .tc main_v0) = _
  after_results
  rfl

/-- Input window 5's block at point `t` is entries `64 t … 64 t + 63` of the first argument. -/
theorem iblk5_apply (c : Dev nD) (t : Fin cfg0.N) (x : S64x1.Idx) (k : S4096.Idx)
    (hk0 : (k 0).val = 64 * t.val + (x 0).val) :
    (iblk m c 5 t : Vec F S64x1 .f32) x = (m ((c : Thread nD τ).loc main_arg0) : S4096.Idx → Elt F .f32) k := by
  obtain ⟨e0, e1⟩ := idx_in5 t
  unfold iblk
  rw [View.read_apply]
  show V m c main_v0 _ = m (c.tc.loc main_arg0) _
  rw [V_main_v0]
  refine shapeCast_apply _ _ _ k ?_
  rw [Shape.rowMajor_val_one, Shape.rowMajor_val_two]
  show (k 0).val = (win0_5.index t 0 * 64 + 1 * (x 0).val) * 1 + (win0_5.index t 1 * 1 + 1 * (x 1).val)
  have hx1 : (x 1).val < 1 := (x 1).isLt
  rw [e0, e1, hk0]; omega

/-! ## The output arrays, row by row -/

theorem idx_inj6 : ∀ t t' : Fin cfg0.N, win0_6.index t = win0_6.index t' → t = t' :=
  (by decide +kernel : ∀ t t' : Fin grid0.N, win0_6.index t = win0_6.index t' → t = t')
theorem idx_inj7 : ∀ t t' : Fin cfg0.N, win0_7.index t = win0_7.index t' → t = t' :=
  (by decide +kernel : ∀ t t' : Fin grid0.N, win0_7.index t = win0_7.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- Row `t` of the packed-sums array, read back through the window, is what point `t` wrote. -/
theorem blocks6 (c : Dev nD) (t : Fin cfg0.N) :
    ((cfg0.win 6).blk t).view.read (Elt F) ((dats m 0 c).arrAt 6 cfg0.N) = (dats m 0 c).flushed 6 t :=
  (dats m 0 c).read_blk_arrAt_eq_flushed 6 disjoint6 cfg0.N t t.isLt (flush0_6 t)
theorem blocks7 (c : Dev nD) (t : Fin cfg0.N) :
    ((cfg0.win 7).blk t).view.read (Elt F) ((dats m 0 c).arrAt 7 cfg0.N) = (dats m 0 c).flushed 7 t :=
  (dats m 0 c).read_blk_arrAt_eq_flushed 7 disjoint7 cfg0.N t t.isLt (flush0_7 t)

/-- What point `t` writes back to the packed-sums array: the stored value on that point's input blocks. -/
theorem flushed6 (c : Dev nD) (t : Fin cfg0.N) :
    ((dats m 0 c).flushed 6 t : Vec F S1x1x128 .f32)
      = pay6 (iblk m c 0 t) (iblk m c 1 t) (iblk m c 2 t) (iblk m c 3 t) (iblk m c 4 t) (iblk m c 5 t) := by
  show (cfg0.win 6).cut (grid0.coords t) ((dats m 0 c).after 6 t) = _
  rw [after6, out6_eq]
  rfl
theorem flushed7 (c : Dev nD) (t : Fin cfg0.N) :
    ((dats m 0 c).flushed 7 t : Vec F S1x1x8192 .f32) = pay7 (iblk m c 0 t) (iblk m c 3 t) := by
  show (cfg0.win 7).cut (grid0.coords t) ((dats m 0 c).after 7 t) = _
  rw [after7, out7_eq]
  rfl

/-- Entry `(t, 0, k)` of the packed-sums array after the region is lane `k` of what point `t` stored. -/
theorem arr6_apply (c : Dev nD) (t : Fin cfg0.N) (x : S1x1x128.Idx) (i : S64x1x128.Idx)
    (h0 : (i 0).val = t.val) (h1 : (i 1).val = 0) (h2 : (i 2).val = (x 2).val) :
    ((dats m 0 c).arrAt 6 cfg0.N : S64x1x128.Idx → Elt F .f32) i
      = pay6 (iblk m c 0 t) (iblk m c 1 t) (iblk m c 2 t) (iblk m c 3 t) (iblk m c 4 t) (iblk m c 5 t) x := by
  obtain ⟨e0, e1, e2⟩ := idx_out6 t
  have hb := congrFun (blocks6 m c t) x
  rw [View.read_apply, flushed6] at hb
  refine Eq.trans ?_ hb
  show (dats m 0 c).arrAt 6 cfg0.N i = (dats m 0 c).arrAt 6 cfg0.N (((cfg0.win 6).blk t).view.emb x)
  congr 1
  funext a
  apply Fin.ext
  have hx0 : (x 0).val < 1 := (x 0).isLt
  have hx1 : (x 1).val < 1 := (x 1).isLt
  match a with
  | ⟨0, _⟩ => show (i 0).val = win0_6.index t 0 * 1 + 1 * (x 0).val; rw [e0, h0]; omega
  | ⟨1, _⟩ => show (i 1).val = win0_6.index t 1 * 1 + 1 * (x 1).val; rw [e1, h1]; omega
  | ⟨2, _⟩ => show (i 2).val = win0_6.index t 2 * 128 + 1 * (x 2).val; rw [e2, h2]; omega

/-- Entry `(t, 0, j)` of the column-sums array after the region is column `j` of what point `t` stored. -/
theorem arr7_apply (c : Dev nD) (t : Fin cfg0.N) (x : S1x1x8192.Idx) (i : S64x1x8192.Idx)
    (h0 : (i 0).val = t.val) (h1 : (i 1).val = 0) (h2 : (i 2).val = (x 2).val) :
    ((dats m 0 c).arrAt 7 cfg0.N : S64x1x8192.Idx → Elt F .f32) i = pay7 (iblk m c 0 t) (iblk m c 3 t) x := by
  obtain ⟨e0, e1, e2⟩ := idx_out7 t
  have hb := congrFun (blocks7 m c t) x
  rw [View.read_apply, flushed7] at hb
  refine Eq.trans ?_ hb
  show (dats m 0 c).arrAt 7 cfg0.N i = (dats m 0 c).arrAt 7 cfg0.N (((cfg0.win 7).blk t).view.emb x)
  congr 1
  funext a
  apply Fin.ext
  have hx0 : (x 0).val < 1 := (x 0).isLt
  have hx1 : (x 1).val < 1 := (x 1).isLt
  match a with
  | ⟨0, _⟩ => show (i 0).val = win0_7.index t 0 * 1 + 1 * (x 0).val; rw [e0, h0]; omega
  | ⟨1, _⟩ => show (i 1).val = win0_7.index t 1 * 1 + 1 * (x 1).val; rw [e1, h1]; omega
  | ⟨2, _⟩ => show (i 2).val = win0_7.index t 2 * 8192 + 1 * (x 2).val; rw [e2, h2]; omega

/-! ## The same facts over explicit coordinates -/

open Idealize.ShloMosaic.ValueIdx

/-- Tile `t` of the 64 as a grid point. -/
abbrev pt (t : Fin 64) : Fin cfg0.N := Fin.cast N_0.symm t

theorem pt_val (t : Fin 64) : (pt t).val = t.val := rfl

/-- Entry `(r, j)` of tile `t`'s block of argument 1 is entry `(64 t + r, j)` of the argument. -/
theorem iblk0_ix (c : Dev nD) (t r : Fin 64) (j : Fin 8192) :
    (iblk m c 0 (pt t) : Vec F S64x8192 .f32) (ix2 r j)
      = (m ((c : Thread nD τ).loc main_arg1) : S4096x8192.Idx → Elt F .f32) (ix2 (⟨64 * t.val + r.val, by omega⟩ : Fin 4096) j) :=
  iblk0_apply m c (pt t) (ix2 r j) (ix2 (⟨64 * t.val + r.val, by omega⟩ : Fin 4096) j) rfl rfl
/-- Entry `(r, j)` of tile `t`'s block of argument 2 is entry `(64 t + r, j)` of the argument. -/
theorem iblk1_ix (c : Dev nD) (t r : Fin 64) (j : Fin 8192) :
    (iblk m c 1 (pt t) : Vec F S64x8192 .f32) (ix2 r j)
      = (m ((c : Thread nD τ).loc main_arg2) : S4096x8192.Idx → Elt F .f32) (ix2 (⟨64 * t.val + r.val, by omega⟩ : Fin 4096) j) :=
  iblk1_apply m c (pt t) (ix2 r j) (ix2 (⟨64 * t.val + r.val, by omega⟩ : Fin 4096) j) rfl rfl
/-- Entry `(r, j)` of tile `t`'s block of argument 3 is entry `(64 t + r, j)` of the argument. -/
theorem iblk2_ix (c : Dev nD) (t r : Fin 64) (j : Fin 8192) :
    (iblk m c 2 (pt t) : Vec F S64x8192 .f32) (ix2 r j)
      = (m ((c : Thread nD τ).loc main_arg3) : S4096x8192.Idx → Elt F .f32) (ix2 (⟨64 * t.val + r.val, by omega⟩ : Fin 4096) j) :=
  iblk2_apply m c (pt t) (ix2 r j) (ix2 (⟨64 * t.val + r.val, by omega⟩ : Fin 4096) j) rfl rfl
/-- Entry `(r, j)` of tile `t`'s block of argument 4 is entry `(64 t + r, j)` of the argument. -/
theorem iblk3_ix (c : Dev nD) (t r : Fin 64) (j : Fin 8192) :
    (iblk m c 3 (pt t) : Vec F S64x8192 .f32) (ix2 r j)
      = (m ((c : Thread nD τ).loc main_arg4) : S4096x8192.Idx → Elt F .f32) (ix2 (⟨64 * t.val + r.val, by omega⟩ : Fin 4096) j) :=
  iblk3_apply m c (pt t) (ix2 r j) (ix2 (⟨64 * t.val + r.val, by omega⟩ : Fin 4096) j) rfl rfl
/-- Entry `(r, j)` of tile `t`'s block of argument 5 is entry `(64 t + r, j)` of the argument. -/
theorem iblk4_ix (c : Dev nD) (t r : Fin 64) (j : Fin 8192) :
    (iblk m c 4 (pt t) : Vec F S64x8192 .f32) (ix2 r j)
      = (m ((c : Thread nD τ).loc main_arg5) : S4096x8192.Idx → Elt F .f32) (ix2 (⟨64 * t.val + r.val, by omega⟩ : Fin 4096) j) :=
  iblk4_apply m c (pt t) (ix2 r j) (ix2 (⟨64 * t.val + r.val, by omega⟩ : Fin 4096) j) rfl rfl
/-- Entry `(r, 0)` of tile `t`'s block of the first argument's column is entry `64 t + r` of the first argument. -/
theorem iblk5_ix (c : Dev nD) (t r : Fin 64) :
    (iblk m c 5 (pt t) : Vec F S64x1 .f32) (ix2 r (0 : Fin 1))
      = (m ((c : Thread nD τ).loc main_arg0) : S4096.Idx → Elt F .f32) (ix1 (⟨64 * t.val + r.val, by omega⟩ : Fin 4096)) :=
  iblk5_apply m c (pt t) (ix2 r (0 : Fin 1)) (ix1 (⟨64 * t.val + r.val, by omega⟩ : Fin 4096)) rfl

/-- Lane `k` of row `t` of the packed-sums array is lane `k` of tile `t`'s stored value. -/
theorem arr6_ix (c : Dev nD) (t : Fin 64) (k : Fin 128) :
    ((dats m 0 c).arrAt 6 cfg0.N : S64x1x128.Idx → Elt F .f32) (ix3 t (0 : Fin 1) k)
      = pay6 (iblk m c 0 (pt t)) (iblk m c 1 (pt t)) (iblk m c 2 (pt t)) (iblk m c 3 (pt t)) (iblk m c 4 (pt t)) (iblk m c 5 (pt t))
          (ix3 (0 : Fin 1) (0 : Fin 1) k) :=
  arr6_apply m c (pt t) (ix3 (0 : Fin 1) (0 : Fin 1) k) (ix3 t (0 : Fin 1) k) rfl rfl rfl

/-- Column `j` of row `t` of the column-sums array is column `j` of tile `t`'s stored value. -/
theorem arr7_ix (c : Dev nD) (t : Fin 64) (j : Fin 8192) :
    ((dats m 0 c).arrAt 7 cfg0.N : S64x1x8192.Idx → Elt F .f32) (ix3 t (0 : Fin 1) j)
      = pay7 (iblk m c 0 (pt t)) (iblk m c 3 (pt t)) (ix3 (0 : Fin 1) (0 : Fin 1) j) :=
  arr7_apply m c (pt t) (ix3 (0 : Fin 1) (0 : Fin 1) j) (ix3 t (0 : Fin 1) j) rfl rfl rfl

end Cert.KernelIdeal.KFrame

end
-- ==== Proof.ReadTail.lean ====
/-
  The two arrays of per-tile partial results, summed over the tiles by the host and read at a lane or a column.

  The first array, [64, 1, 128], holds in lane k of tile t that tile's k-th partial sum; the host sums over the 64
  tiles, flattens [1, 128] to [128], cuts lane k out and makes it a scalar: the value is 0 + Σ_t (lane k of tile t).
  The second array, [64, 1, 8192], holds each tile's partial column sums; summed over the tiles and flattened to
  [8192], its entry j is 0 + Σ_t (column j of tile t).
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.ReadTail

open Idealize.ShloMosaic Idealize.ShloMosaic.ValueIdx
open scoped BigOperators

abbrev S_ : Shape := ⟨0, ![]⟩
abbrev S1 : Shape := ⟨1, ![1]⟩
abbrev S128 : Shape := ⟨1, ![128]⟩
abbrev S8192 : Shape := ⟨1, ![8192]⟩
abbrev S1x128 : Shape := ⟨2, ![1, 128]⟩
abbrev S1x8192 : Shape := ⟨2, ![1, 8192]⟩
abbrev S64x1x128 : Shape := ⟨3, ![64, 1, 128]⟩
abbrev S64x1x8192 : Shape := ⟨3, ![64, 1, 8192]⟩

theorem lift_tile128 (hr : S64x1x128.Reduces [0] S1x128) (k : Fin 128) (t : Fin 64) :
    hr.lift (ix2 (0 : Fin 1) k) t = ix3 t (0 : Fin 1) k := by
  funext c
  match c with
  | ⟨0, _⟩ => exact Fin.ext rfl
  | ⟨1, _⟩ => exact Fin.ext rfl
  | ⟨2, _⟩ => exact Fin.ext rfl

theorem lift_tile8192 (hr : S64x1x8192.Reduces [0] S1x8192) (j : Fin 8192) (t : Fin 64) :
    hr.lift (ix2 (0 : Fin 1) j) t = ix3 t (0 : Fin 1) j := by
  funext c
  match c with
  | ⟨0, _⟩ => exact Fin.ext rfl
  | ⟨1, _⟩ => exact Fin.ext rfl
  | ⟨2, _⟩ => exact Fin.ext rfl

/-- A one-element vector made a scalar reads its element. -/
theorem scalar_of_one {α : Type} (x : S1.Idx → α) (hc' : S1.ShapeCasts S_) :
    shapeCast S_ x hc' ix0 = x (ix1 (0 : Fin 1)) :=
  shapeCast_apply _ hc' ix0 (ix1 (0 : Fin 1)) (by
    have h1 : (S_.rowMajor ix0).val < S_.numel := (S_.rowMajor ix0).isLt
    have h2 : S_.numel = 1 := by decide
    rw [Shape.rowMajor_val_one]
    show (0 : ℕ) = _
    omega)

/-- Lane k of the first array summed over the tiles, as the host's scalar. -/
theorem lane_apply (X : FVec Ideal S64x1x128 .f32) (k : Fin 128) (h' : S64x1x128.ReducesTo [0] S1x128) (hu : 0 < S_.numel)
    (hc : S1x128.ShapeCasts S128) (hs : S128.Slices ![k.val] S1) (hc' : S1.ShapeCasts S_) :
    shapeCast S_ (extractStridedSlice S1 ![k.val] (shapeCast S128 (Host.reduceAdd X (constant S_ .f32 0x00000000#32) h' hu) hc) hs) hc' ix0
      = 0 + ∑ t : Fin 64, X (ix3 t (0 : Fin 1) k) := by
  have hr : S64x1x128.Reduces [0] S1x128 := by decide
  rw [scalar_of_one,
    extractStridedSlice_apply _ _ hs (ix1 (0 : Fin 1)) (ix1 k) (fun a => by
        match a with | ⟨0, _⟩ => simp),
    shapeCast_apply _ hc (ix1 k) (ix2 (0 : Fin 1) k) (by
        rw [Shape.rowMajor_val_one, Shape.rowMajor_val_two]; simp),
    hostReduceAdd_apply, Ideal.hostReduceAdd_single _ hr, constant_apply, Ideal.ofBits_zero_f32]
  exact congrArg (0 + ·) (Finset.sum_congr rfl fun t _ => congrArg X (lift_tile128 hr k t))

/-- Column j of the second array summed over the tiles, in the host's flattened vector. -/
theorem colsum_apply (Y : FVec Ideal S64x1x8192 .f32) (j : Fin 8192) (h' : S64x1x8192.ReducesTo [0] S1x8192)
    (hu : 0 < S_.numel) (hc : S1x8192.ShapeCasts S8192) :
    shapeCast S8192 (Host.reduceAdd Y (constant S_ .f32 0x00000000#32) h' hu) hc (ix1 j)
      = 0 + ∑ t : Fin 64, Y (ix3 t (0 : Fin 1) j) := by
  have hr : S64x1x8192.Reduces [0] S1x8192 := by decide
  rw [shapeCast_apply _ hc (ix1 j) (ix2 (0 : Fin 1) j) (by
        rw [Shape.rowMajor_val_one, Shape.rowMajor_val_two]; simp),
    hostReduceAdd_apply, Ideal.hostReduceAdd_single _ hr, constant_apply, Ideal.ofBits_zero_f32]
  exact congrArg (0 + ·) (Finset.sum_congr rfl fun t _ => congrArg Y (lift_tile8192 hr j t))

end Cert.ReadTail
-- ==== Proof.ReadHost.lean ====
/-
  Host reductions and broadcasts of the reference's shapes, read at an index written by coordinates.

  A float sum along an axis is the initial value plus the sum over that axis's coordinate; a maximum along the
  columns is the fold of max from the initial value over the row; an integer sum along the columns is the fold of
  word addition; a row quantity broadcast first to a column [4096, 1] and then across [4096, 8192] reads, at (i, j),
  the quantity of row i.
-/
import Mathlib.Data.BitVec
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

namespace Cert.ReadHost

open Idealize.ShloMosaic Idealize.ShloMosaic.ValueIdx
open scoped BigOperators

abbrev S_ : Shape := ⟨0, ![]⟩
abbrev S4096 : Shape := ⟨1, ![4096]⟩
abbrev S8192 : Shape := ⟨1, ![8192]⟩
abbrev S4096x1 : Shape := ⟨2, ![4096, 1]⟩
abbrev S4096x8192 : Shape := ⟨2, ![4096, 8192]⟩

/-! ## The inserted index of each one-axis reduction -/

theorem lift_row (hr : S4096x8192.Reduces [1] S4096) (i : Fin 4096) (k : Fin 8192) : hr.lift (ix1 i) k = ix2 i k := by
  funext c
  match c with
  | ⟨0, _⟩ => exact Fin.ext rfl
  | ⟨1, _⟩ => exact Fin.ext rfl

theorem lift_col (hr : S4096x8192.Reduces [0] S8192) (j : Fin 8192) (i : Fin 4096) : hr.lift (ix1 j) i = ix2 i j := by
  funext c
  match c with
  | ⟨0, _⟩ => exact Fin.ext rfl
  | ⟨1, _⟩ => exact Fin.ext rfl

/-- The indices of a vector are its coordinates. -/
def ix1Equiv (n : Nat) : Fin n ≃ (⟨1, ![n]⟩ : Shape).Idx where
  toFun := ix1
  invFun := fun i => i 0
  left_inv := fun _ => rfl
  right_inv := fun i => (eq_ix1 i).symm

/-- A sum over the indices of a vector is the sum over its coordinates. -/
theorem sum_idx1 {α : Type} [AddCommMonoid α] {n : Nat} (x : (⟨1, ![n]⟩ : Shape).Idx → α) :
    ∑ i : (⟨1, ![n]⟩ : Shape).Idx, x i = ∑ k : Fin n, x (ix1 k) :=
  (Equiv.sum_comp (ix1Equiv n) x).symm

/-! ## Float sums -/

/-- A host sum along the columns, at row i: the initial value plus the sum over the row. -/
theorem sum_rows (x : FVec Ideal S4096x8192 .f32) (init : S_.Idx → Ideal .f32) (h' : S4096x8192.ReducesTo [1] S4096)
    (hu : 0 < S_.numel) (i : Fin 4096) :
    Host.reduceAdd x init h' hu (ix1 i) = init (Shape.Idx.first hu) + ∑ k : Fin 8192, x (ix2 i k) := by
  have hr : S4096x8192.Reduces [1] S4096 := by decide
  rw [hostReduceAdd_apply, Ideal.hostReduceAdd_single _ hr]
  exact congrArg (init (Shape.Idx.first hu) + ·) (Finset.sum_congr rfl fun k _ => congrArg x (lift_row hr i k))

/-- A host sum along the rows, at column j: the initial value plus the sum over the column. -/
theorem sum_cols (x : FVec Ideal S4096x8192 .f32) (init : S_.Idx → Ideal .f32) (h' : S4096x8192.ReducesTo [0] S8192)
    (hu : 0 < S_.numel) (j : Fin 8192) :
    Host.reduceAdd x init h' hu (ix1 j) = init (Shape.Idx.first hu) + ∑ i : Fin 4096, x (ix2 i j) := by
  have hr : S4096x8192.Reduces [0] S8192 := by decide
  rw [hostReduceAdd_apply, Ideal.hostReduceAdd_single _ hr]
  exact congrArg (init (Shape.Idx.first hu) + ·) (Finset.sum_congr rfl fun i _ => congrArg x (lift_col hr j i))

/-- A host sum of a whole vector: the initial value plus the sum of its entries. -/
theorem sum_vec {n : Nat} (x : FVec Ideal ⟨1, ![n]⟩ .f32) (init : S_.Idx → Ideal .f32)
    (h' : (⟨1, ![n]⟩ : Shape).ReducesTo [0] S_) (hu : 0 < S_.numel) :
    Host.reduceAdd x init h' hu ix0 = init (Shape.Idx.first hu) + ∑ i : Fin n, x (ix1 i) := by
  rw [hostReduceAdd_apply, Ideal.hostReduceAdd_total h' (fun b => b.elim0)]
  exact congrArg (init (Shape.Idx.first hu) + ·) (sum_idx1 x)

/-! ## A row quantity broadcast across its row -/

/-- A vector over the rows, made a column and then broadcast across the columns, reads at (i, j) its entry i. -/
theorem bcast_row_apply {α : Type} (x : S4096.Idx → α) (h1 : S4096.BroadcastsInDim S4096x1 ![0])
    (h2 : S4096x1.BroadcastsInDim S4096x8192 ![0, 1]) (i : Fin 4096) (j : Fin 8192) :
    broadcastInDim S4096x8192 ![0, 1] h2 (broadcastInDim S4096x1 ![0] h1 x) (ix2 i j) = x (ix1 i) := by
  rw [broadcastInDim_apply _ h2 _ (ix2 i j) (ix2 i (0 : Fin 1)) (fun a => by
        match a with
        | ⟨0, _⟩ => simp [Shape.size]
        | ⟨1, _⟩ => simp [Shape.size]),
    broadcastInDim_apply _ h1 _ (ix2 i (0 : Fin 1)) (ix1 i) (fun a => by
        match a with
        | ⟨0, _⟩ => simp [Shape.size])]

/-- A vector over the rows made a column reads at (i, 0) its entry i. -/
theorem bcast_col_apply {α : Type} (x : S4096.Idx → α) (h1 : S4096.BroadcastsInDim S4096x1 ![0]) (i : Fin 4096) :
    broadcastInDim S4096x1 ![0] h1 x (ix2 i (0 : Fin 1)) = x (ix1 i) := by
  rw [broadcastInDim_apply _ h1 _ (ix2 i (0 : Fin 1)) (ix1 i) (fun a => by
        match a with
        | ⟨0, _⟩ => simp [Shape.size])]

/-! ## A maximum and an integer sum along the columns -/

/-- A fold of word addition from b is b plus the sum. -/
theorem fold_addi_eq {ι : Type} (s : Finset ι) (b : BitVec 32) (f : ι → BitVec 32) :
    s.fold IntOp.addi b f = b + ∑ k ∈ s, f k := by
  classical
  induction s using Finset.induction_on with
  | empty => simp
  | insert a s ha ih =>
    rw [Finset.fold_insert ha, Finset.sum_insert ha, ih]
    show f a + (b + _) = _
    rw [add_left_comm]

/-- A host maximum along the columns, at row i: the fold of max from the initial value over the row. -/
theorem max_rows (x : FVec Ideal S4096x8192 .f32) (init : S_.Idx → Ideal .f32) (h' : S4096x8192.ReducesTo [1] S4096)
    (hu : 0 < S_.numel) (i : Fin 4096) :
    Host.reduce FloatOps.maximumf x init h' hu (ix1 i)
      = (Finset.univ : Finset (Fin 8192)).fold max (init (Shape.Idx.first hu)) (fun k => x (ix2 i k)) := by
  have hr : S4096x8192.Reduces [1] S4096 := by decide
  rw [Host.reduce_eq_fold_single (FloatOps.maximumf (F := Ideal) (φ := .f32)) x init h' hr hu (ix1 i)]
  exact congrArg (Finset.fold _ _ · _) (funext fun k => congrArg x (lift_row hr i k))

/-- A host integer sum along the columns, at row i: the initial word plus the sum of the row's words. -/
theorem sumI_rows (x : IVec S4096x8192 32) (init : S_.Idx → BitVec 32) (h' : S4096x8192.ReducesTo [1] S4096)
    (hu : 0 < S_.numel) (i : Fin 4096) :
    Host.reduce IntOp.addi x init h' hu (ix1 i) = init (Shape.Idx.first hu) + ∑ k : Fin 8192, x (ix2 i k) := by
  have hr : S4096x8192.Reduces [1] S4096 := by decide
  rw [Host.reduce_eq_fold_single (IntOp.addi (w := 32)) x init h' hr hu (ix1 i), fold_addi_eq]
  exact congrArg (init (Shape.Idx.first hu) + ·) (Finset.sum_congr rfl fun k _ => congrArg x (lift_row hr i k))

/-- The same for a whole vector of words. -/
theorem sumI_vec {n : Nat} (x : IVec ⟨1, ![n]⟩ 32) (init : S_.Idx → BitVec 32)
    (h' : (⟨1, ![n]⟩ : Shape).ReducesTo [0] S_) (hu : 0 < S_.numel) :
    Host.reduce IntOp.addi x init h' hu ix0 = init (Shape.Idx.first hu) + ∑ i : Fin n, x (ix1 i) := by
  rw [Host.reduce_eq_fold (IntOp.addi (w := 32)) x init h' hu ix0, fold_addi_eq,
    Finset.filter_true_of_mem fun i _ => funext fun b => b.elim0]
  exact congrArg (init (Shape.Idx.first hu) + ·) (sum_idx1 x)

end Cert.ReadHost
-- ==== Proof.RefRow.lean ====
/-
  The reference's row quantities, as functions of one row of each array.

  Every quantity the reference computes before it sums over the rows depends on one row of the weights w, the
  confidences c, the returns r, the masks m and the scores s, and on that row's portfolio return p. They are written
  here exactly as the reference arranges them — a host sum carries its zero initial value, a product is associated the
  reference's way, the count of valid entries is a sum of 32-bit words — over a row given as a function of the column.
-/
import Mathlib.Data.BitVec
import Idealize.ShloMosaic.PureOps.Ideal
import Idealize.ShloMosaic.PureOps.Ideal.Laws

noncomputable section

namespace Cert.RefRow

open Idealize.ShloMosaic
open scoped BigOperators

abbrev Row := Fin 8192 → EReal

/-- The small constant added inside logarithms and to divisors. -/
def eps : EReal := Ideal.ofBits .f32 0x322BCC77#32
/-- The large negative fill value of the masked softmaxes. -/
def fill : EReal := Ideal.ofBits .f32 0xF149F2CA#32
def negInf : EReal := Ideal.ofBits .f32 0xFF800000#32
def one : EReal := Ideal.ofBits .f32 0x3F800000#32
def c50 : EReal := Ideal.ofBits .f32 0x42480000#32
def c20 : EReal := Ideal.ofBits .f32 0x41A00000#32

/-- Σ_j w_j · log (w_j + ε), from zero. -/
def conc (w : Row) : EReal := 0 + ∑ j, w j * Ideal.log (w j + eps)
/-- Σ_j (w_j · c_j) · m_j, from zero. -/
def sel (w c m : Row) : EReal := 0 + ∑ j, (w j * c j) * m j
/-- (Σ_j w_j · m_j) + ε. -/
def tot (w m : Row) : EReal := (0 + ∑ j, w j * m j) + eps
/-- 1 / (1 + e^(−50 p)). -/
def sigm (p : EReal) : EReal := Ideal.div one (one + Ideal.exp (-(p * c50)))
/-- The row's confidence error. -/
def diff (w c m : Row) (p : EReal) : EReal := Ideal.div (sel w c m) (tot w m) - sigm p
/-- (Σ_j w_j) + ε: the divisor that normalises the row. -/
def mass (w : Row) : EReal := (0 + ∑ j, w j) + eps
/-- The normalised, masked weight at column j. -/
def norm (w m : Row) (j : Fin 8192) : EReal := Ideal.div (w j) (mass w) * m j

/-- Entry j is valid when its mask is positive. -/
def valid (m : Row) (j : Fin 8192) : BitVec 1 := Ideal.cmp .ogt (m j) (Ideal.ofBits .f32 0x00000000#32)
/-- The number of valid entries, counted in 32-bit words. -/
def countI (m : Row) : BitVec 32 := 0#32 + ∑ j, (valid m j).setWidth 32
/-- The masked, scaled returns. -/
def mret (r m : Row) (j : Fin 8192) : EReal := Scalar.select (valid m j) (r j * c20) fill
/-- Their maximum (taken once more against −∞, as the reference does). -/
def maxret (r m : Row) : EReal := max negInf ((Finset.univ : Finset (Fin 8192)).fold max negInf (mret r m))
def eret (r m : Row) (j : Fin 8192) : EReal := Ideal.exp (mret r m j - maxret r m)
def sumeret (r m : Row) : EReal := 0 + ∑ j, eret r m j
/-- The target distribution: the softmax of the masked, scaled returns. -/
def tgt (r m : Row) (j : Fin 8192) : EReal := Ideal.div (eret r m j) (sumeret r m)
/-- The masked scores. -/
def msc (s m : Row) (j : Fin 8192) : EReal := Scalar.select (valid m j) (s j) fill
def maxsc (s m : Row) : EReal := max negInf ((Finset.univ : Finset (Fin 8192)).fold max negInf (msc s m))
def sh (s m : Row) (j : Fin 8192) : EReal := msc s m j - maxsc s m
def lse (s m : Row) : EReal := Ideal.log (0 + ∑ j, Ideal.exp (sh s m j))
/-- The log-softmax of the masked scores, zeroed where invalid. -/
def ldm (s m : Row) (j : Fin 8192) : EReal := Scalar.select (valid m j) (sh s m j - lse s m) (Ideal.ofBits .f32 0x00000000#32)
def psum (r s m : Row) : EReal := 0 + ∑ j, tgt r m j * ldm s m j
/-- The row's ranking loss: minus the cross term, over max(count, 1) converted to a float. -/
def per (r s m : Row) : EReal := Ideal.div (-(psum r s m)) (((IntOp.maxsi (countI m) 1#32).toInt : ℝ) : EReal)
/-- The row counts when it has at least two valid entries. -/
def ok (m : Row) : BitVec 1 := IntOp.cmpi .sge (countI m) 2#32
/-- The row's contribution to the ranking total. -/
def rank (r s m : Row) : EReal := Scalar.select (ok m) (per r s m) (Ideal.ofBits .f32 0x00000000#32)

end Cert.RefRow
-- ==== Proof.RefRead1.lean ====
/-
  The reference's concentration, confidence and normalised-weight stages, read at a row.

  Each stage vector of the reference, at row i (and column j), is the row quantity of Cert.RefRow at row i of the
  argument arrays: the host's sums open as the zero initial value plus a sum over the columns, a scalar or a row
  quantity broadcast reads the scalar or the row's entry, and every other operation acts entry by entry.
-/
import proofs.«122764_j16621523435816_2_alg».proof.Proof.RefRunVals
import proofs.«122764_j16621523435816_2_alg».proof.Proof.RefRow
import proofs.«122764_j16621523435816_2_alg».proof.Proof.ReadHost

noncomputable section

namespace Cert.ReferenceIdeal.RefRead

open Cert.ReferenceIdeal Cert.ReferenceIdeal.Gen Cert.ReferenceIdeal.RefRun Idealize.ShloMosaic Idealize.ShloMosaic.ValueIdx
open Cert.RefRow
open scoped BigOperators

/-- Row i of a [4096, 8192] array, as a function of the column. -/
def rowOf (a : FVec Ideal S4096x8192 .f32) (i : Fin 4096) : Cert.RefRow.Row := fun j => a (ix2 i j)

/-- The concentration stage at row i. -/
theorem v12_apply (a1 : FVec Ideal S4096x8192 .f32) (i : Fin 4096) :
    val_main_v12 (F := Ideal) a1 (ix1 i) = conc (rowOf a1 i) := by
  unfold val_main_v12
  dsimp only
  rw [Cert.ReadHost.sum_rows, constant_apply, Ideal.ofBits_zero_f32]
  rfl

/-- The selected-confidence sum at row i. -/
theorem v18_apply (a1 a2 a4 : FVec Ideal S4096x8192 .f32) (i : Fin 4096) :
    val_main_v18 (F := Ideal) a1 a2 a4 (ix1 i) = sel (rowOf a1 i) (rowOf a2 i) (rowOf a4 i) := by
  unfold val_main_v18
  dsimp only
  rw [Cert.ReadHost.sum_rows, constant_apply, Ideal.ofBits_zero_f32]
  rfl

/-- The total masked weight plus ε at row i. -/
theorem v22_apply (a1 a4 : FVec Ideal S4096x8192 .f32) (i : Fin 4096) :
    val_main_v22 (F := Ideal) a1 a4 (ix1 i) = tot (rowOf a1 i) (rowOf a4 i) := by
  unfold val_main_v22 val_main_v20
  dsimp only
  rw [addf_apply, Cert.ReadHost.sum_rows, constant_apply, Ideal.ofBits_zero_f32]
  rfl

/-- The confidence target at row i. -/
theorem v31_apply (a0 : FVec Ideal S4096 .f32) (i : Fin 4096) :
    val_main_v31 (F := Ideal) a0 (ix1 i) = sigm (a0 (ix1 i)) := rfl

/-- The confidence error at row i. -/
theorem v32_apply (a0 : FVec Ideal S4096 .f32) (a1 a2 a4 : FVec Ideal S4096x8192 .f32) (i : Fin 4096) :
    val_main_v32 (F := Ideal) a0 a1 a2 a4 (ix1 i) = diff (rowOf a1 i) (rowOf a2 i) (rowOf a4 i) (a0 (ix1 i)) := by
  unfold val_main_v32 val_main_v23
  rw [subf_apply, hostDivf_apply, v18_apply, v22_apply, v31_apply]
  rfl

/-- The normalising divisor at row i (as the column [4096, 1]). -/
theorem v39_apply (a1 : FVec Ideal S4096x8192 .f32) (i : Fin 4096) :
    val_main_v39 (F := Ideal) a1 (ix2 i (0 : Fin 1)) = mass (rowOf a1 i) := by
  unfold val_main_v39 val_main_v37 val_main_v36
  dsimp only
  rw [addf_apply, Cert.ReadHost.bcast_col_apply, Cert.ReadHost.sum_rows, constant_apply, Ideal.ofBits_zero_f32]
  rfl

/-- The normalised, masked weight at (i, j). -/
theorem v42_apply (a1 a4 : FVec Ideal S4096x8192 .f32) (i : Fin 4096) (j : Fin 8192) :
    val_main_v42 (F := Ideal) a1 a4 (ix2 i j) = norm (rowOf a1 i) (rowOf a4 i) j := by
  unfold val_main_v42 val_main_v41 val_main_v40
  rw [mulf_apply, hostDivf_apply]
  rw [broadcastInDim_apply _ _ _ (ix2 i j) (ix2 i (0 : Fin 1)) (fun a => by
        match a with
        | ⟨0, _⟩ => simp [Shape.size]
        | ⟨1, _⟩ => simp [Shape.size]), v39_apply]
  rfl

end Cert.ReferenceIdeal.RefRead
-- ==== Proof.RefRead2.lean ====
/-
  The reference's ranking stages, read at a row.

  Row i's mask decides which entries are valid; the valid entries are counted in 32-bit words; the masked, scaled
  returns give the target softmax and the masked scores the log-softmax, each row's maximum taken along the columns
  (and once more against −∞) and broadcast back across the row; the row's loss is minus the sum of their products over
  max(count, 1), kept only when the count is at least two. Each stage vector at row i is the row quantity of
  Cert.RefRow at row i of the argument arrays.
-/
import proofs.«122764_j16621523435816_2_alg».proof.Proof.RefRunVals
import proofs.«122764_j16621523435816_2_alg».proof.Proof.RefRow
import proofs.«122764_j16621523435816_2_alg».proof.Proof.ReadHost
import proofs.«122764_j16621523435816_2_alg».proof.Proof.RefRead1

noncomputable section

namespace Cert.ReferenceIdeal.RefRead

open Cert.ReferenceIdeal Cert.ReferenceIdeal.Gen Cert.ReferenceIdeal.RefRun Idealize.ShloMosaic Idealize.ShloMosaic.ValueIdx
open Cert.RefRow
open scoped BigOperators

variable (a3 a4 a5 : FVec Ideal S4096x8192 .f32) (i : Fin 4096) (j : Fin 8192)

/-- Validity at (i, j). -/
theorem v58_apply : val_main_v58 (F := Ideal) a4 (ix2 i j) = valid (rowOf a4 i) j := rfl

/-- The count of valid entries of row i, in words. -/
theorem v60_apply : val_main_v60 (F := Ideal) a4 (ix1 i) = countI (rowOf a4 i) := by
  unfold val_main_v60
  dsimp only
  rw [Cert.ReadHost.sumI_rows]
  rfl

/-- The masked, scaled returns at (i, j). -/
theorem v63_apply : val_main_v63 (F := Ideal) a3 a4 (ix2 i j) = mret (rowOf a3 i) (rowOf a4 i) j := rfl

/-- Row i's maximum of them. -/
theorem v66_apply : val_main_v66 (F := Ideal) a3 a4 (ix1 i) = maxret (rowOf a3 i) (rowOf a4 i) := by
  unfold val_main_v66 val_main_v64
  dsimp only
  rw [maximumf_apply, Cert.ReadHost.max_rows]
  rfl

theorem v68_apply : val_main_v68 (F := Ideal) a3 a4 (ix2 i j) = maxret (rowOf a3 i) (rowOf a4 i) := by
  unfold val_main_v68 val_main_v67
  rw [Cert.ReadHost.bcast_row_apply, v66_apply]

theorem v70_apply : val_main_v70 (F := Ideal) a3 a4 (ix2 i j) = eret (rowOf a3 i) (rowOf a4 i) j := by
  unfold val_main_v70 val_main_v69
  show Ideal.exp (val_main_v63 (F := Ideal) a3 a4 (ix2 i j) - val_main_v68 (F := Ideal) a3 a4 (ix2 i j)) = _
  rw [v68_apply, v63_apply]
  rfl

theorem v71_apply : val_main_v71 (F := Ideal) a3 a4 (ix1 i) = sumeret (rowOf a3 i) (rowOf a4 i) := by
  unfold val_main_v71
  dsimp only
  rw [Cert.ReadHost.sum_rows, constant_apply, Ideal.ofBits_zero_f32]
  exact congrArg (0 + ·) (Finset.sum_congr rfl fun k _ => v70_apply a3 a4 i k)

/-- The target distribution at (i, j). -/
theorem v74_apply : val_main_v74 (F := Ideal) a3 a4 (ix2 i j) = tgt (rowOf a3 i) (rowOf a4 i) j := by
  unfold val_main_v74 val_main_v73 val_main_v72
  rw [hostDivf_apply, Cert.ReadHost.bcast_row_apply, v70_apply, v71_apply]
  rfl

/-- The masked scores at (i, j). -/
theorem v75_apply : val_main_v75 (F := Ideal) a4 a5 (ix2 i j) = msc (rowOf a5 i) (rowOf a4 i) j := rfl

theorem call4_v2_apply : val_main_call4_v2 (F := Ideal) a4 a5 (ix1 i) = maxsc (rowOf a5 i) (rowOf a4 i) := by
  unfold val_main_call4_v2 val_main_call4_v0
  dsimp only
  rw [maximumf_apply, Cert.ReadHost.max_rows]
  rfl

theorem call4_v5_apply : val_main_call4_v5 (F := Ideal) a4 a5 (ix2 i j) = sh (rowOf a5 i) (rowOf a4 i) j := by
  unfold val_main_call4_v5 val_main_call4_v4 val_main_call4_v3
  rw [subf_apply, Cert.ReadHost.bcast_row_apply, call4_v2_apply]
  rfl

theorem call4_v9_apply : val_main_call4_v9 (F := Ideal) a4 a5 (ix2 i (0 : Fin 1)) = lse (rowOf a5 i) (rowOf a4 i) := by
  unfold val_main_call4_v9
  show Ideal.log (val_main_call4_v8 (F := Ideal) a4 a5 (ix2 i (0 : Fin 1))) = _
  unfold val_main_call4_v8 val_main_call4_v7
  dsimp only
  rw [Cert.ReadHost.bcast_col_apply, Cert.ReadHost.sum_rows, constant_apply, Ideal.ofBits_zero_f32]
  unfold lse
  refine congrArg (fun x => Ideal.log (0 + x)) (Finset.sum_congr rfl fun k _ => ?_)
  unfold val_main_call4_v6
  show Ideal.exp (val_main_call4_v5 (F := Ideal) a4 a5 (ix2 i k)) = _
  rw [call4_v5_apply]

theorem v76_apply : val_main_v76 (F := Ideal) a4 a5 (ix2 i j) = sh (rowOf a5 i) (rowOf a4 i) j - lse (rowOf a5 i) (rowOf a4 i) := by
  unfold val_main_v76 val_main_call4_v10
  rw [subf_apply, call4_v5_apply]
  rw [broadcastInDim_apply _ _ _ (ix2 i j) (ix2 i (0 : Fin 1)) (fun a => by
        match a with
        | ⟨0, _⟩ => simp [Shape.size]
        | ⟨1, _⟩ => simp [Shape.size]), call4_v9_apply]

/-- The log-softmax of the masked scores, zeroed where invalid, at (i, j). -/
theorem v77_apply : val_main_v77 (F := Ideal) a4 a5 (ix2 i j) = ldm (rowOf a5 i) (rowOf a4 i) j := by
  unfold val_main_v77
  rw [select_apply, v76_apply, v58_apply]
  rfl

theorem v79_apply : val_main_v79 (F := Ideal) a3 a4 a5 (ix1 i) = psum (rowOf a3 i) (rowOf a5 i) (rowOf a4 i) := by
  unfold val_main_v79 val_main_v78
  dsimp only
  rw [Cert.ReadHost.sum_rows, constant_apply, Ideal.ofBits_zero_f32]
  refine congrArg (0 + ·) (Finset.sum_congr rfl fun k _ => ?_)
  rw [mulf_apply, v74_apply, v77_apply]

/-- Row i's ranking loss. -/
theorem v84_apply : val_main_v84 (F := Ideal) a3 a4 a5 (ix1 i) = per (rowOf a3 i) (rowOf a5 i) (rowOf a4 i) := by
  unfold val_main_v84 val_main_v83 val_main_v82 val_main_v80
  rw [hostDivf_apply]
  show Ideal.div (-(val_main_v79 (F := Ideal) a3 a4 a5 (ix1 i)))
      (((IntOp.maxsi (val_main_v60 (F := Ideal) a4 (ix1 i)) (val_main_v81 (F := Ideal) (ix1 i))).toInt : ℝ) : EReal) = _
  rw [v79_apply, v60_apply]
  rfl

/-- Whether row i counts. -/
theorem v86_apply : val_main_v86 (F := Ideal) a4 (ix1 i) = ok (rowOf a4 i) := by
  unfold val_main_v86
  show IntOp.cmpi .sge (val_main_v60 (F := Ideal) a4 (ix1 i)) (val_main_v85 (F := Ideal) (ix1 i)) = _
  rw [v60_apply]
  rfl

/-- Row i's contribution to the ranking total. -/
theorem v89_apply : val_main_v89 (F := Ideal) a3 a4 a5 (ix1 i) = rank (rowOf a3 i) (rowOf a5 i) (rowOf a4 i) := by
  unfold val_main_v89
  rw [select_apply, v86_apply, v84_apply]
  rfl

end Cert.ReferenceIdeal.RefRead
-- ==== Proof.RefRead3.lean ====
/-
  The reference's sums over the rows.

  Each scalar the reference forms by summing a row quantity over the 4096 rows is the zero initial value plus the sum
  of that quantity over the rows; the column sums of the normalised, masked weights are, at column j, zero plus the sum
  over the rows of the entry at j; the number of rows that count is a sum of 32-bit words.
-/
import proofs.«122764_j16621523435816_2_alg».proof.Proof.RefRunVals
import proofs.«122764_j16621523435816_2_alg».proof.Proof.RefRow
import proofs.«122764_j16621523435816_2_alg».proof.Proof.ReadHost
import proofs.«122764_j16621523435816_2_alg».proof.Proof.RefRead1
import proofs.«122764_j16621523435816_2_alg».proof.Proof.RefRead2

noncomputable section

namespace Cert.ReferenceIdeal.RefRead

open Cert.ReferenceIdeal Cert.ReferenceIdeal.Gen Cert.ReferenceIdeal.RefRun Idealize.ShloMosaic Idealize.ShloMosaic.ValueIdx
open Cert.RefRow
open scoped BigOperators

variable (a0 : FVec Ideal S4096 .f32) (a1 a2 a3 a4 a5 : FVec Ideal S4096x8192 .f32)

/-- The concentration total. -/
theorem v13_apply : val_main_v13 (F := Ideal) a1 ix0 = 0 + ∑ i : Fin 4096, conc (rowOf a1 i) := by
  unfold val_main_v13
  dsimp only
  rw [Cert.ReadHost.sum_vec, constant_apply, Ideal.ofBits_zero_f32]
  exact congrArg (0 + ·) (Finset.sum_congr rfl fun i _ => v12_apply a1 i)

/-- The total of the squared confidence errors. -/
theorem v34_apply : val_main_v34 (F := Ideal) a0 a1 a2 a4 ix0
    = 0 + ∑ i : Fin 4096, diff (rowOf a1 i) (rowOf a2 i) (rowOf a4 i) (a0 (ix1 i)) * diff (rowOf a1 i) (rowOf a2 i) (rowOf a4 i) (a0 (ix1 i)) := by
  unfold val_main_v34 val_main_v33
  dsimp only
  rw [Cert.ReadHost.sum_vec, constant_apply, Ideal.ofBits_zero_f32]
  refine congrArg (0 + ·) (Finset.sum_congr rfl fun i _ => ?_)
  rw [mulf_apply, v32_apply]

/-- The column sums of the normalised, masked weights. -/
theorem v43_apply (j : Fin 8192) : val_main_v43 (F := Ideal) a1 a4 (ix1 j)
    = 0 + ∑ i : Fin 4096, norm (rowOf a1 i) (rowOf a4 i) j := by
  unfold val_main_v43
  dsimp only
  rw [Cert.ReadHost.sum_cols, constant_apply, Ideal.ofBits_zero_f32]
  exact congrArg (0 + ·) (Finset.sum_congr rfl fun i _ => v42_apply a1 a4 i j)

/-- The number of rows that count, in words. -/
theorem v88_apply : val_main_v88 (F := Ideal) a4 ix0 = 0#32 + ∑ i : Fin 4096, (ok (rowOf a4 i)).setWidth 32 := by
  unfold val_main_v88 val_main_v87
  dsimp only
  rw [Cert.ReadHost.sumI_vec]
  refine congrArg (0#32 + ·) (Finset.sum_congr rfl fun i _ => ?_)
  rw [extui_apply, v86_apply]

/-- The ranking total. -/
theorem v90_apply : val_main_v90 (F := Ideal) a3 a4 a5 ix0
    = 0 + ∑ i : Fin 4096, rank (rowOf a3 i) (rowOf a5 i) (rowOf a4 i) := by
  unfold val_main_v90
  dsimp only
  rw [Cert.ReadHost.sum_vec, constant_apply, Ideal.ofBits_zero_f32]
  exact congrArg (0 + ·) (Finset.sum_congr rfl fun i _ => v89_apply a3 a4 a5 i)

end Cert.ReferenceIdeal.RefRead
-- ==== Proof.LibWordReal.lean ====
/-
  A 32-bit word against its exact conversion to an extended real.

  The conversion of a signed word is monotone, so an integer comparison of a word with 2 or with 0 is the float
  comparison of its conversion with 2.0 or 0.0, and the conversion of the signed maximum of a word and 1 is the maximum
  of its conversion and 1.0. The float patterns 0x40000000 and 0x3F800000 denote the reals 2 and 1.
-/
import Mathlib.Data.BitVec
import Idealize.ShloMosaic.PureOps.Ideal
import Idealize.ShloMosaic.PureOps.Ideal.Laws
import Idealize.ShloMosaic.Lib.IdealHost
import Idealize.ShloMosaic.Lib.Affine

noncomputable section

namespace Cert.LibWordReal

open Idealize.ShloMosaic

/-- The exact conversion of a signed word. -/
def conv (n : BitVec 32) : EReal := ((n.toInt : ℝ) : EReal)

/-- The f32 pattern 0x40000000 is the real 2. -/
theorem ofBits_two_f32 : Ideal.ofBits .f32 0x40000000#32 = ((2 : ℝ) : EReal) := by
  simp [Ideal.ofBits, Ideal.ieee, -EReal.coe_mul]; norm_num

theorem conv_le_conv {a b : BitVec 32} : conv a ≤ conv b ↔ a.toInt ≤ b.toInt := by
  unfold conv; rw [EReal.coe_le_coe_iff]; exact Int.cast_le

theorem conv_lt_conv {a b : BitVec 32} : conv a < conv b ↔ a.toInt < b.toInt := by
  unfold conv; rw [EReal.coe_lt_coe_iff]; exact Int.cast_lt

/-- "the word is at least 2" is "its conversion is at least 2.0". -/
theorem cmpi_sge_two (n : BitVec 32) :
    IntOp.cmpi .sge n 2#32 = Ideal.cmp .oge (conv n) (Ideal.ofBits .f32 0x40000000#32) := by
  have h2 : Ideal.ofBits .f32 0x40000000#32 = conv 2#32 := by
    have e : (2#32 : BitVec 32).toInt = 2 := by decide
    rw [ofBits_two_f32]; unfold conv; rw [e]; norm_num
  rw [h2]
  unfold Ideal.cmp IntOp.cmpi
  simp only [conv_le_conv]
  congr 1

/-- "the word is positive" is "its conversion is positive". -/
theorem cmpi_sgt_zero (n : BitVec 32) :
    IntOp.cmpi .sgt n 0#32 = Ideal.cmp .ogt (conv n) 0 := by
  have h0 : (0 : EReal) = conv 0#32 := by
    have e : (0#32 : BitVec 32).toInt = 0 := by decide
    unfold conv; rw [e]; norm_num
  rw [h0]
  unfold Ideal.cmp IntOp.cmpi
  simp only [conv_lt_conv]
  congr 1

/-- The conversion of max(n, 1) is the maximum of the conversion and 1. -/
theorem conv_maxsi_one (n : BitVec 32) : conv (IntOp.maxsi n 1#32) = max (conv n) 1 := by
  have h1 : (1 : EReal) = conv 1#32 := by
    have e : (1#32 : BitVec 32).toInt = 1 := by decide
    unfold conv; rw [e]; norm_num
  rw [h1]
  unfold IntOp.maxsi
  by_cases h : (1#32 : BitVec 32).slt n
  · rw [if_pos h]
    have : (1#32 : BitVec 32).toInt < n.toInt := BitVec.slt_iff_toInt_lt.mp h
    exact (max_eq_left (conv_le_conv.2 (le_of_lt this))).symm
  · rw [if_neg h]
    have : ¬ (1#32 : BitVec 32).toInt < n.toInt := fun hh => h (BitVec.slt_iff_toInt_lt.mpr hh)
    exact (max_eq_right (conv_le_conv.2 (not_lt.mp this))).symm

end Cert.LibWordReal
-- ==== Proof.RefRead4.lean ====
/-
  The reference's scalar results in terms of its sums over the rows.

  The concentration loss is minus the concentration total over 4096; the confidence loss the total of squared errors
  over 4096; the batch-entropy term one fixed function of the vector of column sums (divide by 4096, normalise by
  the sum plus ε, sum a · log (a + ε)), negated twice; the ranking term the ranking total over max(the number of rows
  that count, 1) when that number is positive, zero otherwise; and the result their weighted sum, added from the left
  to the return and Sharpe terms.
-/
import proofs.«122764_j16621523435816_2_alg».proof.Proof.RefRunVals
import proofs.«122764_j16621523435816_2_alg».proof.Proof.RefRow
import proofs.«122764_j16621523435816_2_alg».proof.Proof.ReadHost
import proofs.«122764_j16621523435816_2_alg».proof.Proof.RefRead3
import proofs.«122764_j16621523435816_2_alg».proof.Proof.LibWordReal

noncomputable section

namespace Cert.Scalars

open Idealize.ShloMosaic
open scoped BigOperators

def c4096 : EReal := Ideal.ofBits .f32 0x45800000#32
def w001 : EReal := Ideal.ofBits .f32 0x3C23D70A#32
def w01 : EReal := Ideal.ofBits .f32 0x3DCCCCCD#32

/-- The batch-entropy sum as a function of the column sums: with avg = col / 4096 and a = avg / (Σ avg + ε),
    Σ_j a_j · log (a_j + ε), both sums from zero. -/
def bentOf (col : Fin 8192 → EReal) : EReal :=
  0 + ∑ j, Ideal.div (Ideal.div (col j) c4096) ((0 + ∑ k, Ideal.div (col k) c4096) + Cert.RefRow.eps)
        * Ideal.log (Ideal.div (Ideal.div (col j) c4096) ((0 + ∑ k, Ideal.div (col k) c4096) + Cert.RefRow.eps) + Cert.RefRow.eps)

/-- The ranking term from the total T and the number N of rows that count. -/
def auxOfWord (T : EReal) (N : BitVec 32) : EReal :=
  Scalar.select (IntOp.cmpi .sgt N 0#32) (Ideal.div T (Cert.LibWordReal.conv (IntOp.maxsi N 1#32))) (Ideal.ofBits .f32 0x00000000#32)

end Cert.Scalars

namespace Cert.ReferenceIdeal.RefRead

open Cert.ReferenceIdeal Cert.ReferenceIdeal.Gen Cert.ReferenceIdeal.RefRun Idealize.ShloMosaic Idealize.ShloMosaic.ValueIdx
open Cert.RefRow Cert.Scalars
open scoped BigOperators

variable (a0 : FVec Ideal S4096 .f32) (a1 a2 a3 a4 a5 : FVec Ideal S4096x8192 .f32)

/-- The concentration loss. -/
theorem v15_eq : val_main_v15 (F := Ideal) a1 ix0 = -(Ideal.div (0 + ∑ i : Fin 4096, conc (rowOf a1 i)) c4096) := by
  unfold val_main_v15 val_main_v14
  show -(Ideal.div (val_main_v13 (F := Ideal) a1 ix0) c4096) = _
  rw [v13_apply]

/-- The confidence loss. -/
theorem v35_eq : val_main_v35 (F := Ideal) a0 a1 a2 a4 ix0
    = Ideal.div (0 + ∑ i : Fin 4096, diff (rowOf a1 i) (rowOf a2 i) (rowOf a4 i) (a0 (ix1 i)) * diff (rowOf a1 i) (rowOf a2 i) (rowOf a4 i) (a0 (ix1 i))) c4096 := by
  unfold val_main_v35
  show Ideal.div (val_main_v34 (F := Ideal) a0 a1 a2 a4 ix0) c4096 = _
  rw [v34_apply]

/-- The normalised average selection at column j. -/
theorem v49_apply (j : Fin 8192) : val_main_v49 (F := Ideal) a1 a4 (ix1 j)
    = Ideal.div (Ideal.div (val_main_v43 (F := Ideal) a1 a4 (ix1 j)) c4096)
        ((0 + ∑ k : Fin 8192, Ideal.div (val_main_v43 (F := Ideal) a1 a4 (ix1 k)) c4096) + eps) := by
  have h45 : ∀ k : Fin 8192, val_main_v45 (F := Ideal) a1 a4 (ix1 k)
      = Ideal.div (val_main_v43 (F := Ideal) a1 a4 (ix1 k)) c4096 := fun k => by
    unfold val_main_v45 val_main_v44
    rw [hostDivf_apply, broadcastInDim_scalar_apply, constant_apply]
    rfl
  unfold val_main_v49 val_main_v48 val_main_v47 val_main_v46
  dsimp only
  rw [hostDivf_apply, broadcastInDim_scalar_apply, addf_apply, Cert.ReadHost.sum_vec, constant_apply, constant_apply,
    Ideal.ofBits_zero_f32, h45 j, Finset.sum_congr rfl fun k _ => h45 k]
  rfl

/-- The batch-entropy term. -/
theorem v56_eq : val_main_v56 (F := Ideal) a1 a4 ix0 = -(-(bentOf fun j => val_main_v43 (F := Ideal) a1 a4 (ix1 j))) := by
  have h53 : ∀ j : Fin 8192, val_main_v53 (F := Ideal) a1 a4 (ix1 j)
      = val_main_v49 (F := Ideal) a1 a4 (ix1 j) * Ideal.log (val_main_v49 (F := Ideal) a1 a4 (ix1 j) + eps) := fun j => by
    unfold val_main_v53 val_main_v52 val_main_v51 val_main_v50
    rw [mulf_apply]
    rfl
  have h54 : val_main_v54 (F := Ideal) a1 a4 ix0 = 0 + ∑ j : Fin 8192, val_main_v53 (F := Ideal) a1 a4 (ix1 j) := by
    unfold val_main_v54
    dsimp only
    rw [Cert.ReadHost.sum_vec, constant_apply, Ideal.ofBits_zero_f32]
  have h56 : val_main_v56 (F := Ideal) a1 a4 ix0 = -(-(val_main_v54 (F := Ideal) a1 a4 ix0)) := by
    unfold val_main_v56 val_main_v55
    rfl
  rw [h56, h54]
  unfold bentOf
  refine congrArg (fun x => -(-(0 + x))) (Finset.sum_congr rfl fun j _ => ?_)
  rw [h53, v49_apply]

end Cert.ReferenceIdeal.RefRead
-- ==== Proof.KTailRead.lean ====
/-
  The kernel program's host operations after the region, read in terms of the two arrays of per-tile partial results.

  Lane k of the packed array summed over the tiles gives four scalars: the concentration total (lane 0), the total of
  squared confidence errors (lane 1), the ranking total (lane 2) and the number of rows that count, as a real (lane 3).
  The partial column sums summed over the tiles give the column sums. From these the program forms the same losses as
  the reference — the concentration loss with the sign taken before the division, the batch-entropy term by the same
  function of the column sums, the ranking term by a float comparison and a float maximum — and adds them, associated
  from the right, to the return and Sharpe terms, which are the reference's own operations on the first argument.
-/
import proofs.«122764_j16621523435816_2_alg».proof.Proof.KFrameIVals
import proofs.«122764_j16621523435816_2_alg».proof.Proof.RefRunVals
import proofs.«122764_j16621523435816_2_alg».proof.Proof.ReadTail
import proofs.«122764_j16621523435816_2_alg».proof.Proof.ReadHost
import proofs.«122764_j16621523435816_2_alg».proof.Proof.RefRead4

noncomputable section

namespace Cert.KernelIdeal.KRead

open Cert.KernelIdeal Cert.KernelIdeal.Gen Cert.KernelIdeal.KFrame Idealize.ShloMosaic Idealize.ShloMosaic.ValueIdx
open Cert.Scalars
open scoped BigOperators

variable (x6 : FVec Ideal S64x1x128 .f32) (x7 : FVec Ideal S64x1x8192 .f32) (a0 : FVec Ideal S4096 .f32)

/-- Lane k of the packed partial sums, summed over the tiles. -/
def lane (x6 : FVec Ideal S64x1x128 .f32) (k : Fin 128) : EReal := 0 + ∑ t : Fin 64, x6 (ix3 t (0 : Fin 1) k)
/-- Column j of the partial column sums, summed over the tiles. -/
def colsum (x7 : FVec Ideal S64x1x8192 .f32) (j : Fin 8192) : EReal := 0 + ∑ t : Fin 64, x7 (ix3 t (0 : Fin 1) j)

theorem v5_apply : val_main_v5 (F := Ideal) x6 ix0 = lane x6 0 := by
  unfold val_main_v5 val_main_v4 val_main_v3 val_main_v2
  dsimp only
  exact Cert.ReadTail.lane_apply x6 (0 : Fin 128) _ _ _ _ _

theorem v7_apply : val_main_v7 (F := Ideal) x6 ix0 = lane x6 1 := by
  unfold val_main_v7 val_main_v6 val_main_v3 val_main_v2
  dsimp only
  exact Cert.ReadTail.lane_apply x6 (1 : Fin 128) _ _ _ _ _

theorem v9_apply : val_main_v9 (F := Ideal) x6 ix0 = lane x6 2 := by
  unfold val_main_v9 val_main_v8 val_main_v3 val_main_v2
  dsimp only
  exact Cert.ReadTail.lane_apply x6 (2 : Fin 128) _ _ _ _ _

theorem v11_apply : val_main_v11 (F := Ideal) x6 ix0 = lane x6 3 := by
  unfold val_main_v11 val_main_v10 val_main_v3 val_main_v2
  dsimp only
  exact Cert.ReadTail.lane_apply x6 (3 : Fin 128) _ _ _ _ _

theorem v13_apply (j : Fin 8192) : val_main_v13 (F := Ideal) x7 (ix1 j) = colsum x7 j := by
  unfold val_main_v13 val_main_v12
  dsimp only
  exact Cert.ReadTail.colsum_apply x7 j _ _ _

/-- The concentration loss: the sign first, then the division. -/
theorem v15_eq : val_main_v15 (F := Ideal) x6 ix0 = Ideal.div (-(lane x6 0)) c4096 := by
  unfold val_main_v15 val_main_v14
  show Ideal.div (-(val_main_v5 (F := Ideal) x6 ix0)) c4096 = _
  rw [v5_apply]

/-- The confidence loss. -/
theorem v16_eq : val_main_v16 (F := Ideal) x6 ix0 = Ideal.div (lane x6 1) c4096 := by
  unfold val_main_v16
  show Ideal.div (val_main_v7 (F := Ideal) x6 ix0) c4096 = _
  rw [v7_apply]

theorem v22_apply (j : Fin 8192) : val_main_v22 (F := Ideal) x7 (ix1 j)
    = Ideal.div (Ideal.div (colsum x7 j) c4096) ((0 + ∑ k : Fin 8192, Ideal.div (colsum x7 k) c4096) + Cert.RefRow.eps) := by
  unfold val_main_v22 val_main_v21 val_main_v20 val_main_v19
  dsimp only
  rw [hostDivf_apply, broadcastInDim_scalar_apply, addf_apply, Cert.ReadHost.sum_vec, constant_apply, Ideal.ofBits_zero_f32]
  have h18 : ∀ k : Fin 8192, val_main_v18 (F := Ideal) x7 (ix1 k) = Ideal.div (colsum x7 k) c4096 := fun k => by
    unfold val_main_v18
    rw [hostDivf_apply, v13_apply]
    rfl
  rw [h18 j, Finset.sum_congr rfl fun k _ => h18 k]
  rfl

/-- The batch-entropy term: the same function of the column sums as the reference's. -/
theorem v27_eq : val_main_v27 (F := Ideal) x7 ix0 = bentOf (colsum x7) := by
  unfold val_main_v27
  dsimp only
  rw [Cert.ReadHost.sum_vec, constant_apply, Ideal.ofBits_zero_f32]
  unfold bentOf
  refine congrArg (0 + ·) (Finset.sum_congr rfl fun j _ => ?_)
  unfold val_main_v26 val_main_v25 val_main_v24
  show val_main_v22 (F := Ideal) x7 (ix1 j) * Ideal.log (val_main_v22 (F := Ideal) x7 (ix1 j) + Cert.RefRow.eps) = _
  rw [v22_apply]

/-- The ranking term, by a float comparison and a float maximum. -/
theorem v31_eq : val_main_v31 (F := Ideal) x6 ix0
    = Scalar.select (Ideal.cmp .ogt (lane x6 3) (Ideal.ofBits .f32 0x00000000#32))
        (Ideal.div (lane x6 2) (max (lane x6 3) (Ideal.ofBits .f32 0x3F800000#32))) (Ideal.ofBits .f32 0x00000000#32) := by
  have h0 : val_main_call0_v0 (F := Ideal) ix0 = Ideal.ofBits .f32 0x00000000#32 := by
    unfold val_main_call0_v0
    rfl
  unfold val_main_v31 val_main_v30 val_main_v29 val_main_v28
  rw [select_apply, cmpf_apply, Ideal.cmpf_def, hostDivf_apply, maximumf_apply, constant_apply, constant_apply,
    v11_apply, v9_apply, h0]

/-- The return and Sharpe terms are the reference's own. -/
theorem v49_eq : val_main_v49 (F := Ideal) a0 = Cert.ReferenceIdeal.RefRun.val_main_v98 (F := Ideal) a0 := rfl

/-- The result: the losses added from the right to the return and Sharpe terms. -/
theorem v50_eq : val_main_v50 (F := Ideal) x6 x7 a0 ix0
    = val_main_v49 (F := Ideal) a0 ix0
      + (((w001 * val_main_v15 (F := Ideal) x6 ix0 + w01 * val_main_v16 (F := Ideal) x6 ix0)
          + w001 * val_main_v27 (F := Ideal) x7 ix0)
          + w01 * val_main_v31 (F := Ideal) x6 ix0) := by
  unfold val_main_v50 val_main_v38 val_main_v37 val_main_v36 val_main_v35 val_main_v34 val_main_v33 val_main_v32
  rw [addf_apply, addf_apply, addf_apply, addf_apply, mulf_apply, mulf_apply, mulf_apply, mulf_apply,
    constant_apply, constant_apply]
  unfold w001 w01
  rfl

end Cert.KernelIdeal.KRead
-- ==== Proof.RefRead5.lean ====
/-
  The reference's ranking term and its result, in terms of the scalar stages.

  Read entry by entry: the ranking term is a selection, by "the number of rows that count is positive", of the ranking
  total over the conversion of max(that number, 1); the result is the weighted sum of the six terms, added from the left.
-/
import proofs.«122764_j16621523435816_2_alg».proof.Proof.RefRead4
import Idealize.ShloMosaic.Lib.ValueLayout

noncomputable section

namespace Cert.ReferenceIdeal.RefRead

open Cert.ReferenceIdeal Cert.ReferenceIdeal.Gen Cert.ReferenceIdeal.RefRun Idealize.ShloMosaic Idealize.ShloMosaic.ValueIdx
open Cert.RefRow Cert.Scalars
open scoped BigOperators

/-- An integer comparison of vectors acts entry by entry. -/
theorem cmpi_at {s : Shape} {w : Nat} (p : CmpIPredicate) (x y : IVec s w) (i : s.Idx) :
    cmpi p x y i = IntOp.cmpi p (x i) (y i) := rfl
/-- A signed maximum of vectors acts entry by entry. -/
theorem maxsi_at {s : Shape} {w : Nat} (x y : IVec s w) (i : s.Idx) : maxsi x y i = IntOp.maxsi (x i) (y i) := rfl
/-- The host's negation acts entry by entry. -/
theorem hostNegf_at {s : Shape} (x : FVec Ideal s .f32) (i : s.Idx) : Host.negf x i = -(x i) := rfl

variable (a0 : FVec Ideal S4096 .f32) (a1 a2 a3 a4 a5 : FVec Ideal S4096x8192 .f32)

/-- The ranking term from the ranking total and the number of rows that count. -/
theorem v95_eq : val_main_v95 (F := Ideal) a3 a4 a5 ix0
    = auxOfWord (val_main_v90 (F := Ideal) a3 a4 a5 ix0) (val_main_v88 (F := Ideal) a4 ix0) := by
  have h91 : val_main_v91 (F := Ideal) a4 ix0 = IntOp.cmpi .sgt (val_main_v88 (F := Ideal) a4 ix0) 0#32 := by
    unfold val_main_v91
    rw [cmpi_at, constantI_apply]
  have h93 : val_main_v93 (F := Ideal) a4 ix0
      = Cert.LibWordReal.conv (IntOp.maxsi (val_main_v88 (F := Ideal) a4 ix0) 1#32) := by
    unfold val_main_v93 val_main_v92
    rw [sitofp_apply, maxsi_at, constantI_apply]
    rfl
  have h94 : val_main_v94 (F := Ideal) a3 a4 a5 ix0
      = Ideal.div (val_main_v90 (F := Ideal) a3 a4 a5 ix0) (Cert.LibWordReal.conv (IntOp.maxsi (val_main_v88 (F := Ideal) a4 ix0) 1#32)) := by
    unfold val_main_v94
    rw [hostDivf_apply, h93]
  have h0 : val_main_call7_v0 (F := Ideal) ix0 = Ideal.ofBits .f32 0x00000000#32 := by
    unfold val_main_call7_v0
    rfl
  unfold val_main_v95 auxOfWord
  rw [select_apply, h91, h94, h0]

/-- The result: the weighted sum, added from the left. -/
theorem v106_eq : val_main_v106 (F := Ideal) a0 a1 a2 a3 a4 a5 ix0
    = ((((val_main_v98 (F := Ideal) a0 ix0 + w001 * val_main_v15 (F := Ideal) a1 ix0)
          + w01 * val_main_v35 (F := Ideal) a0 a1 a2 a4 ix0)
          + w001 * val_main_v56 (F := Ideal) a1 a4 ix0)
          + w01 * val_main_v95 (F := Ideal) a3 a4 a5 ix0) := by
  unfold val_main_v106 val_main_v105 val_main_v104 val_main_v103 val_main_v102 val_main_v101 val_main_v100 val_main_v99
  rw [addf_apply, addf_apply, addf_apply, addf_apply, mulf_apply, mulf_apply, mulf_apply, mulf_apply,
    constant_apply, constant_apply]
  unfold w001 w01
  rfl

end Cert.ReferenceIdeal.RefRead
-- ==== Proof.LibTileSum.lean ====
/-
  A sum over a * b consecutive positions, taken tile by tile.

  Position i of a row-major range of a * b positions lies in tile i / b at place i % b. Summing first inside each
  tile and then over the tiles is summing over all positions, in any commutative monoid — in particular on the
  extended reals, whose addition is commutative and associative at the infinities too.
-/
import Mathlib.Algebra.BigOperators.Fin
import Mathlib.Logic.Equiv.Fin.Basic

namespace Cert.LibTileSum

open scoped BigOperators

/-- The sum over the tiles of the sums inside each tile is the sum over all positions, for any way of naming
    position (t, r) whose number is t * b + r. -/
theorem sum_tiles {α : Type} [AddCommMonoid α] {a b n : ℕ} (hn : a * b = n) (idx : Fin a → Fin b → Fin n)
    (hidx : ∀ t r, (idx t r).val = t.val * b + r.val) (f : Fin n → α) :
    ∑ t : Fin a, ∑ r : Fin b, f (idx t r) = ∑ i : Fin n, f i := by
  subst hn
  rw [← Equiv.sum_comp finProdFinEquiv f, Fintype.sum_prod_type]
  refine Finset.sum_congr rfl fun t _ => Finset.sum_congr rfl fun r _ => ?_
  congr 1
  apply Fin.ext
  rw [hidx, finProdFinEquiv_apply_val]
  show t.val * b + r.val = r.val + b * t.val
  rw [Nat.mul_comm, Nat.add_comm]

end Cert.LibTileSum
-- ==== Proof.LibCount.lean ====
/-
  Counting with 32-bit words, and the count read as an extended real.

  A finite sum of 32-bit words each of which is 0 or 1 — the widened bits of a mask — does not wrap while there are
  fewer than 2^31 of them: its value as a natural number is the number of ones, its signed reading is the same
  number, and the exact conversion of the sum to an extended real is the sum of the terms' conversions. This is what
  makes an integer count that is converted to a float afterwards equal to a float count of converted bits.
-/
import Mathlib.Data.BitVec
import Mathlib.Algebra.BigOperators.Group.Finset.Basic
import Mathlib.Algebra.BigOperators.Ring.Finset
import Mathlib.Data.EReal.Basic
import Mathlib.Data.EReal.Operations

namespace Cert.LibCount

open scoped BigOperators

/-- The natural value of a sum of words that are each at most 1, fewer than 2^31 of them: the sum of the natural
    values, and at most the number of terms. -/
theorem toNat_sum_le_one {ι : Type} (s : Finset ι) (f : ι → BitVec 32) (hf : ∀ k ∈ s, (f k).toNat ≤ 1)
    (hs : s.card < 2 ^ 31) :
    (∑ k ∈ s, f k).toNat = ∑ k ∈ s, (f k).toNat ∧ (∑ k ∈ s, f k).toNat ≤ s.card := by
  classical
  induction s using Finset.induction_on with
  | empty => simp
  | insert a s ha ih =>
    have hc := Finset.card_insert_of_notMem ha
    rw [hc] at hs
    obtain ⟨e, le⟩ := ih (fun k hk => hf k (Finset.mem_insert_of_mem hk)) (by omega)
    have h1 := hf a (Finset.mem_insert_self a s)
    rw [Finset.sum_insert ha, Finset.sum_insert ha, hc, BitVec.toNat_add, Nat.mod_eq_of_lt (by omega), e]
    exact ⟨rfl, by omega⟩

/-- The signed reading of such a sum is the sum of the signed readings. -/
theorem toInt_sum_le_one {ι : Type} (s : Finset ι) (f : ι → BitVec 32) (hf : ∀ k ∈ s, (f k).toNat ≤ 1)
    (hs : s.card < 2 ^ 31) :
    (∑ k ∈ s, f k).toInt = ∑ k ∈ s, (f k).toInt := by
  obtain ⟨e, le⟩ := toNat_sum_le_one s f hf hs
  rw [BitVec.toInt_eq_toNat_of_lt (by omega), e, Nat.cast_sum]
  refine Finset.sum_congr rfl fun k hk => ?_
  rw [BitVec.toInt_eq_toNat_of_lt (by have := hf k hk; omega)]

/-- The coercion of a finite real sum into the extended reals is the sum of the coercions. -/
theorem coe_sum_real {ι : Type} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The exact conversion of a sum of 0/1 words (fewer than 2^31) is the sum of the conversions. -/
theorem coe_toInt_sum_le_one {ι : Type} (s : Finset ι) (f : ι → BitVec 32) (hf : ∀ k ∈ s, (f k).toNat ≤ 1)
    (hs : s.card < 2 ^ 31) :
    ((((∑ k ∈ s, f k).toInt : ℤ) : ℝ) : EReal) = ∑ k ∈ s, ((((f k).toInt : ℤ) : ℝ) : EReal) := by
  rw [toInt_sum_le_one s f hf hs, Int.cast_sum, coe_sum_real]

/-- A widened bit is a word that is at most 1. -/
theorem toNat_setWidth_bit_le_one (b : BitVec 1) : (b.setWidth 32).toNat ≤ 1 := by
  rw [BitVec.toNat_setWidth_of_le (by decide)]
  have := b.isLt
  omega

/-- A widened bit converts to 1 when the bit is set and to 0 otherwise. -/
theorem coe_toInt_setWidth_bit (b : BitVec 1) :
    (((((b.setWidth 32 : BitVec 32).toInt : ℤ) : ℝ) : EReal)) = if b = 1 then 1 else 0 := by
  have h : b = 0 ∨ b = 1 := by
    have := b.isLt
    rcases Nat.lt_or_ge b.toNat 1 with h | h
    · left; apply BitVec.eq_of_toNat_eq; simp; omega
    · right; apply BitVec.eq_of_toNat_eq; simp; omega
  rcases h with rfl | rfl <;> simp

/-- The number of ones among fewer than 2^31 bits, as a word: its natural value is at most the number of bits. -/
theorem toNat_sum_bits_le {ι : Type} (s : Finset ι) (b : ι → BitVec 1) (hs : s.card < 2 ^ 31) :
    (∑ k ∈ s, (b k).setWidth 32 : BitVec 32).toNat ≤ s.card :=
  (toNat_sum_le_one s _ (fun k _ => toNat_setWidth_bit_le_one (b k)) hs).2

end Cert.LibCount
-- ==== Proof.LibIdealDiv.lean ====
/-
  Laws of the exact quotient on the extended reals that hold with no finiteness assumption.

  The quotient x / d is x · d⁻¹ whenever d ≠ 0 (its value at d = 0 is a convention of its own), and multiplication of
  extended reals is commutative and associative. So a factor may be moved across a quotient by a nonzero divisor,
  and a sign across a quotient by a nonzero real.
-/
import Idealize.ShloMosaic.PureOps.Ideal

namespace Cert.LibIdealDiv

open Idealize.ShloMosaic

/-- (w · m) / d = (w / d) · m for a divisor that is not zero. -/
theorem div_mul_right_comm (w m d : EReal) (hd : d ≠ 0) : Ideal.div (w * m) d = Ideal.div w d * m := by
  simp only [Ideal.div, if_neg hd]
  rw [mul_assoc, mul_comm m, ← mul_assoc]

/-- (−x) / y = −(x / y) for a nonzero real y. -/
theorem div_neg_coe (x : EReal) {y : ℝ} (hy : y ≠ 0) : Ideal.div (-x) (y : EReal) = -Ideal.div x (y : EReal) := by
  rw [Ideal.div_coe hy, Ideal.div_coe hy, EReal.neg_mul]

/-- 0 − x = −x. -/
theorem zero_sub' (x : EReal) : (0 : EReal) - x = -x := by
  rw [sub_eq_add_neg, zero_add]

/-- The logistic function is 1 / (1 + e^(−x)), by definition. -/
theorem logistic_eq (x : EReal) : Ideal.logistic x = Ideal.div 1 (1 + Ideal.exp (-x)) := rfl

end Cert.LibIdealDiv
-- ==== Proof.Bridge.lean ====
/-
  The laws that join the tiled arrangement to the whole-array one.

  Row 64 t + r of the arrays is row r of tile t. A total formed by summing inside each tile and then over the tiles is
  the total over all rows. The number of rows that count, kept as a real by one side and as a 32-bit word by the other,
  is one number: 4096 widened bits do not wrap. The ranking term, formed from that number by a comparison with zero
  and a maximum with one, is therefore the same on both sides. And a sum of six terms may be associated either way.
-/
import proofs.«122764_j16621523435816_2_alg».proof.Proof.LibTileSum
import proofs.«122764_j16621523435816_2_alg».proof.Proof.LibCount
import proofs.«122764_j16621523435816_2_alg».proof.Proof.LibWordReal
import proofs.«122764_j16621523435816_2_alg».proof.Proof.LibIdealDiv
import proofs.«122764_j16621523435816_2_alg».proof.Proof.RefRead4

noncomputable section

namespace Cert.Bridge

open Idealize.ShloMosaic Cert.LibWordReal Cert.Scalars
open scoped BigOperators

/-- Row r of tile t. -/
def rowAt (t r : Fin 64) : Fin 4096 := ⟨64 * t.val + r.val, by have := t.isLt; have := r.isLt; omega⟩

theorem rowAt_val (t r : Fin 64) : (rowAt t r).val = t.val * 64 + r.val := by
  show 64 * t.val + r.val = _
  omega

/-- A total over the tiles of totals inside the tiles is the total over the rows. -/
theorem tiles_total (g gK : Fin 4096 → EReal) (h : ∀ i, gK i = g i) :
    (0 : EReal) + ∑ t : Fin 64, ∑ r : Fin 64, gK (rowAt t r) = 0 + ∑ i : Fin 4096, g i := by
  rw [Cert.LibTileSum.sum_tiles (by norm_num : 64 * 64 = 4096) rowAt rowAt_val gK]
  exact congrArg (0 + ·) (Finset.sum_congr rfl fun i _ => h i)

/-- The number of rows that count: the word's conversion is the sum of the bits' conversions. -/
theorem count_total (b : Fin 4096 → BitVec 1) :
    conv (0#32 + ∑ i : Fin 4096, (b i).setWidth 32) = 0 + ∑ i : Fin 4096, conv ((b i).setWidth 32) := by
  rw [zero_add]
  have h0 : (0#32 : BitVec 32) + ∑ i : Fin 4096, (b i).setWidth 32 = ∑ i : Fin 4096, (b i).setWidth 32 := zero_add _
  rw [h0]
  unfold conv
  exact Cert.LibCount.coe_toInt_sum_le_one Finset.univ _ (fun k _ => Cert.LibCount.toNat_setWidth_bit_le_one (b k))
    (by rw [Finset.card_univ, Fintype.card_fin]; norm_num)

/-- The ranking term from a real count is the ranking term from the word it converts. -/
theorem aux_of_real (T : EReal) (N : BitVec 32) :
    Scalar.select (Ideal.cmp .ogt (conv N) (Ideal.ofBits .f32 0x00000000#32))
        (Ideal.div T (max (conv N) (Ideal.ofBits .f32 0x3F800000#32))) (Ideal.ofBits .f32 0x00000000#32)
      = auxOfWord T N := by
  unfold auxOfWord
  rw [cmpi_sgt_zero, conv_maxsi_one, Ideal.ofBits_zero_f32, Ideal.ofBits_one_f32]

/-- The f32 pattern 0x45800000 is the real 4096. -/
theorem c4096_eq : c4096 = ((4096 : ℝ) : EReal) := by
  unfold c4096
  simp [Ideal.ofBits, Ideal.ieee, -EReal.coe_mul]; norm_num

/-- The sign may be taken before or after the division by 4096. -/
theorem div_neg_c4096 (x : EReal) : Ideal.div (-x) c4096 = -(Ideal.div x c4096) := by
  rw [c4096_eq]
  exact Cert.LibIdealDiv.div_neg_coe x (by norm_num)

/-- The final sum, associated either way. -/
theorem final_assoc (s a b c d : EReal) : s + (((a + b) + c) + d) = (((s + a) + b) + c) + d := by
  rw [← add_assoc, ← add_assoc, ← add_assoc]

end Cert.Bridge
-- ==== Proof.LibColumnLayout.lean ====
/-
  Column layouts read at an index given by coordinates.

  A vector of length `a` viewed as a column `[a, 1]`, a column viewed as a vector again, and a column repeated along a
  new last axis to `[a, b]` (a per-row quantity met with a per-column one, as after a sum that keeps its axis): each
  reads, at an index written by its coordinates, the operand at the evident index. They complete the library's
  leading-unit-axis casts and its row broadcast; like those they are the general layout lemmas with the coordinate
  arithmetic discharged once.
-/
import Idealize.ShloMosaic.Lib.ValueLayout

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of an `[a, n]` matrix, taken as a slice `[a, 1]`, flattened to `[a]` and made a column again (how a
    per-row parameter is picked out of a small parameter table), reads at `(i, 0)` the matrix at `(i, o)`. -/
theorem column_apply {a n : ℕ} (o : ℕ) (v : (⟨2, ![a, n]⟩ : Shape).Idx → α)
    (hs : (⟨2, ![a, n]⟩ : Shape).Slices ![0, o] ⟨2, ![a, 1]⟩) (h1 : (⟨2, ![a, 1]⟩ : Shape).ShapeCasts ⟨1, ![a]⟩)
    (h2 : (⟨1, ![a]⟩ : Shape).ShapeCasts ⟨2, ![a, 1]⟩) (i : Fin a) (d : Fin n) (hd : d.val = o) :
    shapeCast ⟨2, ![a, 1]⟩ (shapeCast ⟨1, ![a]⟩ (extractStridedSlice ⟨2, ![a, 1]⟩ ![0, o] v hs) h1) h2 (ix2 i (0 : Fin 1))
      = v (ix2 i d) :=
  (shapeCast_a_a1_apply _ _ i 0).trans ((shapeCast_a1_a_apply _ _ i).trans
    (slice2_axis1_apply o v hs i (0 : Fin 1) d (by rw [hd]; rfl)))

end Idealize.ShloMosaic.ValueIdx
-- ==== Proof.TileReduce.lean ====
/-
  Sums and maxima along one axis of a block, read at an index given by coordinates.

  A block is a 64 × 8192 array (64 rows, one per sample; 8192 columns). Three reductions occur: along the columns
  (one value per row), along the rows (one value per column), and along the rows of a single column 64 × 1 (one value).
  Each is read here as a sum, or as a fold of the maximum, over the literal range of the reduced coordinate, with the
  index of the summand written by its coordinates.
-/
import Idealize.ShloMosaic.Lib.ValueIdx
import Idealize.ShloMosaic.PureOps.Ideal.Laws
import proofs.«122764_j16621523435816_2_alg».proof.Proof.Gen.KernelIdeal

noncomputable section

open scoped BigOperators

namespace Cert.KernelIdeal.Tile

open Idealize.ShloMosaic Idealize.ShloMosaic.ValueIdx Cert.KernelIdeal Cert.KernelIdeal.Gen

/-! ## The reduced index with the coordinate put back -/

/-- Row `r` with column `k` put back is the entry `(r, k)`. -/
theorem lift_row (r : Fin 64) (k : Fin 8192) : reduces_S64x8192_S64.lift (ix1 r) k = ix2 r k := by
  funext a; match a with | ⟨0, _⟩ => rfl | ⟨1, _⟩ => rfl

/-- Column `j` with row `r` put back is the entry `(r, j)`. -/
theorem lift_col (j : Fin 8192) (r : Fin 64) : reduces_S64x8192_S8192.lift (ix1 j) r = ix2 r j := by
  funext a; match a with | ⟨0, _⟩ => rfl | ⟨1, _⟩ => rfl

/-- The one entry left of a 64 × 1 column summed over its rows, with row `r` put back, is the entry `(r, 0)`. -/
theorem lift_col1 (u : Fin 1) (r : Fin 64) : reduces_S64x1_S1.lift (ix1 u) r = ix2 r (0 : Fin 1) := by
  funext a; match a with | ⟨0, _⟩ => rfl | ⟨1, _⟩ => exact Fin.ext (by have := u.isLt; show u.val = 0; omega)

/-! ## The three sums -/

/-- A sum along the columns, at row `r`: the sum of that row's entries. -/
theorem rowSum_apply (src : FVec Ideal S64x8192 .f32) (hacc : (0x00000000#32 : BitVec 32) = 0x00000000#32) (r : Fin 64) :
    multiReduction .add [1] S64 src 0x00000000#32 reduces_S64x8192_S64 (.inl rfl) hacc (ix1 r)
      = ∑ k : Fin 8192, src (ix2 r k) :=
  (Ideal.multiReduction_add_single src 0x00000000#32 reduces_S64x8192_S64 (.inl rfl) hacc (ix1 r)).trans
    (Finset.sum_congr rfl fun k _ => congrArg src (lift_row r k))

/-- A sum along the rows, at column `j`: the sum of that column's entries. -/
theorem colSum_apply (src : FVec Ideal S64x8192 .f32) (hacc : (0x00000000#32 : BitVec 32) = 0x00000000#32) (j : Fin 8192) :
    multiReduction .add [0] S8192 src 0x00000000#32 reduces_S64x8192_S8192 (.inl rfl) hacc (ix1 j)
      = ∑ r : Fin 64, src (ix2 r j) :=
  (Ideal.multiReduction_add_single src 0x00000000#32 reduces_S64x8192_S8192 (.inl rfl) hacc (ix1 j)).trans
    (Finset.sum_congr rfl fun r _ => congrArg src (lift_col j r))

/-- A 64 × 1 column summed over its rows: the sum of its 64 entries. -/
theorem col1Sum_apply (src : FVec Ideal S64x1 .f32) (hacc : (0x00000000#32 : BitVec 32) = 0x00000000#32) (u : Fin 1) :
    multiReduction .add [0] S1 src 0x00000000#32 reduces_S64x1_S1 (.inl rfl) hacc (ix1 u)
      = ∑ r : Fin 64, src (ix2 r (0 : Fin 1)) :=
  (Ideal.multiReduction_add_single src 0x00000000#32 reduces_S64x1_S1 (.inl rfl) hacc (ix1 u)).trans
    (Finset.sum_congr rfl fun r _ => congrArg src (lift_col1 u r))

/-! ## The maximum along the columns -/

/-- A maximum along the columns started from `-∞`, at row `r`: the fold of `max` over that row's entries. -/
theorem rowMax_apply (src : FVec Ideal S64x8192 .f32) (hacc : (0xFF800000#32 : BitVec 32) = 0xFF800000#32) (r : Fin 64) :
    multiReduction .maximumf [1] S64 src 0xFF800000#32 reduces_S64x8192_S64 (.inl rfl) hacc (ix1 r)
      = (Finset.univ : Finset (Fin 8192)).fold max (Ideal.ofBits .f32 0xFF800000#32) (fun k => src (ix2 r k)) :=
  (Ideal.multiReduction_maximumf_single src 0xFF800000#32 reduces_S64x8192_S64 (.inl rfl) hacc (ix1 r)).trans
    (congrArg (fun f => (Finset.univ : Finset (Fin 8192)).fold max (Ideal.ofBits .f32 0xFF800000#32) f)
      (funext fun k => congrArg src (lift_row r k)))

end Cert.KernelIdeal.Tile

end
-- ==== Proof.TileRows.lean ====
/-
  A per-row quantity kept as a column, and repeated along the columns, read at an index.

  A sum or a maximum along the columns of a 64 × 8192 block gives one value per row. The body keeps it as a 64 × 1
  column, and where the value meets the block's entries again it repeats the column along the 8192 columns. Read at
  row r (and any column), each is simply the row's sum or maximum. The pointwise exponential, logarithm and logistic
  function read at an index are the functions of the entry.
-/
import Idealize.ShloMosaic.Lib.ValueIdx
import Idealize.ShloMosaic.Lib.ValueLayout
import proofs.«122764_j16621523435816_2_alg».proof.Proof.LibColumnLayout
import proofs.«122764_j16621523435816_2_alg».proof.Proof.TileReduce

noncomputable section

open scoped BigOperators

namespace Cert.KernelIdeal.Tile

open Idealize.ShloMosaic Idealize.ShloMosaic.ValueIdx Cert.KernelIdeal Cert.KernelIdeal.Gen

/-! ## Pointwise functions at an index -/

theorem exp_apply {s : Shape} (x : FVec Ideal s .f32) (i : s.Idx) : exp x i = Ideal.exp (x i) := rfl
theorem log_apply {s : Shape} (x : FVec Ideal s .f32) (i : s.Idx) : log x i = Ideal.log (x i) := rfl
theorem logistic_apply {s : Shape} (x : FVec Ideal s .f32) (i : s.Idx) : logistic x i = Ideal.logistic (x i) := rfl

/-! ## A row's sum or maximum kept as a column -/

/-- The column of row sums at row `r`. -/
theorem rowSumCol_apply (src : FVec Ideal S64x8192 .f32) (hacc : (0x00000000#32 : BitVec 32) = 0x00000000#32)
    (hc : S64.ShapeCasts S64x1) (r : Fin 64) (u : Fin 1) :
    shapeCast S64x1 (multiReduction .add [1] S64 src 0x00000000#32 reduces_S64x8192_S64 (.inl rfl) hacc) hc (ix2 r u)
      = ∑ k : Fin 8192, src (ix2 r k) :=
  (shapeCast_a_a1_apply _ hc r u).trans (rowSum_apply src hacc r)

/-- The column of row maxima at row `r`. -/
theorem rowMaxCol_apply (src : FVec Ideal S64x8192 .f32) (hacc : (0xFF800000#32 : BitVec 32) = 0xFF800000#32)
    (hc : S64.ShapeCasts S64x1) (r : Fin 64) (u : Fin 1) :
    shapeCast S64x1 (multiReduction .maximumf [1] S64 src 0xFF800000#32 reduces_S64x8192_S64 (.inl rfl) hacc) hc (ix2 r u)
      = (Finset.univ : Finset (Fin 8192)).fold max (Ideal.ofBits .f32 0xFF800000#32) (fun k => src (ix2 r k)) :=
  (shapeCast_a_a1_apply _ hc r u).trans (rowMax_apply src hacc r)

/-! ## The column repeated along the columns -/

/-- A column repeated along the columns reads, at `(r, k)`, the column's entry of row `r`. -/
theorem colBc_apply (v : FVec Ideal S64x1 .f32) (hb : S64x1.Broadcasts S64x8192) (r : Fin 64) (k : Fin 8192) :
    broadcastTo S64x8192 v hb (ix2 r k) = v (ix2 r (0 : Fin 1)) :=
  broadcastTo_a1_ab_apply v hb r k

/-- The row sums repeated along the columns, at `(r, k)`. -/
theorem rowSumBc_apply (src : FVec Ideal S64x8192 .f32) (hacc : (0x00000000#32 : BitVec 32) = 0x00000000#32)
    (hc : S64.ShapeCasts S64x1) (hb : S64x1.Broadcasts S64x8192) (r : Fin 64) (k : Fin 8192) :
    broadcastTo S64x8192
        (shapeCast S64x1 (multiReduction .add [1] S64 src 0x00000000#32 reduces_S64x8192_S64 (.inl rfl) hacc) hc) hb (ix2 r k)
      = ∑ k' : Fin 8192, src (ix2 r k') :=
  (broadcastTo_a1_ab_apply _ hb r k).trans (rowSumCol_apply src hacc hc r (0 : Fin 1))

/-- The row maxima repeated along the columns, at `(r, k)`. -/
theorem rowMaxBc_apply (src : FVec Ideal S64x8192 .f32) (hacc : (0xFF800000#32 : BitVec 32) = 0xFF800000#32)
    (hc : S64.ShapeCasts S64x1) (hb : S64x1.Broadcasts S64x8192) (r : Fin 64) (k : Fin 8192) :
    broadcastTo S64x8192
        (shapeCast S64x1 (multiReduction .maximumf [1] S64 src 0xFF800000#32 reduces_S64x8192_S64 (.inl rfl) hacc) hc) hb (ix2 r k)
      = (Finset.univ : Finset (Fin 8192)).fold max (Ideal.ofBits .f32 0xFF800000#32) (fun k' => src (ix2 r k')) :=
  (broadcastTo_a1_ab_apply _ hb r k).trans (rowMaxCol_apply src hacc hc r (0 : Fin 1))

end Cert.KernelIdeal.Tile

end
-- ==== Proof.TileColSum.lean ====
/-
  The column-sum output of one grid point, read at an index.

  With W the block of weights and M the block of masks (64 rows, 8192 columns), the second output block is a single row
  of 8192 entries. Entry j is the sum, over the 64 rows r, of the masked weight W(r,j)·M(r,j) divided by that row's
  total weight plus ε, where ε is the float constant with the word 0x322BCC77. The layout operations between the sum
  and the stored block (a vector viewed as a one-row matrix, then as a 1 × 1 × 8192 array; a per-row column repeated
  along the columns) are read away here; the arithmetic is left exactly as the body writes it.
-/
import Idealize.ShloMosaic.Lib.ValueIdx
import Idealize.ShloMosaic.Lib.ValueLayout
import proofs.«122764_j16621523435816_2_alg».proof.Proof.LibColumnLayout
import proofs.«122764_j16621523435816_2_alg».proof.Proof.TileReduce
import proofs.«122764_j16621523435816_2_alg».proof.Proof.Gen.KernelIdeal.Skeleton

noncomputable section

open scoped BigOperators

namespace Cert.KernelIdeal.Tile

open Idealize.ShloMosaic Idealize.ShloMosaic.ValueIdx Cert.KernelIdeal Cert.KernelIdeal.Gen

/-- The small constant added to a denominator: the float with the word `0x322BCC77`. -/
def eps : Ideal .f32 := Ideal.ofBits .f32 0x322BCC77#32

/-- A row's total weight plus ε: the denominator that normalises the row. -/
def rowMass (w : Fin 8192 → Ideal .f32) : Ideal .f32 := (∑ k : Fin 8192, w k) + eps

/-- Row `r` of a block, as a function of the column. -/
def rowOf (X : Vec Ideal S64x8192 .f32) (r : Fin 64) : Fin 8192 → Ideal .f32 := fun k => X (ix2 r k)

/-- The masked, normalised weight of the body at `(r, j)`: W·M over the row's total weight plus ε. -/
theorem normWeight_apply (W M : Vec Ideal S64x8192 .f32) (r : Fin 64) (j : Fin 8192) :
    k0_pay6 W M (ix2 r j) = Ideal.div (W (ix2 r j) * M (ix2 r j)) (rowMass (rowOf W r)) := by
  unfold k0_pay6 k0_pay3
  refine congrArg (Ideal.div (W (ix2 r j) * M (ix2 r j))) ?_
  refine (broadcastTo_a1_ab_apply _ _ r j).trans ?_
  refine congrArg (· + eps) ?_
  refine (shapeCast_a_a1_apply _ _ r (0 : Fin 1)).trans ?_
  exact rowSum_apply W rfl r

/-- Entry `j` of the column-sum block: the sum over the 64 rows of the masked, normalised weight in column `j`. -/
theorem colPartial_apply (W M : Vec Ideal S64x8192 .f32) (j : Fin 8192) :
    k0_pay2 (k0_pay7 (k0_pay6 W M)) (ix3 (0 : Fin 1) (0 : Fin 1) j)
      = ∑ r : Fin 64, Ideal.div (W (ix2 r j) * M (ix2 r j)) (rowMass (rowOf W r)) := by
  unfold k0_pay2 k0_pay7
  refine (shapeCast_ab_1ab_apply _ _ (0 : Fin 1) (0 : Fin 1) j).trans ?_
  refine (shapeCast_a_1a_apply _ _ (0 : Fin 1) j).trans ?_
  refine (colSum_apply _ rfl j).trans ?_
  exact Finset.sum_congr rfl fun r _ => normWeight_apply W M r j

end Cert.KernelIdeal.Tile

end
-- ==== Proof.TileLanes.lean ====
/-
  The packed output of one grid point, read lane by lane.

  The first output block is one row of 128 lanes. Lanes 0 to 3 hold four partial sums of the grid point and lanes 4 to
  127 are zero: the body lays four 1 × 1 values side by side, puts 124 zeros behind them and views the row as a
  1 × 1 × 128 array. Lanes 0 and 1 are values computed earlier in the body. Lane 2 is the sum over the 64 rows of the
  row's flag times the row's term, the term kept only where the row's condition holds; lane 3 is the sum of the flags.
  A row's flag is 1 when its count of valid entries is at least 2 and 0 otherwise.
-/
import Idealize.ShloMosaic.Lib.ValueIdx
import Idealize.ShloMosaic.Lib.ValueLayout
import Idealize.ShloMosaic.Lib.Pipeline.Value
import proofs.«122764_j16621523435816_2_alg».proof.Proof.LibColumnLayout
import proofs.«122764_j16621523435816_2_alg».proof.Proof.TileReduce
import proofs.«122764_j16621523435816_2_alg».proof.Proof.Gen.KernelIdeal.Skeleton

noncomputable section

open scoped BigOperators

namespace Cert.KernelIdeal.Tile

open Idealize.ShloMosaic Idealize.ShloMosaic.ValueIdx Cert.KernelIdeal Cert.KernelIdeal.Gen

/-! ## Conditions as numbers -/

/-- A one-bit condition widened to 32 bits and converted to a float: the number 1 where it holds, 0 where it does not. -/
def bitVal (b : BitVec 1) : Ideal .f32 := FloatOps.sitofp (F := Ideal) .f32 (b.setWidth 32)

/-- The flag of a row whose count of valid entries is `n`: 1 when `n ≥ 2`, else 0 (2 is the float with the word
    `0x40000000`). -/
def rowOk (n : Ideal .f32) : Ideal .f32 := bitVal (Ideal.cmp .oge n (Ideal.ofBits .f32 0x40000000#32))

/-! ## Four 1 × 1 values side by side, read at each position -/

section Layout
variable {α : Type}

theorem quad0_apply (x0 x1 x2 x3 : S1x1.Idx → α) (h : Shape.Concatenates [S1x1, S1x1, S1x1, S1x1] S1x4 1)
    (n : Fin 4) (hn : n.val = 0) :
    concatenate S1x4 1 [⟨S1x1, x0⟩, ⟨S1x1, x1⟩, ⟨S1x1, x2⟩, ⟨S1x1, x3⟩] h (ix2 (0 : Fin 1) n) = x0 (ix2 (0 : Fin 1) (0 : Fin 1)) :=
  concatenate_apply_piece 1 [⟨S1x1, x0⟩, ⟨S1x1, x1⟩, ⟨S1x1, x2⟩, ⟨S1x1, x3⟩] h (ix2 (0 : Fin 1) n) 0 (by show 0 < 4; omega) S1x1 x0 rfl rfl 0 rfl (ix2 (0 : Fin 1) (0 : Fin 1))
    (fun b hb => by match b with | ⟨0, _⟩ => rfl | ⟨1, _⟩ => exact absurd rfl hb)
    (by show 0 + 0 = n.val; omega)

theorem quad1_apply (x0 x1 x2 x3 : S1x1.Idx → α) (h : Shape.Concatenates [S1x1, S1x1, S1x1, S1x1] S1x4 1)
    (n : Fin 4) (hn : n.val = 1) :
    concatenate S1x4 1 [⟨S1x1, x0⟩, ⟨S1x1, x1⟩, ⟨S1x1, x2⟩, ⟨S1x1, x3⟩] h (ix2 (0 : Fin 1) n) = x1 (ix2 (0 : Fin 1) (0 : Fin 1)) :=
  concatenate_apply_piece 1 [⟨S1x1, x0⟩, ⟨S1x1, x1⟩, ⟨S1x1, x2⟩, ⟨S1x1, x3⟩] h (ix2 (0 : Fin 1) n) 1 (by show 1 < 4; omega) S1x1 x1 rfl rfl 1 rfl (ix2 (0 : Fin 1) (0 : Fin 1))
    (fun b hb => by match b with | ⟨0, _⟩ => rfl | ⟨1, _⟩ => exact absurd rfl hb)
    (by show 1 + 0 = n.val; omega)

theorem quad2_apply (x0 x1 x2 x3 : S1x1.Idx → α) (h : Shape.Concatenates [S1x1, S1x1, S1x1, S1x1] S1x4 1)
    (n : Fin 4) (hn : n.val = 2) :
    concatenate S1x4 1 [⟨S1x1, x0⟩, ⟨S1x1, x1⟩, ⟨S1x1, x2⟩, ⟨S1x1, x3⟩] h (ix2 (0 : Fin 1) n) = x2 (ix2 (0 : Fin 1) (0 : Fin 1)) :=
  concatenate_apply_piece 1 [⟨S1x1, x0⟩, ⟨S1x1, x1⟩, ⟨S1x1, x2⟩, ⟨S1x1, x3⟩] h (ix2 (0 : Fin 1) n) 2 (by show 2 < 4; omega) S1x1 x2 rfl rfl 2 rfl (ix2 (0 : Fin 1) (0 : Fin 1))
    (fun b hb => by match b with | ⟨0, _⟩ => rfl | ⟨1, _⟩ => exact absurd rfl hb)
    (by show 2 + 0 = n.val; omega)

theorem quad3_apply (x0 x1 x2 x3 : S1x1.Idx → α) (h : Shape.Concatenates [S1x1, S1x1, S1x1, S1x1] S1x4 1)
    (n : Fin 4) (hn : n.val = 3) :
    concatenate S1x4 1 [⟨S1x1, x0⟩, ⟨S1x1, x1⟩, ⟨S1x1, x2⟩, ⟨S1x1, x3⟩] h (ix2 (0 : Fin 1) n) = x3 (ix2 (0 : Fin 1) (0 : Fin 1)) :=
  concatenate_apply_piece 1 [⟨S1x1, x0⟩, ⟨S1x1, x1⟩, ⟨S1x1, x2⟩, ⟨S1x1, x3⟩] h (ix2 (0 : Fin 1) n) 3 (by show 3 < 4; omega) S1x1 x3 rfl rfl 3 rfl (ix2 (0 : Fin 1) (0 : Fin 1))
    (fun b hb => by match b with | ⟨0, _⟩ => rfl | ⟨1, _⟩ => exact absurd rfl hb)
    (by show 3 + 0 = n.val; omega)

/-! ## Four values followed by 124 more: a lane below 4 reads the four, a lane from 4 on reads the rest -/

theorem pad_lt_apply (x : S1x4.Idx → α) (z : S1x124.Idx → α) (h : Shape.Concatenates [S1x4, S1x124] S1x128 1)
    (k : Fin 128) (hk : k.val < 4) :
    concatenate S1x128 1 [⟨S1x4, x⟩, ⟨S1x124, z⟩] h (ix2 (0 : Fin 1) k) = x (ix2 (0 : Fin 1) (⟨k.val, hk⟩ : Fin 4)) :=
  concatenate_pair_apply_left 1 x z h _ rfl (ix2 (0 : Fin 1) (⟨k.val, hk⟩ : Fin 4))
    (fun b => by match b with | ⟨0, _⟩ => rfl | ⟨1, _⟩ => rfl)

theorem pad_ge_apply (x : S1x4.Idx → α) (z : S1x124.Idx → α) (h : Shape.Concatenates [S1x4, S1x124] S1x128 1)
    (k : Fin 128) (hk : 4 ≤ k.val) :
    concatenate S1x128 1 [⟨S1x4, x⟩, ⟨S1x124, z⟩] h (ix2 (0 : Fin 1) k)
      = z (ix2 (0 : Fin 1) (⟨k.val - 4, by have := k.isLt; omega⟩ : Fin 124)) :=
  concatenate_pair_apply_right 1 x z h _ rfl rfl (ix2 (0 : Fin 1) (⟨k.val - 4, by have := k.isLt; omega⟩ : Fin 124))
    (fun b hb => by match b with | ⟨0, _⟩ => rfl | ⟨1, _⟩ => exact absurd rfl hb)
    (by show k.val - 4 + 4 = k.val; omega)

end Layout

/-! ## The packed block at lane `k`

The five values are stated over the body's earlier results as variables: `v15` and `v30` the two 1 × 1 values of lanes
0 and 1, `v44` the column of the rows' counts, `v79` the column of the rows' terms and `v81` the column of the rows'
condition bits. -/

/-- Lane 0 is the first 1 × 1 value. -/
theorem packed_lane0 (v15 v30 : FVec Ideal S1x1 .f32) (v44 v79 : FVec Ideal S64x1 .f32) (v81 : IVec S64x1 1)
    (k : Fin 128) (hk : k.val = 0) :
    k0_pay1 v15 v30 v44 v79 v81 (ix3 (0 : Fin 1) (0 : Fin 1) k) = v15 (ix2 (0 : Fin 1) (0 : Fin 1)) := by
  unfold k0_pay1
  refine (shapeCast_ab_1ab_apply _ _ (0 : Fin 1) (0 : Fin 1) k).trans ?_
  refine (pad_lt_apply _ _ _ k (by omega)).trans ?_
  exact quad0_apply _ _ _ _ _ ⟨k.val, by omega⟩ hk

/-- Lane 1 is the second 1 × 1 value. -/
theorem packed_lane1 (v15 v30 : FVec Ideal S1x1 .f32) (v44 v79 : FVec Ideal S64x1 .f32) (v81 : IVec S64x1 1)
    (k : Fin 128) (hk : k.val = 1) :
    k0_pay1 v15 v30 v44 v79 v81 (ix3 (0 : Fin 1) (0 : Fin 1) k) = v30 (ix2 (0 : Fin 1) (0 : Fin 1)) := by
  unfold k0_pay1
  refine (shapeCast_ab_1ab_apply _ _ (0 : Fin 1) (0 : Fin 1) k).trans ?_
  refine (pad_lt_apply _ _ _ k (by omega)).trans ?_
  exact quad1_apply _ _ _ _ _ ⟨k.val, by omega⟩ hk

/-- Lane 2 is the sum over the rows of the row's flag times its term, the term kept where the row's condition holds
    and replaced by 0 where it does not. -/
theorem packed_lane2 (v15 v30 : FVec Ideal S1x1 .f32) (v44 v79 : FVec Ideal S64x1 .f32) (v81 : IVec S64x1 1)
    (k : Fin 128) (hk : k.val = 2) :
    k0_pay1 v15 v30 v44 v79 v81 (ix3 (0 : Fin 1) (0 : Fin 1) k)
      = ∑ r : Fin 64, rowOk (v44 (ix2 r (0 : Fin 1))) * Scalar.select (v81 (ix2 r (0 : Fin 1))) (v79 (ix2 r (0 : Fin 1))) 0 := by
  unfold k0_pay1
  refine (shapeCast_ab_1ab_apply _ _ (0 : Fin 1) (0 : Fin 1) k).trans ?_
  refine (pad_lt_apply _ _ _ k (by omega)).trans ?_
  refine (quad2_apply _ _ _ _ _ ⟨k.val, by omega⟩ hk).trans ?_
  refine (shapeCast_a_1a_apply _ _ (0 : Fin 1) (0 : Fin 1)).trans ?_
  refine (col1Sum_apply _ rfl (0 : Fin 1)).trans ?_
  refine Finset.sum_congr rfl fun r _ => ?_
  show rowOk (v44 (ix2 r (0 : Fin 1))) * Scalar.select (v81 (ix2 r (0 : Fin 1))) (v79 (ix2 r (0 : Fin 1))) (Ideal.ofBits .f32 0x00000000#32) = _
  rw [Ideal.ofBits_zero_f32]

/-- Lane 3 is the sum over the rows of the row's flag: the number of rows that count. -/
theorem packed_lane3 (v15 v30 : FVec Ideal S1x1 .f32) (v44 v79 : FVec Ideal S64x1 .f32) (v81 : IVec S64x1 1)
    (k : Fin 128) (hk : k.val = 3) :
    k0_pay1 v15 v30 v44 v79 v81 (ix3 (0 : Fin 1) (0 : Fin 1) k) = ∑ r : Fin 64, rowOk (v44 (ix2 r (0 : Fin 1))) := by
  unfold k0_pay1
  refine (shapeCast_ab_1ab_apply _ _ (0 : Fin 1) (0 : Fin 1) k).trans ?_
  refine (pad_lt_apply _ _ _ k (by omega)).trans ?_
  refine (quad3_apply _ _ _ _ _ ⟨k.val, by omega⟩ hk).trans ?_
  refine (shapeCast_a_1a_apply _ _ (0 : Fin 1) (0 : Fin 1)).trans ?_
  exact col1Sum_apply _ rfl (0 : Fin 1)

/-- Lanes 4 to 127 are zero. -/
theorem packed_pad (v15 v30 : FVec Ideal S1x1 .f32) (v44 v79 : FVec Ideal S64x1 .f32) (v81 : IVec S64x1 1)
    (k : Fin 128) (hk : 4 ≤ k.val) :
    k0_pay1 v15 v30 v44 v79 v81 (ix3 (0 : Fin 1) (0 : Fin 1) k) = 0 := by
  unfold k0_pay1
  refine (shapeCast_ab_1ab_apply _ _ (0 : Fin 1) (0 : Fin 1) k).trans ?_
  refine (pad_ge_apply _ _ _ k hk).trans ?_
  exact Ideal.ofBits_zero_f32

end Cert.KernelIdeal.Tile

end
-- ==== Proof.TileConc.lean ====
/-
  The concentration partial sum of one grid point.

  With W the block of weights, the first of the four packed values is the sum over the 64 rows of the row's
  concentration: the sum over the row's 8192 entries w of w · log (w + ε).
-/
import Idealize.ShloMosaic.Lib.ValueIdx
import Idealize.ShloMosaic.Lib.ValueLayout
import proofs.«122764_j16621523435816_2_alg».proof.Proof.LibColumnLayout
import proofs.«122764_j16621523435816_2_alg».proof.Proof.TileReduce
import proofs.«122764_j16621523435816_2_alg».proof.Proof.TileRows
import proofs.«122764_j16621523435816_2_alg».proof.Proof.TileColSum
import proofs.«122764_j16621523435816_2_alg».proof.Proof.Gen.KernelIdeal.Skeleton

noncomputable section

open scoped BigOperators

namespace Cert.KernelIdeal.Tile

open Idealize.ShloMosaic Idealize.ShloMosaic.ValueIdx Cert.KernelIdeal Cert.KernelIdeal.Gen

/-- A row's concentration: the sum of `w · log (w + ε)` over its entries. -/
def rowConc (w : Fin 8192 → Ideal .f32) : Ideal .f32 := ∑ k : Fin 8192, w k * Ideal.log (w k + eps)

/-- The first packed value: the sum over the rows of the row's concentration. -/
theorem conc_apply (W : Vec Ideal S64x8192 .f32) :
    k0_pay4 W (ix2 (0 : Fin 1) (0 : Fin 1)) = ∑ r : Fin 64, rowConc (rowOf W r) := by
  unfold k0_pay4
  refine (shapeCast_a_1a_apply _ _ (0 : Fin 1) (0 : Fin 1)).trans ?_
  refine (col1Sum_apply _ rfl (0 : Fin 1)).trans ?_
  refine Finset.sum_congr rfl fun r _ => ?_
  exact rowSumCol_apply _ rfl _ r (0 : Fin 1)

end Cert.KernelIdeal.Tile

end
-- ==== Proof.TileConf.lean ====
/-
  The confidence partial sum of one grid point.

  With W, C, M the blocks of weights, confidences and masks and P the column of the rows' portfolio returns, the second
  of the four packed values is the sum over the 64 rows of the square of the row's confidence error: the row's
  confidence, the sum of (w · m) · c over its entries divided by the sum of w · m plus ε, less the logistic function of
  50 times the row's return (50 is the float with the word 0x42480000).
-/
import Idealize.ShloMosaic.Lib.ValueIdx
import Idealize.ShloMosaic.Lib.ValueLayout
import proofs.«122764_j16621523435816_2_alg».proof.Proof.LibColumnLayout
import proofs.«122764_j16621523435816_2_alg».proof.Proof.TileReduce
import proofs.«122764_j16621523435816_2_alg».proof.Proof.TileRows
import proofs.«122764_j16621523435816_2_alg».proof.Proof.TileColSum
import proofs.«122764_j16621523435816_2_alg».proof.Proof.Gen.KernelIdeal.Skeleton

noncomputable section

open scoped BigOperators

namespace Cert.KernelIdeal.Tile

open Idealize.ShloMosaic Idealize.ShloMosaic.ValueIdx Cert.KernelIdeal Cert.KernelIdeal.Gen

/-- A row's confidence error. -/
def rowConf (w c m : Fin 8192 → Ideal .f32) (p : Ideal .f32) : Ideal .f32 :=
  Ideal.div (∑ k : Fin 8192, w k * m k * c k) ((∑ k : Fin 8192, w k * m k) + eps)
    - Ideal.logistic (p * Ideal.ofBits .f32 0x42480000#32)

/-- The second packed value: the sum over the rows of the squared confidence error. -/
theorem conf_apply (W C M : Vec Ideal S64x8192 .f32) (P : Vec Ideal S64x1 .f32) :
    k0_pay5 W C M P (ix2 (0 : Fin 1) (0 : Fin 1))
      = ∑ r : Fin 64, rowConf (rowOf W r) (rowOf C r) (rowOf M r) (P (ix2 r (0 : Fin 1)))
          * rowConf (rowOf W r) (rowOf C r) (rowOf M r) (P (ix2 r (0 : Fin 1))) := by
  unfold k0_pay5 k0_pay3
  refine (shapeCast_a_1a_apply _ _ (0 : Fin 1) (0 : Fin 1)).trans ?_
  refine (col1Sum_apply _ rfl (0 : Fin 1)).trans ?_
  refine Finset.sum_congr rfl fun r _ => ?_
  -- the row's error: the two row sums read off their columns, the return read through the identity cast
  have hX := congrArg₂ (fun x y : Ideal .f32 => x - y)
      (congrArg₂ Ideal.div (rowSumCol_apply (mulf (mulf W M) C) rfl shapeCasts_S64_S64x1 r (0 : Fin 1))
        (congrArg (fun x : Ideal .f32 => x + eps) (rowSumCol_apply (mulf W M) rfl shapeCasts_S64_S64x1 r (0 : Fin 1))))
      (congrArg (fun p : Ideal .f32 => Ideal.logistic (p * Ideal.ofBits .f32 0x42480000#32))
        (congrFun (shapeCast_self P shapeCasts_S64x1_S64x1) (ix2 r (0 : Fin 1))))
  exact congrArg₂ (fun x y : Ideal .f32 => x * y) hX hX

end Cert.KernelIdeal.Tile

end
-- ==== Proof.TileCount.lean ====
/-
  The count of valid entries of a row, and the row's condition.

  With M the block of masks, an entry is valid where its mask is above zero. A row's count is the sum over its 8192
  entries of the condition read as a number, 1 where the entry is valid and 0 where it is not. The row's condition is
  that its count is above zero.
-/
import Idealize.ShloMosaic.Lib.ValueIdx
import Idealize.ShloMosaic.Lib.ValueLayout
import proofs.«122764_j16621523435816_2_alg».proof.Proof.LibColumnLayout
import proofs.«122764_j16621523435816_2_alg».proof.Proof.TileReduce
import proofs.«122764_j16621523435816_2_alg».proof.Proof.TileRows
import proofs.«122764_j16621523435816_2_alg».proof.Proof.TileColSum
import proofs.«122764_j16621523435816_2_alg».proof.Proof.TileLanes
import proofs.«122764_j16621523435816_2_alg».proof.Proof.Gen.KernelIdeal.Skeleton

noncomputable section

open scoped BigOperators

namespace Cert.KernelIdeal.Tile

open Idealize.ShloMosaic Idealize.ShloMosaic.ValueIdx Cert.KernelIdeal Cert.KernelIdeal.Gen

/-- A float literal of the body read at the extended reals is the value of its word. -/
theorem scalar_ofBits_f32 (b : BitVec 32) : Scalar.ofBits (F := Ideal) .f32 b = Ideal.ofBits .f32 b := rfl

/-- The zero word is the number 0. -/
theorem scalar_zero_f32 : Scalar.ofBits (F := Ideal) .f32 0x00000000#32 = 0 := Ideal.ofBits_zero_f32

/-- Whether an entry with mask `m` is valid: `m > 0`. -/
def valid (m : Ideal .f32) : BitVec 1 := Ideal.cmp .ogt m 0

/-- A row's count of valid entries. -/
def rowCount (m : Fin 8192 → Ideal .f32) : Ideal .f32 := ∑ k : Fin 8192, bitVal (valid (m k))

/-- The validity condition of the body at `(r, k)`. -/
theorem valid_apply (M : Vec Ideal S64x8192 .f32) (r : Fin 64) (k : Fin 8192) :
    k0_pay8 M (ix2 r k) = valid (M (ix2 r k)) := by
  show Ideal.cmp .ogt (M (ix2 r k)) (Ideal.ofBits .f32 0x00000000#32) = Ideal.cmp .ogt (M (ix2 r k)) 0
  rw [Ideal.ofBits_zero_f32]

/-- The column of counts at row `r`. -/
theorem count_apply (M : Vec Ideal S64x8192 .f32) (r : Fin 64) (u : Fin 1) :
    k0_pay9 M (ix2 r u) = rowCount (rowOf M r) := by
  unfold k0_pay9
  refine (rowSumCol_apply _ rfl _ r u).trans ?_
  refine Finset.sum_congr rfl fun k _ => ?_
  show bitVal (k0_pay8 M (ix2 r k)) = bitVal (valid (rowOf M r k))
  rw [valid_apply]; rfl

/-- The column of row conditions at row `r`: the count is above zero. -/
theorem cond_apply (M : Vec Ideal S64x8192 .f32) (r : Fin 64) (u : Fin 1) :
    k0_pay11 M (ix2 r u) = Ideal.cmp .ogt (rowCount (rowOf M r)) 0 := by
  show Ideal.cmp .ogt (k0_pay9 M (ix2 r u)) (Ideal.ofBits .f32 0x00000000#32) = _
  rw [Ideal.ofBits_zero_f32, count_apply]

end Cert.KernelIdeal.Tile

end
-- ==== Proof.TileRank.lean ====
/-
  The ranking term of a row.

  With R, M, S the blocks of returns, masks and scores, a row's ranking term compares two distributions over the row's
  valid entries. The target is the softmax of 20 times the return (20 is the float with the word 0x41A00000); the
  prediction is the log-softmax of the score. Both are taken after an invalid entry has been replaced by the fill value
  (the float with the word 0xF149F2CA), and each softmax subtracts the row's maximum, taken from −∞ (the word
  0xFF800000). The term is minus the sum over the row of target times prediction, the prediction counted only at the
  valid entries, divided by the larger of the row's count and 1 (the word 0x3F800000).
-/
import Idealize.ShloMosaic.Lib.ValueIdx
import Idealize.ShloMosaic.Lib.ValueLayout
import proofs.«122764_j16621523435816_2_alg».proof.Proof.LibColumnLayout
import proofs.«122764_j16621523435816_2_alg».proof.Proof.TileReduce
import proofs.«122764_j16621523435816_2_alg».proof.Proof.TileRows
import proofs.«122764_j16621523435816_2_alg».proof.Proof.TileColSum
import proofs.«122764_j16621523435816_2_alg».proof.Proof.TileLanes
import proofs.«122764_j16621523435816_2_alg».proof.Proof.TileCount
import proofs.«122764_j16621523435816_2_alg».proof.Proof.Gen.KernelIdeal.Skeleton

noncomputable section

open scoped BigOperators

namespace Cert.KernelIdeal.Tile

open Idealize.ShloMosaic Idealize.ShloMosaic.ValueIdx Cert.KernelIdeal Cert.KernelIdeal.Gen

/-- The value put in place of an invalid entry. -/
def fill : Ideal .f32 := Ideal.ofBits .f32 0xF149F2CA#32

/-- The value a row's maximum starts from. -/
def negInf : Ideal .f32 := Ideal.ofBits .f32 0xFF800000#32

/-- An entry `x` with mask `m`: kept where valid, else the fill value. -/
def maskedAt (x m : Ideal .f32) : Ideal .f32 := Scalar.select (valid m) x fill

/-- A row's maximum, from `-∞`. -/
def rowMaxOf (f : Fin 8192 → Ideal .f32) : Ideal .f32 := (Finset.univ : Finset (Fin 8192)).fold max negInf f

/-- A row's entry less the row's maximum. -/
def shifted (f : Fin 8192 → Ideal .f32) (k : Fin 8192) : Ideal .f32 := f k - rowMaxOf f

/-- The softmax of a row at entry `k`. -/
def softmaxAt (f : Fin 8192 → Ideal .f32) (k : Fin 8192) : Ideal .f32 :=
  Ideal.div (Ideal.exp (shifted f k)) (∑ k' : Fin 8192, Ideal.exp (shifted f k'))

/-- The log-softmax of a row at entry `k`. -/
def logSoftmaxAt (f : Fin 8192 → Ideal .f32) (k : Fin 8192) : Ideal .f32 :=
  shifted f k - Ideal.log (∑ k' : Fin 8192, Ideal.exp (shifted f k'))

/-- The target's logits: 20 times the return, masked. -/
def tgtLogit (ret m : Fin 8192 → Ideal .f32) (k : Fin 8192) : Ideal .f32 :=
  maskedAt (ret k * Ideal.ofBits .f32 0x41A00000#32) (m k)

/-- The prediction's logits: the score, masked. -/
def scoreLogit (s m : Fin 8192 → Ideal .f32) (k : Fin 8192) : Ideal .f32 := maskedAt (s k) (m k)

/-- A row's ranking term. -/
def rowRank (ret m s : Fin 8192 → Ideal .f32) : Ideal .f32 :=
  Ideal.div
    (0 - ∑ k : Fin 8192, softmaxAt (tgtLogit ret m) k * Scalar.select (valid (m k)) (logSoftmaxAt (scoreLogit s m) k) 0)
    (max (rowCount m) (Ideal.ofBits .f32 0x3F800000#32))

/-! ## The body's vectors, named

The body computes whole 64 × 8192 vectors. They are named here as the body writes them, so that each can be read at an
entry by a lemma of its own. -/

/-- The target's masked logits as a block. -/
def vTgt (R M : Vec Ideal S64x8192 .f32) : FVec Ideal S64x8192 .f32 :=
  select (k0_pay8 M) (mulf R (broadcast S64x8192 (Scalar.ofBits .f32 0x41A00000#32)))
    (broadcast S64x8192 (Scalar.ofBits .f32 0xF149F2CA#32))

/-- The prediction's masked logits as a block. -/
def vScore (S M : Vec Ideal S64x8192 .f32) : FVec Ideal S64x8192 .f32 :=
  select (k0_pay8 M) S (broadcast S64x8192 (Scalar.ofBits .f32 0xF149F2CA#32))

/-- Each row's maximum, repeated along the columns. -/
def vMaxBc (f : FVec Ideal S64x8192 .f32) : FVec Ideal S64x8192 .f32 :=
  broadcastTo S64x8192
    (shapeCast S64x1 (multiReduction .maximumf [1] S64 f 0xFF800000#32 reduces_S64x8192_S64 (.inl rfl) rfl) shapeCasts_S64_S64x1)
    broadcasts_S64x1_S64x8192

/-- A block less its rows' maxima. -/
def vShift (f : FVec Ideal S64x8192 .f32) : FVec Ideal S64x8192 .f32 := subf f (vMaxBc f)

/-- Its exponential. -/
def vExp (f : FVec Ideal S64x8192 .f32) : FVec Ideal S64x8192 .f32 := exp (vShift f)

/-- The column of a block's row sums. -/
def vSumCol (g : FVec Ideal S64x8192 .f32) : FVec Ideal S64x1 .f32 :=
  shapeCast S64x1 (multiReduction .add [1] S64 g 0x00000000#32 reduces_S64x8192_S64 (.inl rfl) rfl) shapeCasts_S64_S64x1

/-- The softmax along the rows. -/
def vSoftmax (f : FVec Ideal S64x8192 .f32) : FVec Ideal S64x8192 .f32 :=
  divf (vExp f) (broadcastTo S64x8192 (vSumCol (vExp f)) broadcasts_S64x1_S64x8192)

/-- The log-softmax along the rows. -/
def vLogSoftmax (f : FVec Ideal S64x8192 .f32) : FVec Ideal S64x8192 .f32 :=
  subf (vShift f) (broadcastTo S64x8192 (log (vSumCol (vExp f))) broadcasts_S64x1_S64x8192)

/-- Target times prediction, the prediction counted at the valid entries only. -/
def vCross (R M S : Vec Ideal S64x8192 .f32) : FVec Ideal S64x8192 .f32 :=
  mulf (vSoftmax (vTgt R M))
    (select (k0_pay8 M) (vLogSoftmax (vScore S M)) (broadcast S64x8192 (Scalar.ofBits .f32 0x00000000#32)))

/-- The body's column of ranking terms is built from these vectors. -/
theorem rank_eq (R M S : Vec Ideal S64x8192 .f32) :
    k0_pay10 R M S
      = divf (subf (broadcast S64x1 (Scalar.ofBits .f32 0x00000000#32)) (vSumCol (vCross R M S)))
          (maximumf (k0_pay9 M) (broadcast S64x1 (Scalar.ofBits .f32 0x3F800000#32))) := rfl

/-! ## Each vector at an entry -/

theorem vMaxBc_apply (f : FVec Ideal S64x8192 .f32) (r : Fin 64) (k : Fin 8192) :
    vMaxBc f (ix2 r k) = rowMaxOf (rowOf f r) :=
  rowMaxBc_apply f rfl _ _ r k

theorem vShift_apply (f : FVec Ideal S64x8192 .f32) (r : Fin 64) (k : Fin 8192) :
    vShift f (ix2 r k) = shifted (rowOf f r) k :=
  congrArg (fun x : Ideal .f32 => f (ix2 r k) - x) (vMaxBc_apply f r k)

theorem vExp_apply (f : FVec Ideal S64x8192 .f32) (r : Fin 64) (k : Fin 8192) :
    vExp f (ix2 r k) = Ideal.exp (shifted (rowOf f r) k) :=
  congrArg Ideal.exp (vShift_apply f r k)

theorem vSumCol_apply (g : FVec Ideal S64x8192 .f32) (r : Fin 64) (u : Fin 1) :
    vSumCol g (ix2 r u) = ∑ k : Fin 8192, g (ix2 r k) :=
  rowSumCol_apply g rfl _ r u

theorem vSumExp_apply (f : FVec Ideal S64x8192 .f32) (r : Fin 64) (u : Fin 1) :
    vSumCol (vExp f) (ix2 r u) = ∑ k : Fin 8192, Ideal.exp (shifted (rowOf f r) k) :=
  (vSumCol_apply _ r u).trans (Finset.sum_congr rfl fun k _ => vExp_apply f r k)

theorem vSoftmax_apply (f : FVec Ideal S64x8192 .f32) (r : Fin 64) (k : Fin 8192) :
    vSoftmax f (ix2 r k) = softmaxAt (rowOf f r) k :=
  congrArg₂ Ideal.div (vExp_apply f r k) ((colBc_apply _ _ r k).trans (vSumExp_apply f r (0 : Fin 1)))

theorem vLogSoftmax_apply (f : FVec Ideal S64x8192 .f32) (r : Fin 64) (k : Fin 8192) :
    vLogSoftmax f (ix2 r k) = logSoftmaxAt (rowOf f r) k :=
  congrArg₂ (fun x y : Ideal .f32 => x - y) (vShift_apply f r k)
    ((colBc_apply _ _ r k).trans (congrArg Ideal.log (vSumExp_apply f r (0 : Fin 1))))

/-- A row of the target's masked logits. -/
theorem vTgt_row (R M : Vec Ideal S64x8192 .f32) (r : Fin 64) :
    rowOf (vTgt R M) r = tgtLogit (rowOf R r) (rowOf M r) := by
  funext k
  show Scalar.select (k0_pay8 M (ix2 r k)) (R (ix2 r k) * Ideal.ofBits .f32 0x41A00000#32)
      (Ideal.ofBits .f32 0xF149F2CA#32) = _
  rw [valid_apply]; rfl

/-- A row of the prediction's masked logits. -/
theorem vScore_row (S M : Vec Ideal S64x8192 .f32) (r : Fin 64) :
    rowOf (vScore S M) r = scoreLogit (rowOf S r) (rowOf M r) := by
  funext k
  show Scalar.select (k0_pay8 M (ix2 r k)) (S (ix2 r k)) (Ideal.ofBits .f32 0xF149F2CA#32) = _
  rw [valid_apply]; rfl

/-- Target times prediction at an entry. -/
theorem vCross_apply (R M S : Vec Ideal S64x8192 .f32) (r : Fin 64) (k : Fin 8192) :
    vCross R M S (ix2 r k)
      = softmaxAt (tgtLogit (rowOf R r) (rowOf M r)) k
          * Scalar.select (valid (rowOf M r k)) (logSoftmaxAt (scoreLogit (rowOf S r) (rowOf M r)) k) 0 := by
  show vSoftmax (vTgt R M) (ix2 r k)
      * Scalar.select (k0_pay8 M (ix2 r k)) (vLogSoftmax (vScore S M) (ix2 r k)) (Ideal.ofBits .f32 0x00000000#32) = _
  rw [vSoftmax_apply, vLogSoftmax_apply, vTgt_row, vScore_row, valid_apply, Ideal.ofBits_zero_f32]
  rfl

/-- The column of ranking terms at row `r`. -/
theorem rank_apply (R M S : Vec Ideal S64x8192 .f32) (r : Fin 64) (u : Fin 1) :
    k0_pay10 R M S (ix2 r u) = rowRank (rowOf R r) (rowOf M r) (rowOf S r) := by
  rw [rank_eq]
  show Ideal.div (Ideal.ofBits .f32 0x00000000#32 - vSumCol (vCross R M S) (ix2 r u))
      (max (k0_pay9 M (ix2 r u)) (Ideal.ofBits .f32 0x3F800000#32)) = _
  rw [vSumCol_apply, count_apply, Ideal.ofBits_zero_f32]
  refine congrArg (fun x : Ideal .f32 => Ideal.div (0 - x) (max (rowCount (rowOf M r)) (Ideal.ofBits .f32 0x3F800000#32))) ?_
  exact Finset.sum_congr rfl fun k _ => vCross_apply R M S r k

end Cert.KernelIdeal.Tile

end
-- ==== Proof.TileOut.lean ====
/-
  What one grid point writes, read at an index.

  With W, C, R, M, S the 64 × 8192 blocks of weights, confidences, returns, masks and scores and P the 64 × 1 column
  of portfolio returns that the body loads, the body stores a packed row of 128 lanes and a row of 8192 column sums.
  Lane 0 is the sum over the rows of the row's concentration, lane 1 of its squared confidence error, lane 2 of its
  ranking contribution, lane 3 of its flag, and lanes 4 to 127 are zero. Each row quantity is a function of that row's
  entries alone.
-/
import Idealize.ShloMosaic.Lib.ValueIdx
import Idealize.ShloMosaic.Lib.ValueLayout
import proofs.«122764_j16621523435816_2_alg».proof.Proof.LibColumnLayout
import proofs.«122764_j16621523435816_2_alg».proof.Proof.TileReduce
import proofs.«122764_j16621523435816_2_alg».proof.Proof.TileRows
import proofs.«122764_j16621523435816_2_alg».proof.Proof.TileColSum
import proofs.«122764_j16621523435816_2_alg».proof.Proof.TileLanes
import proofs.«122764_j16621523435816_2_alg».proof.Proof.TileConc
import proofs.«122764_j16621523435816_2_alg».proof.Proof.TileConf
import proofs.«122764_j16621523435816_2_alg».proof.Proof.TileCount
import proofs.«122764_j16621523435816_2_alg».proof.Proof.TileRank
import proofs.«122764_j16621523435816_2_alg».proof.Proof.Gen.KernelIdeal.Skeleton

noncomputable section

open scoped BigOperators

namespace Cert.KernelIdeal.Tile

open Idealize.ShloMosaic Idealize.ShloMosaic.ValueIdx Cert.KernelIdeal Cert.KernelIdeal.Gen

/-- A row's ranking contribution: its flag times its ranking term, the term counted only when the row has a valid
    entry. -/
def rowRankTerm (ret m s : Fin 8192 → Ideal .f32) : Ideal .f32 :=
  rowOk (rowCount m) * Scalar.select (Ideal.cmp .ogt (rowCount m) 0) (rowRank ret m s) 0

/-- Lane 0 of the packed block. -/
theorem out6_lane0 (W C R M S : Vec Ideal S64x8192 .f32) (P : Vec Ideal S64x1 .f32) (k : Fin 128) (hk : k.val = 0) :
    k0_pay1 (k0_pay4 W) (k0_pay5 W C M P) (k0_pay9 M) (k0_pay10 R M S) (k0_pay11 M) (ix3 (0 : Fin 1) (0 : Fin 1) k) = ∑ r : Fin 64, rowConc (rowOf W r) :=
  (packed_lane0 _ _ _ _ _ k hk).trans (conc_apply W)

/-- Lane 1 of the packed block. -/
theorem out6_lane1 (W C R M S : Vec Ideal S64x8192 .f32) (P : Vec Ideal S64x1 .f32) (k : Fin 128) (hk : k.val = 1) :
    k0_pay1 (k0_pay4 W) (k0_pay5 W C M P) (k0_pay9 M) (k0_pay10 R M S) (k0_pay11 M) (ix3 (0 : Fin 1) (0 : Fin 1) k)
      = ∑ r : Fin 64, rowConf (rowOf W r) (rowOf C r) (rowOf M r) (P (ix2 r (0 : Fin 1)))
          * rowConf (rowOf W r) (rowOf C r) (rowOf M r) (P (ix2 r (0 : Fin 1))) :=
  (packed_lane1 _ _ _ _ _ k hk).trans (conf_apply W C M P)

/-- Lane 2 of the packed block. -/
theorem out6_lane2 (W C R M S : Vec Ideal S64x8192 .f32) (P : Vec Ideal S64x1 .f32) (k : Fin 128) (hk : k.val = 2) :
    k0_pay1 (k0_pay4 W) (k0_pay5 W C M P) (k0_pay9 M) (k0_pay10 R M S) (k0_pay11 M) (ix3 (0 : Fin 1) (0 : Fin 1) k) = ∑ r : Fin 64, rowRankTerm (rowOf R r) (rowOf M r) (rowOf S r) :=
  (packed_lane2 _ _ _ _ _ k hk).trans (Finset.sum_congr rfl fun r _ => by
    rw [count_apply, cond_apply, rank_apply]; rfl)

/-- Lane 3 of the packed block. -/
theorem out6_lane3 (W C R M S : Vec Ideal S64x8192 .f32) (P : Vec Ideal S64x1 .f32) (k : Fin 128) (hk : k.val = 3) :
    k0_pay1 (k0_pay4 W) (k0_pay5 W C M P) (k0_pay9 M) (k0_pay10 R M S) (k0_pay11 M) (ix3 (0 : Fin 1) (0 : Fin 1) k) = ∑ r : Fin 64, rowOk (rowCount (rowOf M r)) :=
  (packed_lane3 _ _ _ _ _ k hk).trans (Finset.sum_congr rfl fun r _ => by rw [count_apply])

/-- Lanes 4 to 127 of the packed block. -/
theorem out6_pad (W C R M S : Vec Ideal S64x8192 .f32) (P : Vec Ideal S64x1 .f32) (k : Fin 128) (hk : 4 ≤ k.val) :
    k0_pay1 (k0_pay4 W) (k0_pay5 W C M P) (k0_pay9 M) (k0_pay10 R M S) (k0_pay11 M) (ix3 (0 : Fin 1) (0 : Fin 1) k) = 0 :=
  packed_pad _ _ _ _ _ k hk

/-- Entry `j` of the column-sum block. -/
theorem out7_apply (W M : Vec Ideal S64x8192 .f32) (j : Fin 8192) :
    k0_pay2 (k0_pay7 (k0_pay6 W M)) (ix3 (0 : Fin 1) (0 : Fin 1) j)
      = ∑ r : Fin 64, Ideal.div (rowOf W r j * rowOf M r j) (rowMass (rowOf W r)) :=
  colPartial_apply W M j

end Cert.KernelIdeal.Tile

end
-- ==== Proof.TileRefA.lean ====
/-
  The row quantities of one grid point against the reference's, the plain ones.

  A row of the weights w, the confidences c and the masks m, and the row's portfolio return p, give on the kernel's side
  the concentration, the confidence error, the normalising mass and the count of valid entries, and on the reference's
  side the same four arranged its way: a sum started from zero, a product associated the other way, the logistic
  function written out as a quotient, the count taken in 32-bit words and converted afterwards. They agree: a zero
  initial value drops, multiplication of extended reals is commutative, and a count of fewer than 2^31 bits does not
  wrap.
-/
import Idealize.ShloMosaic.Lib.IdealHost
import proofs.«122764_j16621523435816_2_alg».proof.Proof.RefRow
import proofs.«122764_j16621523435816_2_alg».proof.Proof.LibIdealDiv
import proofs.«122764_j16621523435816_2_alg».proof.Proof.LibWordReal
import proofs.«122764_j16621523435816_2_alg».proof.Proof.LibCount
import proofs.«122764_j16621523435816_2_alg».proof.Proof.TileOut

noncomputable section

open scoped BigOperators

namespace Cert.KernelIdeal.Tile

open Idealize.ShloMosaic Cert

/-- The concentration. -/
theorem conc_ref (w : Fin 8192 → EReal) : RefRow.conc w = rowConc w := by
  show (0 : EReal) + rowConc w = rowConc w
  exact zero_add _

/-- The confidence error. -/
theorem conf_ref (w c m : Fin 8192 → EReal) (p : EReal) : rowConf w c m p = RefRow.diff w c m p := by
  have hsel : RefRow.sel w c m = ∑ k : Fin 8192, w k * m k * c k := by
    show (0 : EReal) + ∑ j : Fin 8192, w j * c j * m j = _
    rw [zero_add]
    exact Finset.sum_congr rfl fun k _ => mul_right_comm _ _ _
  have htot : RefRow.tot w m = (∑ k : Fin 8192, w k * m k) + eps := by
    show ((0 : EReal) + ∑ j : Fin 8192, w j * m j) + eps = _
    rw [zero_add]
  have hsig : RefRow.sigm p = Ideal.logistic (p * Ideal.ofBits .f32 0x42480000#32) := by
    show Ideal.div (Ideal.ofBits .f32 0x3F800000#32)
        (Ideal.ofBits .f32 0x3F800000#32 + Ideal.exp (-(p * Ideal.ofBits .f32 0x42480000#32))) = _
    rw [Ideal.ofBits_one_f32]; rfl
  show Ideal.div (∑ k : Fin 8192, w k * m k * c k) ((∑ k : Fin 8192, w k * m k) + eps)
        - Ideal.logistic (p * Ideal.ofBits .f32 0x42480000#32)
      = Ideal.div (RefRow.sel w c m) (RefRow.tot w m) - RefRow.sigm p
  rw [hsel, htot, hsig]

/-- The normalising mass. -/
theorem mass_ref (w : Fin 8192 → EReal) : rowMass w = RefRow.mass w := by
  show (∑ k : Fin 8192, w k) + eps = ((0 : EReal) + ∑ j : Fin 8192, w j) + eps
  rw [zero_add]

/-- The masked, normalised weight, when the mass is not zero: the mask may be multiplied in after the division. -/
theorem norm_ref (w m : Fin 8192 → EReal) (j : Fin 8192) (h : RefRow.mass w ≠ 0) :
    Ideal.div (w j * m j) (rowMass w) = RefRow.norm w m j := by
  rw [mass_ref]; exact LibIdealDiv.div_mul_right_comm _ _ _ h

/-- Validity of an entry. -/
theorem valid_ref (m : Fin 8192 → EReal) (k : Fin 8192) : valid (m k) = RefRow.valid m k := by
  show Ideal.cmp .ogt (m k) 0 = Ideal.cmp .ogt (m k) (Ideal.ofBits .f32 0x00000000#32)
  rw [Ideal.ofBits_zero_f32]

/-- The count: the sum of the converted bits is the conversion of the sum of the bits. -/
theorem count_ref (m : Fin 8192 → EReal) : rowCount m = LibWordReal.conv (RefRow.countI m) := by
  have hc : (Finset.univ : Finset (Fin 8192)).card < 2 ^ 31 := by
    rw [Finset.card_univ, Fintype.card_fin]; norm_num
  have h := LibCount.coe_toInt_sum_le_one Finset.univ (fun j : Fin 8192 => (RefRow.valid m j).setWidth 32)
    (fun k _ => LibCount.toNat_setWidth_bit_le_one _) hc
  show (∑ k : Fin 8192, bitVal (valid (m k)))
      = ((((0#32 + ∑ j : Fin 8192, (RefRow.valid m j).setWidth 32 : BitVec 32).toInt : ℤ) : ℝ) : EReal)
  rw [BitVec.zero_add, h]
  exact Finset.sum_congr rfl fun k _ => by rw [valid_ref]; rfl

/-- The row's flag. -/
theorem ok_ref (m : Fin 8192 → EReal) : rowOk (rowCount m) = bitVal (RefRow.ok m) := by
  rw [count_ref]
  show bitVal (Ideal.cmp .oge (LibWordReal.conv (RefRow.countI m)) (Ideal.ofBits .f32 0x40000000#32))
      = bitVal (IntOp.cmpi .sge (RefRow.countI m) 2#32)
  rw [LibWordReal.cmpi_sge_two]

/-- The divisor of the ranking term. -/
theorem maxCount_ref (m : Fin 8192 → EReal) :
    max (rowCount m) (Ideal.ofBits .f32 0x3F800000#32) = LibWordReal.conv (IntOp.maxsi (RefRow.countI m) 1#32) := by
  rw [count_ref, LibWordReal.conv_maxsi_one, Ideal.ofBits_one_f32]

/-- The row's condition. -/
theorem cond_ref (m : Fin 8192 → EReal) :
    Ideal.cmp .ogt (rowCount m) 0 = IntOp.cmpi .sgt (RefRow.countI m) 0#32 := by
  rw [count_ref, LibWordReal.cmpi_sgt_zero]

end Cert.KernelIdeal.Tile

end
-- ==== Proof.TileRefB.lean ====
/-
  The ranking contribution of a row against the reference's.

  Both sides replace an invalid entry by the fill value, subtract the row's maximum, and compare the softmax of the
  scaled returns with the log-softmax of the scores over the valid entries. They differ in arrangement only. The
  reference takes each row maximum once more against −∞, which changes nothing because −∞ is the least extended real.
  Its sums start from zero. It negates the cross term where the kernel subtracts it from zero. It counts in 32-bit
  words. And it selects the row's term by the flag "at least two valid entries" where the kernel multiplies the flag,
  read as 0 or 1, into a term already selected by "at least one valid entry": with the flag set the count is at least 2,
  hence positive, and 1 · x = x; with the flag clear 0 · x = 0.
-/
import Idealize.ShloMosaic.Lib.IdealHost
import proofs.«122764_j16621523435816_2_alg».proof.Proof.RefRow
import proofs.«122764_j16621523435816_2_alg».proof.Proof.LibIdealDiv
import proofs.«122764_j16621523435816_2_alg».proof.Proof.LibWordReal
import proofs.«122764_j16621523435816_2_alg».proof.Proof.LibCount
import proofs.«122764_j16621523435816_2_alg».proof.Proof.TileOut
import proofs.«122764_j16621523435816_2_alg».proof.Proof.TileRefA

noncomputable section

open scoped BigOperators

namespace Cert.KernelIdeal.Tile

open Idealize.ShloMosaic Cert

open Idealize.ShloMosaic.ValueIdx

/-- The word of −∞ is the least extended real. -/
theorem negInf_eq_bot : negInf = (⊥ : EReal) := by
  show Ideal.ofBits .f32 0xFF800000#32 = ⊥
  simp [Ideal.ofBits, Ideal.ieee]

/-- A maximum taken once more against −∞ is the maximum. -/
theorem rowMaxOf_ref (f : Fin 8192 → EReal) :
    max RefRow.negInf ((Finset.univ : Finset (Fin 8192)).fold max RefRow.negInf f) = rowMaxOf f := by
  show max negInf (rowMaxOf f) = rowMaxOf f
  rw [negInf_eq_bot]
  exact max_eq_right bot_le

/-! ## The target -/

theorem tgtLogit_ref (r m : Fin 8192 → EReal) : tgtLogit r m = RefRow.mret r m := by
  funext k
  show Scalar.select (valid (m k)) (r k * Ideal.ofBits .f32 0x41A00000#32) fill
      = Scalar.select (RefRow.valid m k) (r k * RefRow.c20) RefRow.fill
  rw [valid_ref]; rfl

theorem maxret_ref (r m : Fin 8192 → EReal) : RefRow.maxret r m = rowMaxOf (tgtLogit r m) := by
  rw [tgtLogit_ref]; exact rowMaxOf_ref _

theorem eret_ref (r m : Fin 8192 → EReal) (k : Fin 8192) :
    RefRow.eret r m k = Ideal.exp (shifted (tgtLogit r m) k) := by
  show Ideal.exp (RefRow.mret r m k - RefRow.maxret r m) = Ideal.exp (tgtLogit r m k - rowMaxOf (tgtLogit r m))
  rw [maxret_ref, tgtLogit_ref]

theorem tgt_ref (r m : Fin 8192 → EReal) (k : Fin 8192) : RefRow.tgt r m k = softmaxAt (tgtLogit r m) k := by
  show Ideal.div (RefRow.eret r m k) ((0 : EReal) + ∑ j : Fin 8192, RefRow.eret r m j)
      = Ideal.div (Ideal.exp (shifted (tgtLogit r m) k)) (∑ k' : Fin 8192, Ideal.exp (shifted (tgtLogit r m) k'))
  simp only [zero_add, eret_ref]

/-! ## The prediction -/

theorem scoreLogit_ref (s m : Fin 8192 → EReal) : scoreLogit s m = RefRow.msc s m := by
  funext k
  show Scalar.select (valid (m k)) (s k) fill = Scalar.select (RefRow.valid m k) (s k) RefRow.fill
  rw [valid_ref]; rfl

theorem maxsc_ref (s m : Fin 8192 → EReal) : RefRow.maxsc s m = rowMaxOf (scoreLogit s m) := by
  rw [scoreLogit_ref]; exact rowMaxOf_ref _

theorem sh_ref (s m : Fin 8192 → EReal) (k : Fin 8192) : RefRow.sh s m k = shifted (scoreLogit s m) k := by
  show RefRow.msc s m k - RefRow.maxsc s m = scoreLogit s m k - rowMaxOf (scoreLogit s m)
  rw [maxsc_ref, scoreLogit_ref]

theorem lse_ref (s m : Fin 8192 → EReal) :
    RefRow.lse s m = Ideal.log (∑ k' : Fin 8192, Ideal.exp (shifted (scoreLogit s m) k')) := by
  show Ideal.log ((0 : EReal) + ∑ j : Fin 8192, Ideal.exp (RefRow.sh s m j)) = _
  simp only [zero_add, sh_ref]

theorem ldm_ref (s m : Fin 8192 → EReal) (k : Fin 8192) :
    RefRow.ldm s m k = Scalar.select (valid (m k)) (logSoftmaxAt (scoreLogit s m) k) 0 := by
  show Scalar.select (RefRow.valid m k) (RefRow.sh s m k - RefRow.lse s m) (Ideal.ofBits .f32 0x00000000#32)
      = Scalar.select (valid (m k))
          (shifted (scoreLogit s m) k - Ideal.log (∑ k' : Fin 8192, Ideal.exp (shifted (scoreLogit s m) k'))) 0
  rw [sh_ref, lse_ref, valid_ref, Ideal.ofBits_zero_f32]

/-! ## The row's term -/

theorem psum_ref (r s m : Fin 8192 → EReal) :
    RefRow.psum r s m
      = ∑ k : Fin 8192, softmaxAt (tgtLogit r m) k * Scalar.select (valid (m k)) (logSoftmaxAt (scoreLogit s m) k) 0 := by
  show (0 : EReal) + ∑ j : Fin 8192, RefRow.tgt r m j * RefRow.ldm s m j = _
  simp only [zero_add, tgt_ref, ldm_ref]

/-- The ranking term. -/
theorem per_ref (r s m : Fin 8192 → EReal) : rowRank r m s = RefRow.per r s m := by
  show Ideal.div
        (0 - ∑ k : Fin 8192, softmaxAt (tgtLogit r m) k * Scalar.select (valid (m k)) (logSoftmaxAt (scoreLogit s m) k) 0)
        (max (rowCount m) (Ideal.ofBits .f32 0x3F800000#32))
      = Ideal.div (-(RefRow.psum r s m)) (LibWordReal.conv (IntOp.maxsi (RefRow.countI m) 1#32))
  rw [maxCount_ref, psum_ref, LibIdealDiv.zero_sub']

/-! ## The flag -/

theorem bitVal_zero : bitVal 0#1 = 0 := (LibCount.coe_toInt_setWidth_bit 0#1).trans (if_neg (by decide))
theorem bitVal_one : bitVal 1#1 = 1 := (LibCount.coe_toInt_setWidth_bit 1#1).trans (if_pos rfl)

/-- A row flagged by the reference has a positive count. -/
theorem count_pos_of_ok (m : Fin 8192 → EReal) (h : RefRow.ok m = 1#1) : Ideal.cmp .ogt (rowCount m) 0 = 1#1 := by
  have h' : Ideal.cmp .oge (LibWordReal.conv (RefRow.countI m)) (Ideal.ofBits .f32 0x40000000#32) = 1#1 := by
    rw [← LibWordReal.cmpi_sge_two]; exact h
  have h2 : Ideal.ofBits .f32 0x40000000#32 ≤ LibWordReal.conv (RefRow.countI m) := by
    unfold Ideal.cmp at h'
    by_contra hc
    simp [hc] at h'
  have hpos : (0 : EReal) < LibWordReal.conv (RefRow.countI m) := by
    refine lt_of_lt_of_le ?_ h2
    rw [LibWordReal.ofBits_two_f32]
    exact EReal.coe_pos.mpr (by norm_num)
  rw [count_ref]
  unfold Ideal.cmp
  simp [hpos]

/-- The row's ranking contribution. -/
theorem rankTerm_ref (r m s : Fin 8192 → EReal) : rowRankTerm r m s = RefRow.rank r s m := by
  show rowOk (rowCount m) * Scalar.select (Ideal.cmp .ogt (rowCount m) 0) (rowRank r m s) 0
      = Scalar.select (RefRow.ok m) (RefRow.per r s m) (Ideal.ofBits .f32 0x00000000#32)
  rw [ok_ref, per_ref, Ideal.ofBits_zero_f32]
  rcases BitVec.eq_zero_or_eq_one (RefRow.ok m) with h0 | h1
  · rw [h0, bitVal_zero, zero_mul, select_zero]
  · rw [count_pos_of_ok m h1, h1, bitVal_one, one_mul]

end Cert.KernelIdeal.Tile

end
-- ==== Proof.KValue.lean ====
/-
  The kernel program's result is the reference's.

  Given the two arrays of per-tile partial results as the body's stored values over the tiles' blocks, and the blocks as
  the rows 64 t … 64 t + 63 of the argument arrays, and given that no row's normalising divisor is zero: lane by lane
  the totals over the tiles are the reference's totals over the rows, the column sums agree column by column (here the
  divisor's being nonzero is used, to move the mask across the quotient), the number of rows that count is the same
  number kept as a real or as a word, and the two results are the same six terms associated differently.
-/
import proofs.«122764_j16621523435816_2_alg».proof.Proof.KTailRead
import proofs.«122764_j16621523435816_2_alg».proof.Proof.RefRead5
import proofs.«122764_j16621523435816_2_alg».proof.Proof.Bridge
import proofs.«122764_j16621523435816_2_alg».proof.Proof.TileOut
import proofs.«122764_j16621523435816_2_alg».proof.Proof.TileRefA
import proofs.«122764_j16621523435816_2_alg».proof.Proof.TileRefB

noncomputable section

namespace Cert.KValue

open Idealize.ShloMosaic Idealize.ShloMosaic.ValueIdx
open Cert.Bridge Cert.Scalars Cert.LibWordReal
open Cert.KernelIdeal.Gen
open scoped BigOperators

abbrev S4096 : Shape := ⟨1, ![4096]⟩
abbrev S4096x8192 : Shape := ⟨2, ![4096, 8192]⟩
abbrev S64x8192 : Shape := ⟨2, ![64, 8192]⟩
abbrev S64x1 : Shape := ⟨2, ![64, 1]⟩
abbrev S64x1x128 : Shape := ⟨3, ![64, 1, 128]⟩
abbrev S64x1x8192 : Shape := ⟨3, ![64, 1, 8192]⟩

local notation "rowR" => Cert.ReferenceIdeal.RefRead.rowOf
local notation "rowK" => Cert.KernelIdeal.Tile.rowOf

variable (a0 : FVec Ideal S4096 .f32) (a1 a2 a3 a4 a5 : FVec Ideal S4096x8192 .f32)
  (x6 : FVec Ideal S64x1x128 .f32) (x7 : FVec Ideal S64x1x8192 .f32)
  (W C R M S : Fin 64 → Vec Ideal S64x8192 .f32) (P : Fin 64 → Vec Ideal S64x1 .f32)

/-- A tile's row is the array's row. -/
theorem row_eq (a : FVec Ideal S4096x8192 .f32) (X : Fin 64 → Vec Ideal S64x8192 .f32)
    (hX : ∀ t r j, X t (ix2 r j) = a (ix2 (rowAt t r) j)) (t r : Fin 64) : rowK (X t) r = rowR a (rowAt t r) :=
  funext fun j => hX t r j

section
variable (hW : ∀ t r j, W t (ix2 r j) = a1 (ix2 (rowAt t r) j)) (hC : ∀ t r j, C t (ix2 r j) = a2 (ix2 (rowAt t r) j))
  (hR : ∀ t r j, R t (ix2 r j) = a3 (ix2 (rowAt t r) j)) (hM : ∀ t r j, M t (ix2 r j) = a4 (ix2 (rowAt t r) j))
  (hS : ∀ t r j, S t (ix2 r j) = a5 (ix2 (rowAt t r) j)) (hP : ∀ t r, P t (ix2 r (0 : Fin 1)) = a0 (ix1 (rowAt t r)))
  (h6 : ∀ t k, x6 (ix3 t (0 : Fin 1) k)
      = k0_pay1 (k0_pay4 (W t)) (k0_pay5 (W t) (C t) (M t) (P t)) (k0_pay9 (M t)) (k0_pay10 (R t) (M t) (S t)) (k0_pay11 (M t))
          (ix3 (0 : Fin 1) (0 : Fin 1) k))
  (h7 : ∀ t j, x7 (ix3 t (0 : Fin 1) j) = k0_pay2 (k0_pay7 (k0_pay6 (W t) (M t))) (ix3 (0 : Fin 1) (0 : Fin 1) j))
  (hmass : ∀ i, Cert.RefRow.mass (rowR a1 i) ≠ 0)

include hW h6 in
/-- Lane 0: the concentration total. -/
theorem lane0_eq : Cert.KernelIdeal.KRead.lane x6 0 = 0 + ∑ i : Fin 4096, Cert.RefRow.conc (rowR a1 i) := by
  unfold Cert.KernelIdeal.KRead.lane
  rw [← tiles_total (fun i => Cert.RefRow.conc (rowR a1 i)) (fun i => Cert.KernelIdeal.Tile.rowConc (rowR a1 i))
    (fun i => (Cert.KernelIdeal.Tile.conc_ref _).symm)]
  refine congrArg (0 + ·) (Finset.sum_congr rfl fun t _ => ?_)
  rw [h6 t 0, Cert.KernelIdeal.Tile.out6_lane0 _ _ _ _ _ _ _ rfl]
  exact Finset.sum_congr rfl fun r _ => by rw [row_eq a1 W hW t r]

include hW hC hM hP h6 in
/-- Lane 1: the total of squared confidence errors. -/
theorem lane1_eq : Cert.KernelIdeal.KRead.lane x6 1
    = 0 + ∑ i : Fin 4096, Cert.RefRow.diff (rowR a1 i) (rowR a2 i) (rowR a4 i) (a0 (ix1 i))
        * Cert.RefRow.diff (rowR a1 i) (rowR a2 i) (rowR a4 i) (a0 (ix1 i)) := by
  unfold Cert.KernelIdeal.KRead.lane
  rw [← tiles_total (fun i => Cert.RefRow.diff (rowR a1 i) (rowR a2 i) (rowR a4 i) (a0 (ix1 i))
        * Cert.RefRow.diff (rowR a1 i) (rowR a2 i) (rowR a4 i) (a0 (ix1 i)))
    (fun i => Cert.KernelIdeal.Tile.rowConf (rowR a1 i) (rowR a2 i) (rowR a4 i) (a0 (ix1 i))
        * Cert.KernelIdeal.Tile.rowConf (rowR a1 i) (rowR a2 i) (rowR a4 i) (a0 (ix1 i)))
    (fun i => by rw [Cert.KernelIdeal.Tile.conf_ref])]
  refine congrArg (0 + ·) (Finset.sum_congr rfl fun t _ => ?_)
  rw [h6 t 1, Cert.KernelIdeal.Tile.out6_lane1 _ _ _ _ _ _ _ rfl]
  exact Finset.sum_congr rfl fun r _ => by
    rw [row_eq a1 W hW t r, row_eq a2 C hC t r, row_eq a4 M hM t r, hP t r]

include hR hM hS h6 in
/-- Lane 2: the ranking total. -/
theorem lane2_eq : Cert.KernelIdeal.KRead.lane x6 2
    = 0 + ∑ i : Fin 4096, Cert.RefRow.rank (rowR a3 i) (rowR a5 i) (rowR a4 i) := by
  unfold Cert.KernelIdeal.KRead.lane
  rw [← tiles_total (fun i => Cert.RefRow.rank (rowR a3 i) (rowR a5 i) (rowR a4 i))
    (fun i => Cert.KernelIdeal.Tile.rowRankTerm (rowR a3 i) (rowR a4 i) (rowR a5 i))
    (fun i => Cert.KernelIdeal.Tile.rankTerm_ref _ _ _)]
  refine congrArg (0 + ·) (Finset.sum_congr rfl fun t _ => ?_)
  rw [h6 t 2, Cert.KernelIdeal.Tile.out6_lane2 _ _ _ _ _ _ _ rfl]
  exact Finset.sum_congr rfl fun r _ => by
    rw [row_eq a3 R hR t r, row_eq a4 M hM t r, row_eq a5 S hS t r]

include hM h6 in
/-- Lane 3: the number of rows that count, the word's conversion. -/
theorem lane3_eq : Cert.KernelIdeal.KRead.lane x6 3
    = conv (0#32 + ∑ i : Fin 4096, (Cert.RefRow.ok (rowR a4 i)).setWidth 32) := by
  unfold Cert.KernelIdeal.KRead.lane
  rw [count_total, ← tiles_total (fun i => conv ((Cert.RefRow.ok (rowR a4 i)).setWidth 32))
    (fun i => Cert.KernelIdeal.Tile.rowOk (Cert.KernelIdeal.Tile.rowCount (rowR a4 i)))
    (fun i => Cert.KernelIdeal.Tile.ok_ref _)]
  refine congrArg (0 + ·) (Finset.sum_congr rfl fun t _ => ?_)
  rw [h6 t 3, Cert.KernelIdeal.Tile.out6_lane3 _ _ _ _ _ _ _ rfl]
  exact Finset.sum_congr rfl fun r _ => by rw [row_eq a4 M hM t r]

include hW hM h7 hmass in
/-- The column sums, column by column. -/
theorem colsum_eq (j : Fin 8192) : Cert.KernelIdeal.KRead.colsum x7 j
    = 0 + ∑ i : Fin 4096, Cert.RefRow.norm (rowR a1 i) (rowR a4 i) j := by
  unfold Cert.KernelIdeal.KRead.colsum
  rw [← tiles_total (fun i => Cert.RefRow.norm (rowR a1 i) (rowR a4 i) j)
    (fun i => Ideal.div (rowR a1 i j * rowR a4 i j) (Cert.KernelIdeal.Tile.rowMass (rowR a1 i)))
    (fun i => Cert.KernelIdeal.Tile.norm_ref _ _ j (hmass i))]
  refine congrArg (0 + ·) (Finset.sum_congr rfl fun t _ => ?_)
  rw [h7 t j, Cert.KernelIdeal.Tile.out7_apply]
  exact Finset.sum_congr rfl fun r _ => by rw [row_eq a1 W hW t r, row_eq a4 M hM t r]

include hW hC hR hM hS hP h6 h7 hmass in
/-- The kernel program's result is the reference's. -/
theorem value_eq : Cert.KernelIdeal.KFrame.kTail (F := Ideal) x6 x7 a0
    = Cert.ReferenceIdeal.RefRun.val_main_v106 (F := Ideal) a0 a1 a2 a3 a4 a5 := by
  funext i
  rw [eq_ix0 i]
  show Cert.KernelIdeal.KFrame.val_main_v50 (F := Ideal) x6 x7 a0 ix0 = _
  have hcol : Cert.KernelIdeal.KRead.colsum x7
      = fun j => Cert.ReferenceIdeal.RefRun.val_main_v43 (F := Ideal) a1 a4 (ix1 j) := funext fun j => by
    rw [colsum_eq a1 a4 x7 W M hW hM h7 hmass j, Cert.ReferenceIdeal.RefRead.v43_apply]
  rw [Cert.KernelIdeal.KRead.v50_eq, Cert.ReferenceIdeal.RefRead.v106_eq,
    Cert.KernelIdeal.KRead.v15_eq, Cert.KernelIdeal.KRead.v16_eq, Cert.KernelIdeal.KRead.v27_eq, Cert.KernelIdeal.KRead.v31_eq,
    Cert.ReferenceIdeal.RefRead.v15_eq, Cert.ReferenceIdeal.RefRead.v35_eq, Cert.ReferenceIdeal.RefRead.v56_eq,
    Cert.ReferenceIdeal.RefRead.v95_eq, Cert.ReferenceIdeal.RefRead.v90_apply, Cert.ReferenceIdeal.RefRead.v88_apply,
    lane0_eq a1 x6 W C R M S P hW h6, lane1_eq a0 a1 a2 a4 x6 W C R M S P hW hC hM hP h6,
    lane2_eq a3 a4 a5 x6 W C R M S P hR hM hS h6, lane3_eq a4 x6 W C R M S P hM h6, hcol,
    div_neg_c4096, neg_neg, aux_of_real, Cert.KernelIdeal.KRead.v49_eq, final_assoc]

end

end Cert.KValue
-- ==== Proof.PreRows.lean ====
/-
  What the precondition says about the rows of the weights.

  The precondition's last conjunct compares, row by row, the sum of a row of the weights plus the small constant
  with zero, and asks that they differ everywhere. Read at the extended reals: for every row i,
  (0 + Σ_j w(i, j)) + ε ≠ 0 — the divisor by which a row of the weights is normalised is not zero.
-/
import proofs.«122764_j16621523435816_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.PreRows

open Idealize.ShloMosaic Idealize.ShloMosaic.ValueIdx Cert.Pre_finite_inputs
open scoped BigOperators

instance : Subsingleton S_.Idx := ⟨fun a b => funext fun d => d.elim0⟩

/-- Row i of a [4096, 8192] array with the column coordinate k inserted is the index (i, k). -/
theorem lift_row (hr : S4096x8192.Reduces [1] S4096) (i : Fin 4096) (k : Fin 8192) :
    hr.lift (ix1 i) k = ix2 i k := by
  funext c
  match c with
  | ⟨0, _⟩ => exact Fin.ext rfl
  | ⟨1, _⟩ => exact Fin.ext rfl

variable [hF : Cert.Pre_finite_inputs.Facts]

/-- Under the precondition every row of the weights has (0 + its sum) + ε ≠ 0. -/
theorem rowsum_ne (a0 : FVec Ideal S4096 .f32) (a1 a2 a3 a4 a5 : FVec Ideal S4096x8192 .f32)
    (h : Cert.Pre_finite_inputs.fn (F := Ideal) a0 a1 a2 a3 a4 a5 = fun _ => 1#1) (i : Fin 4096) :
    (0 + ∑ k : Fin 8192, a1 (ix2 i k)) + Ideal.ofBits .f32 0x322BCC77#32 ≠ 0 := by
  have hr : S4096x8192.Reduces [1] S4096 := by decide
  have h0 := congrFun h ix0
  dsimp only [fn, fn_part1, fn_part2] at h0
  have h1 := (IntOp.andi_eq_one.1 h0).2
  have h2 := Host.reduce_andi_all _ _ _ _ _ h1 (ix1 i)
  rw [cmpf_apply, Ideal.cmpf_def, addf_apply, broadcastInDim_scalar_apply, broadcastInDim_scalar_apply,
    constant_apply, constant_apply, hostReduceAdd_apply, Ideal.hostReduceAdd_single _ hr, constant_apply,
    Ideal.ofBits_zero_f32] at h2
  have hs : (∑ k : Fin (S4096x8192.size 1), a1 (hr.lift (ix1 i) k)) = ∑ k : Fin 8192, a1 (ix2 i k) :=
    Finset.sum_congr rfl fun k _ => congrArg a1 (lift_row hr i k)
  rw [hs] at h2
  intro e
  rw [e] at h2
  simp [Ideal.cmp] at h2

end Cert.PreRows
-- ==== Proof.Algebraic.lean ====
/-
  The two idealized programs end with equal results.

  Run from memories that agree on the six argument arrays, the kernel program ends with its result at the host tail's
  term of the two arrays of per-tile partial results, and the reference at its own composed term of the arguments.
  Tile t's blocks are rows 64 t … 64 t + 63 of the arguments, what the body stores at tile t is its payload at those
  blocks, and the precondition makes every row's normalising divisor nonzero: so the two terms are equal.
-/
import proofs.«122764_j16621523435816_2_alg».proof.Defs
import proofs.«122764_j16621523435816_2_alg».proof.Proof.Gen.KernelIdeal
import proofs.«122764_j16621523435816_2_alg».proof.Proof.Gen.ReferenceIdeal
import proofs.«122764_j16621523435816_2_alg».proof.Proof.Gen.Pre_finite_inputs
import proofs.«122764_j16621523435816_2_alg».proof.Proof.KFrameIValue
import proofs.«122764_j16621523435816_2_alg».proof.Proof.KFrameIBlocks
import proofs.«122764_j16621523435816_2_alg».proof.Proof.RefRun
import proofs.«122764_j16621523435816_2_alg».proof.Proof.KValue
import proofs.«122764_j16621523435816_2_alg».proof.Proof.PreRows

noncomputable section

namespace Cert.Algebraic

open Idealize.ShloMosaic Idealize.ShloMosaic.TcCoe Idealize.SL.Sem Idealize.ShloMosaic.ValueIdx
open Cert.KernelIdeal.KFrame

theorem algebraic : Cert.algebraic_KernelIdeal_ReferenceIdeal := by
  intro m ρ m' ρ' hpre hagree
  refine ⟨fun c => kTail (F := Ideal) (A6 m c) (A7 m c)
      (m ((c.tc : Thread Cert.KernelIdeal.nD Cert.KernelIdeal.τ).loc Cert.KernelIdeal.main_arg0)),
    run_value m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact (Cert.KValue.value_eq _ _ _ _ _ _ (A6 m c) (A7 m c)
    (fun t => iblk m c 0 (pt t)) (fun t => iblk m c 1 (pt t)) (fun t => iblk m c 2 (pt t))
    (fun t => iblk m c 3 (pt t)) (fun t => iblk m c 4 (pt t)) (fun t => iblk m c 5 (pt t))
    (fun t r j => iblk0_ix m c t r j) (fun t r j => iblk1_ix m c t r j) (fun t r j => iblk2_ix m c t r j)
    (fun t r j => iblk3_ix m c t r j) (fun t r j => iblk4_ix m c t r j) (fun t r => iblk5_ix m c t r)
    (fun t k => arr6_ix m c t k) (fun t j => arr7_ix m c t j)
    (fun i => Cert.PreRows.rowsum_ne _ _ _ _ _ _ (hpre c) i)).symm

end Cert.Algebraic
-- ==== Proof.lean ====
/-
  A portfolio loss over f32[4096, 8192] weights, confidences, returns, masks and scores and f32[4096] portfolio
  returns: the kernel program against its jnp reference, at the extended reals.

  The kernel launches one body on a grid of 64 tiles of 64 rows. Each tile stores four partial sums — Σ w·log(w + ε),
  Σ (confidence error)², Σ (ranking loss of the rows with at least two valid entries), and the number of such rows —
  packed into lanes 0 to 3 of a [1, 1, 128] block, and the tile's partial column sums of w·m / (Σ_j w + ε) as a
  [1, 1, 8192] block; the host then sums both over the tiles and forms the loss. The reference computes the same
  quantities on the whole arrays. The two differ in the grouping of the sums over the rows (by tiles, or all at
  once), in the association of products ((w·m)·c against (w·c)·m), in where a sign is taken, in counting valid
  entries as reals or as 32-bit words converted afterwards, in an extra maximum against −∞, and in the association
  of the final sum — all identities of the extended reals — and in one place that needs a hypothesis: the kernel
  divides w·m by the row's divisor where the reference divides w and then multiplies by m, which agree exactly when
  the divisor Σ_j w + ε is not zero. The precondition states that, beside the finiteness of the inputs.

  The three frames are the runs of the three programs with their values dropped; the ideal pass rewrote nothing, so
  the idealization claim is trivial; the equality of the results is Cert.Algebraic.algebraic.
-/
import proofs.«122764_j16621523435816_2_alg».proof.Defs
import proofs.«122764_j16621523435816_2_alg».proof.Proof.Gen.Kernel
import proofs.«122764_j16621523435816_2_alg».proof.Proof.Gen.KernelIdeal
import proofs.«122764_j16621523435816_2_alg».proof.Proof.Gen.ReferenceIdeal
import proofs.«122764_j16621523435816_2_alg».proof.Proof.Gen.Pre_finite_inputs
import proofs.«122764_j16621523435816_2_alg».proof.Proof.KFrameK
import proofs.«122764_j16621523435816_2_alg».proof.Proof.KFrameI
import proofs.«122764_j16621523435816_2_alg».proof.Proof.RefRunFrame
import proofs.«122764_j16621523435816_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Kernel.KFrame.frame_k, Cert.KernelIdeal.KFrame.frame_ki, Cert.ReferenceIdeal.RefRun.frame_ri, trivial,
    Cert.Algebraic.algebraic⟩

end Cert.Proof

end
